-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x2048 : Shape := ⟨2, ![2048, 2048]⟩
abbrev S4096x1024 : Shape := ⟨2, ![4096, 1024]⟩
abbrev S4096 : Shape := ⟨1, ![4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S2048x2048 .f32) (main_arg5 : FVec F S4096x1024 .f32) (main_arg6 : FVec F S4096x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S2x4096x2048 .f32) (main_arg1 : FVec F S2048x2048 .f32) (main_arg2 : FVec F S2048x2048 .f32) (main_arg3 : FVec F S2048x2048 .f32) (main_arg4 : FVec F S2048x2048 .f32) (main_arg5 : FVec F S4096x1024 .f32) (main_arg6 : FVec F S4096x1024 .f32) (main_arg7 : IVec S4096 32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S2x4096x2048 : Shape := ⟨3, ![2, 4096, 2048]⟩
abbrev S2048x2048 : Shape := ⟨2, ![2048, 2048]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩
abbrev S2x128x2048 : Shape := ⟨3, ![2, 128, 2048]⟩
abbrev S128x1024 : Shape := ⟨2, ![128, 1024]⟩
abbrev S2x128x1024 : Shape := ⟨3, ![2, 128, 1024]⟩
abbrev S1x128x1024 : Shape := ⟨3, ![1, 128, 1024]⟩
abbrev S2x512x2048 : Shape := ⟨3, ![2, 512, 2048]⟩
abbrev S2x256x2048 : Shape := ⟨3, ![2, 256, 2048]⟩
abbrev S2x512x1 : Shape := ⟨3, ![2, 512, 1]⟩
abbrev S2x512x256 : Shape := ⟨3, ![2, 512, 256]⟩
abbrev S2x512 : Shape := ⟨2, ![2, 512]⟩
abbrev S2x4096x1024 : Shape := ⟨3, ![2, 4096, 1024]⟩
abbrev S2x4096x1024x1 : Shape := ⟨4, ![2, 4096, 1024, 1]⟩
abbrev S2x4096x1024x2 : Shape := ⟨4, ![2, 4096, 1024, 2]⟩

abbrev nBuf : Space → Nat
  | .hbm => 57
  | .vmem => 51
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x1024, .f32⟩
  | .hbm, ⟨6, _⟩ => ⟨S4096x1024, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x1024, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x1024, .f32⟩
  | .hbm, ⟨26, _⟩ => ⟨S8192x2048, .f32⟩
  | .hbm, ⟨27, _⟩ => ⟨S8192x2048, .bf16⟩
  | .hbm, ⟨28, _⟩ => ⟨S2048x2048, .f32⟩
  | .hbm, ⟨29, _⟩ => ⟨S2048x2048, .bf16⟩
  | .hbm, ⟨30, _⟩ => ⟨S2048x2048, .f32⟩
  | .hbm, ⟨31, _⟩ => ⟨S2048x2048, .bf16⟩
  | .hbm, ⟨32, _⟩ => ⟨S2048x2048, .f32⟩
  | .hbm, ⟨33, _⟩ => ⟨S2048x2048, .bf16⟩
  | .hbm, ⟨34, _⟩ => ⟨S2048x2048, .f32⟩
  | .hbm, ⟨35, _⟩ => ⟨S2048x2048, .bf16⟩
  | .hbm, ⟨36, _⟩ => ⟨S8192x2048, .bf16⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S2x4096x2048, .bf16⟩
  | .hbm, ⟨41, _⟩ => ⟨S2x4096x2048, .f32⟩
  | .hbm, ⟨42, _⟩ => ⟨S2x4096x2048, .f32⟩
  | .hbm, ⟨43, _⟩ => ⟨S2x4096x2048, .bf16⟩
  | .hbm, ⟨44, _⟩ => ⟨S2x4096x2048, .bf16⟩
  | .hbm, ⟨45, _⟩ => ⟨S2x4096x2048, .bf16⟩
  | .hbm, ⟨46, _⟩ => ⟨S2x4096x2048, .f32⟩
  | .hbm, ⟨47, _⟩ => ⟨S2x4096x2048, .bf16⟩
  | .hbm, ⟨48, _⟩ => ⟨S8192x2048, .bf16⟩
  | .hbm, ⟨49, _⟩ => ⟨S8192x2048, .f32⟩
  | .hbm, ⟨50, _⟩ => ⟨S2x4096x2048, .f32⟩
  | .hbm, ⟨51, _⟩ => ⟨S2x4096x1024, .f32⟩
  | .hbm, ⟨52, _⟩ => ⟨S2x4096x1024, .f32⟩
  | .hbm, ⟨53, _⟩ => ⟨S2x4096x1024x1, .f32⟩
  | .hbm, ⟨54, _⟩ => ⟨S2x4096x1024x1, .f32⟩
  | .hbm, ⟨55, _⟩ => ⟨S2x4096x1024x2, .f32⟩
  | .hbm, ⟨56, _⟩ => ⟨S2x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S2x128x2048, .bf16⟩
  | .local _ .vmem, ⟨21, _⟩ => ⟨S2x128x2048, .bf16⟩
  | .local _ .vmem, ⟨22, _⟩ => ⟨S2x128x2048, .f32⟩
  | .local _ .vmem, ⟨23, _⟩ => ⟨S2x128x2048, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S2x128x2048, .bf16⟩
  | .local _ .vmem, ⟨29, _⟩ => ⟨S2x128x2048, .bf16⟩
  | .local _ .vmem, ⟨30, _⟩ => ⟨S2x128x2048, .bf16⟩
  | .local _ .vmem, ⟨31, _⟩ => ⟨S2x128x2048, .bf16⟩
  | .local _ .vmem, ⟨32, _⟩ => ⟨S2x128x2048, .f32⟩
  | .local _ .vmem, ⟨33, _⟩ => ⟨S2x128x2048, .f32⟩
  | .local _ .vmem, ⟨34, _⟩ => ⟨S2x512x2048, .bf16⟩
  | .local _ .vmem, ⟨35, _⟩ => ⟨S2x512x2048, .bf16⟩
  | .local _ .vmem, ⟨36, _⟩ => ⟨S2x256x2048, .bf16⟩
  | .local _ .vmem, ⟨37, _⟩ => ⟨S2x256x2048, .bf16⟩
  | .local _ .vmem, ⟨38, _⟩ => ⟨S2x256x2048, .bf16⟩
  | .local _ .vmem, ⟨39, _⟩ => ⟨S2x256x2048, .bf16⟩
  | .local _ .vmem, ⟨40, _⟩ => ⟨S2x512x2048, .bf16⟩
  | .local _ .vmem, ⟨41, _⟩ => ⟨S2x512x2048, .bf16⟩
  | .local _ .vmem, ⟨42, _⟩ => ⟨S2x512x1, .f32⟩
  | .local _ .vmem, ⟨43, _⟩ => ⟨S2x512x1, .f32⟩
  | .local _ .vmem, ⟨44, _⟩ => ⟨S2x512x2048, .f32⟩
  | .local _ .vmem, ⟨45, _⟩ => ⟨S1024x2048, .bf16⟩
  | .local _ .vmem, ⟨46, _⟩ => ⟨S1024x2048, .bf16⟩
  | .local _ .vmem, ⟨47, _⟩ => ⟨S2048x1024, .bf16⟩
  | .local _ .vmem, ⟨48, _⟩ => ⟨S2048x1024, .bf16⟩
  | .local _ .vmem, ⟨49, _⟩ => ⟨S1024x1024, .f32⟩
  | .local _ .vmem, ⟨50, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_scratch0 : Ref sig .tc := ⟨.vmem, 42, rfl⟩
abbrev cc4_scratch1 : Ref sig .tc := ⟨.vmem, 43, rfl⟩
abbrev cc4_scratch2 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S2x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2x128x2048 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2x128x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2x128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2x512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2x256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2x256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2x512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S2x4096x2048_S8192x2048 : S2x4096x2048.ShapeCasts S8192x2048
  bitsLt_bf16_f32 : FTy.bits .bf16 < FTy.bits .f32
  transposes_S2048x2048_S2048x2048_1_0 : S2048x2048.Transposes [1, 0] S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S8192x2048_S2x4096x2048 : S8192x2048.ShapeCasts S2x4096x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2x128x2048_S2x128x2048_0_0_0 : ∀ a, (![0, 0, 0] : Fin 3 → Nat) a + S2x128x2048.size a ≤ S2x128x2048.size a
  h_S2x128x2048 : 0 < S2x128x2048.numel
  shapeCasts_S2x128x2048_S2x128x2048 : S2x128x2048.ShapeCasts S2x128x2048
  slices_S2x128x2048_o0_0_0_S2x128x1024 : S2x128x2048.Slices ![0, 0, 0] S2x128x1024
  slices_S2x128x2048_o0_0_1024_S2x128x1024 : S2x128x2048.Slices ![0, 0, 1024] S2x128x1024
  shapeCasts_S128x1024_S1x128x1024 : S128x1024.ShapeCasts S1x128x1024
  broadcasts_S1x128x1024_S2x128x1024 : S1x128x1024.Broadcasts S2x128x1024
  inb_S2x128x2048_S2x128x1024_0_0_0 : ∀ a, (![0, 0, 0] : Fin 3 → Nat) a + S2x128x1024.size a ≤ S2x128x2048.size a
  h_S2x128x1024 : 0 < S2x128x1024.numel
  packedbf16_S2x128x2048_S2x128x1024_0_0_0 : (Rect.unit (s := S2x128x2048) ![0, 0, 0] S2x128x1024.size inb_S2x128x2048_S2x128x1024_0_0_0).PackedRows (EltTy.packing .bf16)
  inb_S2x128x2048_S2x128x1024_0_0_1024 : ∀ a, (![0, 0, 1024] : Fin 3 → Nat) a + S2x128x1024.size a ≤ S2x128x2048.size a
  packedbf16_S2x128x2048_S2x128x1024_0_0_1024 : (Rect.unit (s := S2x128x2048) ![0, 0, 1024] S2x128x1024.size inb_S2x128x2048_S2x128x1024_0_0_1024).PackedRows (EltTy.packing .bf16)
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  inb_S2x512x2048_S2x512x2048_0_0_0 : ∀ a, (![0, 0, 0] : Fin 3 → Nat) a + S2x512x2048.size a ≤ S2x512x2048.size a
  h_S2x512x2048 : 0 < S2x512x2048.numel
  shapeCasts_S2x512x2048_S2x512x2048 : S2x512x2048.ShapeCasts S2x512x2048
  inb_S2x256x2048_S2x256x2048_0_0_0 : ∀ a, (![0, 0, 0] : Fin 3 → Nat) a + S2x256x2048.size a ≤ S2x256x2048.size a
  h_S2x256x2048 : 0 < S2x256x2048.numel
  shapeCasts_S2x256x2048_S2x256x2048 : S2x256x2048.ShapeCasts S2x256x2048
  reduces_S2x512x256_S2x512 : S2x512x256.Reduces [2] S2x512
  shapeCasts_S2x512_S2x512x1 : S2x512.ShapeCasts S2x512x1
  broadcasts_S2x512x1_S2x512x256 : S2x512x1.Broadcasts S2x512x256
  broadcasts_S2x512x1_S2x512x2048 : S2x512x1.Broadcasts S2x512x2048
  packedbf16_S2x512x2048_S2x512x2048_0_0_0 : (Rect.unit (s := S2x512x2048) ![0, 0, 0] S2x512x2048.size inb_S2x512x2048_S2x512x2048_0_0_0).PackedRows (EltTy.packing .bf16)
  slices_S2x4096x2048_S2x4096x1024_0_0_0 : S2x4096x2048.Slices ![0, 0, 0] S2x4096x1024
  slices_S2x4096x2048_S2x4096x1024_0_0_1024 : S2x4096x2048.Slices ![0, 0, 1024] S2x4096x1024
  bcast_S2x4096x1024_S2x4096x1024x1_0_1_2 : S2x4096x1024.BroadcastsInDim S2x4096x1024x1 (![0, 1, 2] : Fin 3 → Fin S2x4096x1024x1.rank)
  concatenates_S2x4096x1024x1_S2x4096x1024x1_S2x4096x1024x2_d3 : Shape.Concatenates [S2x4096x1024x1, S2x4096x1024x1] S2x4096x1024x2 3
  shapeCasts_S2x4096x1024x2_S2x4096x2048 : S2x4096x1024x2.ShapeCasts S2x4096x2048
  gather_S4096x1024_S4096x1_S4096x1024_1_0_n_n_0_1_11024_wf : GatherDims.WF S4096x1024 S4096x1 S4096x1024 [1] [0] [] [0] [] 1 ![1, 1024]
  dot_S1024x2048_S2048x1024_S1024x1024_1_0_0_1_n_n_wf : DotDims.WF S1024x2048 S2048x1024 S1024x1024 [1] [0] [0] [1] [] []
  dot_S2x512x2048_S2x256x2048_S2x512x256_2_2_1_1_0_0_wf : DotDims.WF S2x512x2048 S2x256x2048 S2x512x256 [2] [2] [1] [1] [0] [0]
  dot_S2x512x256_S2x256x2048_S2x512x2048_2_1_1_2_0_0_wf : DotDims.WF S2x512x256 S2x256x2048 S2x512x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x2048.size a
  hwx0_1 : ∀ i : grid0.Coords, EltTy.bits .bf16 = 32 ∨ (Rect.block (s := S2048x2048) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x2048.size a
  hwx0_2 : ∀ i : grid0.Coords, EltTy.bits .bf16 = 32 ∨ (Rect.block (s := S8192x2048) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x2048.size a
  hwx1_2 : ∀ i : grid1.Coords, EltTy.bits .f32 = 32 ∨ (Rect.block (s := S8192x2048) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x2048.size a
  hwx2_1 : ∀ i : grid2.Coords, EltTy.bits .bf16 = 32 ∨ (Rect.block (s := S2048x2048) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x2048.size a
  hwx2_2 : ∀ i : grid2.Coords, EltTy.bits .f32 = 32 ∨ (Rect.block (s := S8192x2048) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x2048.size a
  hwx2_3 : ∀ i : grid2.Coords, EltTy.bits .bf16 = 32 ∨ (Rect.block (s := S8192x2048) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x128x2048.size a ≤ S2x4096x2048.size a
  hwx3_0 : ∀ i : grid3.Coords, EltTy.bits .bf16 = 32 ∨ (Rect.block (s := S2x4096x2048) S2x128x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x128x2048.size a ≤ S2x4096x2048.size a
  hwx3_1 : ∀ i : grid3.Coords, EltTy.bits .f32 = 32 ∨ (Rect.block (s := S2x4096x2048) S2x128x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x1024.size a ≤ S4096x1024.size a
  hwx3_2 : ∀ i : grid3.Coords, EltTy.bits .f32 = 32 ∨ (Rect.block (s := S4096x1024) S128x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x1024.size a ≤ S4096x1024.size a
  hwx3_3 : ∀ i : grid3.Coords, EltTy.bits .f32 = 32 ∨ (Rect.block (s := S4096x1024) S128x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2x128x2048.size a ≤ S2x4096x2048.size a
  hwx3_4 : ∀ i : grid3.Coords, EltTy.bits .bf16 = 32 ∨ (Rect.block (s := S2x4096x2048) S2x128x2048.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2x128x2048.size a ≤ S2x4096x2048.size a
  hwx3_5 : ∀ i : grid3.Coords, EltTy.bits .bf16 = 32 ∨ (Rect.block (s := S2x4096x2048) S2x128x2048.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2x128x2048.size a ≤ S2x4096x2048.size a
  hwx3_6 : ∀ i : grid3.Coords, EltTy.bits .f32 = 32 ∨ (Rect.block (s := S2x4096x2048) S2x128x2048.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2x512x2048.size a ≤ S2x4096x2048.size a
  hwx4_0 : ∀ i : grid4.Coords, EltTy.bits .bf16 = 32 ∨ (Rect.block (s := S2x4096x2048) S2x512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2x256x2048.size a ≤ S2x4096x2048.size a
  hwx4_1 : ∀ i : grid4.Coords, EltTy.bits .bf16 = 32 ∨ (Rect.block (s := S2x4096x2048) S2x256x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2x256x2048.size a ≤ S2x4096x2048.size a
  hwx4_2 : ∀ i : grid4.Coords, EltTy.bits .bf16 = 32 ∨ (Rect.block (s := S2x4096x2048) S2x256x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2x512x2048.size a ≤ S2x4096x2048.size a
  hwx4_3 : ∀ i : grid4.Coords, EltTy.bits .bf16 = 32 ∨ (Rect.block (s := S2x4096x2048) S2x512x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x2048.size a
  hwx5_0 : ∀ i : grid5.Coords, EltTy.bits .bf16 = 32 ∨ (Rect.block (s := S8192x2048) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1024.size a ≤ S2048x2048.size a
  hwx5_1 : ∀ i : grid5.Coords, EltTy.bits .bf16 = 32 ∨ (Rect.block (s := S2048x2048) S2048x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S8192x2048.size a
  hwx5_2 : ∀ i : grid5.Coords, EltTy.bits .f32 = 32 ∨ (Rect.block (s := S8192x2048) S1024x1024.size (cc5_transform_2 i) (hinb5_2 i)).WholeWords (EltTy.packing .f32)

variable [Facts₀]

def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S2x512x2048_S2x256x2048_S2x512x256_2_2_1_1_0_0 : DotDims S2x512x2048 S2x256x2048 S2x512x256 where
  lhsContracting := [2]
  rhsContracting := [2]
  lhsNonContracting := [1]
  rhsNonContracting := [1]
  lhsBatch := [0]
  rhsBatch := [0]
  wf := dot_S2x512x2048_S2x256x2048_S2x512x256_2_2_1_1_0_0_wf
def dot_S2x512x256_S2x256x2048_S2x512x2048_2_1_1_2_0_0 : DotDims S2x512x256 S2x256x2048 S2x512x2048 where
  lhsContracting := [2]
  rhsContracting := [1]
  lhsNonContracting := [1]
  rhsNonContracting := [2]
  lhsBatch := [0]
  rhsBatch := [0]
  wf := dot_S2x512x256_S2x256x2048_S2x512x2048_2_1_1_2_0_0_wf

abbrev win0_0 : Pipeline.Window sig grid0 :=
  Pipeline.Window.ofSpec (Memref.whole main_v15) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S1024x1024.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_1) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S2x128x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2x128x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S128x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S128x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v31_0) S2x128x2048.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v31_1) S2x128x2048.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v31_2) S2x128x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v31_0) S2x512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31_1) S2x256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S2x256x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v32) S2x512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v33) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S2048x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x4096x2048 : Shape := ⟨3, ![2, 4096, 2048]⟩
abbrev S2048x2048 : Shape := ⟨2, ![2048, 2048]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S2x4096x1024 : Shape := ⟨3, ![2, 4096, 1024]⟩
abbrev S1x4096x1024 : Shape := ⟨3, ![1, 4096, 1024]⟩
abbrev S2x4096x1024x1 : Shape := ⟨4, ![2, 4096, 1024, 1]⟩
abbrev S2x4096x1024x2 : Shape := ⟨4, ![2, 4096, 1024, 2]⟩
abbrev S2x4096x4096 : Shape := ⟨3, ![2, 4096, 4096]⟩
abbrev S2x4096 : Shape := ⟨2, ![2, 4096]⟩
abbrev S2x4096x1 : Shape := ⟨3, ![2, 4096, 1]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x1024, .f32⟩
  | .hbm, ⟨6, _⟩ => ⟨S4096x1024, .f32⟩
  | .hbm, ⟨7, _⟩ => ⟨S4096, .i32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1024, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x1024, .f32⟩
  | .hbm, ⟨29, _⟩ => ⟨S2x4096x1024, .f32⟩
  | .hbm, ⟨30, _⟩ => ⟨S2x4096x1024, .f32⟩
  | .hbm, ⟨31, _⟩ => ⟨S1x4096x1024, .f32⟩
  | .hbm, ⟨32, _⟩ => ⟨S2x4096x1024, .f32⟩
  | .hbm, ⟨33, _⟩ => ⟨S2x4096x1024, .f32⟩
  | .hbm, ⟨34, _⟩ => ⟨S1x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S1x4096x1024, .f32⟩
  | .hbm, ⟨39, _⟩ => ⟨S2x4096x1024, .f32⟩
  | .hbm, ⟨40, _⟩ => ⟨S2x4096x1024, .f32⟩
  | .hbm, ⟨41, _⟩ => ⟨S1x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024x1, .f32⟩
  | .hbm, ⟨46, _⟩ => ⟨S2x4096x1024x1, .f32⟩
  | .hbm, ⟨47, _⟩ => ⟨S2x4096x1024x2, .f32⟩
  | .hbm, ⟨48, _⟩ => ⟨S2x4096x2048, .f32⟩
  | .hbm, ⟨49, _⟩ => ⟨S2x4096x1024, .f32⟩
  | .hbm, ⟨50, _⟩ => ⟨S2x4096x1024, .f32⟩
  | .hbm, ⟨51, _⟩ => ⟨S1x4096x1024, .f32⟩
  | .hbm, ⟨52, _⟩ => ⟨S2x4096x1024, .f32⟩
  | .hbm, ⟨53, _⟩ => ⟨S2x4096x1024, .f32⟩
  | .hbm, ⟨54, _⟩ => ⟨S1x4096x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S1x4096x1024, .f32⟩
  | .hbm, ⟨59, _⟩ => ⟨S2x4096x1024, .f32⟩
  | .hbm, ⟨60, _⟩ => ⟨S2x4096x1024, .f32⟩
  | .hbm, ⟨61, _⟩ => ⟨S1x4096x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024x1, .f32⟩
  | .hbm, ⟨66, _⟩ => ⟨S2x4096x1024x1, .f32⟩
  | .hbm, ⟨67, _⟩ => ⟨S2x4096x1024x2, .f32⟩
  | .hbm, ⟨68, _⟩ => ⟨S2x4096x2048, .f32⟩
  | .hbm, ⟨69, _⟩ => ⟨S2x4096x4096, .f32⟩
  | .hbm, ⟨70, _⟩ => ⟨S_, .f32⟩
  | .hbm, ⟨71, _⟩ => ⟨S2x4096x4096, .f32⟩
  | .hbm, ⟨72, _⟩ => ⟨S2x4096x4096, .f32⟩
  | .hbm, ⟨73, _⟩ => ⟨S_, .f32⟩
  | .hbm, ⟨74, _⟩ => ⟨S2x4096, .f32⟩
  | .hbm, ⟨75, _⟩ => ⟨S_, .f32⟩
  | .hbm, ⟨76, _⟩ => ⟨S2x4096, .f32⟩
  | .hbm, ⟨77, _⟩ => ⟨S2x4096, .f32⟩
  | .hbm, ⟨78, _⟩ => ⟨S2x4096x1, .f32⟩
  | .hbm, ⟨79, _⟩ => ⟨S2x4096x4096, .f32⟩
  | .hbm, ⟨80, _⟩ => ⟨S2x4096x4096, .f32⟩
  | .hbm, ⟨81, _⟩ => ⟨S2x4096x4096, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S2x4096x4096, .f32⟩
  | .hbm, ⟨86, _⟩ => ⟨S2x4096x4096, .f32⟩
  | .hbm, ⟨87, _⟩ => ⟨S2x4096x2048, .f32⟩
  | .hbm, ⟨88, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst : Ref sig .tc := ⟨.hbm, 70, rfl⟩
abbrev main_v58 : Ref sig .tc := ⟨.hbm, 71, rfl⟩
abbrev main_v59 : Ref sig .tc := ⟨.hbm, 72, rfl⟩
abbrev main_cst_3 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S2x4096x2048_S2x4096x1024_0_0_0 : S2x4096x2048.Slices ![0, 0, 0] S2x4096x1024
  slices_S2x4096x2048_S2x4096x1024_0_0_1024 : S2x4096x2048.Slices ![0, 0, 1024] S2x4096x1024
  bcast_S4096x1024_S1x4096x1024_1_2 : S4096x1024.BroadcastsInDim S1x4096x1024 (![1, 2] : Fin 2 → Fin S1x4096x1024.rank)
  bcast_S1x4096x1024_S2x4096x1024_0_1_2 : S1x4096x1024.BroadcastsInDim S2x4096x1024 (![0, 1, 2] : Fin 3 → Fin S2x4096x1024.rank)
  bcast_S2x4096x1024_S2x4096x1024x1_0_1_2 : S2x4096x1024.BroadcastsInDim S2x4096x1024x1 (![0, 1, 2] : Fin 3 → Fin S2x4096x1024x1.rank)
  concatenates_S2x4096x1024x1_S2x4096x1024x1_S2x4096x1024x2_d3 : Shape.Concatenates [S2x4096x1024x1, S2x4096x1024x1] S2x4096x1024x2 3
  shapeCasts_S2x4096x1024x2_S2x4096x2048 : S2x4096x1024x2.ShapeCasts S2x4096x2048
  bcast_S_S2x4096x4096 : S_.BroadcastsInDim S2x4096x4096 (![] : Fin 0 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x2048_S2048x2048_S2x4096x2048_2_1_01_0_n_n_wf : DotDims.WF S2x4096x2048 S2048x2048 S2x4096x2048 [2] [1] [0, 1] [0] [] []
  gather_S4096x1024_S4096x1_S4096x1024_1_0_n_n_0_1_11024_wf : GatherDims.WF S4096x1024 S4096x1 S4096x1024 [1] [0] [] [0] [] 1 ![1, 1024]
  dot_S2x4096x2048_S2x4096x2048_S2x4096x4096_2_2_1_1_0_0_wf : DotDims.WF S2x4096x2048 S2x4096x2048 S2x4096x4096 [2] [2] [1] [1] [0] [0]
  dot_S2x4096x4096_S2x4096x2048_S2x4096x2048_2_1_1_2_0_0_wf : DotDims.WF S2x4096x4096 S2x4096x2048 S2x4096x2048 [2] [1] [1] [2] [0] [0]

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S2x4096x2048_S2x4096x2048_S2x4096x4096_2_2_1_1_0_0 : DotDims S2x4096x2048 S2x4096x2048 S2x4096x4096 where
  lhsContracting := [2]
  rhsContracting := [2]
  lhsNonContracting := [1]
  rhsNonContracting := [1]
  lhsBatch := [0]
  rhsBatch := [0]
  wf := dot_S2x4096x2048_S2x4096x2048_S2x4096x4096_2_2_1_1_0_0_wf
def dot_S2x4096x4096_S2x4096x2048_S2x4096x2048_2_1_1_2_0_0 : DotDims S2x4096x4096 S2x4096x2048 S2x4096x2048 where
  lhsContracting := [2]
  rhsContracting := [1]
  lhsNonContracting := [1]
  rhsNonContracting := [2]
  lhsBatch := [0]
  rhsBatch := [0]
  wf := dot_S2x4096x4096_S2x4096x2048_S2x4096x2048_2_1_1_2_0_0_wf

class Facts : Prop extends Facts₀ where

variable [Facts]
-- ==== Proof.KI.R0.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the window's block at EVERY point, although it is fetched only at the
    first point of each row of the grid: where it is not fetched the block index has not moved, and the body left
    the previous block in place. Stated for any proof data over the region-entry arrays whose body keeps the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds the window's block at every point (it is fetched at each). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole staging buffer -/

abbrev r0_0 : Rect S1024x2048 := Rect.unit (s := S1024x2048) ![0, 0] S1024x2048.size inb_S1024x2048_S1024x2048_0_0
abbrev r0_1 : Rect S2048x1024 := Rect.unit (s := S2048x1024) ![0, 0] S2048x1024.size inb_S2048x1024_S2048x1024_0_0
abbrev r0_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out0_2 (x0 : Vec F S1024x2048 .bf16) (x1 : Vec F S2048x1024 .bf16) : Vec F S1024x1024 .bf16 :=
  View.canon [⟨r0_2, k0_pay1 (View.ld x0 r0_0) (View.ld x1 r0_1)⟩]

/-- The one store's rectangle is the whole buffer, so every index of the buffer is covered. -/
theorem cover0_2 (p0 : Vec F S1024x1024 .bf16) (y : S1024x1024.Idx) :
    ∃ pc ∈ ([⟨r0_2, p0⟩] : List (View.Piece (Elt F) S1024x1024 .bf16)), y ∈ pc.1.set :=
  View.cover_of_tiled [⟨r0_2, p0⟩] S1024x1024.size (by rfl) y

/-! ## The body's triple -/

set_option maxHeartbeats 1000000 in
/-- The body on whole staging buffers, the inputs' reading `x0`, `x1` and the output's holding anything, runs
    without fault to a state where the inputs' are unchanged and the output's reads `out0_2 x0 x1`. -/
theorem sound_kernel0 (c : Dev nD) (E : Set ℕ) (i : grid0.Coords) (arg2 : Memref sig .tc .vmem S1024x2048 .bf16) (harg2 : arg2.IsWhole) (arg3 : Memref sig .tc .vmem S2048x1024 .bf16) (harg3 : arg3.IsWhole) (arg4 : Memref sig .tc .vmem S1024x1024 .bf16) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point
    `t` each input buffer at its block and the output buffer at `out0_2` of the two input blocks; the invariant
    is the untouched rest; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the window's block at EVERY point, although it is fetched only at the
    first point of each row of the grid: where it is not fetched the block index has not moved, and the body left
    the previous block in place. Stated for any proof data over the region-entry arrays whose body keeps the block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds the window's block at every point (it is fetched at each). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole staging buffer -/

abbrev r1_0 : Rect S1024x2048 := Rect.unit (s := S1024x2048) ![0, 0] S1024x2048.size inb_S1024x2048_S1024x2048_0_0
abbrev r1_1 : Rect S2048x1024 := Rect.unit (s := S2048x1024) ![0, 0] S2048x1024.size inb_S2048x1024_S2048x1024_0_0
abbrev r1_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out1_2 (x0 : Vec F S1024x2048 .bf16) (x1 : Vec F S2048x1024 .bf16) : Vec F S1024x1024 .f32 :=
  View.canon [⟨r1_2, k1_pay1 (View.ld x0 r1_0) (View.ld x1 r1_1)⟩]

/-- The one store's rectangle is the whole buffer, so every index of the buffer is covered. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 1000000 in
/-- The body on whole staging buffers, the inputs' reading `x0`, `x1` and the output's holding anything, runs
    without fault to a state where the inputs' are unchanged and the output's reads `out1_2 x0 x1`. -/
theorem sound_kernel1 (c : Dev nD) (E : Set ℕ) (i : grid1.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point
    `t` each input buffer at its block and the output buffer at `out1_2` of the two input blocks; the invariant
    is the untouched rest; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one tile of a matrix product per grid point, written twice

The grid is 8 × 2. At point (i, j) the body reads a 1024 × 2048 block of the left operand (row block i; fetched only
at j = 0) and a 2048 × 1024 block of the right operand (column block j), and overwrites block (i, j) of TWO output
arrays, each with one whole-buffer store: the product tile, and the same tile in the narrower float format. Both
values are pure functions of the two blocks read. Nothing is carried from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the window's block at EVERY point, although it is fetched only at the
    first point of each row of the grid: where it is not fetched the block index has not moved, and the body left
    the previous block in place. Stated for any proof data over the region-entry arrays whose body keeps the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds the window's block at every point (it is fetched at each). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole staging buffer -/

abbrev r2_0 : Rect S1024x2048 := Rect.unit (s := S1024x2048) ![0, 0] S1024x2048.size inb_S1024x2048_S1024x2048_0_0
abbrev r2_1 : Rect S2048x1024 := Rect.unit (s := S2048x1024) ![0, 0] S2048x1024.size inb_S2048x1024_S2048x1024_0_0
abbrev r2_2 : Rect S1024x1024 := Rect.unit (s := S1024x1024) ![0, 0] S1024x1024.size inb_S1024x1024_S1024x1024_0_0

/-! ## What the body leaves in each output window's buffer -/

/-- The first output buffer after the body, as a function of the two input blocks: the product tile. -/
def out2_2 (x0 : Vec F S1024x2048 .bf16) (x1 : Vec F S2048x1024 .bf16) : Vec F S1024x1024 .f32 :=
  View.canon [⟨r2_2, k2_pay1 (View.ld x0 r2_0) (View.ld x1 r2_1)⟩]

/-- The one store's rectangle is the whole buffer, so every index of the buffer is covered. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-- The second output buffer after the body: the product tile in the narrower format. -/
def out2_3 (x0 : Vec F S1024x2048 .bf16) (x1 : Vec F S2048x1024 .bf16) : Vec F S1024x1024 .bf16 :=
  View.canon [⟨r2_2, k2_pay2 (View.ld x0 r2_0) (View.ld x1 r2_1)⟩]

/-- Its one store's rectangle is the whole buffer too. -/
theorem cover2_3 (p0 : Vec F S1024x1024 .bf16) (y : S1024x1024.Idx) :
    ∃ pc ∈ ([⟨r2_2, p0⟩] : List (View.Piece (Elt F) S1024x1024 .bf16)), y ∈ pc.1.set :=
  View.cover_of_tiled [⟨r2_2, p0⟩] S1024x1024.size (by rfl) y

/-! ## The body's triple -/

set_option maxHeartbeats 1000000 in
/-- The body on whole staging buffers, the inputs' reading `x0`, `x1` and the outputs' holding anything, runs
    without fault to a state where the inputs' are unchanged and the outputs' read `out2_2 x0 x1`, `out2_3 x0 x1`. -/
theorem sound_kernel2 (c : Dev nD) (E : Set ℕ) (i : grid2.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S1024x1024 .bf16) (harg5 : arg5.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out2_2 x0 x1) ∗ owns (c : Thread nD τ) arg5 fullShare (out2_3 x0 x1)) -∗ K ⟨⟩))
      ⊢ wp frame (wpE (defs₀ (F := F)) Variants.none c none) E (cc2__matmul_dual_kernel i arg2 harg2 arg3 harg3 arg4 harg4 arg5 harg5) K := by
  simp only [cc2__matmul_dual_kernel_eq_skeleton]; unfold cc2__matmul_dual_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The pipeline's proof data -/

/-- The proof data of this pipeline on core `c`: the arrays as the region finds them; after the body at point
    `t` each input buffer at its block and each output buffer at its function of the two input blocks; the
    invariant is the untouched rest; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the rotation of two arrays by an angle table, one block of 128 positions per grid point

The grid has 32 points. At point s the body reads the rows 128 s … 128 s + 127 of two arrays of shape
2 × 4096 × 2048 (one in the narrow float format, one in the wide one) and of the two angle tables of shape
4096 × 1024 (call their rows c and s), and writes the same rows of three output arrays. Each output block is
written by TWO stores, one per half of the last axis: with (a, b) the two halves of an input row, the first half
receives a·c − b·s and the second a·s + b·c. The first output is the rotation of
the narrow input; the third is the rotation of the wide input; the second is the third in the narrow format. Every
window is fetched or written back at every point, and nothing is carried from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds the window's block at every point. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole block of 2 × 128 × 2048, -/
abbrev r3_0 : Rect S2x128x2048 := Rect.unit (s := S2x128x2048) ![0, 0, 0] S2x128x2048.size inb_S2x128x2048_S2x128x2048_0_0_0
/-- a whole block of a table, -/
abbrev r3_1 : Rect S128x1024 := Rect.unit (s := S128x1024) ![0, 0] S128x1024.size inb_S128x1024_S128x1024_0_0
/-- the first half of the last axis of a block, -/
abbrev r3_2 : Rect S2x128x2048 := Rect.unit (s := S2x128x2048) ![0, 0, 0] S2x128x1024.size inb_S2x128x2048_S2x128x1024_0_0_0
/-- and the second half. -/
abbrev r3_3 : Rect S2x128x2048 := Rect.unit (s := S2x128x2048) ![0, 0, 1024] S2x128x1024.size inb_S2x128x2048_S2x128x1024_0_0_1024

/-! ## What the body leaves in each output window's buffer

Each is the pair of its two stores' values laid over the two halves, the later store first. -/

/-- The first output: the rotation of the narrow input's block. -/
def out3_4 (x0 : Vec F S2x128x2048 .bf16) (x1 : Vec F S2x128x2048 .f32) (x2 : Vec F S128x1024 .f32) (x3 : Vec F S128x1024 .f32) : Vec F S2x128x2048 .bf16 :=
  View.canon [⟨r3_3, k3_pay10 (View.ld x2 r3_1) (View.ld x3 r3_1) (View.ld x0 r3_0)⟩,
    ⟨r3_2, k3_pay9 (View.ld x2 r3_1) (View.ld x3 r3_1) (View.ld x0 r3_0)⟩]

/-- The second output: the rotation of the wide input's block, in the narrow format. -/
def out3_5 (x0 : Vec F S2x128x2048 .bf16) (x1 : Vec F S2x128x2048 .f32) (x2 : Vec F S128x1024 .f32) (x3 : Vec F S128x1024 .f32) : Vec F S2x128x2048 .bf16 :=
  View.canon [⟨r3_3, k3_pay3 (k3_pay4 (View.ld x2 r3_1)) (k3_pay13 (View.ld x1 r3_0)) (k3_pay15 (View.ld x3 r3_1) (View.ld x1 r3_0))⟩,
    ⟨r3_2, k3_pay2 (k3_pay14 (View.ld x2 r3_1) (View.ld x3 r3_1) (View.ld x1 r3_0))⟩]

/-- The third output: the rotation of the wide input's block. -/
def out3_6 (x0 : Vec F S2x128x2048 .bf16) (x1 : Vec F S2x128x2048 .f32) (x2 : Vec F S128x1024 .f32) (x3 : Vec F S128x1024 .f32) : Vec F S2x128x2048 .f32 :=
  View.canon [⟨r3_3, k3_pay1 (k3_pay4 (View.ld x2 r3_1)) (k3_pay13 (View.ld x1 r3_0)) (k3_pay15 (View.ld x3 r3_1) (View.ld x1 r3_0))⟩,
    ⟨r3_2, k3_pay14 (View.ld x2 r3_1) (View.ld x3 r3_1) (View.ld x1 r3_0)⟩]

/-- The two halves tile a block, so the two stores cover the buffer. -/
theorem cover3_4 (p0 : Vec F S2x128x1024 .bf16) (p1 : Vec F S2x128x1024 .bf16) (y : S2x128x2048.Idx) :
    ∃ pc ∈ ([⟨r3_3, p0⟩, ⟨r3_2, p1⟩] : List (View.Piece (Elt F) S2x128x2048 .bf16)), y ∈ pc.1.set :=
  View.cover_of_tiled [⟨r3_3, p0⟩, ⟨r3_2, p1⟩] S2x128x1024.size (by rfl) y
theorem cover3_5 (p0 : Vec F S2x128x1024 .bf16) (p1 : Vec F S2x128x1024 .bf16) (y : S2x128x2048.Idx) :
    ∃ pc ∈ ([⟨r3_3, p0⟩, ⟨r3_2, p1⟩] : List (View.Piece (Elt F) S2x128x2048 .bf16)), y ∈ pc.1.set :=
  View.cover_of_tiled [⟨r3_3, p0⟩, ⟨r3_2, p1⟩] S2x128x1024.size (by rfl) y
theorem cover3_6 (p0 : Vec F S2x128x1024 .f32) (p1 : Vec F S2x128x1024 .f32) (y : S2x128x2048.Idx) :
    ∃ pc ∈ ([⟨r3_3, p0⟩, ⟨r3_2, p1⟩] : List (View.Piece (Elt F) S2x128x2048 .f32)), y ∈ pc.1.set :=
  View.cover_of_tiled [⟨r3_3, p0⟩, ⟨r3_2, p1⟩] S2x128x1024.size (by rfl) y

/-! ## The body's triple -/

set_option maxHeartbeats 1000000 in
/-- The body on whole staging buffers, the four inputs' reading `x0 … x3` and the three outputs' holding anything,
    runs without fault to a state where the inputs' are unchanged and each output's reads its `out3_w`. -/
theorem sound_kernel3 (c : Dev nD) (E : Set ℕ) (i : grid3.Coords) (arg1 : Memref sig .tc .vmem S2x128x2048 .bf16) (harg1 : arg1.IsWhole) (arg2 : Memref sig .tc .vmem S2x128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S2x128x2048 .bf16) (harg5 : arg5.IsWhole) (arg6 : Memref sig .tc .vmem S2x128x2048 .bf16) (harg6 : arg6.IsWhole) (arg7 : Memref sig .tc .vmem S2x128x2048 .f32) (harg7 : arg7.IsWhole)
    (x0 : Vec F S2x128x2048 .bf16) (x1 : Vec F S2x128x2048 .f32) (x2 : Vec F S128x1024 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3) ∗ owns (c : Thread nD τ) arg7 fullShare (out3_6 x0 x1 x2 x3)) -∗ K ⟨⟩))
      ⊢ wp frame (wpE (defs₀ (F := F)) Variants.none c none) E (cc3__rope_kernel i arg1 harg1 arg2 harg2 arg3 harg3 arg4 harg4 arg5 harg5 arg6 harg6 arg7 harg7) K := by
  simp only [cc3__rope_kernel_eq_skeleton]; unfold cc3__rope_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _ _)
  isplitl [H5]
  · iexists _; isplitr
    swap; · iexact H5
    ipureintro
    exact View.read_writes_eq_canon _ _ _ (cover3_5 _ _)
  iexists _; isplitr
  swap; · iexact H6
  ipureintro
  exact View.read_writes_eq_canon _ _ _ (cover3_6 _ _)

/-! ## The pipeline's proof data -/

/-- The proof data of this pipeline on core `c`: the arrays as the region finds them; after the body at point
    `t` each input buffer at its block and each output buffer at its function of the four input blocks; the
    invariant is the untouched rest; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 (the attention kernel): what its three control cases share

The grid is 8 × 16: coordinate 0 picks a tile of 512 query rows (per batch of 2), coordinate 1 walks the 16
key/value tiles of 256 rows. At kv = 0 the running maximum, the running denominator and the accumulator are
reset; at every kv they are updated with the tile's scores; at kv = 15 the accumulator divided by the
denominator is stored to the output block. -/

/-- The first conditional of the body (kv = 0: reset the three carried scratch buffers), from the grid coordinates. -/
abbrev cond4_0 (i : grid4.Coords) : Prop := (Scalar.cmpi .ne (Scalar.extui (Scalar.cmpi .eq (BitVec.ofNat 32 (i 1).val) 0#32)) 0#32) = 1#1
/-- It holds exactly at the points whose kv coordinate is 0. -/
theorem hcond4_0 : ∀ t : Fin cfg4.N, cond4_0 (grid4.coords t) ↔ t.val % 16 = 0 :=
  (by decide +kernel : ∀ t : Fin grid4.N, cond4_0 (grid4.coords t) ↔ t.val % 16 = 0)

/-- The second conditional of the body (kv = 15: normalise and store the output block). -/
abbrev cond4_1 (i : grid4.Coords) : Prop := k4_cond2 i = 1#1
/-- It holds exactly at the points whose kv coordinate is 15. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At kv = 0 nothing is stored into the output block: the window is idle and not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- The same for 0 < kv < 15. -/
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At kv = 15 the output block is stored: the window is live. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S2x512x2048 .bf16 := (Memref.whole cc4_stg3_0 : Memref sig .tc .vmem S2x512x2048 .bf16).view
abbrev ms4_0 (t : Fin cfg4.N) : Memref sig .tc .vmem S2x512x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2x256x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2x256x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2x512x2048 .bf16 := win4_3.stage (cfg4.slots t 3)
abbrev hs4_3 (t : Fin cfg4.N) : (ms4_3 t).IsWhole := hstage4_3 ((cfg4.slots t 3).cast nbuf4_3)
/-- The three scratch operands carried between points: the running maximum, the running denominator, the accumulator. -/
abbrev scM4_0 : Memref sig .tc .vmem S2x512x1 .f32 := Memref.whole cc4_scratch0
abbrev scM4_1 : Memref sig .tc .vmem S2x512x1 .f32 := Memref.whole cc4_scratch1
abbrev scM4_2 : Memref sig .tc .vmem S2x512x2048 .f32 := Memref.whole cc4_scratch2
abbrev VS4_0 : View sig .tc .vmem S2x512x1 .f32 := scM4_0.view
abbrev VS4_1 : View sig .tc .vmem S2x512x1 .f32 := scM4_1.view
abbrev VS4_2 : View sig .tc .vmem S2x512x2048 .f32 := scM4_2.view

/-- The class invariant with the three scratch operands as memrefs owned at some contents; every other scoped
    buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d))
          ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := by
  unfold Pipeline.ΦA; rw [scopedRest4_split]; simp only [scM4_0, scM4_1, scM4_2, owns_whole]; try rfl

/-! ## The body's run, case by case -/

set_option maxHeartbeats 4000000 in
/-- The body at a point with kv = 0: on whole staging memrefs — the three input blocks at their contents, the output
    block (untouched at this point) at contents handed back as found, the three scratch buffers at anything — it runs
    to the continuation with the inputs as they were and each scratch buffer at the pieces its stores wrote. The
    pieces are the witness the symbolic run finds. -/
noncomputable def kernelRun4_A (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (xi3 : Vec F S2x512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨[], ?_, ?_, ?_, fun xi3 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The body at a point with 0 < kv < 15: the three scratch buffers come in at what the point before left
    (`xs·`) and leave at the pieces this point's stores wrote; the output block is untouched. -/
noncomputable def kernelRun4_B (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (xi3 : Vec F S2x512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨[], ?_, ?_, ?_, fun xi3 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The body at a point with kv = 15: as for 0 < kv < 15, and the output block (at anything before) leaves at
    the pieces of the one store of the normalised accumulator. -/
noncomputable def kernelRun4_C (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨?_, ?_, ?_, ?_, fun E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R4.lean ====
import proofs.«175568_j46505905881160_2_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: the buffer contents when the region is entered, the parameter everything below is stated at. -/
variable (V : (c : Dev nD) → (b : Ref sig .tc) → Buf (Elt F) ((c : Thread nD τ).loc b))

/-! # Region 4's half of the frame, at the entry contents `V`

## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (the query
    window is fetched only when kv = 0: in between its block index does not move), for any proof data whose array
    is `V`'s and whose body leaves the block in place. -/

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output block and in the three scratch buffers -/

/-- Case A stores nothing into the output block: no pieces, a placeholder nothing consults (the window is idle and
    not written back at these points). -/
def out4_A_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x2048 .bf16 :=
  VO4_3.read (Elt F) (VO4_3.writes (Elt F) VO4_3.junk (kernelRun4_A c i arg2 harg2 arg3 harg3 arg4 harg4 arg5 harg5 arg6 harg6 arg7 harg7 arg8 harg8 hc0 hc1 x0 x1 x2).1)

/-- Case A's stores into the scratch holding the running maximum cover it. -/
theorem scover4_A_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x1.Idx) :
    ∃ pc ∈ (kernelRun4_A c i arg2 harg2 arg3 harg3 arg4 harg4 arg5 harg5 arg6 harg6 arg7 harg7 arg8 harg8 hc0 hc1 x0 x1 x2).2.1, y ∈ pc.1.set :=
  View.cover_of_tiledL (kernelRun4_A c i arg2 harg2 arg3 harg3 arg4 harg4 arg5 harg5 arg6 harg6 arg7 harg7 arg8 harg8 hc0 hc1 x0 x1 x2).2.1 S2x512x1.size (by sl_kernel_rfl) y

/-- What case A leaves in the scratch holding the running maximum: its pieces read back. -/
def sout4_A_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x1 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2).2.1)

/-- Case A's stores into the scratch holding the running denominator cover it. -/
theorem scover4_A_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x1.Idx) :
    ∃ pc ∈ (kernelRun4_A c i arg2 harg2 arg3 harg3 arg4 harg4 arg5 harg5 arg6 harg6 arg7 harg7 arg8 harg8 hc0 hc1 x0 x1 x2).2.2.1, y ∈ pc.1.set :=
  View.cover_of_tiledL (kernelRun4_A c i arg2 harg2 arg3 harg3 arg4 harg4 arg5 harg5 arg6 harg6 arg7 harg7 arg8 harg8 hc0 hc1 x0 x1 x2).2.2.1 S2x512x1.size (by sl_kernel_rfl) y

/-- What case A leaves in the scratch holding the running denominator: its pieces read back. -/
def sout4_A_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x1 .f32 :=
  VS4_1.read (Elt F) (VS4_1.writes (Elt F) VS4_1.junk (kernelRun4_A c i arg2 harg2 arg3 harg3 arg4 harg4 arg5 harg5 arg6 harg6 arg7 harg7 arg8 harg8 hc0 hc1 x0 x1 x2).2.2.1)

/-- Case A's stores into the scratch holding the accumulator cover it. -/
theorem scover4_A_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x2048.Idx) :
    ∃ pc ∈ (kernelRun4_A c i arg2 harg2 arg3 harg3 arg4 harg4 arg5 harg5 arg6 harg6 arg7 harg7 arg8 harg8 hc0 hc1 x0 x1 x2).2.2.2.1, y ∈ pc.1.set :=
  View.cover_of_tiledL (kernelRun4_A c i arg2 harg2 arg3 harg3 arg4 harg4 arg5 harg5 arg6 harg6 arg7 harg7 arg8 harg8 hc0 hc1 x0 x1 x2).2.2.2.1 S2x512x2048.size (by sl_kernel_rfl) y

/-- What case A leaves in the scratch holding the accumulator: its pieces read back. -/
def sout4_A_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x2048 .f32 :=
  VS4_2.read (Elt F) (VS4_2.writes (Elt F) VS4_2.junk (kernelRun4_A c i arg2 harg2 arg3 harg3 arg4 harg4 arg5 harg5 arg6 harg6 arg7 harg7 arg8 harg8 hc0 hc1 x0 x1 x2).2.2.2.1)

/-- Case B stores nothing into the output block: no pieces, a placeholder nothing consults (the window is idle and
    not written back at these points). -/
def out4_B_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .bf16 :=
  VO4_3.read (Elt F) (VO4_3.writes (Elt F) VO4_3.junk (kernelRun4_B c i arg2 harg2 arg3 harg3 arg4 harg4 arg5 harg5 arg6 harg6 arg7 harg7 arg8 harg8 hc0 hc1 x0 x1 x2 xs0 xs1 xs2).1)

/-- Case B's stores into the scratch holding the running maximum cover it. -/
theorem scover4_B_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.1 S2x512x1.size (by sl_kernel_rfl) y

/-- What case B leaves in the scratch holding the running maximum: its pieces read back. -/
def sout4_B_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 xs0 xs1 xs2).2.1)

/-- Case B's stores into the scratch holding the running denominator cover it. -/
theorem scover4_B_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.2.1 S2x512x1.size (by sl_kernel_rfl) y

/-- What case B leaves in the scratch holding the running denominator: its pieces read back. -/
def sout4_B_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_1.read (Elt F) (VS4_1.writes (Elt F) VS4_1.junk (kernelRun4_B c i arg2 harg2 arg3 harg3 arg4 harg4 arg5 harg5 arg6 harg6 arg7 harg7 arg8 harg8 hc0 hc1 x0 x1 x2 xs0 xs1 xs2).2.2.1)

/-- Case B's stores into the scratch holding the accumulator cover it. -/
theorem scover4_B_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.2.2.1 S2x512x2048.size (by sl_kernel_rfl) y

/-- What case B leaves in the scratch holding the accumulator: its pieces read back. -/
def sout4_B_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .f32 :=
  VS4_2.read (Elt F) (VS4_2.writes (Elt F) VS4_2.junk (kernelRun4_B c i arg2 harg2 arg3 harg3 arg4 harg4 arg5 harg5 arg6 harg6 arg7 harg7 arg8 harg8 hc0 hc1 x0 x1 x2 xs0 xs1 xs2).2.2.2.1)

/-- Case C's one store into the output block covers it. -/
theorem cover4_C_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_C c i arg2 harg2 arg3 harg3 arg4 harg4 arg5 harg5 arg6 harg6 arg7 harg7 arg8 harg8 hc0 hc1 x0 x1 x2 xs0 xs1 xs2).1, y ∈ pc.1.set :=
  View.cover_of_tiledL (kernelRun4_C c i arg2 harg2 arg3 harg3 arg4 harg4 arg5 harg5 arg6 harg6 arg7 harg7 arg8 harg8 hc0 hc1 x0 x1 x2 xs0 xs1 xs2).1 S2x512x2048.size (by sl_kernel_rfl) y

/-- What case C leaves in the output block: its pieces read back. -/
def out4_C_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .bf16 :=
  VO4_3.read (Elt F) (VO4_3.writes (Elt F) VO4_3.junk (kernelRun4_C c i arg2 harg2 arg3 harg3 arg4 harg4 arg5 harg5 arg6 harg6 arg7 harg7 arg8 harg8 hc0 hc1 x0 x1 x2 xs0 xs1 xs2).1)

/-- Case C's stores into the scratch holding the running maximum cover it. -/
theorem scover4_C_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.1 S2x512x1.size (by sl_kernel_rfl) y

/-- What case C leaves in the scratch holding the running maximum: its pieces read back. -/
def sout4_C_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 xs0 xs1 xs2).2.1)

/-- Case C's stores into the scratch holding the running denominator cover it. -/
theorem scover4_C_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.2.1 S2x512x1.size (by sl_kernel_rfl) y

/-- What case C leaves in the scratch holding the running denominator: its pieces read back. -/
def sout4_C_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_1.read (Elt F) (VS4_1.writes (Elt F) VS4_1.junk (kernelRun4_C c i arg2 harg2 arg3 harg3 arg4 harg4 arg5 harg5 arg6 harg6 arg7 harg7 arg8 harg8 hc0 hc1 x0 x1 x2 xs0 xs1 xs2).2.2.1)

/-- Case C's stores into the scratch holding the accumulator cover it. -/
theorem scover4_C_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.2.2.1 S2x512x2048.size (by sl_kernel_rfl) y

/-- What case C leaves in the scratch holding the accumulator: its pieces read back. -/
def sout4_C_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .f32 :=
  VS4_2.read (Elt F) (VS4_2.writes (Elt F) VS4_2.junk (kernelRun4_C c i arg2 harg2 arg3 harg3 arg4 harg4 arg5 harg5 arg6 harg6 arg7 harg7 arg8 harg8 hc0 hc1 x0 x1 x2 xs0 xs1 xs2).2.2.2.1)

/-! ## What the buffers hold after each point -/

/-- THE ACCUMULATION: what the output's staging buffer and the three carried scratch buffers (maximum, denominator,
    accumulator) hold after the body at position `n`: the case the closed forms select at `n`, run at the point's
    memrefs and input blocks, the scratch buffers entering at what position `n - 1` left. -/
def outsAt4 (c : Dev nD) : (n : ℕ) → n < cfg4.N → Vec F S2x512x2048 .bf16 × Vec F S2x512x1 .f32 × Vec F S2x512x1 .f32 × Vec F S2x512x2048 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2)

/-- At a point with kv = 0. -/
theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- At a point with 0 < kv < 15: over what the point before left. -/
theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point with kv = 15: over what the point before left. -/
theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch buffers at what the point before left in them, every other scoped buffer
    unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2.1) ∗ owns (c : Thread nD τ) scM4_2 fullShare ((outsAt4 V c (n - 1) (by omega)).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := by
  cases n with
  | zero => exact absurd rfl hz
  | succ n => rfl

/-! ## The pipeline's proof data -/

/-- The proof data of region 4 on core `c`: the arrays as the region finds them; after the body at point `t`
    each input's buffer at its block and the output's at `outsAt4`'s first component; the invariant `PhiS4`;
    nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point. The inputs' memrefs hold their blocks; the closed forms of the two conditions say which of
    the three cases the point is in, and that case's run applies. The invariant hands the body the three scratch
    buffers at what the point before left (at anything at the first point) and takes them back at this point's
    contents, the pieces the run found covering each; the output block is stored only when kv = 15 and is handed
    back untouched otherwise; every other scoped buffer, the generator register and the core's owed waits pass
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  by_cases h0 : t.val % 16 = 0
  · by_cases h1 : t.val % 16 = 15
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      dsimp only
      by_cases hz : t.val = 0
      · rw [PhiS4_castSucc V c t, PhiS4_zero V c _ _ hz, PhiA4_eq]
        iintro ⟨⟨⟨⟨HS0, HS1, HS2⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover4_A_0 c _ _ _ _ _ _ _ _ _ _ _ _ _ _ _ _ _ _ _ _)
              isplitl [HS1]
              · unfold owns; iexists _; isplitr
                swap; · iexact HS1
                ipureintro; exact View.read_writes_of_cover _ _ _ _ _ (scover4_A_1 c _ _ _ _ _ _ _ _ _ _ _ _ _ _ _ _ _ _ _ _)
              unfold owns; iexists _; isplitr
              swap; · iexact HS2
              ipureintro; exact View.read_writes_of_cover _ _ _ _ _ (scover4_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨⟨HS0, HS1, HS2⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover4_A_0 c _ _ _ _ _ _ _ _ _ _ _ _ _ _ _ _ _ _ _ _)
              isplitl [HS1]
              · unfold owns; iexists _; isplitr
                swap; · iexact HS1
                ipureintro; exact View.read_writes_of_cover _ _ _ _ _ (scover4_A_1 c _ _ _ _ _ _ _ _ _ _ _ _ _ _ _ _ _ _ _ _)
              unfold owns; iexists _; isplitr
              swap; · iexact HS2
              ipureintro; exact View.read_writes_of_cover _ _ _ _ _ (scover4_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      dsimp only
      have hz : t.val ≠ 0 := by omega
      rw [PhiS4_castSucc V c t, PhiS4_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover4_C_1 c _ _ _ _ _ _ _ _ _ _ _ _ _ _ _ _ _ _ _ _ _ _ _)
            unfold owns; iexists _; isplitr
            swap; · iexact HS2
            ipureintro; exact View.read_writes_of_cover _ _ _ _ _ (scover4_C_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      dsimp only
      have hz : t.val ≠ 0 := by omega
      rw [PhiS4_castSucc V c t, PhiS4_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover4_B_1 c _ _ _ _ _ _ _ _ _ _ _ _ _ _ _ _ _ _ _ _ _ _ _)
            unfold owns; iexists _; isplitr
            swap; · iexact HS2
            ipureintro; exact View.read_writes_of_cover _ _ _ _ _ (scover4_B_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the three scratch buffers hold is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.KernelIdeal.Hand

end
-- ==== Proof.KI.R5.lean ====
import proofs.«175568_j46505905881160_2_alg».proof.Proof.Gen.KernelIdeal.Launch
import proofs.«175568_j46505905881160_2_alg».proof.Proof.Gen.KernelIdeal.Skeleton
import proofs.«175568_j46505905881160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's staging buffer holds the window's block at EVERY point, although it is fetched only at the
    first point of each row of the grid: where it is not fetched the block index has not moved, and the body left
    the previous block in place. Stated for any proof data over the region-entry arrays whose body keeps the block. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The right operand's staging buffer holds the window's block at every point (it is fetched at each). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole staging buffer -/

abbrev r5_0 : Rect S1024x2048 := Rect.unit (s := S1024x2048) ![0, 0] S1024x2048.size inb_S1024x2048_S1024x2048_0_0
abbrev r5_1 : Rect S2048x1024 := Rect.unit (s := S2048x1024) ![0, 0] S2048x1024.size inb_S2048x1024_S2048x1024_0_0
abbrev r5_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out5_2 (x0 : Vec F S1024x2048 .bf16) (x1 : Vec F S2048x1024 .bf16) : Vec F S1024x1024 .f32 :=
  View.canon [⟨r5_2, k5_pay1 (View.ld x0 r5_0) (View.ld x1 r5_1)⟩]

/-- The one store's rectangle is the whole buffer, so every index of the buffer is covered. -/
theorem cover5_2 (p0 : Vec F S1024x1024 .f32) (y : S1024x1024.Idx) :
    ∃ pc ∈ ([⟨r5_2, p0⟩] : List (View.Piece (Elt F) S1024x1024 .f32)), y ∈ pc.1.set :=
  View.cover_of_tiled [⟨r5_2, p0⟩] S1024x1024.size (by rfl) y

/-! ## The body's triple -/

set_option maxHeartbeats 1000000 in
/-- The body on whole staging buffers, the inputs' reading `x0`, `x1` and the output's holding anything, runs
    without fault to a state where the inputs' are unchanged and the output's reads `out5_2 x0 x1`. -/
theorem sound_kernel5 (c : Dev nD) (E : Set ℕ) (i : grid5.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__matmul_kernel i arg2 harg2 arg3 harg3 arg4 harg4) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point
    `t` each input buffer at its block and the output buffer at `out5_2` of the two input blocks; the invariant
    is the untouched rest; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«175568_j46505905881160_2_alg».proof.Proof.KI.R0
import proofs.«175568_j46505905881160_2_alg».proof.Proof.KI.R1
import proofs.«175568_j46505905881160_2_alg».proof.Proof.KI.R2
import proofs.«175568_j46505905881160_2_alg».proof.Proof.KI.R3
import proofs.«175568_j46505905881160_2_alg».proof.Proof.KI.R4
import proofs.«175568_j46505905881160_2_alg».proof.Proof.KI.R5
import proofs.«175568_j46505905881160_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The contents of core `c`'s buffers at each boundary between two items of @main: a fold from the launch memory.
    A host stretch leaves `StableHlo.after` of its operations; a region leaves its windows' arrays at what the pipeline's
    write-backs fold to (`Dat.arrAt … N`) and every other buffer as it found it. -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After item 1, region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After item 2, region 1: its windows' arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After item 3, region 2: its windows' arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After item 4, the host stretch `hostOps3`. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h

/-- After item 5, region 3: its windows' arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After item 6, region 4: its windows' arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- After item 7, the host stretch `hostOps5`. -/
abbrev W8 : Dev nD → Valuation τ sig (Elt F) := fun c => StableHlo.after hostOps5 (W7 m ρ c)
abbrev V8 : (c : Dev nD) → (b : Ref sig .tc) → Buf (Elt F) ((c : Thread nD τ).loc b) := fun c b => W8 m ρ c b
theorem W8_of (c : Dev nD) (r : Ref sig .tc) (h : r ∉ hostOps5_W) : W8 m ρ c (Proc.devRef .tc r) = W7 m ρ c (Proc.devRef .tc r) :=
  StableHlo.after_of_writes_sub hostOps5 _ hostOps5_writes h

/-- After item 8, region 5: its windows' arrays at what the pipeline leaves, every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After item 9, the host stretch `hostOps6`. -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h

/-! ## The arguments end as launched: no host operation writes one and no region has one as a window's array -/
theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of m ρ c main_arg0 (by decide)).trans <| (W7_of_ne m ρ c main_arg0 (by decide)).trans <| (W6_of_ne m ρ c main_arg0 (by decide)).trans <| (W5_of m ρ c main_arg0 (by decide)).trans <| (W4_of_ne m ρ c main_arg0 (by decide)).trans <| (W3_of_ne m ρ c main_arg0 (by decide)).trans <| (W2_of_ne m ρ c main_arg0 (by decide)).trans <| (W1_of m ρ c main_arg0 (by decide)).trans rfl
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of m ρ c main_arg1 (by decide)).trans <| (W7_of_ne m ρ c main_arg1 (by decide)).trans <| (W6_of_ne m ρ c main_arg1 (by decide)).trans <| (W5_of m ρ c main_arg1 (by decide)).trans <| (W4_of_ne m ρ c main_arg1 (by decide)).trans <| (W3_of_ne m ρ c main_arg1 (by decide)).trans <| (W2_of_ne m ρ c main_arg1 (by decide)).trans <| (W1_of m ρ c main_arg1 (by decide)).trans rfl
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of m ρ c main_arg2 (by decide)).trans <| (W7_of_ne m ρ c main_arg2 (by decide)).trans <| (W6_of_ne m ρ c main_arg2 (by decide)).trans <| (W5_of m ρ c main_arg2 (by decide)).trans <| (W4_of_ne m ρ c main_arg2 (by decide)).trans <| (W3_of_ne m ρ c main_arg2 (by decide)).trans <| (W2_of_ne m ρ c main_arg2 (by decide)).trans <| (W1_of m ρ c main_arg2 (by decide)).trans rfl
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of m ρ c main_arg3 (by decide)).trans <| (W7_of_ne m ρ c main_arg3 (by decide)).trans <| (W6_of_ne m ρ c main_arg3 (by decide)).trans <| (W5_of m ρ c main_arg3 (by decide)).trans <| (W4_of_ne m ρ c main_arg3 (by decide)).trans <| (W3_of_ne m ρ c main_arg3 (by decide)).trans <| (W2_of_ne m ρ c main_arg3 (by decide)).trans <| (W1_of m ρ c main_arg3 (by decide)).trans rfl
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of m ρ c main_arg4 (by decide)).trans <| (W7_of_ne m ρ c main_arg4 (by decide)).trans <| (W6_of_ne m ρ c main_arg4 (by decide)).trans <| (W5_of m ρ c main_arg4 (by decide)).trans <| (W4_of_ne m ρ c main_arg4 (by decide)).trans <| (W3_of_ne m ρ c main_arg4 (by decide)).trans <| (W2_of_ne m ρ c main_arg4 (by decide)).trans <| (W1_of m ρ c main_arg4 (by decide)).trans rfl
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of m ρ c main_arg5 (by decide)).trans <| (W7_of_ne m ρ c main_arg5 (by decide)).trans <| (W6_of_ne m ρ c main_arg5 (by decide)).trans <| (W5_of m ρ c main_arg5 (by decide)).trans <| (W4_of_ne m ρ c main_arg5 (by decide)).trans <| (W3_of_ne m ρ c main_arg5 (by decide)).trans <| (W2_of_ne m ρ c main_arg5 (by decide)).trans <| (W1_of m ρ c main_arg5 (by decide)).trans rfl
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of m ρ c main_arg6 (by decide)).trans <| (W7_of_ne m ρ c main_arg6 (by decide)).trans <| (W6_of_ne m ρ c main_arg6 (by decide)).trans <| (W5_of m ρ c main_arg6 (by decide)).trans <| (W4_of_ne m ρ c main_arg6 (by decide)).trans <| (W3_of_ne m ρ c main_arg6 (by decide)).trans <| (W2_of_ne m ρ c main_arg6 (by decide)).trans <| (W1_of m ρ c main_arg6 (by decide)).trans rfl
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of m ρ c main_arg7 (by decide)).trans <| (W7_of_ne m ρ c main_arg7 (by decide)).trans <| (W6_of_ne m ρ c main_arg7 (by decide)).trans <| (W5_of m ρ c main_arg7 (by decide)).trans <| (W4_of_ne m ρ c main_arg7 (by decide)).trans <| (W3_of_ne m ρ c main_arg7 (by decide)).trans <| (W2_of_ne m ρ c main_arg7 (by decide)).trans <| (W1_of m ρ c main_arg7 (by decide)).trans rfl

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
  | ⟨5, _⟩ => fun c => dat5 (V8 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W5`, left at `W6`. Its arrays are split
    out of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W6`, left at `W7`. Its arrays are split
    out of the unscoped buffers and put back at the exit contents; the generator register goes into the region's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec4 c : sProp 𝕄) ⊢ (pdats m ρ 4 c).Φ 0 := hin4 (V6 m ρ) c
    unfold Pipeline.ΦA at hΦ
    iintro ⟨Hp, -, Hr⟩
    iapply hΦ
    isplitl [Hr]; · iexact Hr
    iexact Hp
  hout c := by
    rw [Pipeline.ownSems0_none]
    have hΦ : (pdats m ρ 4 c).Φ (Fin.last _) ⊢ (Pipeline.ΦA spec4 c : sProp 𝕄) := hout4 (V6 m ρ) c
    unfold Pipeline.ΦA at hΦ
    iintro Hphi
    ihave H := hΦ $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W8`, left at `W9`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev H0 := hseg (F := F) hostOps0 hostOps0_sub hostOps0_fresh (W0 m ρ)
abbrev H3 := hseg (F := F) hostOps3 hostOps3_sub hostOps3_fresh (W4 m ρ)
abbrev H5 := hseg (F := F) hostOps5 hostOps5_sub hostOps5_fresh (W7 m ρ)
abbrev H6 := hseg (F := F) hostOps6 hostOps6_sub hostOps6_fresh (W9 m ρ)

abbrev segs : List (Pipeline.Seg (pcfgs (F := F)) adm (pdats m ρ) () defs₀ 𝒱₀ L lv) :=
  [ .host (H0 m ρ), .region (reg0 m ρ), .region (reg1 m ρ), .region (reg2 m ρ), .host (H3 m ρ),
    .region (reg3 m ρ), .region (reg4 m ρ), .host (H5 m ρ), .region (reg5 m ρ), .host (H6 m ρ) ]

theorem main_run (c : Dev nD) : main (F := F) c = Pipeline.Seg.run (segs m ρ) :=
  main_segs adm (pdats m ρ) () 𝒱₀ L lv (H0 m ρ) (H3 m ρ) (H5 m ρ) (H6 m ρ) (reg0 m ρ) (reg1 m ρ) (reg2 m ρ) (reg3 m ρ) (reg4 m ρ) (reg5 m ρ) rfl rfl rfl rfl c

set_option backward.isDefEq.respectTransparency.types false in
/-- THE RUN. From any memory with zero counters every weakly fair execution of @main terminates, nothing faulting, and in
    every final state each unscoped buffer of every core holds the last boundary's contents `W10`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Hand

end
-- ==== Proof.K.R0.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the window's block at EVERY point, although it is fetched only at the
    first point of each row of the grid: where it is not fetched the block index has not moved, and the body left
    the previous block in place. Stated for any proof data over the region-entry arrays whose body keeps the block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds the window's block at every point (it is fetched at each). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole staging buffer -/

abbrev r0_0 : Rect S1024x2048 := Rect.unit (s := S1024x2048) ![0, 0] S1024x2048.size inb_S1024x2048_S1024x2048_0_0
abbrev r0_1 : Rect S2048x1024 := Rect.unit (s := S2048x1024) ![0, 0] S2048x1024.size inb_S2048x1024_S2048x1024_0_0
abbrev r0_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out0_2 (x0 : Vec F S1024x2048 .bf16) (x1 : Vec F S2048x1024 .bf16) : Vec F S1024x1024 .bf16 :=
  View.canon [⟨r0_2, k0_pay1 (View.ld x0 r0_0) (View.ld x1 r0_1)⟩]

/-- The one store's rectangle is the whole buffer, so every index of the buffer is covered. -/
theorem cover0_2 (p0 : Vec F S1024x1024 .bf16) (y : S1024x1024.Idx) :
    ∃ pc ∈ ([⟨r0_2, p0⟩] : List (View.Piece (Elt F) S1024x1024 .bf16)), y ∈ pc.1.set :=
  View.cover_of_tiled [⟨r0_2, p0⟩] S1024x1024.size (by rfl) y

/-! ## The body's triple -/

set_option maxHeartbeats 1000000 in
/-- The body on whole staging buffers, the inputs' reading `x0`, `x1` and the output's holding anything, runs
    without fault to a state where the inputs' are unchanged and the output's reads `out0_2 x0 x1`. -/
theorem sound_kernel0 (c : Dev nD) (E : Set ℕ) (i : grid0.Coords) (arg2 : Memref sig .tc .vmem S1024x2048 .bf16) (harg2 : arg2.IsWhole) (arg3 : Memref sig .tc .vmem S2048x1024 .bf16) (harg3 : arg3.IsWhole) (arg4 : Memref sig .tc .vmem S1024x1024 .bf16) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point
    `t` each input buffer at its block and the output buffer at `out0_2` of the two input blocks; the invariant
    is the untouched rest; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the window's block at EVERY point, although it is fetched only at the
    first point of each row of the grid: where it is not fetched the block index has not moved, and the body left
    the previous block in place. Stated for any proof data over the region-entry arrays whose body keeps the block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds the window's block at every point (it is fetched at each). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole staging buffer -/

abbrev r1_0 : Rect S1024x2048 := Rect.unit (s := S1024x2048) ![0, 0] S1024x2048.size inb_S1024x2048_S1024x2048_0_0
abbrev r1_1 : Rect S2048x1024 := Rect.unit (s := S2048x1024) ![0, 0] S2048x1024.size inb_S2048x1024_S2048x1024_0_0
abbrev r1_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out1_2 (x0 : Vec F S1024x2048 .bf16) (x1 : Vec F S2048x1024 .bf16) : Vec F S1024x1024 .f32 :=
  View.canon [⟨r1_2, k1_pay1 (View.ld x0 r1_0) (View.ld x1 r1_1)⟩]

/-- The one store's rectangle is the whole buffer, so every index of the buffer is covered. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 1000000 in
/-- The body on whole staging buffers, the inputs' reading `x0`, `x1` and the output's holding anything, runs
    without fault to a state where the inputs' are unchanged and the output's reads `out1_2 x0 x1`. -/
theorem sound_kernel1 (c : Dev nD) (E : Set ℕ) (i : grid1.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point
    `t` each input buffer at its block and the output buffer at `out1_2` of the two input blocks; the invariant
    is the untouched rest; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one tile of a matrix product per grid point, written twice

The grid is 8 × 2. At point (i, j) the body reads a 1024 × 2048 block of the left operand (row block i; fetched only
at j = 0) and a 2048 × 1024 block of the right operand (column block j), and overwrites block (i, j) of TWO output
arrays, each with one whole-buffer store: the product tile, and the same tile in the narrower float format. Both
values are pure functions of the two blocks read. Nothing is carried from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the window's block at EVERY point, although it is fetched only at the
    first point of each row of the grid: where it is not fetched the block index has not moved, and the body left
    the previous block in place. Stated for any proof data over the region-entry arrays whose body keeps the block. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds the window's block at every point (it is fetched at each). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole staging buffer -/

abbrev r2_0 : Rect S1024x2048 := Rect.unit (s := S1024x2048) ![0, 0] S1024x2048.size inb_S1024x2048_S1024x2048_0_0
abbrev r2_1 : Rect S2048x1024 := Rect.unit (s := S2048x1024) ![0, 0] S2048x1024.size inb_S2048x1024_S2048x1024_0_0
abbrev r2_2 : Rect S1024x1024 := Rect.unit (s := S1024x1024) ![0, 0] S1024x1024.size inb_S1024x1024_S1024x1024_0_0

/-! ## What the body leaves in each output window's buffer -/

/-- The first output buffer after the body, as a function of the two input blocks: the product tile. -/
def out2_2 (x0 : Vec F S1024x2048 .bf16) (x1 : Vec F S2048x1024 .bf16) : Vec F S1024x1024 .f32 :=
  View.canon [⟨r2_2, k2_pay1 (View.ld x0 r2_0) (View.ld x1 r2_1)⟩]

/-- The one store's rectangle is the whole buffer, so every index of the buffer is covered. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-- The second output buffer after the body: the product tile in the narrower format. -/
def out2_3 (x0 : Vec F S1024x2048 .bf16) (x1 : Vec F S2048x1024 .bf16) : Vec F S1024x1024 .bf16 :=
  View.canon [⟨r2_2, k2_pay2 (View.ld x0 r2_0) (View.ld x1 r2_1)⟩]

/-- Its one store's rectangle is the whole buffer too. -/
theorem cover2_3 (p0 : Vec F S1024x1024 .bf16) (y : S1024x1024.Idx) :
    ∃ pc ∈ ([⟨r2_2, p0⟩] : List (View.Piece (Elt F) S1024x1024 .bf16)), y ∈ pc.1.set :=
  View.cover_of_tiled [⟨r2_2, p0⟩] S1024x1024.size (by rfl) y

/-! ## The body's triple -/

set_option maxHeartbeats 1000000 in
/-- The body on whole staging buffers, the inputs' reading `x0`, `x1` and the outputs' holding anything, runs
    without fault to a state where the inputs' are unchanged and the outputs' read `out2_2 x0 x1`, `out2_3 x0 x1`. -/
theorem sound_kernel2 (c : Dev nD) (E : Set ℕ) (i : grid2.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S1024x1024 .bf16) (harg5 : arg5.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out2_2 x0 x1) ∗ owns (c : Thread nD τ) arg5 fullShare (out2_3 x0 x1)) -∗ K ⟨⟩))
      ⊢ wp frame (wpE (defs₀ (F := F)) Variants.none c none) E (cc2__matmul_dual_kernel i arg2 harg2 arg3 harg3 arg4 harg4 arg5 harg5) K := by
  simp only [cc2__matmul_dual_kernel_eq_skeleton]; unfold cc2__matmul_dual_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The pipeline's proof data -/

/-- The proof data of this pipeline on core `c`: the arrays as the region finds them; after the body at point
    `t` each input buffer at its block and each output buffer at its function of the two input blocks; the
    invariant is the untouched rest; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the rotation of two arrays by an angle table, one block of 128 positions per grid point

The grid has 32 points. At point s the body reads the rows 128 s … 128 s + 127 of two arrays of shape
2 × 4096 × 2048 (one in the narrow float format, one in the wide one) and of the two angle tables of shape
4096 × 1024 (call their rows c and s), and writes the same rows of three output arrays. Each output block is
written by TWO stores, one per half of the last axis: with (a, b) the two halves of an input row, the first half
receives a·c − b·s and the second a·s + b·c. The first output is the rotation of
the narrow input; the third is the rotation of the wide input; the second is the third in the narrow format. Every
window is fetched or written back at every point, and nothing is carried from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds the window's block at every point. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole block of 2 × 128 × 2048, -/
abbrev r3_0 : Rect S2x128x2048 := Rect.unit (s := S2x128x2048) ![0, 0, 0] S2x128x2048.size inb_S2x128x2048_S2x128x2048_0_0_0
/-- a whole block of a table, -/
abbrev r3_1 : Rect S128x1024 := Rect.unit (s := S128x1024) ![0, 0] S128x1024.size inb_S128x1024_S128x1024_0_0
/-- the first half of the last axis of a block, -/
abbrev r3_2 : Rect S2x128x2048 := Rect.unit (s := S2x128x2048) ![0, 0, 0] S2x128x1024.size inb_S2x128x2048_S2x128x1024_0_0_0
/-- and the second half. -/
abbrev r3_3 : Rect S2x128x2048 := Rect.unit (s := S2x128x2048) ![0, 0, 1024] S2x128x1024.size inb_S2x128x2048_S2x128x1024_0_0_1024

/-! ## What the body leaves in each output window's buffer

Each is the pair of its two stores' values laid over the two halves, the later store first. -/

/-- The first output: the rotation of the narrow input's block. -/
def out3_4 (x0 : Vec F S2x128x2048 .bf16) (x1 : Vec F S2x128x2048 .f32) (x2 : Vec F S128x1024 .f32) (x3 : Vec F S128x1024 .f32) : Vec F S2x128x2048 .bf16 :=
  View.canon [⟨r3_3, k3_pay10 (View.ld x2 r3_1) (View.ld x3 r3_1) (View.ld x0 r3_0)⟩,
    ⟨r3_2, k3_pay9 (View.ld x2 r3_1) (View.ld x3 r3_1) (View.ld x0 r3_0)⟩]

/-- The second output: the rotation of the wide input's block, in the narrow format. -/
def out3_5 (x0 : Vec F S2x128x2048 .bf16) (x1 : Vec F S2x128x2048 .f32) (x2 : Vec F S128x1024 .f32) (x3 : Vec F S128x1024 .f32) : Vec F S2x128x2048 .bf16 :=
  View.canon [⟨r3_3, k3_pay3 (k3_pay4 (View.ld x2 r3_1)) (k3_pay13 (View.ld x1 r3_0)) (k3_pay15 (View.ld x3 r3_1) (View.ld x1 r3_0))⟩,
    ⟨r3_2, k3_pay2 (k3_pay14 (View.ld x2 r3_1) (View.ld x3 r3_1) (View.ld x1 r3_0))⟩]

/-- The third output: the rotation of the wide input's block. -/
def out3_6 (x0 : Vec F S2x128x2048 .bf16) (x1 : Vec F S2x128x2048 .f32) (x2 : Vec F S128x1024 .f32) (x3 : Vec F S128x1024 .f32) : Vec F S2x128x2048 .f32 :=
  View.canon [⟨r3_3, k3_pay1 (k3_pay4 (View.ld x2 r3_1)) (k3_pay13 (View.ld x1 r3_0)) (k3_pay15 (View.ld x3 r3_1) (View.ld x1 r3_0))⟩,
    ⟨r3_2, k3_pay14 (View.ld x2 r3_1) (View.ld x3 r3_1) (View.ld x1 r3_0)⟩]

/-- The two halves tile a block, so the two stores cover the buffer. -/
theorem cover3_4 (p0 : Vec F S2x128x1024 .bf16) (p1 : Vec F S2x128x1024 .bf16) (y : S2x128x2048.Idx) :
    ∃ pc ∈ ([⟨r3_3, p0⟩, ⟨r3_2, p1⟩] : List (View.Piece (Elt F) S2x128x2048 .bf16)), y ∈ pc.1.set :=
  View.cover_of_tiled [⟨r3_3, p0⟩, ⟨r3_2, p1⟩] S2x128x1024.size (by rfl) y
theorem cover3_5 (p0 : Vec F S2x128x1024 .bf16) (p1 : Vec F S2x128x1024 .bf16) (y : S2x128x2048.Idx) :
    ∃ pc ∈ ([⟨r3_3, p0⟩, ⟨r3_2, p1⟩] : List (View.Piece (Elt F) S2x128x2048 .bf16)), y ∈ pc.1.set :=
  View.cover_of_tiled [⟨r3_3, p0⟩, ⟨r3_2, p1⟩] S2x128x1024.size (by rfl) y
theorem cover3_6 (p0 : Vec F S2x128x1024 .f32) (p1 : Vec F S2x128x1024 .f32) (y : S2x128x2048.Idx) :
    ∃ pc ∈ ([⟨r3_3, p0⟩, ⟨r3_2, p1⟩] : List (View.Piece (Elt F) S2x128x2048 .f32)), y ∈ pc.1.set :=
  View.cover_of_tiled [⟨r3_3, p0⟩, ⟨r3_2, p1⟩] S2x128x1024.size (by rfl) y

/-! ## The body's triple -/

set_option maxHeartbeats 1000000 in
/-- The body on whole staging buffers, the four inputs' reading `x0 … x3` and the three outputs' holding anything,
    runs without fault to a state where the inputs' are unchanged and each output's reads its `out3_w`. -/
theorem sound_kernel3 (c : Dev nD) (E : Set ℕ) (i : grid3.Coords) (arg1 : Memref sig .tc .vmem S2x128x2048 .bf16) (harg1 : arg1.IsWhole) (arg2 : Memref sig .tc .vmem S2x128x2048 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S2x128x2048 .bf16) (harg5 : arg5.IsWhole) (arg6 : Memref sig .tc .vmem S2x128x2048 .bf16) (harg6 : arg6.IsWhole) (arg7 : Memref sig .tc .vmem S2x128x2048 .f32) (harg7 : arg7.IsWhole)
    (x0 : Vec F S2x128x2048 .bf16) (x1 : Vec F S2x128x2048 .f32) (x2 : Vec F S128x1024 .f32) (x3 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3) ∗ owns (c : Thread nD τ) arg7 fullShare (out3_6 x0 x1 x2 x3)) -∗ K ⟨⟩))
      ⊢ wp frame (wpE (defs₀ (F := F)) Variants.none c none) E (cc3__rope_kernel i arg1 harg1 arg2 harg2 arg3 harg3 arg4 harg4 arg5 harg5 arg6 harg6 arg7 harg7) K := by
  simp only [cc3__rope_kernel_eq_skeleton]; unfold cc3__rope_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _ _)
  isplitl [H5]
  · iexists _; isplitr
    swap; · iexact H5
    ipureintro
    exact View.read_writes_eq_canon _ _ _ (cover3_5 _ _)
  iexists _; isplitr
  swap; · iexact H6
  ipureintro
  exact View.read_writes_eq_canon _ _ _ (cover3_6 _ _)

/-! ## The pipeline's proof data -/

/-- The proof data of this pipeline on core `c`: the arrays as the region finds them; after the body at point
    `t` each input buffer at its block and each output buffer at its function of the four input blocks; the
    invariant is the untouched rest; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Runs.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4 (the attention kernel): what its three control cases share

The grid is 8 × 16: coordinate 0 picks a tile of 512 query rows (per batch of 2), coordinate 1 walks the 16
key/value tiles of 256 rows. At kv = 0 the running maximum, the running denominator and the accumulator are
reset; at every kv they are updated with the tile's scores; at kv = 15 the accumulator divided by the
denominator is stored to the output block. -/

/-- The first conditional of the body (kv = 0: reset the three carried scratch buffers), from the grid coordinates. -/
abbrev cond4_0 (i : grid4.Coords) : Prop := (Scalar.cmpi .ne (Scalar.extui (Scalar.cmpi .eq (BitVec.ofNat 32 (i 1).val) 0#32)) 0#32) = 1#1
/-- It holds exactly at the points whose kv coordinate is 0. -/
theorem hcond4_0 : ∀ t : Fin cfg4.N, cond4_0 (grid4.coords t) ↔ t.val % 16 = 0 :=
  (by decide +kernel : ∀ t : Fin grid4.N, cond4_0 (grid4.coords t) ↔ t.val % 16 = 0)

/-- The second conditional of the body (kv = 15: normalise and store the output block). -/
abbrev cond4_1 (i : grid4.Coords) : Prop := k4_cond2 i = 1#1
/-- It holds exactly at the points whose kv coordinate is 15. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At kv = 0 nothing is stored into the output block: the window is idle and not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- The same for 0 < kv < 15. -/
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At kv = 15 the output block is stored: the window is live. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S2x512x2048 .bf16 := (Memref.whole cc4_stg3_0 : Memref sig .tc .vmem S2x512x2048 .bf16).view
abbrev ms4_0 (t : Fin cfg4.N) : Memref sig .tc .vmem S2x512x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2x256x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2x256x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2x512x2048 .bf16 := win4_3.stage (cfg4.slots t 3)
abbrev hs4_3 (t : Fin cfg4.N) : (ms4_3 t).IsWhole := hstage4_3 ((cfg4.slots t 3).cast nbuf4_3)
/-- The three scratch operands carried between points: the running maximum, the running denominator, the accumulator. -/
abbrev scM4_0 : Memref sig .tc .vmem S2x512x1 .f32 := Memref.whole cc4_scratch0
abbrev scM4_1 : Memref sig .tc .vmem S2x512x1 .f32 := Memref.whole cc4_scratch1
abbrev scM4_2 : Memref sig .tc .vmem S2x512x2048 .f32 := Memref.whole cc4_scratch2
abbrev VS4_0 : View sig .tc .vmem S2x512x1 .f32 := scM4_0.view
abbrev VS4_1 : View sig .tc .vmem S2x512x1 .f32 := scM4_1.view
abbrev VS4_2 : View sig .tc .vmem S2x512x2048 .f32 := scM4_2.view

/-- The class invariant with the three scratch operands as memrefs owned at some contents; every other scoped
    buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d) ∗ (∃ d, owns (c : Thread nD τ) scM4_2 fullShare d))
          ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := by
  unfold Pipeline.ΦA; rw [scopedRest4_split]; simp only [scM4_0, scM4_1, scM4_2, owns_whole]; try rfl

/-! ## The body's run, case by case -/

set_option maxHeartbeats 4000000 in
/-- The body at a point with kv = 0: on whole staging memrefs — the three input blocks at their contents, the output
    block (untouched at this point) at contents handed back as found, the three scratch buffers at anything — it runs
    to the continuation with the inputs as they were and each scratch buffer at the pieces its stores wrote. The
    pieces are the witness the symbolic run finds. -/
noncomputable def kernelRun4_A (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (xi3 : Vec F S2x512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨[], ?_, ?_, ?_, fun xi3 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The body at a point with 0 < kv < 15: the three scratch buffers come in at what the point before left
    (`xs·`) and leave at the pieces this point's stores wrote; the output block is untouched. -/
noncomputable def kernelRun4_B (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (xi3 : Vec F S2x512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨[], ?_, ?_, ?_, fun xi3 E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The body at a point with kv = 15: as for 0 < kv < 15, and the output block (at anything before) leaves at
    the pieces of the one store of the normalised accumulator. -/
noncomputable def kernelRun4_C (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    Σ' (L3 : List (View.Piece (Elt F) S2x512x2048 .bf16)), Σ' (LS0 : List (View.Piece (Elt F) S2x512x1 .f32)), Σ' (LS1 : List (View.Piece (Elt F) S2x512x1 .f32)), { LS2 : List (View.Piece (Elt F) S2x512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc4__attn_kernel i arg2 harg2 arg3 harg3 arg4 harg4 arg5 harg5 arg6 harg6 arg7 harg7 arg8 harg8) K } := by
  refine ⟨?_, ?_, ?_, ?_, fun E K => ?run⟩
  case run =>
    simp only [cc4__attn_kernel_eq_skeleton]; unfold cc4__attn_kernel_skel
    simp only [k4_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R4.lean ====
import proofs.«175568_j46505905881160_2_alg».proof.Proof.K.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/- `V`: the buffer contents when the region is entered, the parameter everything below is stated at. -/
variable (V : (c : Dev nD) → (b : Ref sig .tc) → Buf (Elt F) ((c : Thread nD τ).loc b))

/-! # Region 4's half of the frame, at the entry contents `V`

## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (the query
    window is fetched only when kv = 0: in between its block index does not move), for any proof data whose array
    is `V`'s and whose body leaves the block in place. -/

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output block and in the three scratch buffers -/

/-- Case A stores nothing into the output block: no pieces, a placeholder nothing consults (the window is idle and
    not written back at these points). -/
def out4_A_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x2048 .bf16 :=
  VO4_3.read (Elt F) (VO4_3.writes (Elt F) VO4_3.junk (kernelRun4_A c i arg2 harg2 arg3 harg3 arg4 harg4 arg5 harg5 arg6 harg6 arg7 harg7 arg8 harg8 hc0 hc1 x0 x1 x2).1)

/-- Case A's stores into the scratch holding the running maximum cover it. -/
theorem scover4_A_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x1.Idx) :
    ∃ pc ∈ (kernelRun4_A c i arg2 harg2 arg3 harg3 arg4 harg4 arg5 harg5 arg6 harg6 arg7 harg7 arg8 harg8 hc0 hc1 x0 x1 x2).2.1, y ∈ pc.1.set :=
  View.cover_of_tiledL (kernelRun4_A c i arg2 harg2 arg3 harg3 arg4 harg4 arg5 harg5 arg6 harg6 arg7 harg7 arg8 harg8 hc0 hc1 x0 x1 x2).2.1 S2x512x1.size (by sl_kernel_rfl) y

/-- What case A leaves in the scratch holding the running maximum: its pieces read back. -/
def sout4_A_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x1 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2).2.1)

/-- Case A's stores into the scratch holding the running denominator cover it. -/
theorem scover4_A_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x1.Idx) :
    ∃ pc ∈ (kernelRun4_A c i arg2 harg2 arg3 harg3 arg4 harg4 arg5 harg5 arg6 harg6 arg7 harg7 arg8 harg8 hc0 hc1 x0 x1 x2).2.2.1, y ∈ pc.1.set :=
  View.cover_of_tiledL (kernelRun4_A c i arg2 harg2 arg3 harg3 arg4 harg4 arg5 harg5 arg6 harg6 arg7 harg7 arg8 harg8 hc0 hc1 x0 x1 x2).2.2.1 S2x512x1.size (by sl_kernel_rfl) y

/-- What case A leaves in the scratch holding the running denominator: its pieces read back. -/
def sout4_A_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x1 .f32 :=
  VS4_1.read (Elt F) (VS4_1.writes (Elt F) VS4_1.junk (kernelRun4_A c i arg2 harg2 arg3 harg3 arg4 harg4 arg5 harg5 arg6 harg6 arg7 harg7 arg8 harg8 hc0 hc1 x0 x1 x2).2.2.1)

/-- Case A's stores into the scratch holding the accumulator cover it. -/
theorem scover4_A_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) (y : S2x512x2048.Idx) :
    ∃ pc ∈ (kernelRun4_A c i arg2 harg2 arg3 harg3 arg4 harg4 arg5 harg5 arg6 harg6 arg7 harg7 arg8 harg8 hc0 hc1 x0 x1 x2).2.2.2.1, y ∈ pc.1.set :=
  View.cover_of_tiledL (kernelRun4_A c i arg2 harg2 arg3 harg3 arg4 harg4 arg5 harg5 arg6 harg6 arg7 harg7 arg8 harg8 hc0 hc1 x0 x1 x2).2.2.2.1 S2x512x2048.size (by sl_kernel_rfl) y

/-- What case A leaves in the scratch holding the accumulator: its pieces read back. -/
def sout4_A_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) : Vec F S2x512x2048 .f32 :=
  VS4_2.read (Elt F) (VS4_2.writes (Elt F) VS4_2.junk (kernelRun4_A c i arg2 harg2 arg3 harg3 arg4 harg4 arg5 harg5 arg6 harg6 arg7 harg7 arg8 harg8 hc0 hc1 x0 x1 x2).2.2.2.1)

/-- Case B stores nothing into the output block: no pieces, a placeholder nothing consults (the window is idle and
    not written back at these points). -/
def out4_B_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .bf16 :=
  VO4_3.read (Elt F) (VO4_3.writes (Elt F) VO4_3.junk (kernelRun4_B c i arg2 harg2 arg3 harg3 arg4 harg4 arg5 harg5 arg6 harg6 arg7 harg7 arg8 harg8 hc0 hc1 x0 x1 x2 xs0 xs1 xs2).1)

/-- Case B's stores into the scratch holding the running maximum cover it. -/
theorem scover4_B_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.1 S2x512x1.size (by sl_kernel_rfl) y

/-- What case B leaves in the scratch holding the running maximum: its pieces read back. -/
def sout4_B_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 xs0 xs1 xs2).2.1)

/-- Case B's stores into the scratch holding the running denominator cover it. -/
theorem scover4_B_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.2.1 S2x512x1.size (by sl_kernel_rfl) y

/-- What case B leaves in the scratch holding the running denominator: its pieces read back. -/
def sout4_B_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_1.read (Elt F) (VS4_1.writes (Elt F) VS4_1.junk (kernelRun4_B c i arg2 harg2 arg3 harg3 arg4 harg4 arg5 harg5 arg6 harg6 arg7 harg7 arg8 harg8 hc0 hc1 x0 x1 x2 xs0 xs1 xs2).2.2.1)

/-- Case B's stores into the scratch holding the accumulator cover it. -/
theorem scover4_B_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun4_B c i arg2 harg2 arg3 harg3 arg4 harg4 arg5 harg5 arg6 harg6 arg7 harg7 arg8 harg8 hc0 hc1 x0 x1 x2 xs0 xs1 xs2).2.2.2.1 S2x512x2048.size (by sl_kernel_rfl) y

/-- What case B leaves in the scratch holding the accumulator: its pieces read back. -/
def sout4_B_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .f32 :=
  VS4_2.read (Elt F) (VS4_2.writes (Elt F) VS4_2.junk (kernelRun4_B c i arg2 harg2 arg3 harg3 arg4 harg4 arg5 harg5 arg6 harg6 arg7 harg7 arg8 harg8 hc0 hc1 x0 x1 x2 xs0 xs1 xs2).2.2.2.1)

/-- Case C's one store into the output block covers it. -/
theorem cover4_C_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_C c i arg2 harg2 arg3 harg3 arg4 harg4 arg5 harg5 arg6 harg6 arg7 harg7 arg8 harg8 hc0 hc1 x0 x1 x2 xs0 xs1 xs2).1, y ∈ pc.1.set :=
  View.cover_of_tiledL (kernelRun4_C c i arg2 harg2 arg3 harg3 arg4 harg4 arg5 harg5 arg6 harg6 arg7 harg7 arg8 harg8 hc0 hc1 x0 x1 x2 xs0 xs1 xs2).1 S2x512x2048.size (by sl_kernel_rfl) y

/-- What case C leaves in the output block: its pieces read back. -/
def out4_C_3 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .bf16 :=
  VO4_3.read (Elt F) (VO4_3.writes (Elt F) VO4_3.junk (kernelRun4_C c i arg2 harg2 arg3 harg3 arg4 harg4 arg5 harg5 arg6 harg6 arg7 harg7 arg8 harg8 hc0 hc1 x0 x1 x2 xs0 xs1 xs2).1)

/-- Case C's stores into the scratch holding the running maximum cover it. -/
theorem scover4_C_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.1 S2x512x1.size (by sl_kernel_rfl) y

/-- What case C leaves in the scratch holding the running maximum: its pieces read back. -/
def sout4_C_0 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 xs0 xs1 xs2).2.1)

/-- Case C's stores into the scratch holding the running denominator cover it. -/
theorem scover4_C_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x1.Idx) :
    ∃ pc ∈ (kernelRun4_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.2.1 S2x512x1.size (by sl_kernel_rfl) y

/-- What case C leaves in the scratch holding the running denominator: its pieces read back. -/
def sout4_C_1 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x1 .f32 :=
  VS4_1.read (Elt F) (VS4_1.writes (Elt F) VS4_1.junk (kernelRun4_C c i arg2 harg2 arg3 harg3 arg4 harg4 arg5 harg5 arg6 harg6 arg7 harg7 arg8 harg8 hc0 hc1 x0 x1 x2 xs0 xs1 xs2).2.2.1)

/-- Case C's stores into the scratch holding the accumulator cover it. -/
theorem scover4_C_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) (y : S2x512x2048.Idx) :
    ∃ pc ∈ (kernelRun4_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun4_C c i arg2 harg2 arg3 harg3 arg4 harg4 arg5 harg5 arg6 harg6 arg7 harg7 arg8 harg8 hc0 hc1 x0 x1 x2 xs0 xs1 xs2).2.2.2.1 S2x512x2048.size (by sl_kernel_rfl) y

/-- What case C leaves in the scratch holding the accumulator: its pieces read back. -/
def sout4_C_2 (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) : Vec F S2x512x2048 .f32 :=
  VS4_2.read (Elt F) (VS4_2.writes (Elt F) VS4_2.junk (kernelRun4_C c i arg2 harg2 arg3 harg3 arg4 harg4 arg5 harg5 arg6 harg6 arg7 harg7 arg8 harg8 hc0 hc1 x0 x1 x2 xs0 xs1 xs2).2.2.2.1)

/-! ## What the buffers hold after each point -/

/-- THE ACCUMULATION: what the output's staging buffer and the three carried scratch buffers (maximum, denominator,
    accumulator) hold after the body at position `n`: the case the closed forms select at `n`, run at the point's
    memrefs and input blocks, the scratch buffers entering at what position `n - 1` left. -/
def outsAt4 (c : Dev nD) : (n : ℕ) → n < cfg4.N → Vec F S2x512x2048 .bf16 × Vec F S2x512x1 .f32 × Vec F S2x512x1 .f32 × Vec F S2x512x2048 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) scM4_2 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 16 = 0 then
      if h1 : (n + 1) % 16 = 15 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 16 = 15 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2, sout4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) scM4_2 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2.1 (outsAt4 c n (Nat.lt_of_succ_lt hn)).2.2.2)

/-- At a point with kv = 0. -/
theorem outsAt4_A (c : Dev nD) (t : Fin cfg4.N) (h0 : t.val % 16 = 0) (h1 : ¬t.val % 16 = 15) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t), sout4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- At a point with 0 < kv < 15: over what the point before left. -/
theorem outsAt4_B (c : Dev nD) (t : Fin cfg4.N) (h0 : ¬t.val % 16 = 0) (h1 : ¬t.val % 16 = 15) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point with kv = 15: over what the point before left. -/
theorem outsAt4_C (c : Dev nD) (t : Fin cfg4.N) (h0 : ¬t.val % 16 = 0) (h1 : t.val % 16 = 15) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2, sout4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the three carried scratch buffers at what the point before left in them, every other scoped buffer
    unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2.1) ∗ owns (c : Thread nD τ) scM4_2 fullShare ((outsAt4 V c n hn).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2.1) ∗ owns (c : Thread nD τ) scM4_2 fullShare ((outsAt4 V c (n - 1) (by omega)).2.2.2)) ∗ Pipeline.scopedRestBut (Ix := Unit) (Name := ℕ) (U := Pipeline.UD sig nD τ) (Lvl := ℕ) (Val := Elt F) spec4 c [cc4_scratch0, cc4_scratch1, cc4_scratch2]) ∗ (∃ r, prngReg c r)) := by
  cases n with
  | zero => exact absurd rfl hz
  | succ n => rfl

/-! ## The pipeline's proof data -/

/-- The proof data of region 4 on core `c`: the arrays as the region finds them; after the body at point `t`
    each input's buffer at its block and the output's at `outsAt4`'s first component; the invariant `PhiS4`;
    nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point. The inputs' memrefs hold their blocks; the closed forms of the two conditions say which of
    the three cases the point is in, and that case's run applies. The invariant hands the body the three scratch
    buffers at what the point before left (at anything at the first point) and takes them back at this point's
    contents, the pieces the run found covering each; the output block is stored only when kv = 15 and is handed
    back untouched otherwise; every other scoped buffer, the generator register and the core's owed waits pass
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  by_cases h0 : t.val % 16 = 0
  · by_cases h1 : t.val % 16 = 15
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      dsimp only
      by_cases hz : t.val = 0
      · rw [PhiS4_castSucc V c t, PhiS4_zero V c _ _ hz, PhiA4_eq]
        iintro ⟨⟨⟨⟨HS0, HS1, HS2⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover4_A_0 c _ _ _ _ _ _ _ _ _ _ _ _ _ _ _ _ _ _ _ _)
              isplitl [HS1]
              · unfold owns; iexists _; isplitr
                swap; · iexact HS1
                ipureintro; exact View.read_writes_of_cover _ _ _ _ _ (scover4_A_1 c _ _ _ _ _ _ _ _ _ _ _ _ _ _ _ _ _ _ _ _)
              unfold owns; iexists _; isplitr
              swap; · iexact HS2
              ipureintro; exact View.read_writes_of_cover _ _ _ _ _ (scover4_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨⟨HS0, HS1, HS2⟩, HR⟩, Hg⟩, Ho, ⟨%d0, H0⟩, ⟨%d1, H1⟩, ⟨%d2, H2⟩, ⟨%d3, H3⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover4_A_0 c _ _ _ _ _ _ _ _ _ _ _ _ _ _ _ _ _ _ _ _)
              isplitl [HS1]
              · unfold owns; iexists _; isplitr
                swap; · iexact HS1
                ipureintro; exact View.read_writes_of_cover _ _ _ _ _ (scover4_A_1 c _ _ _ _ _ _ _ _ _ _ _ _ _ _ _ _ _ _ _ _)
              unfold owns; iexists _; isplitr
              swap; · iexact HS2
              ipureintro; exact View.read_writes_of_cover _ _ _ _ _ (scover4_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      dsimp only
      have hz : t.val ≠ 0 := by omega
      rw [PhiS4_castSucc V c t, PhiS4_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover4_C_1 c _ _ _ _ _ _ _ _ _ _ _ _ _ _ _ _ _ _ _ _ _ _ _)
            unfold owns; iexists _; isplitr
            swap; · iexact HS2
            ipureintro; exact View.read_writes_of_cover _ _ _ _ _ (scover4_C_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      dsimp only
      have hz : t.val ≠ 0 := by omega
      rw [PhiS4_castSucc V c t, PhiS4_pos V c _ _ hz]
      iintro ⟨⟨⟨⟨HS0, HS1, HS2⟩, HR⟩, Hg⟩, Ho, ⟨%d0, H0⟩, ⟨%d1, H1⟩, ⟨%d2, H2⟩, ⟨%d3, H3⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover4_B_1 c _ _ _ _ _ _ _ _ _ _ _ _ _ _ _ _ _ _ _ _ _ _ _)
            unfold owns; iexists _; isplitr
            swap; · iexact HS2
            ipureintro; exact View.read_writes_of_cover _ _ _ _ _ (scover4_B_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: what the three scratch buffers hold is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.Kernel.Hand

end
-- ==== Proof.K.R5.lean ====
import proofs.«175568_j46505905881160_2_alg».proof.Proof.Gen.Kernel.Launch
import proofs.«175568_j46505905881160_2_alg».proof.Proof.Gen.Kernel.Skeleton
import proofs.«175568_j46505905881160_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one tile of a matrix product per grid point

The grid is 8 × 2. At point (i, j) the body reads a 1024 × 2048 block of the left operand (row block i; the same
block at both points of a row, so it is fetched only at j = 0) and a 2048 × 1024 block of the right operand
(column block j), and overwrites the whole 1024 × 1024 output block (i, j) with one store whose value is a pure
function of the two blocks read. Nothing is carried from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: the restriction of the window's array, as the region finds it, to the
    rectangle the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left operand's staging buffer holds the window's block at EVERY point, although it is fetched only at the
    first point of each row of the grid: where it is not fetched the block index has not moved, and the body left
    the previous block in place. Stated for any proof data over the region-entry arrays whose body keeps the block. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The right operand's staging buffer holds the window's block at every point (it is fetched at each). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole staging buffer -/

abbrev r5_0 : Rect S1024x2048 := Rect.unit (s := S1024x2048) ![0, 0] S1024x2048.size inb_S1024x2048_S1024x2048_0_0
abbrev r5_1 : Rect S2048x1024 := Rect.unit (s := S2048x1024) ![0, 0] S2048x1024.size inb_S2048x1024_S2048x1024_0_0
abbrev r5_2 : Rect S1024x1024 := Rect.unit (s := S1024x1024) ![0, 0] S1024x1024.size inb_S1024x1024_S1024x1024_0_0

/-! ## What the body leaves in the output window's buffer -/

/-- The output buffer after the body, as a function of the two input blocks: the one store's value laid over the
    whole buffer. -/
def out5_2 (x0 : Vec F S1024x2048 .bf16) (x1 : Vec F S2048x1024 .bf16) : Vec F S1024x1024 .f32 :=
  View.canon [⟨r5_2, k5_pay1 (View.ld x0 r5_0) (View.ld x1 r5_1)⟩]

/-- The one store's rectangle is the whole buffer, so every index of the buffer is covered. -/
theorem cover5_2 (p0 : Vec F S1024x1024 .f32) (y : S1024x1024.Idx) :
    ∃ pc ∈ ([⟨r5_2, p0⟩] : List (View.Piece (Elt F) S1024x1024 .f32)), y ∈ pc.1.set :=
  View.cover_of_tiled [⟨r5_2, p0⟩] S1024x1024.size (by rfl) y

/-! ## The body's triple -/

set_option maxHeartbeats 1000000 in
/-- The body on whole staging buffers, the inputs' reading `x0`, `x1` and the output's holding anything, runs
    without fault to a state where the inputs' are unchanged and the output's reads `out5_2 x0 x1`. -/
theorem sound_kernel5 (c : Dev nD) (E : Set ℕ) (i : grid5.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole)
    (x0 : Vec F S1024x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__matmul_kernel i arg2 harg2 arg3 harg3 arg4 harg4) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point
    `t` each input buffer at its block and the output buffer at `out5_2` of the two input blocks; the invariant
    is the untouched rest; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the input buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
import proofs.«175568_j46505905881160_2_alg».proof.Proof.K.R0
import proofs.«175568_j46505905881160_2_alg».proof.Proof.K.R1
import proofs.«175568_j46505905881160_2_alg».proof.Proof.K.R2
import proofs.«175568_j46505905881160_2_alg».proof.Proof.K.R3
import proofs.«175568_j46505905881160_2_alg».proof.Proof.K.R4
import proofs.«175568_j46505905881160_2_alg».proof.Proof.K.R5
import proofs.«175568_j46505905881160_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The contents of core `c`'s buffers at each boundary between two items of @main: a fold from the launch memory.
    A host stretch leaves `StableHlo.after` of its operations; a region leaves its windows' arrays at what the pipeline's
    write-backs fold to (`Dat.arrAt … N`) and every other buffer as it found it. -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After item 1, region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After item 2, region 1: its windows' arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After item 3, region 2: its windows' arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After item 4, the host stretch `hostOps3`. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h

/-- After item 5, region 3: its windows' arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After item 6, region 4: its windows' arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- After item 7, the host stretch `hostOps5`. -/
abbrev W8 : Dev nD → Valuation τ sig (Elt F) := fun c => StableHlo.after hostOps5 (W7 m ρ c)
abbrev V8 : (c : Dev nD) → (b : Ref sig .tc) → Buf (Elt F) ((c : Thread nD τ).loc b) := fun c b => W8 m ρ c b
theorem W8_of (c : Dev nD) (r : Ref sig .tc) (h : r ∉ hostOps5_W) : W8 m ρ c (Proc.devRef .tc r) = W7 m ρ c (Proc.devRef .tc r) :=
  StableHlo.after_of_writes_sub hostOps5 _ hostOps5_writes h

/-- After item 8, region 5: its windows' arrays at what the pipeline leaves, every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After item 9, the host stretch `hostOps6`. -/
abbrev W10 : Dev nD → Valuation τ sig (Elt F) := fun c => StableHlo.after hostOps6 (W9 m ρ c)
abbrev V10 : (c : Dev nD) → (b : Ref sig .tc) → Buf (Elt F) ((c : Thread nD τ).loc b) := fun c b => W10 m ρ c b
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h

/-! ## The arguments end as launched: no host operation writes one and no region has one as a window's array -/
theorem W10_main_arg0 (c : Dev nD) : W10 m ρ c (Proc.devRef .tc main_arg0) = m ((c : Thread nD τ).loc main_arg0) :=
  (W10_of m ρ c main_arg0 (by decide)).trans <| (W9_of_ne m ρ c main_arg0 (by decide)).trans <| (W8_of m ρ c main_arg0 (by decide)).trans <| (W7_of_ne m ρ c main_arg0 (by decide)).trans <| (W6_of_ne m ρ c main_arg0 (by decide)).trans <| (W5_of m ρ c main_arg0 (by decide)).trans <| (W4_of_ne m ρ c main_arg0 (by decide)).trans <| (W3_of_ne m ρ c main_arg0 (by decide)).trans <| (W2_of_ne m ρ c main_arg0 (by decide)).trans <| (W1_of m ρ c main_arg0 (by decide)).trans rfl
theorem W10_main_arg1 (c : Dev nD) : W10 m ρ c (Proc.devRef .tc main_arg1) = m ((c : Thread nD τ).loc main_arg1) :=
  (W10_of m ρ c main_arg1 (by decide)).trans <| (W9_of_ne m ρ c main_arg1 (by decide)).trans <| (W8_of m ρ c main_arg1 (by decide)).trans <| (W7_of_ne m ρ c main_arg1 (by decide)).trans <| (W6_of_ne m ρ c main_arg1 (by decide)).trans <| (W5_of m ρ c main_arg1 (by decide)).trans <| (W4_of_ne m ρ c main_arg1 (by decide)).trans <| (W3_of_ne m ρ c main_arg1 (by decide)).trans <| (W2_of_ne m ρ c main_arg1 (by decide)).trans <| (W1_of m ρ c main_arg1 (by decide)).trans rfl
theorem W10_main_arg2 (c : Dev nD) : W10 m ρ c (Proc.devRef .tc main_arg2) = m ((c : Thread nD τ).loc main_arg2) :=
  (W10_of m ρ c main_arg2 (by decide)).trans <| (W9_of_ne m ρ c main_arg2 (by decide)).trans <| (W8_of m ρ c main_arg2 (by decide)).trans <| (W7_of_ne m ρ c main_arg2 (by decide)).trans <| (W6_of_ne m ρ c main_arg2 (by decide)).trans <| (W5_of m ρ c main_arg2 (by decide)).trans <| (W4_of_ne m ρ c main_arg2 (by decide)).trans <| (W3_of_ne m ρ c main_arg2 (by decide)).trans <| (W2_of_ne m ρ c main_arg2 (by decide)).trans <| (W1_of m ρ c main_arg2 (by decide)).trans rfl
theorem W10_main_arg3 (c : Dev nD) : W10 m ρ c (Proc.devRef .tc main_arg3) = m ((c : Thread nD τ).loc main_arg3) :=
  (W10_of m ρ c main_arg3 (by decide)).trans <| (W9_of_ne m ρ c main_arg3 (by decide)).trans <| (W8_of m ρ c main_arg3 (by decide)).trans <| (W7_of_ne m ρ c main_arg3 (by decide)).trans <| (W6_of_ne m ρ c main_arg3 (by decide)).trans <| (W5_of m ρ c main_arg3 (by decide)).trans <| (W4_of_ne m ρ c main_arg3 (by decide)).trans <| (W3_of_ne m ρ c main_arg3 (by decide)).trans <| (W2_of_ne m ρ c main_arg3 (by decide)).trans <| (W1_of m ρ c main_arg3 (by decide)).trans rfl
theorem W10_main_arg4 (c : Dev nD) : W10 m ρ c (Proc.devRef .tc main_arg4) = m ((c : Thread nD τ).loc main_arg4) :=
  (W10_of m ρ c main_arg4 (by decide)).trans <| (W9_of_ne m ρ c main_arg4 (by decide)).trans <| (W8_of m ρ c main_arg4 (by decide)).trans <| (W7_of_ne m ρ c main_arg4 (by decide)).trans <| (W6_of_ne m ρ c main_arg4 (by decide)).trans <| (W5_of m ρ c main_arg4 (by decide)).trans <| (W4_of_ne m ρ c main_arg4 (by decide)).trans <| (W3_of_ne m ρ c main_arg4 (by decide)).trans <| (W2_of_ne m ρ c main_arg4 (by decide)).trans <| (W1_of m ρ c main_arg4 (by decide)).trans rfl
theorem W10_main_arg5 (c : Dev nD) : W10 m ρ c (Proc.devRef .tc main_arg5) = m ((c : Thread nD τ).loc main_arg5) :=
  (W10_of m ρ c main_arg5 (by decide)).trans <| (W9_of_ne m ρ c main_arg5 (by decide)).trans <| (W8_of m ρ c main_arg5 (by decide)).trans <| (W7_of_ne m ρ c main_arg5 (by decide)).trans <| (W6_of_ne m ρ c main_arg5 (by decide)).trans <| (W5_of m ρ c main_arg5 (by decide)).trans <| (W4_of_ne m ρ c main_arg5 (by decide)).trans <| (W3_of_ne m ρ c main_arg5 (by decide)).trans <| (W2_of_ne m ρ c main_arg5 (by decide)).trans <| (W1_of m ρ c main_arg5 (by decide)).trans rfl
theorem W10_main_arg6 (c : Dev nD) : W10 m ρ c (Proc.devRef .tc main_arg6) = m ((c : Thread nD τ).loc main_arg6) :=
  (W10_of m ρ c main_arg6 (by decide)).trans <| (W9_of_ne m ρ c main_arg6 (by decide)).trans <| (W8_of m ρ c main_arg6 (by decide)).trans <| (W7_of_ne m ρ c main_arg6 (by decide)).trans <| (W6_of_ne m ρ c main_arg6 (by decide)).trans <| (W5_of m ρ c main_arg6 (by decide)).trans <| (W4_of_ne m ρ c main_arg6 (by decide)).trans <| (W3_of_ne m ρ c main_arg6 (by decide)).trans <| (W2_of_ne m ρ c main_arg6 (by decide)).trans <| (W1_of m ρ c main_arg6 (by decide)).trans rfl
theorem W10_main_arg7 (c : Dev nD) : W10 m ρ c (Proc.devRef .tc main_arg7) = m ((c : Thread nD τ).loc main_arg7) :=
  (W10_of m ρ c main_arg7 (by decide)).trans <| (W9_of_ne m ρ c main_arg7 (by decide)).trans <| (W8_of m ρ c main_arg7 (by decide)).trans <| (W7_of_ne m ρ c main_arg7 (by decide)).trans <| (W6_of_ne m ρ c main_arg7 (by decide)).trans <| (W5_of m ρ c main_arg7 (by decide)).trans <| (W4_of_ne m ρ c main_arg7 (by decide)).trans <| (W3_of_ne m ρ c main_arg7 (by decide)).trans <| (W2_of_ne m ρ c main_arg7 (by decide)).trans <| (W1_of m ρ c main_arg7 (by decide)).trans rfl

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
  | ⟨5, _⟩ => fun c => dat5 (V8 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W5`, left at `W6`. Its arrays are split
    out of the unscoped buffers and put back at the exit contents; the generator register goes into the region's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W6`, left at `W7`. Its arrays are split
    out of the unscoped buffers and put back at the exit contents; the generator register goes into the region's invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec4 c : sProp 𝕄) ⊢ (pdats m ρ 4 c).Φ 0 := hin4 (V6 m ρ) c
    unfold Pipeline.ΦA at hΦ
    iintro ⟨Hp, -, Hr⟩
    iapply hΦ
    isplitl [Hr]; · iexact Hr
    iexact Hp
  hout c := by
    rw [Pipeline.ownSems0_none]
    have hΦ : (pdats m ρ 4 c).Φ (Fin.last _) ⊢ (Pipeline.ΦA spec4 c : sProp 𝕄) := hout4 (V6 m ρ) c
    unfold Pipeline.ΦA at hΦ
    iintro Hphi
    ihave H := hΦ $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W8`, left at `W9`. Its arrays are split
    out of the unscoped buffers and put back at the exit contents; the generator register goes into the region's invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev H0 := hseg (F := F) hostOps0 hostOps0_sub hostOps0_fresh (W0 m ρ)
abbrev H3 := hseg (F := F) hostOps3 hostOps3_sub hostOps3_fresh (W4 m ρ)
abbrev H5 := hseg (F := F) hostOps5 hostOps5_sub hostOps5_fresh (W7 m ρ)
abbrev H6 := hseg (F := F) hostOps6 hostOps6_sub hostOps6_fresh (W9 m ρ)

abbrev segs : List (Pipeline.Seg (pcfgs (F := F)) adm (pdats m ρ) () defs₀ 𝒱₀ L lv) :=
  [ .host (H0 m ρ), .region (reg0 m ρ), .region (reg1 m ρ), .region (reg2 m ρ), .host (H3 m ρ),
    .region (reg3 m ρ), .region (reg4 m ρ), .host (H5 m ρ), .region (reg5 m ρ), .host (H6 m ρ) ]

theorem main_run (c : Dev nD) : main (F := F) c = Pipeline.Seg.run (segs m ρ) :=
  main_segs adm (pdats m ρ) () 𝒱₀ L lv (H0 m ρ) (H3 m ρ) (H5 m ρ) (H6 m ρ) (reg0 m ρ) (reg1 m ρ) (reg2 m ρ) (reg3 m ρ) (reg4 m ρ) (reg5 m ρ) rfl rfl rfl rfl c

set_option backward.isDefEq.respectTransparency.types false in
/-- THE RUN. From any memory with zero counters every weakly fair execution of @main terminates, nothing faulting, and in
    every final state each unscoped buffer of every core holds the last boundary's contents `W10`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Hand

end
-- ==== Proof.KI.Walk.lean ====
import proofs.«175568_j46505905881160_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # A buffer read at a later boundary holds what the item that wrote it left: no item in between writes it
    (a region in between that stages it as an input window leaves its array as found). -/

theorem walk_v29_10_5 (c : Dev nD) : W10 m ρ c (Proc.devRef .tc main_v29) = W5 m ρ c (Proc.devRef .tc main_v29) :=
  (W10_of m ρ c main_v29 (by decide)).trans <| (W9_of_ne m ρ c main_v29 (by decide)).trans <| (W8_of m ρ c main_v29 (by decide)).trans <| (W7_of_ne m ρ c main_v29 (by decide)).trans <| (W6_of_ne m ρ c main_v29 (by decide))

theorem walk_v15_3_1 (c : Dev nD) : W3 m ρ c (Proc.devRef .tc main_v15) = W1 m ρ c (Proc.devRef .tc main_v15) :=
  ((W3_arr m ρ c 0).trans (((dat1 (V2 m ρ) c).arrAt_in 0 rfl _).trans (A_eq1 (V2 m ρ) c 0))).trans <| ((W2_arr m ρ c 0).trans (((dat0 (V1 m ρ) c).arrAt_in 0 rfl _).trans (A_eq0 (V1 m ρ) c 0)))

theorem walk_v15_2_1 (c : Dev nD) : W2 m ρ c (Proc.devRef .tc main_v15) = W1 m ρ c (Proc.devRef .tc main_v15) :=
  ((W2_arr m ρ c 0).trans (((dat0 (V1 m ρ) c).arrAt_in 0 rfl _).trans (A_eq0 (V1 m ρ) c 0)))

theorem walk_v19_2_1 (c : Dev nD) : W2 m ρ c (Proc.devRef .tc main_v19) = W1 m ρ c (Proc.devRef .tc main_v19) :=
  (W2_of_ne m ρ c main_v19 (by decide))

theorem walk_v21_3_1 (c : Dev nD) : W3 m ρ c (Proc.devRef .tc main_v21) = W1 m ρ c (Proc.devRef .tc main_v21) :=
  (W3_of_ne m ρ c main_v21 (by decide)).trans <| (W2_of_ne m ρ c main_v21 (by decide))

theorem walk_v23_8_1 (c : Dev nD) : W8 m ρ c (Proc.devRef .tc main_v23) = W1 m ρ c (Proc.devRef .tc main_v23) :=
  (W8_of m ρ c main_v23 (by decide)).trans <| (W7_of_ne m ρ c main_v23 (by decide)).trans <| (W6_of_ne m ρ c main_v23 (by decide)).trans <| (W5_of m ρ c main_v23 (by decide)).trans <| (W4_of_ne m ρ c main_v23 (by decide)).trans <| (W3_of_ne m ρ c main_v23 (by decide)).trans <| (W2_of_ne m ρ c main_v23 (by decide))

theorem walk_v6_5_1 (c : Dev nD) : W5 m ρ c (Proc.devRef .tc main_v6) = W1 m ρ c (Proc.devRef .tc main_v6) :=
  (W5_of m ρ c main_v6 (by decide)).trans <| (W4_of_ne m ρ c main_v6 (by decide)).trans <| (W3_of_ne m ρ c main_v6 (by decide)).trans <| (W2_of_ne m ρ c main_v6 (by decide))

theorem walk_v13_5_1 (c : Dev nD) : W5 m ρ c (Proc.devRef .tc main_v13) = W1 m ρ c (Proc.devRef .tc main_v13) :=
  (W5_of m ρ c main_v13 (by decide)).trans <| (W4_of_ne m ρ c main_v13 (by decide)).trans <| (W3_of_ne m ρ c main_v13 (by decide)).trans <| (W2_of_ne m ρ c main_v13 (by decide))

theorem walk_v30_6_5 (c : Dev nD) : W6 m ρ c (Proc.devRef .tc main_v30) = W5 m ρ c (Proc.devRef .tc main_v30) :=
  (W6_of_ne m ρ c main_v30 (by decide))

theorem walk_v31_2_9_6 (c : Dev nD) : W9 m ρ c (Proc.devRef .tc main_v31_2) = W6 m ρ c (Proc.devRef .tc main_v31_2) :=
  (W9_of_ne m ρ c main_v31_2 (by decide)).trans <| (W8_of m ρ c main_v31_2 (by decide)).trans <| (W7_of_ne m ρ c main_v31_2 (by decide))

theorem walk_v24_4_2 (c : Dev nD) : W4 m ρ c (Proc.devRef .tc main_v24) = W2 m ρ c (Proc.devRef .tc main_v24) :=
  (W4_of_ne m ρ c main_v24 (by decide)).trans <| (W3_of_ne m ρ c main_v24 (by decide))

theorem walk_v25_4_3 (c : Dev nD) : W4 m ρ c (Proc.devRef .tc main_v25) = W3 m ρ c (Proc.devRef .tc main_v25) :=
  (W4_of_ne m ρ c main_v25 (by decide))

end Cert.KernelIdeal.Hand

end
-- ==== Proof.Ref.Form.lean ====
/-
  The closed forms of the reference's three results, as plain functions of the argument arrays into the
  extended reals. Nothing here mentions a printed program: the shapes are literal, an index is built from its
  coordinates, and every float literal stays the word it was printed as.

  With x the activations [2, 4096, 2048], wq wk wv wo the weights [2048, 2048] and c, n the two rotation tables
  [4096, 1024] (already looked up by position):
    proj x w (b, s, o)   = Σ_h x(b, s, h) · w(o, h)
    rot y c n (b, s, 2d)   = y(b, s, d) · c(s, d) − y(b, s, 1024 + d) · n(s, d)         (real part of pair d)
    rot y c n (b, s, 2d+1) = y(b, s, d) · n(s, d) + y(b, s, 1024 + d) · c(s, d)         (imaginary part)
    score qr kr (b, q, k) = (Σ_e qr(b, q, e) · kr(b, k, e)) · 1/8
    rowMax, expo, denom, prob : the row-wise softmax of the scores, the maximum taken from −∞
    ctx (b, q, d)        = Σ_k prob(b, q, k) · v(b, k, d)
    outp (b, s, o)       = Σ_h ctx(b, s, h) · wo(o, h)
-/
import Idealize.ShloMosaic.PureOps.Ideal
import Idealize.ShloMosaic.Lib.ValueIdx

noncomputable section

open scoped BigOperators

namespace Cert.ReferenceIdeal.Hand

open Idealize.ShloMosaic Idealize.ShloMosaic.ValueIdx

/-- Activations [2, 4096, 2048]. -/
abbrev Act := (⟨3, ![2, 4096, 2048]⟩ : Shape).Idx → EReal
/-- A weight matrix [2048, 2048], stored output-major: entry (o, h). -/
abbrev Wt := (⟨2, ![2048, 2048]⟩ : Shape).Idx → EReal
/-- A rotation table [4096, 1024]: entry (position, pair). -/
abbrev Tab := (⟨2, ![4096, 1024]⟩ : Shape).Idx → EReal
/-- A [2, 4096, 2048] array by its three coordinates. -/
abbrev Fn3 := Fin 2 → Fin 4096 → Fin 2048 → EReal
/-- A [2, 4096, 4096] array by its three coordinates. -/
abbrev Sq3 := Fin 2 → Fin 4096 → Fin 4096 → EReal

/-- x · wᵀ over the hidden axis. -/
def proj (x : Act) (w : Wt) : Fn3 := fun b s o => ∑ h : Fin 2048, x (ix3 b s h) * w (ix2 o h)

/-- Lane d of the first half of the hidden axis. -/
def lo (d : Fin 1024) : Fin 2048 := ⟨d.val, by have := d.isLt; omega⟩
/-- Lane 1024 + d, its partner in the second half. -/
def hi (d : Fin 1024) : Fin 2048 := ⟨1024 + d.val, by have := d.isLt; omega⟩

/-- The real part of pair d after the rotation: y_lo · cos − y_hi · sin. -/
def rotRe (y : Fn3) (c n : Tab) (b : Fin 2) (s : Fin 4096) (d : Fin 1024) : EReal :=
  y b s (lo d) * c (ix2 s d) - y b s (hi d) * n (ix2 s d)
/-- The imaginary part of pair d after the rotation: y_lo · sin + y_hi · cos. -/
def rotIm (y : Fn3) (c n : Tab) (b : Fin 2) (s : Fin 4096) (d : Fin 1024) : EReal :=
  y b s (lo d) * n (ix2 s d) + y b s (hi d) * c (ix2 s d)

/-- The pair a lane of the interleaved result belongs to. -/
def pairOf (e : Fin 2048) : Fin 1024 := ⟨e.val / 2, by have := e.isLt; omega⟩

/-- The rotated array, interleaved: lane 2d holds the real part of pair d, lane 2d + 1 its imaginary part. -/
def rot (y : Fn3) (c n : Tab) : Fn3 := fun b s e =>
  if e.val % 2 = 0 then rotRe y c n b s (pairOf e) else rotIm y c n b s (pairOf e)

/-- Lane 2d of the interleaved axis. -/
def evenLane (d : Fin 1024) : Fin 2048 := ⟨2 * d.val, by have := d.isLt; omega⟩
/-- Lane 2d + 1 of the interleaved axis. -/
def oddLane (d : Fin 1024) : Fin 2048 := ⟨2 * d.val + 1, by have := d.isLt; omega⟩

theorem rot_even (y : Fn3) (c n : Tab) (b : Fin 2) (s : Fin 4096) (d : Fin 1024) :
    rot y c n b s (evenLane d) = rotRe y c n b s d := by
  have hp : pairOf (evenLane d) = d := Fin.ext (by show 2 * d.val / 2 = d.val; omega)
  have hm : (evenLane d).val % 2 = 0 := by show 2 * d.val % 2 = 0; omega
  unfold rot; rw [if_pos hm, hp]

theorem rot_odd (y : Fn3) (c n : Tab) (b : Fin 2) (s : Fin 4096) (d : Fin 1024) :
    rot y c n b s (oddLane d) = rotIm y c n b s d := by
  have hp : pairOf (oddLane d) = d := Fin.ext (by show (2 * d.val + 1) / 2 = d.val; omega)
  have hm : ¬ (oddLane d).val % 2 = 0 := by show ¬ (2 * d.val + 1) % 2 = 0; omega
  unfold rot; rw [if_neg hm, hp]

/-- The attention logits: the rotated queries against the rotated keys over the whole hidden axis, times the
    word 0x3E000000 (one eighth). -/
def score (qr kr : Fn3) : Sq3 := fun b q k =>
  (∑ e : Fin 2048, qr b q e * kr b k e) * Ideal.ofBits .f32 0x3E000000#32

/-- The row maximum of the logits, the fold started from the word 0xFF800000 (−∞) and joined once more with it. -/
def rowMax (sc : Sq3) (b : Fin 2) (q : Fin 4096) : EReal :=
  max (Ideal.ofBits .f32 0xFF800000#32)
    ((Finset.univ : Finset (Fin 4096)).fold max (Ideal.ofBits .f32 0xFF800000#32) (fun k => sc b q k))

/-- exp (logit − row maximum). -/
def expo (sc : Sq3) : Sq3 := fun b q k => Ideal.exp (sc b q k - rowMax sc b q)

/-- The row sum of the exponentials, from the word 0x00000000. -/
def denom (sc : Sq3) (b : Fin 2) (q : Fin 4096) : EReal :=
  Ideal.ofBits .f32 0x00000000#32 + ∑ k : Fin 4096, expo sc b q k

/-- The attention weights. -/
def prob (sc : Sq3) : Sq3 := fun b q k => Ideal.div (expo sc b q k) (denom sc b q)

/-- The weights applied to the values. -/
def ctx (sc : Sq3) (v : Fn3) : Fn3 := fun b q d => ∑ k : Fin 4096, prob sc b q k * v b k d

/-- The output projection: cx · woᵀ over the hidden axis. -/
def outp (cx : Fn3) (wo : Wt) : Fn3 := fun b s o => ∑ h : Fin 2048, cx b s h * wo (ix2 o h)

end Cert.ReferenceIdeal.Hand

end
-- ==== Proof.Spec.FlatIdx.lean ====
/-
  The batch and sequence axes merged: row 4096 · b + s of the flattened [8192, ·] arrays is position s of batch b.
-/
import Mathlib.Data.Fin.Basic

namespace Cert.Spec

/-- Row 4096 · b + s of a flattened array. -/
def flat (b : Fin 2) (s : Fin 4096) : Fin 8192 := ⟨4096 * b.val + s.val, by have := b.isLt; have := s.isLt; omega⟩

theorem flat_val (b : Fin 2) (s : Fin 4096) : (flat b s).val = 4096 * b.val + s.val := rfl

/-- Every row is one batch's position. -/
theorem exists_flat (r : Fin 8192) : ∃ (b : Fin 2) (s : Fin 4096), r = flat b s :=
  ⟨⟨r.val / 4096, by have := r.isLt; omega⟩, ⟨r.val % 4096, Nat.mod_lt _ (by decide)⟩,
    Fin.ext (by show r.val = 4096 * (r.val / 4096) + r.val % 4096; omega)⟩

theorem flat_inj {b b' : Fin 2} {s s' : Fin 4096} (h : flat b s = flat b' s') : b = b' ∧ s = s' := by
  have hv : 4096 * b.val + s.val = 4096 * b'.val + s'.val := congrArg Fin.val h
  have := s.isLt; have := s'.isLt
  exact ⟨Fin.ext (by omega), Fin.ext (by omega)⟩

end Cert.Spec
-- ==== Proof.KI.HostLay.lean ====
/-
  The layout steps the host applies around the kernels, read at an index, for any array.
  * Merging the batch and sequence axes, [2, 4096, 2048] ↔ [8192, 2048]: row 4096 · b + s is position s of batch b.
  * The re-interleaving of a half-split hidden axis: the two halves [0, 1024) and [1024, 2048) are given a trailing
    unit axis, joined on it and the last two axes merged, so lane 2d of the result is lane d of the first half and
    lane 2d + 1 is lane 1024 + d.
-/
import proofs.«175568_j46505905881160_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«175568_j46505905881160_2_alg».proof.Proof.Ref.Form
import proofs.«175568_j46505905881160_2_alg».proof.Proof.Spec.FlatIdx
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo
open Cert.ReferenceIdeal.Hand (lo hi evenLane oddLane pairOf)

open Cert.Spec (flat)

section
variable {α : Type}

/-- [8192, 2048] → [2, 4096, 2048] at (b, s, o): row 4096 · b + s, column o. -/
theorem unflat_apply (x : S8192x2048.Idx → α) (b : Fin 2) (s : Fin 4096) (o : Fin 2048) :
    shapeCast S2x4096x2048 x shapeCasts_S8192x2048_S2x4096x2048 (ix3 b s o) = x (ix2 (flat b s) o) :=
  shapeCast_apply x shapeCasts_S8192x2048_S2x4096x2048 (ix3 b s o) (ix2 (flat b s) o) (by
    rewrite [Shape.rowMajor_val_two, Shape.rowMajor_val_three]
    have hb := b.isLt; have hs := s.isLt; have ho := o.isLt
    show (4096 * b.val + s.val) * 2048 + o.val = (b.val * 4096 + s.val) * 2048 + o.val
    omega)

/-- [2, 4096, 2048] → [8192, 2048] at (4096 · b + s, h): entry (b, s, h). -/
theorem flat_apply (x : S2x4096x2048.Idx → α) (b : Fin 2) (s : Fin 4096) (h : Fin 2048) :
    shapeCast S8192x2048 x shapeCasts_S2x4096x2048_S8192x2048 (ix2 (flat b s) h) = x (ix3 b s h) :=
  shapeCast_apply x shapeCasts_S2x4096x2048_S8192x2048 (ix2 (flat b s) h) (ix3 b s h) (by
    rewrite [Shape.rowMajor_val_two, Shape.rowMajor_val_three]
    have hb := b.isLt; have hs := s.isLt; have hh := h.isLt
    show (b.val * 4096 + s.val) * 2048 + h.val = (4096 * b.val + s.val) * 2048 + h.val
    omega)

/-- The re-interleaving of a half-split last axis. -/
def interleave (x : S2x4096x2048.Idx → α) : S2x4096x2048.Idx → α :=
  shapeCast S2x4096x2048
    (concatenate S2x4096x1024x2 3
      [⟨S2x4096x1024x1, broadcastInDim S2x4096x1024x1 ![0, 1, 2] bcast_S2x4096x1024_S2x4096x1024x1_0_1_2
          (extractStridedSlice S2x4096x1024 ![0, 0, 0] x slices_S2x4096x2048_S2x4096x1024_0_0_0)⟩,
        ⟨S2x4096x1024x1, broadcastInDim S2x4096x1024x1 ![0, 1, 2] bcast_S2x4096x1024_S2x4096x1024x1_0_1_2
          (extractStridedSlice S2x4096x1024 ![0, 0, 1024] x slices_S2x4096x2048_S2x4096x1024_0_0_1024)⟩]
      concatenates_S2x4096x1024x1_S2x4096x1024x1_S2x4096x1024x2_d3)
    shapeCasts_S2x4096x1024x2_S2x4096x2048

/-- A half with a trailing unit axis, read at (b, s, d, 0): the array at (b, s, off + d). -/
theorem half_lo_apply (x : S2x4096x2048.Idx → α) (b : Fin 2) (s : Fin 4096) (d : Fin 1024) (z : Fin 1) :
    broadcastInDim S2x4096x1024x1 ![0, 1, 2] bcast_S2x4096x1024_S2x4096x1024x1_0_1_2
      (extractStridedSlice S2x4096x1024 ![0, 0, 0] x slices_S2x4096x2048_S2x4096x1024_0_0_0) (ix4 b s d z) = x (ix3 b s (lo d)) := by
  refine (broadcastInDim_apply _ bcast_S2x4096x1024_S2x4096x1024x1_0_1_2 _ (ix4 b s d z) (ix3 b s d) (fun a => by
    match a with
    | ⟨0, _⟩ => show b.val = if (2 : Nat) = 1 then 0 else b.val; rw [if_neg (by decide)]
    | ⟨1, _⟩ => show s.val = if (4096 : Nat) = 1 then 0 else s.val; rw [if_neg (by decide)]
    | ⟨2, _⟩ => show d.val = if (1024 : Nat) = 1 then 0 else d.val; rw [if_neg (by decide)])).trans ?_
  exact extractStridedSlice_apply ![0, 0, 0] x slices_S2x4096x2048_S2x4096x1024_0_0_0 (ix3 b s d) (ix3 b s (lo d)) (fun a => by
    match a with
    | ⟨0, _⟩ => show b.val = 0 + b.val; omega
    | ⟨1, _⟩ => show s.val = 0 + s.val; omega
    | ⟨2, _⟩ => show d.val = 0 + d.val; omega)

theorem half_hi_apply (x : S2x4096x2048.Idx → α) (b : Fin 2) (s : Fin 4096) (d : Fin 1024) (z : Fin 1) :
    broadcastInDim S2x4096x1024x1 ![0, 1, 2] bcast_S2x4096x1024_S2x4096x1024x1_0_1_2
      (extractStridedSlice S2x4096x1024 ![0, 0, 1024] x slices_S2x4096x2048_S2x4096x1024_0_0_1024) (ix4 b s d z) = x (ix3 b s (hi d)) := by
  refine (broadcastInDim_apply _ bcast_S2x4096x1024_S2x4096x1024x1_0_1_2 _ (ix4 b s d z) (ix3 b s d) (fun a => by
    match a with
    | ⟨0, _⟩ => show b.val = if (2 : Nat) = 1 then 0 else b.val; rw [if_neg (by decide)]
    | ⟨1, _⟩ => show s.val = if (4096 : Nat) = 1 then 0 else s.val; rw [if_neg (by decide)]
    | ⟨2, _⟩ => show d.val = if (1024 : Nat) = 1 then 0 else d.val; rw [if_neg (by decide)])).trans ?_
  exact extractStridedSlice_apply ![0, 0, 1024] x slices_S2x4096x2048_S2x4096x1024_0_0_1024 (ix3 b s d) (ix3 b s (hi d)) (fun a => by
    match a with
    | ⟨0, _⟩ => show b.val = 0 + b.val; omega
    | ⟨1, _⟩ => show s.val = 0 + s.val; omega
    | ⟨2, _⟩ => show 1024 + d.val = 1024 + d.val; rfl)

/-- Lane 2d of the re-interleaved array is lane d of the first half. -/
theorem interleave_even (x : S2x4096x2048.Idx → α) (b : Fin 2) (s : Fin 4096) (d : Fin 1024) :
    interleave x (ix3 b s (evenLane d)) = x (ix3 b s (lo d)) := by
  unfold interleave
  refine (shapeCast_apply _ shapeCasts_S2x4096x1024x2_S2x4096x2048 (ix3 b s (evenLane d)) (ix4 b s d (0 : Fin 2)) (by
    rewrite [Shape.rowMajor_val_four, Shape.rowMajor_val_three]
    have hb := b.isLt; have hs := s.isLt; have hd := d.isLt
    show ((b.val * 4096 + s.val) * 1024 + d.val) * 2 + 0 = (b.val * 4096 + s.val) * 2048 + 2 * d.val
    omega)).trans ?_
  refine (concatenate_pair_apply_left (3 : Fin S2x4096x1024x2.rank) _ _ concatenates_S2x4096x1024x1_S2x4096x1024x1_S2x4096x1024x2_d3
    (ix4 b s d (0 : Fin 2)) rfl (ix4 b s d (0 : Fin 1)) (fun a => by
      match a with
      | ⟨0, _⟩ => rfl
      | ⟨1, _⟩ => rfl
      | ⟨2, _⟩ => rfl
      | ⟨3, _⟩ => rfl)).trans ?_
  exact half_lo_apply x b s d 0

/-- Lane 2d + 1 is lane 1024 + d, of the second half. -/
theorem interleave_odd (x : S2x4096x2048.Idx → α) (b : Fin 2) (s : Fin 4096) (d : Fin 1024) :
    interleave x (ix3 b s (oddLane d)) = x (ix3 b s (hi d)) := by
  unfold interleave
  refine (shapeCast_apply _ shapeCasts_S2x4096x1024x2_S2x4096x2048 (ix3 b s (oddLane d)) (ix4 b s d (1 : Fin 2)) (by
    rewrite [Shape.rowMajor_val_four, Shape.rowMajor_val_three]
    have hb := b.isLt; have hs := s.isLt; have hd := d.isLt
    show ((b.val * 4096 + s.val) * 1024 + d.val) * 2 + 1 = (b.val * 4096 + s.val) * 2048 + (2 * d.val + 1)
    omega)).trans ?_
  refine (concatenate_pair_apply_right (3 : Fin S2x4096x1024x2.rank) _ _ concatenates_S2x4096x1024x1_S2x4096x1024x1_S2x4096x1024x2_d3
    (ix4 b s d (1 : Fin 2)) rfl rfl (ix4 b s d (0 : Fin 1)) (fun a ha => by
      match a with
      | ⟨0, _⟩ => rfl
      | ⟨1, _⟩ => rfl
      | ⟨2, _⟩ => rfl
      | ⟨3, _⟩ => exact absurd rfl ha) (by show (0 : Nat) + 1 = 1; rfl)).trans ?_
  exact half_hi_apply x b s d 0

end

end Cert.KernelIdeal.Hand

end
-- ==== Proof.KI.Host0.lean ====
/-
  The host operations before the first kernel, read at an index.
  * The two rotation tables are looked up by position, negative positions wrapped by the table length; the lookup
    is the reference's own, operation for operation, so each looked-up table IS the reference's as a whole array and
    is never opened.
  * The activations [2, 4096, 2048] have batch and position merged into 8192 rows and change format; at the ideal
    instance a change of format is the identity, so row 4096 · b + s, column h is entry (b, s, h).
  * Each of the four weight matrices is transposed and changes format: entry (h, o) of the result is entry (o, h).
-/
import proofs.«175568_j46505905881160_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«175568_j46505905881160_2_alg».proof.Proof.Ref.Form
import proofs.«175568_j46505905881160_2_alg».proof.Proof.Spec.FlatIdx
import proofs.«175568_j46505905881160_2_alg».proof.Proof.KI.HostLay
import proofs.«175568_j46505905881160_2_alg».proof.Proof.Gen.ReferenceIdeal.Read
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo
open Cert.ReferenceIdeal.Hand (lo hi evenLane oddLane pairOf)

open Cert.Spec (flat)

variable (Wv : Valuation τ sig (Elt Ideal))

/-- A [2048, 2048] array transposed, at (h, o): the array at (o, h). -/
theorem swap_apply {α : Type} (x : S2048x2048.Idx → α) (h o : Fin 2048) :
    transpose S2048x2048 [1, 0] x transposes_S2048x2048_S2048x2048_1_0 (ix2 h o) = x (ix2 o h) :=
  transpose_apply [1, 0] x transposes_S2048x2048_S2048x2048_1_0 (ix2 h o) (ix2 o h) (fun a => by
    match a with
    | ⟨0, _⟩ => rfl
    | ⟨1, _⟩ => rfl)

/-- The cosine table looked up by position is the reference's, as a whole array. -/
theorem host0_v6 : StableHlo.after hostOps0 Wv (Proc.devRef .tc main_v6)
    = Cert.ReferenceIdeal.Read.val_main_v9 (F := Ideal) (Wv (Proc.devRef .tc main_arg5)) (Wv (Proc.devRef .tc main_arg7)) := by
  after_results
  all_goals rfl

/-- The sine table looked up by position is the reference's, as a whole array. -/
theorem host0_v13 : StableHlo.after hostOps0 Wv (Proc.devRef .tc main_v13)
    = Cert.ReferenceIdeal.Read.val_main_v16 (F := Ideal) (Wv (Proc.devRef .tc main_arg6)) (Wv (Proc.devRef .tc main_arg7)) := by
  after_results
  all_goals rfl

/-- v15 is the activations with batch and position merged (the change of format is the identity on extended reals). -/
theorem host0_v15 : StableHlo.after hostOps0 Wv (Proc.devRef .tc main_v15)
    = truncf (F := Ideal) (φ := .f32) .bf16 (shapeCast S8192x2048 (Wv (Proc.devRef .tc main_arg0)) shapeCasts_S2x4096x2048_S8192x2048) bitsLt_bf16_f32 := by
  after_results
  all_goals rfl
theorem host0_v15_ix (b : Fin 2) (s : Fin 4096) (h : Fin 2048) :
    StableHlo.after hostOps0 Wv (Proc.devRef .tc main_v15) (ix2 (flat b s) h) = Wv (Proc.devRef .tc main_arg0) (ix3 b s h) := by
  rw [host0_v15]
  exact flat_apply (Wv (Proc.devRef .tc main_arg0)) b s h

/-- v17 is arg1 transposed (the change of format is the identity on extended reals). -/
theorem host0_v17 : StableHlo.after hostOps0 Wv (Proc.devRef .tc main_v17)
    = truncf (F := Ideal) (φ := .f32) .bf16 (transpose S2048x2048 [1, 0] (Wv (Proc.devRef .tc main_arg1)) transposes_S2048x2048_S2048x2048_1_0) bitsLt_bf16_f32 := by
  after_results
  all_goals rfl
theorem host0_v17_ix (h o : Fin 2048) :
    StableHlo.after hostOps0 Wv (Proc.devRef .tc main_v17) (ix2 h o) = Wv (Proc.devRef .tc main_arg1) (ix2 o h) := by
  rw [host0_v17]
  exact swap_apply (Wv (Proc.devRef .tc main_arg1)) h o

/-- v19 is arg2 transposed (the change of format is the identity on extended reals). -/
theorem host0_v19 : StableHlo.after hostOps0 Wv (Proc.devRef .tc main_v19)
    = truncf (F := Ideal) (φ := .f32) .bf16 (transpose S2048x2048 [1, 0] (Wv (Proc.devRef .tc main_arg2)) transposes_S2048x2048_S2048x2048_1_0) bitsLt_bf16_f32 := by
  after_results
  all_goals rfl
theorem host0_v19_ix (h o : Fin 2048) :
    StableHlo.after hostOps0 Wv (Proc.devRef .tc main_v19) (ix2 h o) = Wv (Proc.devRef .tc main_arg2) (ix2 o h) := by
  rw [host0_v19]
  exact swap_apply (Wv (Proc.devRef .tc main_arg2)) h o

/-- v21 is arg3 transposed (the change of format is the identity on extended reals). -/
theorem host0_v21 : StableHlo.after hostOps0 Wv (Proc.devRef .tc main_v21)
    = truncf (F := Ideal) (φ := .f32) .bf16 (transpose S2048x2048 [1, 0] (Wv (Proc.devRef .tc main_arg3)) transposes_S2048x2048_S2048x2048_1_0) bitsLt_bf16_f32 := by
  after_results
  all_goals rfl
theorem host0_v21_ix (h o : Fin 2048) :
    StableHlo.after hostOps0 Wv (Proc.devRef .tc main_v21) (ix2 h o) = Wv (Proc.devRef .tc main_arg3) (ix2 o h) := by
  rw [host0_v21]
  exact swap_apply (Wv (Proc.devRef .tc main_arg3)) h o

/-- v23 is arg4 transposed (the change of format is the identity on extended reals). -/
theorem host0_v23 : StableHlo.after hostOps0 Wv (Proc.devRef .tc main_v23)
    = truncf (F := Ideal) (φ := .f32) .bf16 (transpose S2048x2048 [1, 0] (Wv (Proc.devRef .tc main_arg4)) transposes_S2048x2048_S2048x2048_1_0) bitsLt_bf16_f32 := by
  after_results
  all_goals rfl
theorem host0_v23_ix (h o : Fin 2048) :
    StableHlo.after hostOps0 Wv (Proc.devRef .tc main_v23) (ix2 h o) = Wv (Proc.devRef .tc main_arg4) (ix2 o h) := by
  rw [host0_v23]
  exact swap_apply (Wv (Proc.devRef .tc main_arg4)) h o

end Cert.KernelIdeal.Hand

end
-- ==== Proof.KI.Host3.lean ====
/-
  The host operations between the projection kernels and the rotation kernel, read at an index: each of the four
  projection outputs [8192, 2048] is split into batch and position, entry (b, s, o) being row 4096 · b + s, column o.
-/
import proofs.«175568_j46505905881160_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«175568_j46505905881160_2_alg».proof.Proof.Ref.Form
import proofs.«175568_j46505905881160_2_alg».proof.Proof.Spec.FlatIdx
import proofs.«175568_j46505905881160_2_alg».proof.Proof.KI.HostLay
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo
open Cert.ReferenceIdeal.Hand (lo hi evenLane oddLane pairOf)

open Cert.Spec (flat)

variable (Wv : Valuation τ sig (Elt Ideal))

/-- v27 is v24 with its rows split into batch and position. -/
theorem host3_v27 : StableHlo.after hostOps3 Wv (Proc.devRef .tc main_v27)
    = shapeCast S2x4096x2048 (Wv (Proc.devRef .tc main_v24)) shapeCasts_S8192x2048_S2x4096x2048 := by
  after_results; rfl
theorem host3_v27_ix (b : Fin 2) (s : Fin 4096) (o : Fin 2048) :
    StableHlo.after hostOps3 Wv (Proc.devRef .tc main_v27) (ix3 b s o) = Wv (Proc.devRef .tc main_v24) (ix2 (flat b s) o) :=
  (congrFun (host3_v27 Wv) _).trans (unflat_apply _ b s o)

/-- v28 is v25 with its rows split into batch and position. -/
theorem host3_v28 : StableHlo.after hostOps3 Wv (Proc.devRef .tc main_v28)
    = shapeCast S2x4096x2048 (Wv (Proc.devRef .tc main_v25)) shapeCasts_S8192x2048_S2x4096x2048 := by
  after_results; rfl
theorem host3_v28_ix (b : Fin 2) (s : Fin 4096) (o : Fin 2048) :
    StableHlo.after hostOps3 Wv (Proc.devRef .tc main_v28) (ix3 b s o) = Wv (Proc.devRef .tc main_v25) (ix2 (flat b s) o) :=
  (congrFun (host3_v28 Wv) _).trans (unflat_apply _ b s o)

/-- v29 is v26_0 with its rows split into batch and position. -/
theorem host3_v29 : StableHlo.after hostOps3 Wv (Proc.devRef .tc main_v29)
    = shapeCast S2x4096x2048 (Wv (Proc.devRef .tc main_v26_0)) shapeCasts_S8192x2048_S2x4096x2048 := by
  after_results; rfl
theorem host3_v29_ix (b : Fin 2) (s : Fin 4096) (o : Fin 2048) :
    StableHlo.after hostOps3 Wv (Proc.devRef .tc main_v29) (ix3 b s o) = Wv (Proc.devRef .tc main_v26_0) (ix2 (flat b s) o) :=
  (congrFun (host3_v29 Wv) _).trans (unflat_apply _ b s o)

/-- v30 is v26_1 with its rows split into batch and position. -/
theorem host3_v30 : StableHlo.after hostOps3 Wv (Proc.devRef .tc main_v30)
    = shapeCast S2x4096x2048 (Wv (Proc.devRef .tc main_v26_1)) shapeCasts_S8192x2048_S2x4096x2048 := by
  after_results; rfl
theorem host3_v30_ix (b : Fin 2) (s : Fin 4096) (o : Fin 2048) :
    StableHlo.after hostOps3 Wv (Proc.devRef .tc main_v30) (ix3 b s o) = Wv (Proc.devRef .tc main_v26_1) (ix2 (flat b s) o) :=
  (congrFun (host3_v30 Wv) _).trans (unflat_apply _ b s o)

end Cert.KernelIdeal.Hand

end
-- ==== Proof.KI.ValMM.lean ====
import proofs.«175568_j46505905881160_2_alg».proof.Proof.Gen.KernelIdeal.Skeleton
import Idealize.ShloMosaic.Lib.Pipeline.Value
import Idealize.ShloMosaic.Lib.ValueIdx
import Idealize.ShloMosaic.PureOps.Ideal.Laws

/-!
# A tile of a matrix product, read at an index

At the exact values a change of float format is the identity and the matrix unit's product into a zero accumulator
is the plain sum of products. So each payload of the four product regions, read at an index (p, q) of its
1024 × 1024 tile, is ∑ₖ x0 (p, k) · x1 (k, q) over the 2048 values of the contracted axis, for ANY two blocks
x0 (1024 × 2048) and x1 (2048 × 1024). The whole-array product is stated here too, as one function of two arrays.
-/

set_option maxRecDepth 16384

noncomputable section

namespace Cert.KernelIdeal.Hand.MM

open Cert.KernelIdeal Cert.KernelIdeal.Gen
open Idealize.ShloMosaic Idealize.ShloMosaic.TcCoe Idealize.ShloMosaic.ValueIdx
open Idealize.SL.Sem

/-- The zero offset of a whole-buffer access, as a constant function. -/
theorem hz2 : (![0, 0] : Fin 2 → Nat) = fun _ => 0 := funext fun a => by fin_cases a <;> rfl

/-! ## The whole-array product -/

/-- The row and the column of an index of the 8192 × 2048 product. -/
abbrev rowOf (i : S8192x2048.Idx) : Fin 8192 := ⟨(i 0).val, (i 0).isLt⟩
abbrev colOf (i : S8192x2048.Idx) : Fin 2048 := ⟨(i 1).val, (i 1).isLt⟩

/-- THE PRODUCT of an 8192 × 2048 array and a 2048 × 2048 array, entry by entry: out (r, s) = ∑ₖ a (r, k) · b (k, s). -/
def matProd (a : S8192x2048.Idx → EReal) (b : S2048x2048.Idx → EReal) : S8192x2048.Idx → EReal :=
  fun i => ∑ h : Fin 2048, a (ix2 (rowOf i) h) * b (ix2 h (colOf i))

theorem matProd_apply (a : S8192x2048.Idx → EReal) (b : S2048x2048.Idx → EReal) (i : S8192x2048.Idx) :
    matProd a b i = ∑ h : Fin 2048, a (ix2 (rowOf i) h) * b (ix2 h (colOf i)) := rfl

/-- Entry (r, s) of the product, by its two coordinates. -/
def dotRow (a : S8192x2048.Idx → EReal) (b : S2048x2048.Idx → EReal) (r : Fin 8192) (s : Fin 2048) : EReal :=
  ∑ h : Fin 2048, a (ix2 r h) * b (ix2 h s)

theorem dotRow_def (a : S8192x2048.Idx → EReal) (b : S2048x2048.Idx → EReal) (r : Fin 8192) (s : Fin 2048) :
    dotRow a b r s = ∑ h : Fin 2048, a (ix2 r h) * b (ix2 h s) := rfl

theorem matProd_ix2 (a : S8192x2048.Idx → EReal) (b : S2048x2048.Idx → EReal) (r : Fin 8192) (s : Fin 2048) :
    matProd a b (ix2 r s) = dotRow a b r s := rfl

/-! ## The dot's index maps, axis by axis -/

theorem lhs0 (j : S1024x1024.Idx) (q : dot_S1024x2048_S2048x1024_S1024x1024_1_0_0_1_n_n.contr.Idx) :
    (dot_S1024x2048_S2048x1024_S1024x1024_1_0_0_1_n_n.lhsIdx j q 0).val = (j 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs1 (j : S1024x1024.Idx) (q : dot_S1024x2048_S2048x1024_S1024x1024_1_0_0_1_n_n.contr.Idx) :
    (dot_S1024x2048_S2048x1024_S1024x1024_1_0_0_1_n_n.lhsIdx j q 1).val = (q ⟨0, by decide⟩).val :=
  dot_S1024x2048_S2048x1024_S1024x1024_1_0_0_1_n_n.lhsIdx_val_of_single rfl j q
theorem rhs0 (j : S1024x1024.Idx) (q : dot_S1024x2048_S2048x1024_S1024x1024_1_0_0_1_n_n.contr.Idx) :
    (dot_S1024x2048_S2048x1024_S1024x1024_1_0_0_1_n_n.rhsIdx j q 0).val = (q ⟨0, by decide⟩).val :=
  dot_S1024x2048_S2048x1024_S1024x1024_1_0_0_1_n_n.rhsIdx_val_of_single rfl j q
theorem rhs1 (j : S1024x1024.Idx) (q : dot_S1024x2048_S2048x1024_S1024x1024_1_0_0_1_n_n.contr.Idx) :
    (dot_S1024x2048_S2048x1024_S1024x1024_1_0_0_1_n_n.rhsIdx j q 1).val = (j 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-! ## The product of two blocks at an index of the tile -/

/-- The matrix unit's product of two blocks into a zero accumulator, read at (p, q): ∑ₖ x0 (p, k) · x1 (k, q). -/
theorem tile_apply {φ₁ φ₂ : FTy} (x0 : FVec Ideal S1024x2048 φ₁) (x1 : FVec Ideal S2048x1024 φ₂) (p q : Fin 1024) :
    FloatOps.matmul dot_S1024x2048_S2048x1024_S1024x1024_1_0_0_1_n_n none x0 x1 (constant S1024x1024 .f32 0x00000000#32) (ix2 p q)
      = ∑ k : Fin 2048, x0 (ix2 p k) * x1 (ix2 k q) := by
  rw [Ideal.matmul_constant_zero_apply, ← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 p q) ((ValueIdx.contrEquiv1 dot_S1024x2048_S2048x1024_S1024x1024_1_0_0_1_n_n 2048 rfl rfl).symm k) = ix2 p k := funext fun a => Fin.ext (by
    match a with
    | ⟨0, _⟩ => exact lhs0 _ _
    | ⟨1, _⟩ => exact (lhs1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm k) = ix2 k q := funext fun a => Fin.ext (by
    match a with
    | ⟨0, _⟩ => exact (rhs0 _ _).trans hk
    | ⟨1, _⟩ => exact rhs1 _ _)
  rw [el, er]

/-! ## The payloads -/

theorem k1_pay1_apply (x0 : FVec Ideal S1024x2048 .bf16) (x1 : FVec Ideal S2048x1024 .bf16) (p q : Fin 1024) :
    k1_pay1 (F := Ideal) x0 x1 (ix2 p q) = ∑ k : Fin 2048, x0 (ix2 p k) * x1 (ix2 k q) := by
  unfold k1_pay1
  simp only [shapeCast_self]
  exact tile_apply x0 x1 p q

theorem k5_pay1_apply (x0 : FVec Ideal S1024x2048 .bf16) (x1 : FVec Ideal S2048x1024 .bf16) (p q : Fin 1024) :
    k5_pay1 (F := Ideal) x0 x1 (ix2 p q) = ∑ k : Fin 2048, x0 (ix2 p k) * x1 (ix2 k q) := by
  unfold k5_pay1
  simp only [shapeCast_self]
  exact tile_apply x0 x1 p q

theorem k2_pay1_apply (x0 : FVec Ideal S1024x2048 .bf16) (x1 : FVec Ideal S2048x1024 .bf16) (p q : Fin 1024) :
    k2_pay1 (F := Ideal) x0 x1 (ix2 p q) = ∑ k : Fin 2048, x0 (ix2 p k) * x1 (ix2 k q) := by
  unfold k2_pay1
  simp only [shapeCast_self]
  exact tile_apply x0 x1 p q

/-- The narrower copy is the same value: a change of float format is the identity at the exact values. -/
theorem k2_pay2_apply (x0 : FVec Ideal S1024x2048 .bf16) (x1 : FVec Ideal S2048x1024 .bf16) (p q : Fin 1024) :
    k2_pay2 (F := Ideal) x0 x1 (ix2 p q) = ∑ k : Fin 2048, x0 (ix2 p k) * x1 (ix2 k q) := by
  unfold k2_pay2
  show k2_pay1 (F := Ideal) x0 x1 (ix2 p q) = _
  exact k2_pay1_apply x0 x1 p q

theorem k0_pay1_apply (x0 : FVec Ideal S1024x2048 .bf16) (x1 : FVec Ideal S2048x1024 .bf16) (p q : Fin 1024) :
    k0_pay1 (F := Ideal) x0 x1 (ix2 p q) = ∑ k : Fin 2048, x0 (ix2 p k) * x1 (ix2 k q) := by
  unfold k0_pay1
  simp only [shapeCast_self]
  show FloatOps.matmul dot_S1024x2048_S2048x1024_S1024x1024_1_0_0_1_n_n none x0 x1 (constant S1024x1024 .f32 0x00000000#32) (ix2 p q) = _
  exact tile_apply x0 x1 p q

/-! ## The same at any index of the tile -/

/-- The row and the column of an index of a tile. -/
abbrev tr (y : S1024x1024.Idx) : Fin 1024 := ⟨(y 0).val, (y 0).isLt⟩
abbrev tc (y : S1024x1024.Idx) : Fin 1024 := ⟨(y 1).val, (y 1).isLt⟩
theorem ix2_tr_tc (y : S1024x1024.Idx) : ix2 (tr y) (tc y) = y :=
  funext fun a => by match a with | ⟨0, _⟩ => rfl | ⟨1, _⟩ => rfl

theorem k0_pay1_at (x0 : FVec Ideal S1024x2048 .bf16) (x1 : FVec Ideal S2048x1024 .bf16) (y : S1024x1024.Idx) :
    k0_pay1 (F := Ideal) x0 x1 y = ∑ k : Fin 2048, x0 (ix2 (tr y) k) * x1 (ix2 k (tc y)) := by
  have h := k0_pay1_apply x0 x1 (tr y) (tc y)
  rwa [ix2_tr_tc] at h
theorem k1_pay1_at (x0 : FVec Ideal S1024x2048 .bf16) (x1 : FVec Ideal S2048x1024 .bf16) (y : S1024x1024.Idx) :
    k1_pay1 (F := Ideal) x0 x1 y = ∑ k : Fin 2048, x0 (ix2 (tr y) k) * x1 (ix2 k (tc y)) := by
  have h := k1_pay1_apply x0 x1 (tr y) (tc y)
  rwa [ix2_tr_tc] at h
theorem k2_pay1_at (x0 : FVec Ideal S1024x2048 .bf16) (x1 : FVec Ideal S2048x1024 .bf16) (y : S1024x1024.Idx) :
    k2_pay1 (F := Ideal) x0 x1 y = ∑ k : Fin 2048, x0 (ix2 (tr y) k) * x1 (ix2 k (tc y)) := by
  have h := k2_pay1_apply x0 x1 (tr y) (tc y)
  rwa [ix2_tr_tc] at h
theorem k2_pay2_at (x0 : FVec Ideal S1024x2048 .bf16) (x1 : FVec Ideal S2048x1024 .bf16) (y : S1024x1024.Idx) :
    k2_pay2 (F := Ideal) x0 x1 y = ∑ k : Fin 2048, x0 (ix2 (tr y) k) * x1 (ix2 k (tc y)) := by
  have h := k2_pay2_apply x0 x1 (tr y) (tc y)
  rwa [ix2_tr_tc] at h
theorem k5_pay1_at (x0 : FVec Ideal S1024x2048 .bf16) (x1 : FVec Ideal S2048x1024 .bf16) (y : S1024x1024.Idx) :
    k5_pay1 (F := Ideal) x0 x1 y = ∑ k : Fin 2048, x0 (ix2 (tr y) k) * x1 (ix2 k (tc y)) := by
  have h := k5_pay1_apply x0 x1 (tr y) (tc y)
  rwa [ix2_tr_tc] at h

end Cert.KernelIdeal.Hand.MM

end
-- ==== Proof.KI.Val0.lean ====
import proofs.«175568_j46505905881160_2_alg».proof.Proof.KI.R0
import proofs.«175568_j46505905881160_2_alg».proof.Proof.KI.ValMM

/-!
# Region 0's output array, as one function of the arrays the region finds

Each grid point writes back one 1024 × 1024 tile of the product of the 8192 × 2048 left array and the 2048 × 2048
right array; the 8 × 2 tiles cover the output, so after the region the output array IS the product, entry by entry.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace Val0

/-- Entry `y` of the left window's block at point `t` is the left array at block index × block size + `y`, axis by axis. -/
theorem iblk_0_apply (c : Dev nD) (t : Fin cfg0.N) (y : S1024x2048.Idx) (i : S8192x2048.Idx)
    (h0 : (i 0).val = win0_0.index t (0 : Fin 2) * 1024 + (y 0).val) (h1 : (i 1).val = win0_0.index t (1 : Fin 2) * 2048 + (y 1).val) :
    (iblk0 V c 0 t : S1024x2048.Idx → EReal) y = (V c main_v15 : S8192x2048.Idx → EReal) i := by
  unfold iblk0
  rw [View.read_apply]
  show V c main_v15 _ = V c main_v15 _
  congr 1
  funext a
  apply Fin.ext
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The same for the right window. -/
theorem iblk_1_apply (c : Dev nD) (t : Fin cfg0.N) (y : S2048x1024.Idx) (i : S2048x2048.Idx)
    (h0 : (i 0).val = win0_1.index t (0 : Fin 2) * 2048 + (y 0).val) (h1 : (i 1).val = win0_1.index t (1 : Fin 2) * 1024 + (y 1).val) :
    (iblk0 V c 1 t : S2048x1024.Idx → EReal) y = (V c main_v17 : S2048x2048.Idx → EReal) i := by
  unfold iblk0
  rw [View.read_apply]
  show V c main_v17 _ = V c main_v17 _
  congr 1
  funext a
  apply Fin.ext
  match a with
  | ⟨0, _⟩ => show win0_1.index t (0 : Fin 2) * 2048 + 1 * (y 0).val = (i 0).val; omega
  | ⟨1, _⟩ => show win0_1.index t (1 : Fin 2) * 1024 + 1 * (y 1).val = (i 1).val; omega

/-- The printed index maps, decided over the 16 grid points: the left block moves with the output's row block and sits
    at column block 0, the right block sits at row block 0 and moves with the output's column block, and the output's
    block indices stay in 8 × 2. -/
theorem idx_facts_2 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 1 :=
  (by decide +kernel : ∀ t : Fin grid0.N, _)

/-- Every block of the output is SOME point's. -/
theorem idx_onto_2 : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- WHAT POINT `t` WRITES BACK is block `t` of the product of the two arrays as the region finds them. -/
theorem flushed_2 (c : Dev nD) (t : Fin cfg0.N) :
    (dat0 V c).flushed 2 t = ((cfg0.win 2).blk t).view.read (Elt Ideal) (MM.matProd (V c main_v15) (V c main_v17)) := by
  show (cfg0.win 2).cut (grid0.coords t) ((dat0 V c).after 2 t) = _
  rw [after0_2]
  unfold out0_2
  rw [View.canon_unit_zero MM.hz2]
  simp only [View.ld_unit_zero (S := S1024x2048) MM.hz2, View.ld_unit_zero (S := S2048x1024) MM.hz2]
  obtain ⟨e0, e1, e2, e3, e4, e5⟩ := idx_facts_2 t
  funext j
  refine (MM.k0_pay1_at (iblk0 V c 0 t) (iblk0 V c 1 t) j).trans ?_
  rw [View.read_apply, MM.matProd_apply]
  refine Finset.sum_congr rfl fun k _ => ?_
  refine congrArg₂ (· * ·) (iblk_0_apply V c t _ _ ?_ ?_) (iblk_1_apply V c t _ _ ?_ ?_)
  · show win0_2.index t (0 : Fin 2) * 1024 + 1 * (j 0).val = win0_0.index t (0 : Fin 2) * 1024 + (j 0).val; omega
  · show k.val = win0_0.index t (1 : Fin 2) * 2048 + k.val; omega
  · show k.val = win0_1.index t (0 : Fin 2) * 2048 + k.val; omega
  · show win0_2.index t (1 : Fin 2) * 1024 + 1 * (j 1).val = win0_1.index t (1 : Fin 2) * 1024 + (j 1).val; omega

/-- An index of the array is in point `t`'s block iff each coordinate is in the block's range on its axis. -/
theorem mem_blk_2 (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v24).slice (win0_2.rect t)).set ↔ _
  rw [View.set_slice_whole, Rect.mem_set_unit]
  exact Iff.rfl

/-- The output's 8 × 2 blocks of 1024 × 1024 tile the 8192 × 2048 array: entry (r, s) is in block (r / 1024, s / 1024). -/
theorem cover_2 (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto_2 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the region: the product of the two arrays as the region finds them. -/
theorem final_2 (c : Dev nD) : (dat0 V c).arrAt 2 cfg0.N = MM.matProd (V c main_v15) (V c main_v17) :=
  (dat0 V c).arrAt_eq_of_cover 2 _ (fun t _ => flushed_2 V c t) cover_2

end Val0

/-- Entry (i, o) of region 0's output array (window 2) after the region: ∑ₕ left (i, h) · right (h, o). -/
theorem arrAt0_2 (c : Dev nD) (i : Fin 8192) (o : Fin 2048) :
    (dat0 (F := Ideal) V c).arrAt 2 cfg0.N (ix2 i o) = MM.dotRow (V c main_v15) (V c main_v17) i o :=
  (congrFun (Val0.final_2 V c) (ix2 i o)).trans (MM.matProd_ix2 _ _ i o)

end Cert.KernelIdeal.Hand

end
-- ==== Proof.KI.Val1.lean ====
import proofs.«175568_j46505905881160_2_alg».proof.Proof.KI.R1
import proofs.«175568_j46505905881160_2_alg».proof.Proof.KI.ValMM

/-!
# Region 1's output array, as one function of the arrays the region finds

Each grid point writes back one 1024 × 1024 tile of the product of the 8192 × 2048 left array and the 2048 × 2048
right array; the 8 × 2 tiles cover the output, so after the region the output array IS the product, entry by entry.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace Val1

/-- Entry `y` of the left window's block at point `t` is the left array at block index × block size + `y`, axis by axis. -/
theorem iblk_0_apply (c : Dev nD) (t : Fin cfg1.N) (y : S1024x2048.Idx) (i : S8192x2048.Idx)
    (h0 : (i 0).val = win1_0.index t (0 : Fin 2) * 1024 + (y 0).val) (h1 : (i 1).val = win1_0.index t (1 : Fin 2) * 2048 + (y 1).val) :
    (iblk1 V c 0 t : S1024x2048.Idx → EReal) y = (V c main_v15 : S8192x2048.Idx → EReal) i := by
  unfold iblk1
  rw [View.read_apply]
  show V c main_v15 _ = V c main_v15 _
  congr 1
  funext a
  apply Fin.ext
  match a with
  | ⟨0, _⟩ => show win1_0.index t (0 : Fin 2) * 1024 + 1 * (y 0).val = (i 0).val; omega
  | ⟨1, _⟩ => show win1_0.index t (1 : Fin 2) * 2048 + 1 * (y 1).val = (i 1).val; omega

/-- The same for the right window. -/
theorem iblk_1_apply (c : Dev nD) (t : Fin cfg1.N) (y : S2048x1024.Idx) (i : S2048x2048.Idx)
    (h0 : (i 0).val = win1_1.index t (0 : Fin 2) * 2048 + (y 0).val) (h1 : (i 1).val = win1_1.index t (1 : Fin 2) * 1024 + (y 1).val) :
    (iblk1 V c 1 t : S2048x1024.Idx → EReal) y = (V c main_v19 : S2048x2048.Idx → EReal) i := by
  unfold iblk1
  rw [View.read_apply]
  show V c main_v19 _ = V c main_v19 _
  congr 1
  funext a
  apply Fin.ext
  match a with
  | ⟨0, _⟩ => show win1_1.index t (0 : Fin 2) * 2048 + 1 * (y 0).val = (i 0).val; omega
  | ⟨1, _⟩ => show win1_1.index t (1 : Fin 2) * 1024 + 1 * (y 1).val = (i 1).val; omega

/-- The printed index maps, decided over the 16 grid points: the left block moves with the output's row block and sits
    at column block 0, the right block sits at row block 0 and moves with the output's column block, and the output's
    block indices stay in 8 × 2. -/
theorem idx_facts_2 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 1 :=
  (by decide +kernel : ∀ t : Fin grid1.N, _)

/-- Every block of the output is SOME point's. -/
theorem idx_onto_2 : ∀ (q0 : Fin 8) (q1 : Fin 2), ∃ t : Fin cfg1.N, win1_2.index t = ![q0.val, q1.val] :=
  (by decide +kernel : ∀ (q0 : Fin 8) (q1 : Fin 2), ∃ t : Fin grid1.N, win1_2.index t = ![q0.val, q1.val])

/-- WHAT POINT `t` WRITES BACK is block `t` of the product of the two arrays as the region finds them. -/
theorem flushed_2 (c : Dev nD) (t : Fin cfg1.N) :
    (dat1 V c).flushed 2 t = ((cfg1.win 2).blk t).view.read (Elt Ideal) (MM.matProd (V c main_v15) (V c main_v19)) := by
  show (cfg1.win 2).cut (grid1.coords t) ((dat1 V c).after 2 t) = _
  rw [after1_2]
  unfold out1_2
  rw [View.canon_unit_zero MM.hz2]
  simp only [View.ld_unit_zero (S := S1024x2048) MM.hz2, View.ld_unit_zero (S := S2048x1024) MM.hz2]
  obtain ⟨e0, e1, e2, e3, e4, e5⟩ := idx_facts_2 t
  funext j
  refine (MM.k1_pay1_at (iblk1 V c 0 t) (iblk1 V c 1 t) j).trans ?_
  rw [View.read_apply, MM.matProd_apply]
  refine Finset.sum_congr rfl fun k _ => ?_
  refine congrArg₂ (· * ·) (iblk_0_apply V c t _ _ ?_ ?_) (iblk_1_apply V c t _ _ ?_ ?_)
  · show win1_2.index t (0 : Fin 2) * 1024 + 1 * (j 0).val = win1_0.index t (0 : Fin 2) * 1024 + (j 0).val; omega
  · show k.val = win1_0.index t (1 : Fin 2) * 2048 + k.val; omega
  · show k.val = win1_1.index t (0 : Fin 2) * 2048 + k.val; omega
  · show win1_2.index t (1 : Fin 2) * 1024 + 1 * (j 1).val = win1_1.index t (1 : Fin 2) * 1024 + (j 1).val; omega

/-- An index of the array is in point `t`'s block iff each coordinate is in the block's range on its axis. -/
theorem mem_blk_2 (t : Fin cfg1.N) (i : S8192x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v25).slice (win1_2.rect t)).set ↔ _
  rw [View.set_slice_whole, Rect.mem_set_unit]
  exact Iff.rfl

/-- The output's 8 × 2 blocks of 1024 × 1024 tile the 8192 × 2048 array: entry (r, s) is in block (r / 1024, s / 1024). -/
theorem cover_2 (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := idx_onto_2 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- THE ARRAY after the region: the product of the two arrays as the region finds them. -/
theorem final_2 (c : Dev nD) : (dat1 V c).arrAt 2 cfg1.N = MM.matProd (V c main_v15) (V c main_v19) :=
  (dat1 V c).arrAt_eq_of_cover 2 _ (fun t _ => flushed_2 V c t) cover_2

end Val1

/-- Entry (i, o) of region 1's output array (window 2) after the region: ∑ₕ left (i, h) · right (h, o). -/
theorem arrAt1_2 (c : Dev nD) (i : Fin 8192) (o : Fin 2048) :
    (dat1 (F := Ideal) V c).arrAt 2 cfg1.N (ix2 i o) = MM.dotRow (V c main_v15) (V c main_v19) i o :=
  (congrFun (Val1.final_2 V c) (ix2 i o)).trans (MM.matProd_ix2 _ _ i o)

end Cert.KernelIdeal.Hand

end
-- ==== Proof.KI.Val2.lean ====
import proofs.«175568_j46505905881160_2_alg».proof.Proof.KI.R2
import proofs.«175568_j46505905881160_2_alg».proof.Proof.KI.ValMM

/-!
# Region 2's two output arrays, as one function of the arrays the region finds

Each grid point writes back one 1024 × 1024 tile of the product of the 8192 × 2048 left array and the 2048 × 2048
right array into EACH of the two outputs (the second in the narrower float format, which at the exact values is the
same number); the 8 × 2 tiles cover each output, so after the region both arrays are the product, entry by entry.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace Val2

/-- Entry `y` of the left window's block at point `t` is the left array at block index × block size + `y`, axis by axis. -/
theorem iblk_0_apply (c : Dev nD) (t : Fin cfg2.N) (y : S1024x2048.Idx) (i : S8192x2048.Idx)
    (h0 : (i 0).val = win2_0.index t (0 : Fin 2) * 1024 + (y 0).val) (h1 : (i 1).val = win2_0.index t (1 : Fin 2) * 2048 + (y 1).val) :
    (iblk2 V c 0 t : S1024x2048.Idx → EReal) y = (V c main_v15 : S8192x2048.Idx → EReal) i := by
  unfold iblk2
  rw [View.read_apply]
  show V c main_v15 _ = V c main_v15 _
  congr 1
  funext a
  apply Fin.ext
  match a with
  | ⟨0, _⟩ => show win2_0.index t (0 : Fin 2) * 1024 + 1 * (y 0).val = (i 0).val; omega
  | ⟨1, _⟩ => show win2_0.index t (1 : Fin 2) * 2048 + 1 * (y 1).val = (i 1).val; omega

/-- The same for the right window. -/
theorem iblk_1_apply (c : Dev nD) (t : Fin cfg2.N) (y : S2048x1024.Idx) (i : S2048x2048.Idx)
    (h0 : (i 0).val = win2_1.index t (0 : Fin 2) * 2048 + (y 0).val) (h1 : (i 1).val = win2_1.index t (1 : Fin 2) * 1024 + (y 1).val) :
    (iblk2 V c 1 t : S2048x1024.Idx → EReal) y = (V c main_v21 : S2048x2048.Idx → EReal) i := by
  unfold iblk2
  rw [View.read_apply]
  show V c main_v21 _ = V c main_v21 _
  congr 1
  funext a
  apply Fin.ext
  match a with
  | ⟨0, _⟩ => show win2_1.index t (0 : Fin 2) * 2048 + 1 * (y 0).val = (i 0).val; omega
  | ⟨1, _⟩ => show win2_1.index t (1 : Fin 2) * 1024 + 1 * (y 1).val = (i 1).val; omega

/-- The printed index maps, decided over the 16 grid points: the left block moves with the output's row block and sits
    at column block 0, the right block sits at row block 0 and moves with the output's column block, and the output's
    block indices stay in 8 × 2. -/
theorem idx_facts_2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 1 :=
  (by decide +kernel : ∀ t : Fin grid2.N, _)

/-- Every block of the output is SOME point's. -/
theorem idx_onto_2 : ∀ (q0 : Fin 8) (q1 : Fin 2), ∃ t : Fin cfg2.N, win2_2.index t = ![q0.val, q1.val] :=
  (by decide +kernel : ∀ (q0 : Fin 8) (q1 : Fin 2), ∃ t : Fin grid2.N, win2_2.index t = ![q0.val, q1.val])

/-- WHAT POINT `t` WRITES BACK is block `t` of the product of the two arrays as the region finds them. -/
theorem flushed_2 (c : Dev nD) (t : Fin cfg2.N) :
    (dat2 V c).flushed 2 t = ((cfg2.win 2).blk t).view.read (Elt Ideal) (MM.matProd (V c main_v15) (V c main_v21)) := by
  show (cfg2.win 2).cut (grid2.coords t) ((dat2 V c).after 2 t) = _
  rw [after2_2]
  unfold out2_2
  rw [View.canon_unit_zero MM.hz2]
  simp only [View.ld_unit_zero (S := S1024x2048) MM.hz2, View.ld_unit_zero (S := S2048x1024) MM.hz2]
  obtain ⟨e0, e1, e2, e3, e4, e5⟩ := idx_facts_2 t
  funext j
  refine (MM.k2_pay1_at (iblk2 V c 0 t) (iblk2 V c 1 t) j).trans ?_
  rw [View.read_apply, MM.matProd_apply]
  refine Finset.sum_congr rfl fun k _ => ?_
  refine congrArg₂ (· * ·) (iblk_0_apply V c t _ _ ?_ ?_) (iblk_1_apply V c t _ _ ?_ ?_)
  · show win2_2.index t (0 : Fin 2) * 1024 + 1 * (j 0).val = win2_0.index t (0 : Fin 2) * 1024 + (j 0).val; omega
  · show k.val = win2_0.index t (1 : Fin 2) * 2048 + k.val; omega
  · show k.val = win2_1.index t (0 : Fin 2) * 2048 + k.val; omega
  · show win2_2.index t (1 : Fin 2) * 1024 + 1 * (j 1).val = win2_1.index t (1 : Fin 2) * 1024 + (j 1).val; omega

/-- An index of the array is in point `t`'s block iff each coordinate is in the block's range on its axis. -/
theorem mem_blk_2 (t : Fin cfg2.N) (i : S8192x2048.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v26_0).slice (win2_2.rect t)).set ↔ _
  rw [View.set_slice_whole, Rect.mem_set_unit]
  exact Iff.rfl

/-- The output's 8 × 2 blocks of 1024 × 1024 tile the 8192 × 2048 array: entry (r, s) is in block (r / 1024, s / 1024). -/
theorem cover_2 (i : S8192x2048.Idx) : ∃ t : Fin cfg2.N, (cfg2.win 2).flush t = true ∧ i ∈ ((cfg2.win 2).blk t).view.set := by
  have hi0 : (i 0).val < 8192 := (i 0).isLt
  have hi1 : (i 1).val < 2048 := (i 1).isLt
  obtain ⟨t, ht⟩ := idx_onto_2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk_2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- THE ARRAY after the region: the product of the two arrays as the region finds them. -/
theorem final_2 (c : Dev nD) : (dat2 V c).arrAt 2 cfg2.N = MM.matProd (V c main_v15) (V c main_v21) :=
  (dat2 V c).arrAt_eq_of_cover 2 _ (fun t _ => flushed_2 V c t) cover_2

/-- The printed index maps, decided over the 16 grid points: the left block moves with the output's row block and sits
    at column block 0, the right block sits at row block 0 and moves with the output's column block, and the output's
    block indices stay in 8 × 2. -/
theorem idx_facts_3 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_3.index t (0 : Fin 2) ≤ 7 ∧ win2_3.index t (1 : Fin 2) ≤ 1 :=
  (by decide +kernel : ∀ t : Fin grid2.N, _)

/-- Every block of the output is SOME point's. -/
theorem idx_onto_3 : ∀ (q0 : Fin 8) (q1 : Fin 2), ∃ t : Fin cfg2.N, win2_3.index t = ![q0.val, q1.val] :=
  (by decide +kernel : ∀ (q0 : Fin 8) (q1 : Fin 2), ∃ t : Fin grid2.N, win2_3.index t = ![q0.val, q1.val])

/-- WHAT POINT `t` WRITES BACK is block `t` of the product of the two arrays as the region finds them. -/
theorem flushed_3 (c : Dev nD) (t : Fin cfg2.N) :
    (dat2 V c).flushed 3 t = ((cfg2.win 3).blk t).view.read (Elt Ideal) (MM.matProd (V c main_v15) (V c main_v21)) := by
  show (cfg2.win 3).cut (grid2.coords t) ((dat2 V c).after 3 t) = _
  rw [after2_3]
  unfold out2_3
  rw [View.canon_unit_zero MM.hz2]
  simp only [View.ld_unit_zero (S := S1024x2048) MM.hz2, View.ld_unit_zero (S := S2048x1024) MM.hz2]
  obtain ⟨e0, e1, e2, e3, e4, e5⟩ := idx_facts_3 t
  funext j
  refine (MM.k2_pay2_at (iblk2 V c 0 t) (iblk2 V c 1 t) j).trans ?_
  rw [View.read_apply, MM.matProd_apply]
  refine Finset.sum_congr rfl fun k _ => ?_
  refine congrArg₂ (· * ·) (iblk_0_apply V c t _ _ ?_ ?_) (iblk_1_apply V c t _ _ ?_ ?_)
  · show win2_3.index t (0 : Fin 2) * 1024 + 1 * (j 0).val = win2_0.index t (0 : Fin 2) * 1024 + (j 0).val; omega
  · show k.val = win2_0.index t (1 : Fin 2) * 2048 + k.val; omega
  · show k.val = win2_1.index t (0 : Fin 2) * 2048 + k.val; omega
  · show win2_3.index t (1 : Fin 2) * 1024 + 1 * (j 1).val = win2_1.index t (1 : Fin 2) * 1024 + (j 1).val; omega

/-- An index of the array is in point `t`'s block iff each coordinate is in the block's range on its axis. -/
theorem mem_blk_3 (t : Fin cfg2.N) (i : S8192x2048.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v26_1).slice (win2_3.rect t)).set ↔ _
  rw [View.set_slice_whole, Rect.mem_set_unit]
  exact Iff.rfl

/-- The output's 8 × 2 blocks of 1024 × 1024 tile the 8192 × 2048 array: entry (r, s) is in block (r / 1024, s / 1024). -/
theorem cover_3 (i : S8192x2048.Idx) : ∃ t : Fin cfg2.N, (cfg2.win 3).flush t = true ∧ i ∈ ((cfg2.win 3).blk t).view.set := by
  have hi0 : (i 0).val < 8192 := (i 0).isLt
  have hi1 : (i 1).val < 2048 := (i 1).isLt
  obtain ⟨t, ht⟩ := idx_onto_3 ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk_3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- THE ARRAY after the region: the product of the two arrays as the region finds them. -/
theorem final_3 (c : Dev nD) : (dat2 V c).arrAt 3 cfg2.N = MM.matProd (V c main_v15) (V c main_v21) :=
  (dat2 V c).arrAt_eq_of_cover 3 _ (fun t _ => flushed_3 V c t) cover_3

end Val2

/-- Entry (i, o) of region 2's output array (window 2) after the region: ∑ₕ left (i, h) · right (h, o). -/
theorem arrAt2_2 (c : Dev nD) (i : Fin 8192) (o : Fin 2048) :
    (dat2 (F := Ideal) V c).arrAt 2 cfg2.N (ix2 i o) = MM.dotRow (V c main_v15) (V c main_v21) i o :=
  (congrFun (Val2.final_2 V c) (ix2 i o)).trans (MM.matProd_ix2 _ _ i o)

/-- Entry (i, o) of region 2's output array (window 3) after the region: ∑ₕ left (i, h) · right (h, o). -/
theorem arrAt2_3 (c : Dev nD) (i : Fin 8192) (o : Fin 2048) :
    (dat2 (F := Ideal) V c).arrAt 3 cfg2.N (ix2 i o) = MM.dotRow (V c main_v15) (V c main_v21) i o :=
  (congrFun (Val2.final_3 V c) (ix2 i o)).trans (MM.matProd_ix2 _ _ i o)

end Cert.KernelIdeal.Hand

end
-- ==== Proof.Ref.V.lean ====
/-
  The reference's third result, the value projection, read at an index: entry (b, s, o) of the product of the
  activations with the transposed weight matrix is the sum over the hidden axis of x(b, s, h) · wv(o, h).
  The same reading holds for the query and key projections, which the rotation and the attention build on.
-/
import proofs.«175568_j46505905881160_2_alg».proof.Proof.Gen.ReferenceIdeal.Read
import proofs.«175568_j46505905881160_2_alg».proof.Proof.Ref.Form

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

/-- The contraction's two index maps at an index given by its coordinates. -/
theorem lidx_v0_ix (b : Fin 2) (s : Fin 4096) (o k : Fin 2048) : lidx_main_v0 (ix3 b s o) k = ix3 b s k :=
  funext fun a => by match a with | ⟨0, _⟩ => rfl | ⟨1, _⟩ => rfl | ⟨2, _⟩ => rfl
theorem ridx_v0_ix (b : Fin 2) (s : Fin 4096) (o k : Fin 2048) : ridx_main_v0 (ix3 b s o) k = ix2 o k :=
  funext fun a => by match a with | ⟨0, _⟩ => rfl | ⟨1, _⟩ => rfl

/-- The query projection at (b, s, o). -/
theorem val_main_v0_ix (x0 : (⟨S2x4096x2048, .f32⟩ : BufTy).Contents (Elt Ideal)) (x1 : (⟨S2048x2048, .f32⟩ : BufTy).Contents (Elt Ideal))
    (b : Fin 2) (s : Fin 4096) (o : Fin 2048) :
    val_main_v0 (F := Ideal) x0 x1 (ix3 b s o) = proj x0 x1 b s o := by
  rw [val_main_v0_apply]
  exact Finset.sum_congr rfl fun k _ => by rw [lidx_v0_ix, ridx_v0_ix]

/-- The key projection at (b, s, o). -/
theorem val_main_v1_ix (x0 : (⟨S2x4096x2048, .f32⟩ : BufTy).Contents (Elt Ideal)) (x2 : (⟨S2048x2048, .f32⟩ : BufTy).Contents (Elt Ideal))
    (b : Fin 2) (s : Fin 4096) (o : Fin 2048) :
    val_main_v1 (F := Ideal) x0 x2 (ix3 b s o) = proj x0 x2 b s o := by
  rw [val_main_v1_apply]
  exact Finset.sum_congr rfl fun k _ => by
    rw [show lidx_main_v1 (ix3 b s o) k = ix3 b s k from lidx_v0_ix b s o k,
      show ridx_main_v1 (ix3 b s o) k = ix2 o k from ridx_v0_ix b s o k]

/-- THE VALUE PROJECTION (the third result) at (b, s, o): Σ_h x(b, s, h) · wv(o, h). -/
theorem val_main_v2_ix (x0 : (⟨S2x4096x2048, .f32⟩ : BufTy).Contents (Elt Ideal)) (x3 : (⟨S2048x2048, .f32⟩ : BufTy).Contents (Elt Ideal))
    (b : Fin 2) (s : Fin 4096) (o : Fin 2048) :
    val_main_v2 (F := Ideal) x0 x3 (ix3 b s o) = proj x0 x3 b s o := by
  rw [val_main_v2_apply]
  exact Finset.sum_congr rfl fun k _ => by
    rw [show lidx_main_v2 (ix3 b s o) k = ix3 b s k from lidx_v0_ix b s o k,
      show ridx_main_v2 (ix3 b s o) k = ix2 o k from ridx_v0_ix b s o k]

/-- The same, with the sum written out. -/
theorem val_main_v2_ix_sum (x0 : (⟨S2x4096x2048, .f32⟩ : BufTy).Contents (Elt Ideal)) (x3 : (⟨S2048x2048, .f32⟩ : BufTy).Contents (Elt Ideal))
    (b : Fin 2) (s : Fin 4096) (o : Fin 2048) :
    val_main_v2 (F := Ideal) x0 x3 (ix3 b s o) = ∑ h : Fin 2048, x0 (ix3 b s h) * x3 (ix2 o h) :=
  val_main_v2_ix x0 x3 b s o

end Cert.ReferenceIdeal.Hand

end
-- ==== Proof.Ref.KRot.lean ====
/-
  The rotation read at an index. With y = x · wᵀ the projection, c and n the two tables looked up by position
  (the lookups are carried as they are, one function of the table and the positions each), the hidden axis is
  split in two halves, lane d of the first half paired with lane 1024 + d of the second:
      re(b, s, d) = y(b, s, d) · c(s, d) − y(b, s, 1024 + d) · n(s, d)
      im(b, s, d) = y(b, s, d) · n(s, d) + y(b, s, 1024 + d) · c(s, d)
  The two parts are stacked on a new last axis and the last two axes merged, so that lane 2d of the result is
  re(b, s, d) and lane 2d + 1 is im(b, s, d). The second result of the program is this array for the keys; the
  same reading of the queries feeds the attention logits.
-/
import proofs.«175568_j46505905881160_2_alg».proof.Proof.Gen.ReferenceIdeal.Read
import proofs.«175568_j46505905881160_2_alg».proof.Proof.Ref.Form
import proofs.«175568_j46505905881160_2_alg».proof.Proof.Ref.V

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

/-! ## The key side -/

theorem idx_v37_ix (b : Fin 2) (s : Fin 4096) (d : Fin 1024) : idx_main_v37 (ix3 b s d) = ix3 b s (lo d) :=
  funext fun a => by match a with | ⟨0, _⟩ => rfl | ⟨1, _⟩ => rfl | ⟨2, _⟩ => rfl
theorem idx_v38_ix (b : Fin 2) (s : Fin 4096) (d : Fin 1024) : idx_main_v38 (ix3 b s d) = ix3 b s (hi d) :=
  funext fun a => by match a with | ⟨0, _⟩ => rfl | ⟨1, _⟩ => rfl | ⟨2, _⟩ => rfl

/-- The table looked up by position, broadcast over the batch axis, read at (b, s, d): the table at (s, d). -/
theorem val_main_v40_ix (x5 : (⟨S4096x1024, .f32⟩ : BufTy).Contents (Elt Ideal)) (x7 : (⟨S4096, .i32⟩ : BufTy).Contents (Elt Ideal)) (b : Fin 2) (s : Fin 4096) (d : Fin 1024) :
    val_main_v40 (F := Ideal) x5 x7 (ix3 b s d) = val_main_v9 (F := Ideal) x5 x7 (ix2 s d) := by
  rw [val_main_v40_apply, val_main_v39_apply]
  exact congrArg _ (funext fun a => by match a with | ⟨0, _⟩ => rfl | ⟨1, _⟩ => rfl)
theorem val_main_v50_ix (x5 : (⟨S4096x1024, .f32⟩ : BufTy).Contents (Elt Ideal)) (x7 : (⟨S4096, .i32⟩ : BufTy).Contents (Elt Ideal)) (b : Fin 2) (s : Fin 4096) (d : Fin 1024) :
    val_main_v50 (F := Ideal) x5 x7 (ix3 b s d) = val_main_v9 (F := Ideal) x5 x7 (ix2 s d) := by
  rw [val_main_v50_apply, val_main_v49_apply]
  exact congrArg _ (funext fun a => by match a with | ⟨0, _⟩ => rfl | ⟨1, _⟩ => rfl)
theorem val_main_v43_ix (x6 : (⟨S4096x1024, .f32⟩ : BufTy).Contents (Elt Ideal)) (x7 : (⟨S4096, .i32⟩ : BufTy).Contents (Elt Ideal)) (b : Fin 2) (s : Fin 4096) (d : Fin 1024) :
    val_main_v43 (F := Ideal) x6 x7 (ix3 b s d) = val_main_v16 (F := Ideal) x6 x7 (ix2 s d) := by
  rw [val_main_v43_apply, val_main_v42_apply]
  exact congrArg _ (funext fun a => by match a with | ⟨0, _⟩ => rfl | ⟨1, _⟩ => rfl)
theorem val_main_v47_ix (x6 : (⟨S4096x1024, .f32⟩ : BufTy).Contents (Elt Ideal)) (x7 : (⟨S4096, .i32⟩ : BufTy).Contents (Elt Ideal)) (b : Fin 2) (s : Fin 4096) (d : Fin 1024) :
    val_main_v47 (F := Ideal) x6 x7 (ix3 b s d) = val_main_v16 (F := Ideal) x6 x7 (ix2 s d) := by
  rw [val_main_v47_apply, val_main_v46_apply]
  exact congrArg _ (funext fun a => by match a with | ⟨0, _⟩ => rfl | ⟨1, _⟩ => rfl)

/-- The real part of pair d: first half times cos minus second half times sin. -/
theorem val_main_v45_ix (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v45 (F := Ideal) x0 x2 x5 x6 x7 (ix3 b s d)
      = rotRe (proj x0 x2) (val_main_v9 (F := Ideal) x5 x7) (val_main_v16 (F := Ideal) x6 x7) b s d := by
  rw [val_main_v45_apply, val_main_v41_apply, val_main_v44_apply, val_main_v37_apply, val_main_v38_apply,
    idx_v37_ix, idx_v38_ix, val_main_v1_ix, val_main_v1_ix, val_main_v40_ix, val_main_v43_ix]
  rfl

/-- The imaginary part of pair d: first half times sin plus second half times cos. -/
theorem val_main_v52_ix (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v52 (F := Ideal) x0 x2 x5 x6 x7 (ix3 b s d)
      = rotIm (proj x0 x2) (val_main_v9 (F := Ideal) x5 x7) (val_main_v16 (F := Ideal) x6 x7) b s d := by
  rw [val_main_v52_apply, val_main_v48_apply, val_main_v51_apply, val_main_v37_apply, val_main_v38_apply,
    idx_v37_ix, idx_v38_ix, val_main_v1_ix, val_main_v1_ix, val_main_v47_ix, val_main_v50_ix]
  rfl

/-- The two parts with a trailing unit axis. -/
theorem val_main_v53_ix (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (z : Fin 1) :
    val_main_v53 (F := Ideal) x0 x2 x5 x6 x7 (ix4 b s d z) = val_main_v45 (F := Ideal) x0 x2 x5 x6 x7 (ix3 b s d) := by
  rw [val_main_v53_apply]
  exact congrArg _ (funext fun a => by match a with | ⟨0, _⟩ => rfl | ⟨1, _⟩ => rfl | ⟨2, _⟩ => rfl)
theorem val_main_v54_ix (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (z : Fin 1) :
    val_main_v54 (F := Ideal) x0 x2 x5 x6 x7 (ix4 b s d z) = val_main_v52 (F := Ideal) x0 x2 x5 x6 x7 (ix3 b s d) := by
  rw [val_main_v54_apply]
  exact congrArg _ (funext fun a => by match a with | ⟨0, _⟩ => rfl | ⟨1, _⟩ => rfl | ⟨2, _⟩ => rfl)

/-- The two parts stacked on a new last axis: slot 0 is the real part … -/
theorem val_main_v55_re (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (j : Fin 2) (hj : j.val = 0) :
    val_main_v55 (F := Ideal) x0 x2 x5 x6 x7 (ix4 b s d j) = val_main_v45 (F := Ideal) x0 x2 x5 x6 x7 (ix3 b s d) := by
  unfold val_main_v55
  rw [concatenate_pair_apply_left (3 : Fin S2x4096x1024x2.rank) _ _ concatenates_S2x4096x1024x1_S2x4096x1024x1_S2x4096x1024x2_d3
    (ix4 b s d j) rfl (ix4 b s d (0 : Fin 1)) (fun a => by
      match a with
      | ⟨0, _⟩ => rfl
      | ⟨1, _⟩ => rfl
      | ⟨2, _⟩ => rfl
      | ⟨3, _⟩ => exact hj.symm)]
  exact val_main_v53_ix x0 x2 x5 x6 x7 b s d 0

/-- … and slot 1 the imaginary part. -/
theorem val_main_v55_im (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (j : Fin 2) (hj : j.val = 1) :
    val_main_v55 (F := Ideal) x0 x2 x5 x6 x7 (ix4 b s d j) = val_main_v52 (F := Ideal) x0 x2 x5 x6 x7 (ix3 b s d) := by
  unfold val_main_v55
  rw [concatenate_pair_apply_right (3 : Fin S2x4096x1024x2.rank) _ _ concatenates_S2x4096x1024x1_S2x4096x1024x1_S2x4096x1024x2_d3
    (ix4 b s d j) rfl rfl (ix4 b s d (0 : Fin 1)) (fun a ha => by
      match a with
      | ⟨0, _⟩ => rfl
      | ⟨1, _⟩ => rfl
      | ⟨2, _⟩ => rfl
      | ⟨3, _⟩ => exact absurd rfl ha) (by show (0 : Nat) + 1 = j.val; omega)]
  exact val_main_v54_ix x0 x2 x5 x6 x7 b s d 0

/-- The reshape [2, 4096, 1024, 2] → [2, 4096, 2048] sends lane e to pair e / 2, slot e mod 2. -/
theorem idx_v56_ix (b : Fin 2) (s : Fin 4096) (e : Fin 2048) :
    idx_main_v56 (ix3 b s e) = ix4 b s (pairOf e) (⟨e.val % 2, Nat.mod_lt _ (by decide)⟩ : Fin 2) := by
  have hb := b.isLt; have hs := s.isLt; have he := e.isLt
  funext a
  match a with
  | ⟨0, _⟩ => exact Fin.ext (by show ((b.val * 4096 + s.val) * 2048 + e.val) / 8388608 = b.val; omega)
  | ⟨1, _⟩ => exact Fin.ext (by show ((b.val * 4096 + s.val) * 2048 + e.val) / 2048 % 4096 = s.val; omega)
  | ⟨2, _⟩ => exact Fin.ext (by show ((b.val * 4096 + s.val) * 2048 + e.val) / 2 % 1024 = e.val / 2; omega)
  | ⟨3, _⟩ => exact Fin.ext (by show ((b.val * 4096 + s.val) * 2048 + e.val) % 2 = e.val % 2; omega)

/-- THE ROTATED KEY ARRAY at (b, s, e): lane 2d is the real part of pair d, lane 2d + 1 its imaginary part. -/
theorem val_main_v56_ix (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (e : Fin 2048) :
    val_main_v56 (F := Ideal) x0 x2 x5 x6 x7 (ix3 b s e)
      = rot (proj x0 x2) (val_main_v9 (F := Ideal) x5 x7) (val_main_v16 (F := Ideal) x6 x7) b s e := by
  rw [val_main_v56_apply, idx_v56_ix]
  unfold rot
  by_cases hm : e.val % 2 = 0
  · rw [if_pos hm, val_main_v55_re x0 x2 x5 x6 x7 b s (pairOf e) _ hm, val_main_v45_ix]
  · rw [if_neg hm, val_main_v55_im x0 x2 x5 x6 x7 b s (pairOf e) _ (by show e.val % 2 = 1; omega), val_main_v52_ix]

theorem val_main_v56_even (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v56 (F := Ideal) x0 x2 x5 x6 x7 (ix3 b s (evenLane d))
      = proj x0 x2 b s (lo d) * val_main_v9 (F := Ideal) x5 x7 (ix2 s d) - proj x0 x2 b s (hi d) * val_main_v16 (F := Ideal) x6 x7 (ix2 s d) := by
  rw [val_main_v56_ix, rot_even]; rfl
theorem val_main_v56_odd (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v56 (F := Ideal) x0 x2 x5 x6 x7 (ix3 b s (oddLane d))
      = proj x0 x2 b s (lo d) * val_main_v16 (F := Ideal) x6 x7 (ix2 s d) + proj x0 x2 b s (hi d) * val_main_v9 (F := Ideal) x5 x7 (ix2 s d) := by
  rw [val_main_v56_ix, rot_odd]; rfl

/-! ## The query side -/

theorem idx_v17_ix (b : Fin 2) (s : Fin 4096) (d : Fin 1024) : idx_main_v17 (ix3 b s d) = ix3 b s (lo d) :=
  funext fun a => by match a with | ⟨0, _⟩ => rfl | ⟨1, _⟩ => rfl | ⟨2, _⟩ => rfl
theorem idx_v18_ix (b : Fin 2) (s : Fin 4096) (d : Fin 1024) : idx_main_v18 (ix3 b s d) = ix3 b s (hi d) :=
  funext fun a => by match a with | ⟨0, _⟩ => rfl | ⟨1, _⟩ => rfl | ⟨2, _⟩ => rfl

/-- The table looked up by position, broadcast over the batch axis, read at (b, s, d): the table at (s, d). -/
theorem val_main_v20_ix (x5 : (⟨S4096x1024, .f32⟩ : BufTy).Contents (Elt Ideal)) (x7 : (⟨S4096, .i32⟩ : BufTy).Contents (Elt Ideal)) (b : Fin 2) (s : Fin 4096) (d : Fin 1024) :
    val_main_v20 (F := Ideal) x5 x7 (ix3 b s d) = val_main_v9 (F := Ideal) x5 x7 (ix2 s d) := by
  rw [val_main_v20_apply, val_main_v19_apply]
  exact congrArg _ (funext fun a => by match a with | ⟨0, _⟩ => rfl | ⟨1, _⟩ => rfl)
theorem val_main_v30_ix (x5 : (⟨S4096x1024, .f32⟩ : BufTy).Contents (Elt Ideal)) (x7 : (⟨S4096, .i32⟩ : BufTy).Contents (Elt Ideal)) (b : Fin 2) (s : Fin 4096) (d : Fin 1024) :
    val_main_v30 (F := Ideal) x5 x7 (ix3 b s d) = val_main_v9 (F := Ideal) x5 x7 (ix2 s d) := by
  rw [val_main_v30_apply, val_main_v29_apply]
  exact congrArg _ (funext fun a => by match a with | ⟨0, _⟩ => rfl | ⟨1, _⟩ => rfl)
theorem val_main_v23_ix (x6 : (⟨S4096x1024, .f32⟩ : BufTy).Contents (Elt Ideal)) (x7 : (⟨S4096, .i32⟩ : BufTy).Contents (Elt Ideal)) (b : Fin 2) (s : Fin 4096) (d : Fin 1024) :
    val_main_v23 (F := Ideal) x6 x7 (ix3 b s d) = val_main_v16 (F := Ideal) x6 x7 (ix2 s d) := by
  rw [val_main_v23_apply, val_main_v22_apply]
  exact congrArg _ (funext fun a => by match a with | ⟨0, _⟩ => rfl | ⟨1, _⟩ => rfl)
theorem val_main_v27_ix (x6 : (⟨S4096x1024, .f32⟩ : BufTy).Contents (Elt Ideal)) (x7 : (⟨S4096, .i32⟩ : BufTy).Contents (Elt Ideal)) (b : Fin 2) (s : Fin 4096) (d : Fin 1024) :
    val_main_v27 (F := Ideal) x6 x7 (ix3 b s d) = val_main_v16 (F := Ideal) x6 x7 (ix2 s d) := by
  rw [val_main_v27_apply, val_main_v26_apply]
  exact congrArg _ (funext fun a => by match a with | ⟨0, _⟩ => rfl | ⟨1, _⟩ => rfl)

/-- The real part of pair d: first half times cos minus second half times sin. -/
theorem val_main_v25_ix (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v25 (F := Ideal) x0 x1 x5 x6 x7 (ix3 b s d)
      = rotRe (proj x0 x1) (val_main_v9 (F := Ideal) x5 x7) (val_main_v16 (F := Ideal) x6 x7) b s d := by
  rw [val_main_v25_apply, val_main_v21_apply, val_main_v24_apply, val_main_v17_apply, val_main_v18_apply,
    idx_v17_ix, idx_v18_ix, val_main_v0_ix, val_main_v0_ix, val_main_v20_ix, val_main_v23_ix]
  rfl

/-- The imaginary part of pair d: first half times sin plus second half times cos. -/
theorem val_main_v32_ix (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v32 (F := Ideal) x0 x1 x5 x6 x7 (ix3 b s d)
      = rotIm (proj x0 x1) (val_main_v9 (F := Ideal) x5 x7) (val_main_v16 (F := Ideal) x6 x7) b s d := by
  rw [val_main_v32_apply, val_main_v28_apply, val_main_v31_apply, val_main_v17_apply, val_main_v18_apply,
    idx_v17_ix, idx_v18_ix, val_main_v0_ix, val_main_v0_ix, val_main_v27_ix, val_main_v30_ix]
  rfl

/-- The two parts with a trailing unit axis. -/
theorem val_main_v33_ix (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (z : Fin 1) :
    val_main_v33 (F := Ideal) x0 x1 x5 x6 x7 (ix4 b s d z) = val_main_v25 (F := Ideal) x0 x1 x5 x6 x7 (ix3 b s d) := by
  rw [val_main_v33_apply]
  exact congrArg _ (funext fun a => by match a with | ⟨0, _⟩ => rfl | ⟨1, _⟩ => rfl | ⟨2, _⟩ => rfl)
theorem val_main_v34_ix (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (z : Fin 1) :
    val_main_v34 (F := Ideal) x0 x1 x5 x6 x7 (ix4 b s d z) = val_main_v32 (F := Ideal) x0 x1 x5 x6 x7 (ix3 b s d) := by
  rw [val_main_v34_apply]
  exact congrArg _ (funext fun a => by match a with | ⟨0, _⟩ => rfl | ⟨1, _⟩ => rfl | ⟨2, _⟩ => rfl)

/-- The two parts stacked on a new last axis: slot 0 is the real part … -/
theorem val_main_v35_re (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (j : Fin 2) (hj : j.val = 0) :
    val_main_v35 (F := Ideal) x0 x1 x5 x6 x7 (ix4 b s d j) = val_main_v25 (F := Ideal) x0 x1 x5 x6 x7 (ix3 b s d) := by
  unfold val_main_v35
  rw [concatenate_pair_apply_left (3 : Fin S2x4096x1024x2.rank) _ _ concatenates_S2x4096x1024x1_S2x4096x1024x1_S2x4096x1024x2_d3
    (ix4 b s d j) rfl (ix4 b s d (0 : Fin 1)) (fun a => by
      match a with
      | ⟨0, _⟩ => rfl
      | ⟨1, _⟩ => rfl
      | ⟨2, _⟩ => rfl
      | ⟨3, _⟩ => exact hj.symm)]
  exact val_main_v33_ix x0 x1 x5 x6 x7 b s d 0

/-- … and slot 1 the imaginary part. -/
theorem val_main_v35_im (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) (j : Fin 2) (hj : j.val = 1) :
    val_main_v35 (F := Ideal) x0 x1 x5 x6 x7 (ix4 b s d j) = val_main_v32 (F := Ideal) x0 x1 x5 x6 x7 (ix3 b s d) := by
  unfold val_main_v35
  rw [concatenate_pair_apply_right (3 : Fin S2x4096x1024x2.rank) _ _ concatenates_S2x4096x1024x1_S2x4096x1024x1_S2x4096x1024x2_d3
    (ix4 b s d j) rfl rfl (ix4 b s d (0 : Fin 1)) (fun a ha => by
      match a with
      | ⟨0, _⟩ => rfl
      | ⟨1, _⟩ => rfl
      | ⟨2, _⟩ => rfl
      | ⟨3, _⟩ => exact absurd rfl ha) (by show (0 : Nat) + 1 = j.val; omega)]
  exact val_main_v34_ix x0 x1 x5 x6 x7 b s d 0

/-- The reshape [2, 4096, 1024, 2] → [2, 4096, 2048] sends lane e to pair e / 2, slot e mod 2. -/
theorem idx_v36_ix (b : Fin 2) (s : Fin 4096) (e : Fin 2048) :
    idx_main_v36 (ix3 b s e) = ix4 b s (pairOf e) (⟨e.val % 2, Nat.mod_lt _ (by decide)⟩ : Fin 2) := by
  have hb := b.isLt; have hs := s.isLt; have he := e.isLt
  funext a
  match a with
  | ⟨0, _⟩ => exact Fin.ext (by show ((b.val * 4096 + s.val) * 2048 + e.val) / 8388608 = b.val; omega)
  | ⟨1, _⟩ => exact Fin.ext (by show ((b.val * 4096 + s.val) * 2048 + e.val) / 2048 % 4096 = s.val; omega)
  | ⟨2, _⟩ => exact Fin.ext (by show ((b.val * 4096 + s.val) * 2048 + e.val) / 2 % 1024 = e.val / 2; omega)
  | ⟨3, _⟩ => exact Fin.ext (by show ((b.val * 4096 + s.val) * 2048 + e.val) % 2 = e.val % 2; omega)

/-- THE ROTATED QUERY ARRAY at (b, s, e): lane 2d is the real part of pair d, lane 2d + 1 its imaginary part. -/
theorem val_main_v36_ix (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (e : Fin 2048) :
    val_main_v36 (F := Ideal) x0 x1 x5 x6 x7 (ix3 b s e)
      = rot (proj x0 x1) (val_main_v9 (F := Ideal) x5 x7) (val_main_v16 (F := Ideal) x6 x7) b s e := by
  rw [val_main_v36_apply, idx_v36_ix]
  unfold rot
  by_cases hm : e.val % 2 = 0
  · rw [if_pos hm, val_main_v35_re x0 x1 x5 x6 x7 b s (pairOf e) _ hm, val_main_v25_ix]
  · rw [if_neg hm, val_main_v35_im x0 x1 x5 x6 x7 b s (pairOf e) _ (by show e.val % 2 = 1; omega), val_main_v32_ix]

theorem val_main_v36_even (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v36 (F := Ideal) x0 x1 x5 x6 x7 (ix3 b s (evenLane d))
      = proj x0 x1 b s (lo d) * val_main_v9 (F := Ideal) x5 x7 (ix2 s d) - proj x0 x1 b s (hi d) * val_main_v16 (F := Ideal) x6 x7 (ix2 s d) := by
  rw [val_main_v36_ix, rot_even]; rfl
theorem val_main_v36_odd (x0 : (⟨S2x4096x2048, .f32⟩ : BufTy).Contents (Elt Ideal)) (x1 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (d : Fin 1024) :
    val_main_v36 (F := Ideal) x0 x1 x5 x6 x7 (ix3 b s (oddLane d))
      = proj x0 x1 b s (lo d) * val_main_v16 (F := Ideal) x6 x7 (ix2 s d) + proj x0 x1 b s (hi d) * val_main_v9 (F := Ideal) x5 x7 (ix2 s d) := by
  rw [val_main_v36_ix, rot_odd]; rfl

end Cert.ReferenceIdeal.Hand

end
-- ==== Proof.Ref.Out.lean ====
/-
  The reference's first result read at an index. With qr and kr the rotated query and key arrays, the attention
  logits are s(b, q, k) = (Σ_e qr(b, q, e) · kr(b, k, e)) · 1/8 over the whole hidden axis. The softmax is taken row
  by row: M(b, q) is the maximum of the row, folded from −∞ and joined once more with −∞; e = exp (s − M); the row
  sum L starts from the zero word; the weights are e / L. The context is Σ_k weight(b, q, k) · v(b, k, d) with v the
  value projection, and the result is the context projected by the output weights, Σ_h ctx(b, s, h) · wo(o, h).
-/
import proofs.«175568_j46505905881160_2_alg».proof.Proof.Gen.ReferenceIdeal.Read
import proofs.«175568_j46505905881160_2_alg».proof.Proof.Ref.Form
import proofs.«175568_j46505905881160_2_alg».proof.Proof.Ref.V
import proofs.«175568_j46505905881160_2_alg».proof.Proof.Ref.KRot

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

/-- The attention logits of the reference as a function of its arguments: the rotated queries against the rotated
    keys, both rotated by the same two looked-up tables. -/
abbrev attnScore (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) : Sq3 :=
  score (rot (proj x0 x1) (val_main_v9 (F := Ideal) x5 x7) (val_main_v16 (F := Ideal) x6 x7))
    (rot (proj x0 x2) (val_main_v9 (F := Ideal) x5 x7) (val_main_v16 (F := Ideal) x6 x7))

/-- The logits at (b, q, k). -/
theorem val_main_v59_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q k : Fin 4096) :
    val_main_v59 (F := Ideal) x0 x1 x2 x5 x6 x7 (ix3 b q k) = attnScore x0 x1 x2 x5 x6 x7 b q k := by
  rw [val_main_v59_apply, val_main_v58_apply, val_main_cst_apply, val_main_v57_apply]
  refine congrArg₂ (· * ·) (Finset.sum_congr rfl fun e _ => ?_) rfl
  rw [show lidx_main_v57 (ix3 b q k) e = ix3 b q e from funext fun a => by match a with | ⟨0, _⟩ => rfl | ⟨1, _⟩ => rfl | ⟨2, _⟩ => rfl,
    show ridx_main_v57 (ix3 b q k) e = ix3 b k e from funext fun a => by match a with | ⟨0, _⟩ => rfl | ⟨1, _⟩ => rfl | ⟨2, _⟩ => rfl,
    val_main_v36_ix, val_main_v56_ix]

/-- The shape fact that names the index a row's coordinate is inserted into. -/
theorem red_last : S2x4096x4096.Reduces [2] S2x4096 := by decide

theorem lift_ix (b : Fin 2) (q k : Fin 4096) : red_last.lift (ix2 b q) k = ix3 b q k :=
  funext fun a => Fin.ext (by match a with | ⟨0, _⟩ => rfl | ⟨1, _⟩ => rfl | ⟨2, _⟩ => rfl)

/-- The row maximum as the program folds it: from the word 0xFF800000 over the row's 4096 logits. -/
theorem val_main_v60_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q : Fin 4096) :
    val_main_v60 (F := Ideal) x0 x1 x2 x5 x6 x7 (ix2 b q)
      = (Finset.univ : Finset (Fin 4096)).fold max (Ideal.ofBits .f32 0xFF800000#32) (fun k => attnScore x0 x1 x2 x5 x6 x7 b q k) := by
  unfold val_main_v60
  refine (Host.reduce_eq_fold_single (FloatOps.maximumf (F := Ideal) (φ := .f32)) _ _ reducesTo_S2x4096x4096_S2x4096_d2 red_last h_S_ (ix2 b q)).trans ?_
  show (Finset.univ : Finset (Fin 4096)).fold max (Ideal.ofBits .f32 0xFF800000#32)
      (fun k : Fin 4096 => val_main_v59 (F := Ideal) x0 x1 x2 x5 x6 x7 (red_last.lift (ix2 b q) k)) = _
  refine Finset.fold_congr (fun k _ => ?_)
  rw [lift_ix, val_main_v59_ix]

/-- The row maximum joined once more with −∞. -/
theorem val_main_v62_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q : Fin 4096) :
    val_main_v62 (F := Ideal) x0 x1 x2 x5 x6 x7 (ix2 b q) = rowMax (attnScore x0 x1 x2 x5 x6 x7) b q := by
  rw [val_main_v62_apply, val_main_v61_apply, val_main_cst_4_apply, val_main_v60_ix]
  rfl

/-- … broadcast along the row. -/
theorem val_main_v64_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q k : Fin 4096) :
    val_main_v64 (F := Ideal) x0 x1 x2 x5 x6 x7 (ix3 b q k) = rowMax (attnScore x0 x1 x2 x5 x6 x7) b q := by
  rw [val_main_v64_apply, val_main_v63_apply,
    show idx_main_v63 (idx_main_v64 (ix3 b q k)) = ix2 b q from funext fun a => by match a with | ⟨0, _⟩ => rfl | ⟨1, _⟩ => rfl,
    val_main_v62_ix]

/-- exp (logit − row maximum). -/
theorem val_main_v66_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q k : Fin 4096) :
    val_main_v66 (F := Ideal) x0 x1 x2 x5 x6 x7 (ix3 b q k) = expo (attnScore x0 x1 x2 x5 x6 x7) b q k := by
  rw [val_main_v66_apply, val_main_v65_apply, val_main_v59_ix, val_main_v64_ix]
  rfl

/-- The row sum of the exponentials, from the zero word. -/
theorem val_main_v67_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q : Fin 4096) :
    val_main_v67 (F := Ideal) x0 x1 x2 x5 x6 x7 (ix2 b q) = denom (attnScore x0 x1 x2 x5 x6 x7) b q := by
  rw [val_main_v67_apply, val_main_cst_5_apply]
  show Ideal.ofBits .f32 0x00000000#32 + _ = Ideal.ofBits .f32 0x00000000#32 + _
  refine congrArg (Ideal.ofBits .f32 0x00000000#32 + ·) (Finset.sum_congr rfl fun k _ => ?_)
  rw [show idx_main_v67 (ix2 b q) k = ix3 b q k from funext fun a => by match a with | ⟨0, _⟩ => rfl | ⟨1, _⟩ => rfl | ⟨2, _⟩ => rfl, val_main_v66_ix]

/-- … broadcast along the row. -/
theorem val_main_v69_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q k : Fin 4096) :
    val_main_v69 (F := Ideal) x0 x1 x2 x5 x6 x7 (ix3 b q k) = denom (attnScore x0 x1 x2 x5 x6 x7) b q := by
  rw [val_main_v69_apply, val_main_v68_apply,
    show idx_main_v68 (idx_main_v69 (ix3 b q k)) = ix2 b q from funext fun a => by match a with | ⟨0, _⟩ => rfl | ⟨1, _⟩ => rfl,
    val_main_v67_ix]

/-- The attention weights. -/
theorem val_main_v70_ix (x0 : (⟨S2x4096x2048, .f32⟩ : BufTy).Contents (Elt Ideal)) (x1 x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q k : Fin 4096) :
    val_main_v70 (F := Ideal) x0 x1 x2 x5 x6 x7 (ix3 b q k) = prob (attnScore x0 x1 x2 x5 x6 x7) b q k := by
  rw [val_main_v70_apply, val_main_v66_ix, val_main_v69_ix]
  rfl

/-- The context: the weights applied to the value projection. -/
theorem val_main_v71_ix (x0 : (⟨S2x4096x2048, .f32⟩ : BufTy).Contents (Elt Ideal)) (x1 x2 x3 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (q : Fin 4096) (d : Fin 2048) :
    val_main_v71 (F := Ideal) x0 x1 x2 x3 x5 x6 x7 (ix3 b q d) = ctx (attnScore x0 x1 x2 x5 x6 x7) (proj x0 x3) b q d := by
  rw [val_main_v71_apply]
  refine Finset.sum_congr rfl fun k _ => ?_
  rw [show lidx_main_v71 (ix3 b q d) k = ix3 b q k from funext fun a => by match a with | ⟨0, _⟩ => rfl | ⟨1, _⟩ => rfl | ⟨2, _⟩ => rfl,
    show ridx_main_v71 (ix3 b q d) k = ix3 b k d from funext fun a => by match a with | ⟨0, _⟩ => rfl | ⟨1, _⟩ => rfl | ⟨2, _⟩ => rfl,
    val_main_v70_ix, val_main_v2_ix]

/-- THE OUTPUT (the first result) at (b, s, o): the context projected by the output weights. -/
theorem val_main_v72_ix (x0 : (⟨S2x4096x2048, .f32⟩ : BufTy).Contents (Elt Ideal)) (x1 x2 x3 x4 : (⟨S2048x2048, .f32⟩ : BufTy).Contents (Elt Ideal)) (x5 x6 : (⟨S4096x1024, .f32⟩ : BufTy).Contents (Elt Ideal)) (x7 : (⟨S4096, .i32⟩ : BufTy).Contents (Elt Ideal)) (b : Fin 2) (s : Fin 4096) (o : Fin 2048) :
    val_main_v72 (F := Ideal) x0 x1 x2 x3 x4 x5 x6 x7 (ix3 b s o)
      = outp (ctx (attnScore x0 x1 x2 x5 x6 x7) (proj x0 x3)) x4 b s o := by
  rw [val_main_v72_apply]
  refine Finset.sum_congr rfl fun h _ => ?_
  rw [show lidx_main_v72 (ix3 b s o) h = ix3 b s h from funext fun a => by match a with | ⟨0, _⟩ => rfl | ⟨1, _⟩ => rfl | ⟨2, _⟩ => rfl,
    show ridx_main_v72 (ix3 b s o) h = ix2 o h from funext fun a => by match a with | ⟨0, _⟩ => rfl | ⟨1, _⟩ => rfl,
    val_main_v71_ix]

end Cert.ReferenceIdeal.Hand

end
-- ==== Proof.Ref.Whole.lean ====
/-
  The three results as whole arrays: each is the array whose entry at (b, s, o) is the closed form read there.
-/
import proofs.«175568_j46505905881160_2_alg».proof.Proof.Gen.ReferenceIdeal.Read
import proofs.«175568_j46505905881160_2_alg».proof.Proof.Ref.Form
import proofs.«175568_j46505905881160_2_alg».proof.Proof.Ref.V
import proofs.«175568_j46505905881160_2_alg».proof.Proof.Ref.KRot
import proofs.«175568_j46505905881160_2_alg».proof.Proof.Ref.Out

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

/-- The [2, 4096, 2048] array with the given entries. -/
def arr3 (f : Fn3) : Act := fun i => f ⟨(i 0).val, (i 0).isLt⟩ ⟨(i 1).val, (i 1).isLt⟩ ⟨(i 2).val, (i 2).isLt⟩

theorem arr3_ix (f : Fn3) (b : Fin 2) (s : Fin 4096) (o : Fin 2048) : arr3 f (ix3 b s o) = f b s o := rfl

/-- The value projection, whole. -/
theorem val_main_v2_whole (x0 : (⟨S2x4096x2048, .f32⟩ : BufTy).Contents (Elt Ideal)) (x3 : (⟨S2048x2048, .f32⟩ : BufTy).Contents (Elt Ideal)) :
    val_main_v2 (F := Ideal) x0 x3 = arr3 (proj x0 x3) := by
  funext i
  obtain ⟨b, s, o, rfl⟩ : ∃ (b : Fin 2) (s : Fin 4096) (o : Fin 2048), i = ix3 b s o := ⟨i 0, i 1, i 2, eq_ix3 i⟩
  exact val_main_v2_ix x0 x3 b s o

/-- The rotated keys, whole. -/
theorem val_main_v56_whole (x0 : (⟨S2x4096x2048, .f32⟩ : BufTy).Contents (Elt Ideal)) (x2 : (⟨S2048x2048, .f32⟩ : BufTy).Contents (Elt Ideal)) (x5 x6 : (⟨S4096x1024, .f32⟩ : BufTy).Contents (Elt Ideal)) (x7 : (⟨S4096, .i32⟩ : BufTy).Contents (Elt Ideal)) :
    val_main_v56 (F := Ideal) x0 x2 x5 x6 x7
      = arr3 (rot (proj x0 x2) (val_main_v9 (F := Ideal) x5 x7) (val_main_v16 (F := Ideal) x6 x7)) := by
  funext i
  obtain ⟨b, s, e, rfl⟩ : ∃ (b : Fin 2) (s : Fin 4096) (e : Fin 2048), i = ix3 b s e := ⟨i 0, i 1, i 2, eq_ix3 i⟩
  exact val_main_v56_ix x0 x2 x5 x6 x7 b s e

/-- The output, whole. -/
theorem val_main_v72_whole (x0 : (⟨S2x4096x2048, .f32⟩ : BufTy).Contents (Elt Ideal)) (x1 x2 x3 x4 : (⟨S2048x2048, .f32⟩ : BufTy).Contents (Elt Ideal)) (x5 x6 : (⟨S4096x1024, .f32⟩ : BufTy).Contents (Elt Ideal)) (x7 : (⟨S4096, .i32⟩ : BufTy).Contents (Elt Ideal)) :
    val_main_v72 (F := Ideal) x0 x1 x2 x3 x4 x5 x6 x7
      = arr3 (outp (ctx (attnScore x0 x1 x2 x5 x6 x7) (proj x0 x3)) x4) := by
  funext i
  obtain ⟨b, s, o, rfl⟩ : ∃ (b : Fin 2) (s : Fin 4096) (o : Fin 2048), i = ix3 b s o := ⟨i 0, i 1, i 2, eq_ix3 i⟩
  exact val_main_v72_ix x0 x1 x2 x3 x4 x5 x6 x7 b s o

end Cert.ReferenceIdeal.Hand

end
-- ==== Proof.Spec.Fin.lean ====
/-
  Finite extended reals. An extended real is FINITE when it is the coercion of a real number. The
  finite ones are closed under the field operations the attention computation uses — sums, products,
  differences, finite sums, the maximum of two, the running maximum of a nonempty family — and the
  exponential of a finite value is finite and positive; the quotient of two finite values by a
  nonzero one is the real quotient. Two float literals are evaluated: the word of minus infinity is
  the bottom element, and the word of one eighth is the real number 1/8.
-/
import Idealize.ShloMosaic.PureOps.Ideal

noncomputable section

namespace Cert.Spec

open Idealize.ShloMosaic
open scoped BigOperators

/-- An extended real that is the coercion of a real number. -/
def IsFin (x : EReal) : Prop := ∃ r : ℝ, x = (r : EReal)

theorem IsFin.coe (r : ℝ) : IsFin (r : EReal) := ⟨r, rfl⟩

theorem IsFin.zero : IsFin (0 : EReal) := ⟨0, rfl⟩

theorem IsFin.one : IsFin (1 : EReal) := ⟨1, rfl⟩

theorem IsFin.ne_bot {x : EReal} (h : IsFin x) : x ≠ ⊥ := by
  obtain ⟨r, rfl⟩ := h; exact EReal.coe_ne_bot r

theorem IsFin.ne_top {x : EReal} (h : IsFin x) : x ≠ ⊤ := by
  obtain ⟨r, rfl⟩ := h; exact EReal.coe_ne_top r

/-- A finite extended real is the coercion of its own real part. -/
theorem IsFin.coe_toReal {x : EReal} (h : IsFin x) : ((x.toReal : ℝ) : EReal) = x :=
  EReal.coe_toReal h.ne_top h.ne_bot

theorem isFin_iff {x : EReal} : IsFin x ↔ x ≠ ⊥ ∧ x ≠ ⊤ :=
  ⟨fun h => ⟨h.ne_bot, h.ne_top⟩, fun h => ⟨x.toReal, (EReal.coe_toReal h.2 h.1).symm⟩⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.neg {x : EReal} (hx : IsFin x) : IsFin (-x) := by
  obtain ⟨a, rfl⟩ := hx; exact ⟨-a, (EReal.coe_neg a).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem IsFin.sum {ι : Type*} (s : Finset ι) (f : ι → EReal) (h : ∀ i ∈ s, IsFin (f i)) :
    IsFin (∑ i ∈ s, f i) := by
  refine ⟨∑ i ∈ s, (f i).toReal, ?_⟩
  rw [coe_sum]
  exact Finset.sum_congr rfl fun i hi => ((h i hi).coe_toReal).symm

/-- The maximum of two finite extended reals is finite. -/
theorem isFin_max {x y : EReal} (hx : IsFin x) (hy : IsFin y) : IsFin (max x y) := by
  rcases le_total x y with h | h
  · rw [max_eq_right h]; exact hy
  · rw [max_eq_left h]; exact hx

/-- The coercion of the maximum of two reals. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The running maximum from the bottom element over a NONEMPTY family of finite values is finite. -/
theorem isFin_fold_max {ι : Type*} (s : Finset ι) (hs : s.Nonempty) (f : ι → EReal)
    (h : ∀ i ∈ s, IsFin (f i)) : IsFin (s.fold max ⊥ f) := by
  classical
  induction hs using Finset.Nonempty.cons_induction with
  | singleton a =>
    rw [Finset.fold_singleton, max_bot_right]
    exact h a (Finset.mem_singleton_self a)
  | cons a s ha hs ih =>
    rw [Finset.fold_cons]
    exact isFin_max (h a (Finset.mem_cons_self a s)) (ih fun i hi => h i (Finset.mem_cons_of_mem hi))

/-- The running maximum started from any value is the maximum of that value and the running maximum
    started from the bottom element. -/
theorem fold_max_eq_max_fold_bot {ι : Type*} (s : Finset ι) (b : EReal) (f : ι → EReal) :
    s.fold max b f = max b (s.fold max ⊥ f) := by
  classical
  induction s using Finset.induction_on with
  | empty => rw [Finset.fold_empty, Finset.fold_empty, max_bot_right]
  | insert a s ha ih => rw [Finset.fold_insert ha, Finset.fold_insert ha, ih, max_left_comm]

/-- The exponential of a finite value is a finite, positive value. -/
theorem exp_coe (r : ℝ) : Ideal.exp (r : EReal) = ((Real.exp r : ℝ) : EReal) := rfl

theorem IsFin.exp {x : EReal} (hx : IsFin x) : IsFin (Ideal.exp x) := by
  obtain ⟨a, rfl⟩ := hx; exact ⟨Real.exp a, rfl⟩

theorem exp_pos {x : EReal} (hx : IsFin x) : 0 < Ideal.exp x := by
  obtain ⟨a, rfl⟩ := hx
  rw [exp_coe]; exact EReal.coe_pos.mpr (Real.exp_pos a)

/-- The exponential of the bottom element less anything is zero: the first step of a running
    softmax starts from weight zero. -/
theorem exp_bot_sub (x : EReal) : Ideal.exp (⊥ - x) = 0 := by
  rw [EReal.bot_sub]; rfl

/-- The quotient of two reals by a nonzero one, as the ideal division computes it. -/
theorem div_coe (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

theorem IsFin.div {x y : EReal} (hx : IsFin x) (hy : IsFin y) (hy0 : y ≠ 0) : IsFin (Ideal.div x y) := by
  obtain ⟨a, rfl⟩ := hx; obtain ⟨b, rfl⟩ := hy
  exact ⟨a / b, div_coe a b (EReal.coe_ne_zero.mp hy0)⟩

/-- The single-precision word of minus infinity is the bottom element. -/
theorem ofBits_neg_inf : Ideal.ofBits .f32 0xFF800000#32 = ⊥ := by
  simp [Ideal.ofBits, Ideal.ieee]

/-- The single-precision word `0x3E000000` is the real number one eighth, exactly. -/
theorem ofBits_eighth : Ideal.ofBits .f32 0x3E000000#32 = (((1 : ℝ) / 8 : ℝ) : EReal) := by
  simp [Ideal.ofBits, Ideal.ieee, -EReal.coe_mul]; norm_num

theorem isFin_ofBits_eighth : IsFin (Ideal.ofBits .f32 0x3E000000#32) := ⟨_, ofBits_eighth⟩

end Cert.Spec
-- ==== Proof.KI.ChainProj.lean ====
import proofs.«175568_j46505905881160_2_alg».proof.Proof.KI.Walk
import proofs.«175568_j46505905881160_2_alg».proof.Proof.KI.Host0
import proofs.«175568_j46505905881160_2_alg».proof.Proof.KI.Host3
import proofs.«175568_j46505905881160_2_alg».proof.Proof.KI.Val0
import proofs.«175568_j46505905881160_2_alg».proof.Proof.KI.Val1
import proofs.«175568_j46505905881160_2_alg».proof.Proof.KI.Val2
import proofs.«175568_j46505905881160_2_alg».proof.Proof.Ref.Whole
import proofs.«175568_j46505905881160_2_alg».proof.Proof.Spec.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane rot rotRe rotIm score ctx outp Act Wt Tab Fn3 Sq3 arr3)
open Cert.Spec (flat IsFin)

variable (m : (ℓ : Loc nD τ sig) → Buf (Elt Ideal) ℓ) (ρ : Dev nD → PrngReg)

/-! # The three projections after the reshape of item 4
    Each of the buffers the rotation and the attention read is a matrix product of region 0, 1 or 2 with batch and position
    split apart again; entry (b, s, o) is ∑ₕ x (b, s, h) · w (o, h) of the launch arguments (the format changes are the
    identity, the weights are staged transposed). -/

/-- A row of a staged product, read through the staging of its two operands, is the projection's entry. -/
theorem dotRow_eq_proj (a : S8192x2048.Idx → EReal) (bm : S2048x2048.Idx → EReal) (x : Act) (w : Wt)
    (b : Fin 2) (s : Fin 4096) (o : Fin 2048)
    (ha : ∀ h : Fin 2048, a (ix2 (flat b s) h) = x (ix3 b s h)) (hb : ∀ h : Fin 2048, bm (ix2 h o) = w (ix2 o h)) :
    MM.dotRow a bm (flat b s) o = proj x w b s o := by
  rw [MM.dotRow_def]
  show _ = ∑ h : Fin 2048, x (ix3 b s h) * w (ix2 o h)
  exact Finset.sum_congr rfl fun h _ => by rw [ha h, hb h]

theorem W5_v27 (c : Dev nD) (b : Fin 2) (s : Fin 4096) (o : Fin 2048) :
    W5 (F := Ideal) m ρ c (Proc.devRef .tc main_v27) (ix3 b s o)
      = proj (m ((c : Thread nD τ).loc main_arg0)) (m ((c : Thread nD τ).loc main_arg1)) b s o := by
  refine (host3_v27_ix (W4 m ρ c) b s o).trans ?_
  refine (congrFun (walk_v24_4_2 m ρ c) _).trans ?_
  refine (congrFun (W2_arr m ρ c 2) (ix2 (flat b s) o)).trans ?_
  refine (arrAt0_2 (V1 m ρ) c (flat b s) o).trans ?_
  exact dotRow_eq_proj _ _ _ _ b s o (fun h => host0_v15_ix (W0 m ρ c) b s h) (fun h => host0_v17_ix (W0 m ρ c) h o)

theorem W5_v28 (c : Dev nD) (b : Fin 2) (s : Fin 4096) (o : Fin 2048) :
    W5 (F := Ideal) m ρ c (Proc.devRef .tc main_v28) (ix3 b s o)
      = proj (m ((c : Thread nD τ).loc main_arg0)) (m ((c : Thread nD τ).loc main_arg2)) b s o := by
  refine (host3_v28_ix (W4 m ρ c) b s o).trans ?_
  refine (congrFun (walk_v25_4_3 m ρ c) _).trans ?_
  refine (congrFun (W3_arr m ρ c 2) (ix2 (flat b s) o)).trans ?_
  refine (arrAt1_2 (V2 m ρ) c (flat b s) o).trans ?_
  exact dotRow_eq_proj _ _ _ _ b s o (fun h => (congrFun (walk_v15_2_1 m ρ c) _).trans (host0_v15_ix (W0 m ρ c) b s h)) (fun h => (congrFun (walk_v19_2_1 m ρ c) _).trans (host0_v19_ix (W0 m ρ c) h o))

theorem W5_v29 (c : Dev nD) (b : Fin 2) (s : Fin 4096) (o : Fin 2048) :
    W5 (F := Ideal) m ρ c (Proc.devRef .tc main_v29) (ix3 b s o)
      = proj (m ((c : Thread nD τ).loc main_arg0)) (m ((c : Thread nD τ).loc main_arg3)) b s o := by
  refine (host3_v29_ix (W4 m ρ c) b s o).trans ?_
  refine (congrFun (W4_arr m ρ c 2) (ix2 (flat b s) o)).trans ?_
  refine (arrAt2_2 (V3 m ρ) c (flat b s) o).trans ?_
  exact dotRow_eq_proj _ _ _ _ b s o (fun h => (congrFun (walk_v15_3_1 m ρ c) _).trans (host0_v15_ix (W0 m ρ c) b s h)) (fun h => (congrFun (walk_v21_3_1 m ρ c) _).trans (host0_v21_ix (W0 m ρ c) h o))

theorem W5_v30 (c : Dev nD) (b : Fin 2) (s : Fin 4096) (o : Fin 2048) :
    W5 (F := Ideal) m ρ c (Proc.devRef .tc main_v30) (ix3 b s o)
      = proj (m ((c : Thread nD τ).loc main_arg0)) (m ((c : Thread nD τ).loc main_arg3)) b s o := by
  refine (host3_v30_ix (W4 m ρ c) b s o).trans ?_
  refine (congrFun (W4_arr m ρ c 3) (ix2 (flat b s) o)).trans ?_
  refine (arrAt2_3 (V3 m ρ) c (flat b s) o).trans ?_
  exact dotRow_eq_proj _ _ _ _ b s o (fun h => (congrFun (walk_v15_3_1 m ρ c) _).trans (host0_v15_ix (W0 m ρ c) b s h)) (fun h => (congrFun (walk_v21_3_1 m ρ c) _).trans (host0_v21_ix (W0 m ρ c) h o))

end Cert.KernelIdeal.Hand

end
-- ==== Proof.KI.ChainV.lean ====
import proofs.«175568_j46505905881160_2_alg».proof.Proof.KI.ChainProj

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane rot rotRe rotIm score ctx outp Act Wt Tab Fn3 Sq3 arr3)
open Cert.Spec (flat IsFin)

variable (m : (ℓ : Loc nD τ sig) → Buf (Elt Ideal) ℓ) (ρ : Dev nD → PrngReg)

/-! # The value projection, whole: the third result -/

/-- The buffer the kernel returns as `v` holds, at (b, s, o), ∑ₕ x (b, s, h) · w_v (o, h): it is written by item 4's reshape of
    region 2's full-precision product and no later item writes it. -/
theorem v_eq (c : Dev nD) :
    W10 (F := Ideal) m ρ c (Proc.devRef .tc main_v29)
      = arr3 (proj (m ((c : Thread nD τ).loc main_arg0)) (m ((c : Thread nD τ).loc main_arg3))) := by
  funext (i : S2x4096x2048.Idx)
  obtain ⟨b, s, o, rfl⟩ : ∃ (b : Fin 2) (s : Fin 4096) (o : Fin 2048), i = ix3 b s o := ⟨i 0, i 1, i 2, eq_ix3 i⟩
  exact (congrFun (walk_v29_10_5 m ρ c) _).trans (W5_v29 m ρ c b s o)

end Cert.KernelIdeal.Hand

end
-- ==== Proof.KI.ValRope.lean ====
import proofs.«175568_j46505905881160_2_alg».proof.Proof.KI.R3
import proofs.«175568_j46505905881160_2_alg».proof.Proof.Ref.Form
import Idealize.ShloMosaic.Lib.Pipeline.Value
import Idealize.ShloMosaic.Lib.ValueIdx

/-!
# The rotation, read at an index

With (a, b) the two halves of a row of 2048 lanes and (c, s) a row of each of the two tables, the body writes
a·c − b·s into lane d of the first half and a·s + b·c into lane d of the second half, d < 1024. At the exact
values a change of float format is the identity, so each of the three output blocks IS that rotation of one input
block (the first output of the narrow input, the second and third of the wide one), as one function of the block
index. Stated for any blocks, and for whole arrays.
-/

set_option maxRecDepth 16384

noncomputable section

namespace Cert.KernelIdeal.Hand.Rope

open Cert.KernelIdeal Cert.KernelIdeal.Gen
open Idealize.ShloMosaic Idealize.ShloMosaic.TcCoe Idealize.ShloMosaic.ValueIdx
open Idealize.SL.Sem
open Cert.ReferenceIdeal.Hand (lo hi)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The rotation of a block, and of an array -/

/-- Lane d of the first half after the rotation. -/
def rotLo {n : Nat} (x : (⟨3, ![2, n, 2048]⟩ : Shape).Idx → EReal) (cs sn : (⟨2, ![n, 1024]⟩ : Shape).Idx → EReal)
    (b : Fin 2) (s : Fin n) (d : Fin 1024) : EReal :=
  x (ix3 b s (lo d)) * cs (ix2 s d) - x (ix3 b s (hi d)) * sn (ix2 s d)
/-- Lane d of the second half. -/
def rotHi {n : Nat} (x : (⟨3, ![2, n, 2048]⟩ : Shape).Idx → EReal) (cs sn : (⟨2, ![n, 1024]⟩ : Shape).Idx → EReal)
    (b : Fin 2) (s : Fin n) (d : Fin 1024) : EReal :=
  x (ix3 b s (lo d)) * sn (ix2 s d) + x (ix3 b s (hi d)) * cs (ix2 s d)

theorem rotLo_def {n : Nat} (x : (⟨3, ![2, n, 2048]⟩ : Shape).Idx → EReal) (cs sn : (⟨2, ![n, 1024]⟩ : Shape).Idx → EReal)
    (b : Fin 2) (s : Fin n) (d : Fin 1024) :
    rotLo x cs sn b s d = x (ix3 b s (lo d)) * cs (ix2 s d) - x (ix3 b s (hi d)) * sn (ix2 s d) := rfl
theorem rotHi_def {n : Nat} (x : (⟨3, ![2, n, 2048]⟩ : Shape).Idx → EReal) (cs sn : (⟨2, ![n, 1024]⟩ : Shape).Idx → EReal)
    (b : Fin 2) (s : Fin n) (d : Fin 1024) :
    rotHi x cs sn b s d = x (ix3 b s (lo d)) * sn (ix2 s d) + x (ix3 b s (hi d)) * cs (ix2 s d) := rfl

/-- THE ROTATED ARRAY (or block), as one function of its index: by the half the last coordinate lies in. -/
def rotArr {n : Nat} (x : (⟨3, ![2, n, 2048]⟩ : Shape).Idx → EReal) (cs sn : (⟨2, ![n, 1024]⟩ : Shape).Idx → EReal) :
    (⟨3, ![2, n, 2048]⟩ : Shape).Idx → EReal := fun i =>
  if h : (i 2).val < 1024 then rotLo x cs sn ⟨(i 0).val, (i 0).isLt⟩ ⟨(i 1).val, (i 1).isLt⟩ ⟨(i 2).val, h⟩
  else rotHi x cs sn ⟨(i 0).val, (i 0).isLt⟩ ⟨(i 1).val, (i 1).isLt⟩
    ⟨(i 2).val - 1024, by have h2 : (i 2).val < 2048 := (i 2).isLt; omega⟩

theorem rotArr_lo {n : Nat} (x : (⟨3, ![2, n, 2048]⟩ : Shape).Idx → EReal) (cs sn : (⟨2, ![n, 1024]⟩ : Shape).Idx → EReal)
    (b : Fin 2) (s : Fin n) (d : Fin 1024) : rotArr x cs sn (ix3 b s (lo d)) = rotLo x cs sn b s d := by
  have h : ((ix3 b s (lo d) : (⟨3, ![2, n, 2048]⟩ : Shape).Idx) 2).val < 1024 := d.isLt
  unfold rotArr
  rw [dif_pos h]
  rfl

theorem rotArr_hi {n : Nat} (x : (⟨3, ![2, n, 2048]⟩ : Shape).Idx → EReal) (cs sn : (⟨2, ![n, 1024]⟩ : Shape).Idx → EReal)
    (b : Fin 2) (s : Fin n) (d : Fin 1024) : rotArr x cs sn (ix3 b s (hi d)) = rotHi x cs sn b s d := by
  have h : ¬ ((ix3 b s (hi d) : (⟨3, ![2, n, 2048]⟩ : Shape).Idx) 2).val < 1024 := by
    show ¬ (1024 + d.val < 1024); omega
  unfold rotArr
  rw [dif_neg h]
  refine congrArg (rotHi x cs sn b s) (Fin.ext ?_)
  show 1024 + d.val - 1024 = d.val
  omega

/-! ## The layout operations of the body, at an index -/

/-- A table block, given a leading unit axis and repeated over the two batches, read at (b, r, d): the table at (r, d). -/
theorem bcast_tab (x : FVec Ideal S128x1024 .f32) (h1 : S128x1024.ShapeCasts S1x128x1024)
    (h2 : S1x128x1024.Broadcasts S2x128x1024) (b : Fin 2) (r : Fin 128) (d : Fin 1024) :
    broadcastTo S2x128x1024 (shapeCast S1x128x1024 x h1) h2 (ix3 b r d) = x (ix2 r d) := by
  refine (broadcastTo_apply _ h2 (ix3 b r d) (ix3 (0 : Fin 1) r d) ?_).trans ?_
  · intro a
    match a with
    | ⟨0, _⟩ => rfl
    | ⟨1, _⟩ => rfl
    | ⟨2, _⟩ => rfl
  · refine (shapeCast_addUnit_apply ![128, 1024] x h1 (ix3 (0 : Fin 1) r d)).trans ?_
    exact congrArg x (funext fun a => by match a with | ⟨0, _⟩ => rfl | ⟨1, _⟩ => rfl)

/-- The first half of the last axis of a block, read at (b, r, d): the block at lane d. -/
theorem slice_lo {φ : FTy} (x : FVec Ideal S2x128x2048 φ) (h : S2x128x2048.Slices ![0, 0, 0] S2x128x1024)
    (b : Fin 2) (r : Fin 128) (d : Fin 1024) :
    extractStridedSlice S2x128x1024 ![0, 0, 0] x h (ix3 b r d) = x (ix3 b r (lo d)) :=
  extractStridedSlice_apply _ x h (ix3 b r d) (ix3 b r (lo d)) fun a => by
    match a with
    | ⟨0, _⟩ => show b.val = 0 + b.val; omega
    | ⟨1, _⟩ => show r.val = 0 + r.val; omega
    | ⟨2, _⟩ => show d.val = 0 + d.val; omega

/-- The second half: the block at lane 1024 + d. -/
theorem slice_hi {φ : FTy} (x : FVec Ideal S2x128x2048 φ) (h : S2x128x2048.Slices ![0, 0, 1024] S2x128x1024)
    (b : Fin 2) (r : Fin 128) (d : Fin 1024) :
    extractStridedSlice S2x128x1024 ![0, 0, 1024] x h (ix3 b r d) = x (ix3 b r (hi d)) :=
  extractStridedSlice_apply _ x h (ix3 b r d) (ix3 b r (hi d)) fun a => by
    match a with
    | ⟨0, _⟩ => show b.val = 0 + b.val; omega
    | ⟨1, _⟩ => show r.val = 0 + r.val; omega
    | ⟨2, _⟩ => show 1024 + d.val = 1024 + d.val; rfl

/-! ## The payloads at an index -/

/-- First output, first half. -/
theorem k3_pay9_apply (v0 v2 : FVec Ideal S128x1024 .f32) (v4 : FVec Ideal S2x128x2048 .bf16) (b : Fin 2) (r : Fin 128) (d : Fin 1024) :
    k3_pay9 (F := Ideal) v0 v2 v4 (ix3 b r d) = rotLo v4 v0 v2 b r d := by
  unfold k3_pay9 k3_pay4 k3_pay5 k3_pay7 k3_pay8 k3_pay6
  simp only [shapeCast_self]
  show extractStridedSlice S2x128x1024 ![0, 0, 0] (extf .f32 v4 bitsLt_bf16_f32) slices_S2x128x2048_o0_0_0_S2x128x1024 (ix3 b r d)
        * broadcastTo S2x128x1024 (shapeCast S1x128x1024 v0 shapeCasts_S128x1024_S1x128x1024) broadcasts_S1x128x1024_S2x128x1024 (ix3 b r d)
      - extractStridedSlice S2x128x1024 ![0, 0, 1024] (extf .f32 v4 bitsLt_bf16_f32) slices_S2x128x2048_o0_0_1024_S2x128x1024 (ix3 b r d)
        * broadcastTo S2x128x1024 (shapeCast S1x128x1024 v2 shapeCasts_S128x1024_S1x128x1024) broadcasts_S1x128x1024_S2x128x1024 (ix3 b r d) = _
  rw [slice_lo, slice_hi, bcast_tab, bcast_tab]
  rfl

/-- First output, second half. -/
theorem k3_pay10_apply (v0 v2 : FVec Ideal S128x1024 .f32) (v4 : FVec Ideal S2x128x2048 .bf16) (b : Fin 2) (r : Fin 128) (d : Fin 1024) :
    k3_pay10 (F := Ideal) v0 v2 v4 (ix3 b r d) = rotHi v4 v0 v2 b r d := by
  unfold k3_pay10 k3_pay4 k3_pay5 k3_pay7 k3_pay8 k3_pay6
  simp only [shapeCast_self]
  show extractStridedSlice S2x128x1024 ![0, 0, 0] (extf .f32 v4 bitsLt_bf16_f32) slices_S2x128x2048_o0_0_0_S2x128x1024 (ix3 b r d)
        * broadcastTo S2x128x1024 (shapeCast S1x128x1024 v2 shapeCasts_S128x1024_S1x128x1024) broadcasts_S1x128x1024_S2x128x1024 (ix3 b r d)
      + extractStridedSlice S2x128x1024 ![0, 0, 1024] (extf .f32 v4 bitsLt_bf16_f32) slices_S2x128x2048_o0_0_1024_S2x128x1024 (ix3 b r d)
        * broadcastTo S2x128x1024 (shapeCast S1x128x1024 v0 shapeCasts_S128x1024_S1x128x1024) broadcasts_S1x128x1024_S2x128x1024 (ix3 b r d) = _
  rw [slice_lo, slice_hi, bcast_tab, bcast_tab]
  rfl

/-- Third output, first half. -/
theorem k3_pay14_apply (v0 v2 : FVec Ideal S128x1024 .f32) (v27 : FVec Ideal S2x128x2048 .f32) (b : Fin 2) (r : Fin 128) (d : Fin 1024) :
    k3_pay14 (F := Ideal) v0 v2 v27 (ix3 b r d) = rotLo v27 v0 v2 b r d := by
  unfold k3_pay14 k3_pay4 k3_pay5 k3_pay12 k3_pay13 k3_pay11
  simp only [shapeCast_self]
  show extractStridedSlice S2x128x1024 ![0, 0, 0] v27 slices_S2x128x2048_o0_0_0_S2x128x1024 (ix3 b r d)
        * broadcastTo S2x128x1024 (shapeCast S1x128x1024 v0 shapeCasts_S128x1024_S1x128x1024) broadcasts_S1x128x1024_S2x128x1024 (ix3 b r d)
      - extractStridedSlice S2x128x1024 ![0, 0, 1024] v27 slices_S2x128x2048_o0_0_1024_S2x128x1024 (ix3 b r d)
        * broadcastTo S2x128x1024 (shapeCast S1x128x1024 v2 shapeCasts_S128x1024_S1x128x1024) broadcasts_S1x128x1024_S2x128x1024 (ix3 b r d) = _
  rw [slice_lo, slice_hi, bcast_tab, bcast_tab]
  rfl

/-- Third output, second half: the three values the body carries to the store, put together. -/
theorem k3_pay1_apply (v0 v2 : FVec Ideal S128x1024 .f32) (v27 : FVec Ideal S2x128x2048 .f32) (b : Fin 2) (r : Fin 128) (d : Fin 1024) :
    k3_pay1 (F := Ideal) (k3_pay4 v0) (k3_pay13 v27) (k3_pay15 v2 v27) (ix3 b r d) = rotHi v27 v0 v2 b r d := by
  unfold k3_pay1 k3_pay15 k3_pay4 k3_pay5 k3_pay12 k3_pay13 k3_pay11
  simp only [shapeCast_self]
  show extractStridedSlice S2x128x1024 ![0, 0, 0] v27 slices_S2x128x2048_o0_0_0_S2x128x1024 (ix3 b r d)
        * broadcastTo S2x128x1024 (shapeCast S1x128x1024 v2 shapeCasts_S128x1024_S1x128x1024) broadcasts_S1x128x1024_S2x128x1024 (ix3 b r d)
      + extractStridedSlice S2x128x1024 ![0, 0, 1024] v27 slices_S2x128x2048_o0_0_1024_S2x128x1024 (ix3 b r d)
        * broadcastTo S2x128x1024 (shapeCast S1x128x1024 v0 shapeCasts_S128x1024_S1x128x1024) broadcasts_S1x128x1024_S2x128x1024 (ix3 b r d) = _
  rw [slice_lo, slice_hi, bcast_tab, bcast_tab]
  rfl

/-- Second output: the third's values in the narrower format, the same numbers. -/
theorem k3_pay2_apply (v0 v2 : FVec Ideal S128x1024 .f32) (v27 : FVec Ideal S2x128x2048 .f32) (b : Fin 2) (r : Fin 128) (d : Fin 1024) :
    k3_pay2 (F := Ideal) (k3_pay14 v0 v2 v27) (ix3 b r d) = rotLo v27 v0 v2 b r d := by
  unfold k3_pay2
  show k3_pay14 (F := Ideal) v0 v2 v27 (ix3 b r d) = _
  exact k3_pay14_apply v0 v2 v27 b r d
theorem k3_pay3_apply (v0 v2 : FVec Ideal S128x1024 .f32) (v27 : FVec Ideal S2x128x2048 .f32) (b : Fin 2) (r : Fin 128) (d : Fin 1024) :
    k3_pay3 (F := Ideal) (k3_pay4 v0) (k3_pay13 v27) (k3_pay15 v2 v27) (ix3 b r d) = rotHi v27 v0 v2 b r d := by
  unfold k3_pay3
  show k3_pay1 (F := Ideal) (k3_pay4 v0) (k3_pay13 v27) (k3_pay15 v2 v27) (ix3 b r d) = _
  exact k3_pay1_apply v0 v2 v27 b r d

/-! ## Each output block is the rotation of an input block -/

/-- Where the two half rectangles put a local index. -/
theorem emb_lo (b : Fin 2) (r : Fin 128) (d : Fin 1024) : r3_2.emb (ix3 b r d) = ix3 b r (lo d) :=
  funext fun a => Fin.ext (by
    match a with
    | ⟨0, _⟩ => show 0 + 1 * b.val = b.val; omega
    | ⟨1, _⟩ => show 0 + 1 * r.val = r.val; omega
    | ⟨2, _⟩ => show 0 + 1 * d.val = d.val; omega)
theorem emb_hi (b : Fin 2) (r : Fin 128) (d : Fin 1024) : r3_3.emb (ix3 b r d) = ix3 b r (hi d) :=
  funext fun a => Fin.ext (by
    match a with
    | ⟨0, _⟩ => show 0 + 1 * b.val = b.val; omega
    | ⟨1, _⟩ => show 0 + 1 * r.val = r.val; omega
    | ⟨2, _⟩ => show 1024 + 1 * d.val = 1024 + d.val; omega)

/-- Two pieces over the two halves of the last axis, each holding its half of ONE function `G` of the block index, are `G`. -/
theorem canon_halves {e : EltTy} (G : S2x128x2048.Idx → Elt Ideal e) (pHi pLo : S2x128x1024.Idx → Elt Ideal e)
    (hHi : ∀ b r d, pHi (ix3 b r d) = G (ix3 b r (hi d))) (hLo : ∀ b r d, pLo (ix3 b r d) = G (ix3 b r (lo d)))
    (hcover : ∀ y : S2x128x2048.Idx, ∃ pc ∈ ([⟨r3_3, pHi⟩, ⟨r3_2, pLo⟩] : List (View.Piece (Elt Ideal) S2x128x2048 e)), y ∈ pc.1.set) :
    View.canon ([⟨r3_3, pHi⟩, ⟨r3_2, pLo⟩] : List (View.Piece (Elt Ideal) S2x128x2048 e)) = G := by
  funext y
  refine View.canon_apply_of_pieces G _ ?_ y (hcover y)
  intro p hp z
  rcases List.mem_cons.mp hp with rfl | hp
  · obtain ⟨b, r, d, rfl⟩ : ∃ (b : Fin 2) (r : Fin 128) (d : Fin 1024), z = ix3 b r d := ⟨z 0, z 1, z 2, eq_ix3 z⟩
    show pHi (ix3 b r d) = G (r3_3.emb (ix3 b r d))
    rw [emb_hi, hHi]
  · rcases List.mem_cons.mp hp with rfl | hp
    · obtain ⟨b, r, d, rfl⟩ : ∃ (b : Fin 2) (r : Fin 128) (d : Fin 1024), z = ix3 b r d := ⟨z 0, z 1, z 2, eq_ix3 z⟩
      show pLo (ix3 b r d) = G (r3_2.emb (ix3 b r d))
      rw [emb_lo, hLo]
    · exact absurd hp List.not_mem_nil

/-! ## Each output block as a function of the input blocks -/

/-- The first output block is the rotation of the narrow input's block. -/
theorem out3_4_eq (x0 : Vec Ideal S2x128x2048 .bf16) (x1 : Vec Ideal S2x128x2048 .f32) (x2 x3 : Vec Ideal S128x1024 .f32) :
    out3_4 x0 x1 x2 x3 = rotArr (n := 128) x0 x2 x3 := by
  unfold out3_4
  simp only [View.ld_unit_zero (S := S2x128x2048) hz3, View.ld_unit_zero (S := S128x1024) hz2]
  exact canon_halves (e := .bf16) (rotArr (n := 128) x0 x2 x3) _ _
    (fun b r d => (k3_pay10_apply x2 x3 x0 b r d).trans (rotArr_hi (n := 128) x0 x2 x3 b r d).symm)
    (fun b r d => (k3_pay9_apply x2 x3 x0 b r d).trans (rotArr_lo (n := 128) x0 x2 x3 b r d).symm) (cover3_4 _ _)

/-- The second output block is the rotation of the wide input's block (in the narrower format: the same numbers). -/
theorem out3_5_eq (x0 : Vec Ideal S2x128x2048 .bf16) (x1 : Vec Ideal S2x128x2048 .f32) (x2 x3 : Vec Ideal S128x1024 .f32) :
    out3_5 x0 x1 x2 x3 = rotArr (n := 128) x1 x2 x3 := by
  unfold out3_5
  simp only [View.ld_unit_zero (S := S2x128x2048) hz3, View.ld_unit_zero (S := S128x1024) hz2]
  exact canon_halves (e := .bf16) (rotArr (n := 128) x1 x2 x3) _ _
    (fun b r d => (k3_pay3_apply x2 x3 x1 b r d).trans (rotArr_hi (n := 128) x1 x2 x3 b r d).symm)
    (fun b r d => (k3_pay2_apply x2 x3 x1 b r d).trans (rotArr_lo (n := 128) x1 x2 x3 b r d).symm) (cover3_5 _ _)

/-- The third output block is the rotation of the wide input's block. -/
theorem out3_6_eq (x0 : Vec Ideal S2x128x2048 .bf16) (x1 : Vec Ideal S2x128x2048 .f32) (x2 x3 : Vec Ideal S128x1024 .f32) :
    out3_6 x0 x1 x2 x3 = rotArr (n := 128) x1 x2 x3 := by
  unfold out3_6
  simp only [View.ld_unit_zero (S := S2x128x2048) hz3, View.ld_unit_zero (S := S128x1024) hz2]
  exact canon_halves (e := .f32) (rotArr (n := 128) x1 x2 x3) _ _
    (fun b r d => (k3_pay1_apply x2 x3 x1 b r d).trans (rotArr_hi (n := 128) x1 x2 x3 b r d).symm)
    (fun b r d => (k3_pay14_apply x2 x3 x1 b r d).trans (rotArr_lo (n := 128) x1 x2 x3 b r d).symm) (cover3_6 _ _)

/-! ## The rotation of a block of rows is the block of rows of the rotation -/

/-- If a block `x`, `cs`, `sn` holds the rows `off … off + n − 1` of the arrays `X`, `CS`, `SN`, then the rotated block
    at a local index is the rotated array at the index `off` rows further. -/
theorem rotArr_congr {n m : Nat} (x : (⟨3, ![2, n, 2048]⟩ : Shape).Idx → EReal) (cs sn : (⟨2, ![n, 1024]⟩ : Shape).Idx → EReal)
    (X : (⟨3, ![2, m, 2048]⟩ : Shape).Idx → EReal) (CS SN : (⟨2, ![m, 1024]⟩ : Shape).Idx → EReal)
    (j : (⟨3, ![2, n, 2048]⟩ : Shape).Idx) (i : (⟨3, ![2, m, 2048]⟩ : Shape).Idx) (off : Nat)
    (hi0 : (i 0).val = (j 0).val) (hi1 : (i 1).val = off + (j 1).val) (hi2 : (i 2).val = (j 2).val)
    (hx : ∀ (b : Fin 2) (r : Fin n) (s : Fin m) (e : Fin 2048), s.val = off + r.val → x (ix3 b r e) = X (ix3 b s e))
    (hc : ∀ (r : Fin n) (s : Fin m) (d : Fin 1024), s.val = off + r.val → cs (ix2 r d) = CS (ix2 s d))
    (hs : ∀ (r : Fin n) (s : Fin m) (d : Fin 1024), s.val = off + r.val → sn (ix2 r d) = SN (ix2 s d)) :
    rotArr x cs sn j = rotArr X CS SN i := by
  have hs1 : (⟨(i 1).val, (i 1).isLt⟩ : Fin m).val = off + (⟨(j 1).val, (j 1).isLt⟩ : Fin n).val := hi1
  have eb : (⟨(i 0).val, (i 0).isLt⟩ : Fin 2) = ⟨(j 0).val, (j 0).isLt⟩ := Fin.ext hi0
  unfold rotArr
  by_cases h : (j 2).val < 1024
  · have h' : (i 2).val < 1024 := by omega
    have ed : (⟨(i 2).val, h'⟩ : Fin 1024) = ⟨(j 2).val, h⟩ := Fin.ext hi2
    rw [dif_pos h, dif_pos h', eb, ed]
    unfold rotLo
    rw [hx _ _ _ _ hs1, hx _ _ _ _ hs1, hc _ _ _ hs1, hs _ _ _ hs1]
  · have h' : ¬ (i 2).val < 1024 := by omega
    have ed : (⟨(i 2).val - 1024, by have h2 : (i 2).val < 2048 := (i 2).isLt; omega⟩ : Fin 1024)
        = ⟨(j 2).val - 1024, by have h2 : (j 2).val < 2048 := (j 2).isLt; omega⟩ := Fin.ext (by show (i 2).val - 1024 = (j 2).val - 1024; omega)
    rw [dif_neg h, dif_neg h', eb, ed]
    unfold rotHi
    rw [hx _ _ _ _ hs1, hx _ _ _ _ hs1, hc _ _ _ hs1, hs _ _ _ hs1]

end Cert.KernelIdeal.Hand.Rope

end
-- ==== Proof.KI.Val3.lean ====
import proofs.«175568_j46505905881160_2_alg».proof.Proof.KI.ValRope

/-!
# Region 3's three output arrays, as one function of the arrays the region finds

Each of the 32 grid points writes back the rows 128 t … 128 t + 127 of each output; every output block is the
rotation of the same rows of its input by the same rows of the two tables, and the 32 blocks cover the 4096 rows.
So after the region each output array IS the rotation of its input array by the two tables, entry by entry: the
first output of the narrow input, the second and the third of the wide input.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.Hand (lo hi)

variable (V : (c : Dev nD) → (b : Ref sig .tc) → Buf (Elt Ideal) ((c : Thread nD τ).loc b))

namespace Val3

/-- The printed index maps, decided over the 32 grid points: every window of three axes sits at row block `t` of
    its array (and at block 0 of the other two axes), every table window at row block `t`. -/
theorem idx_facts : ∀ t : Fin cfg3.N, (win3_0.index t (0 : Fin 3) = 0 ∧ win3_0.index t (1 : Fin 3) = t.val ∧ win3_0.index t (2 : Fin 3) = 0)
    ∧ (win3_1.index t (0 : Fin 3) = 0 ∧ win3_1.index t (1 : Fin 3) = t.val ∧ win3_1.index t (2 : Fin 3) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 3) = 0 ∧ win3_4.index t (1 : Fin 3) = t.val ∧ win3_4.index t (2 : Fin 3) = 0)
    ∧ (win3_5.index t (0 : Fin 3) = 0 ∧ win3_5.index t (1 : Fin 3) = t.val ∧ win3_5.index t (2 : Fin 3) = 0)
    ∧ (win3_6.index t (0 : Fin 3) = 0 ∧ win3_6.index t (1 : Fin 3) = t.val ∧ win3_6.index t (2 : Fin 3) = 0) :=
  (by decide +kernel : ∀ t : Fin grid3.N, _)

/-! ## Each input block, entry by entry: the array at block index × block size + the local coordinate -/

theorem iblk_0_apply (c : Dev nD) (t : Fin cfg3.N) (y : S2x128x2048.Idx) (i : S2x4096x2048.Idx)
    (h0 : (i 0).val = win3_0.index t (0 : Fin 3) * 2 + (y 0).val)
    (h1 : (i 1).val = win3_0.index t (1 : Fin 3) * 128 + (y 1).val)
    (h2 : (i 2).val = win3_0.index t (2 : Fin 3) * 2048 + (y 2).val) :
    (iblk3 V c 0 t : S2x128x2048.Idx → EReal) y = (V c main_v27 : S2x4096x2048.Idx → EReal) i := by
  unfold iblk3
  rw [View.read_apply]
  show V c main_v27 _ = V c main_v27 _
  congr 1
  funext a
  apply Fin.ext
  match a with
  | ⟨0, _⟩ => show win3_0.index t (0 : Fin 3) * 2 + 1 * (y 0).val = (i 0).val; omega
  | ⟨1, _⟩ => show win3_0.index t (1 : Fin 3) * 128 + 1 * (y 1).val = (i 1).val; omega
  | ⟨2, _⟩ => show win3_0.index t (2 : Fin 3) * 2048 + 1 * (y 2).val = (i 2).val; omega

theorem iblk_1_apply (c : Dev nD) (t : Fin cfg3.N) (y : S2x128x2048.Idx) (i : S2x4096x2048.Idx)
    (h0 : (i 0).val = win3_1.index t (0 : Fin 3) * 2 + (y 0).val)
    (h1 : (i 1).val = win3_1.index t (1 : Fin 3) * 128 + (y 1).val)
    (h2 : (i 2).val = win3_1.index t (2 : Fin 3) * 2048 + (y 2).val) :
    (iblk3 V c 1 t : S2x128x2048.Idx → EReal) y = (V c main_v28 : S2x4096x2048.Idx → EReal) i := by
  unfold iblk3
  rw [View.read_apply]
  show V c main_v28 _ = V c main_v28 _
  congr 1
  funext a
  apply Fin.ext
  match a with
  | ⟨0, _⟩ => show win3_1.index t (0 : Fin 3) * 2 + 1 * (y 0).val = (i 0).val; omega
  | ⟨1, _⟩ => show win3_1.index t (1 : Fin 3) * 128 + 1 * (y 1).val = (i 1).val; omega
  | ⟨2, _⟩ => show win3_1.index t (2 : Fin 3) * 2048 + 1 * (y 2).val = (i 2).val; omega

theorem iblk_2_apply (c : Dev nD) (t : Fin cfg3.N) (y : S128x1024.Idx) (i : S4096x1024.Idx)
    (h0 : (i 0).val = win3_2.index t (0 : Fin 2) * 128 + (y 0).val)
    (h1 : (i 1).val = win3_2.index t (1 : Fin 2) * 1024 + (y 1).val) :
    (iblk3 V c 2 t : S128x1024.Idx → EReal) y = (V c main_v6 : S4096x1024.Idx → EReal) i := by
  unfold iblk3
  rw [View.read_apply]
  show V c main_v6 _ = V c main_v6 _
  congr 1
  funext a
  apply Fin.ext
  match a with
  | ⟨0, _⟩ => show win3_2.index t (0 : Fin 2) * 128 + 1 * (y 0).val = (i 0).val; omega
  | ⟨1, _⟩ => show win3_2.index t (1 : Fin 2) * 1024 + 1 * (y 1).val = (i 1).val; omega

theorem iblk_3_apply (c : Dev nD) (t : Fin cfg3.N) (y : S128x1024.Idx) (i : S4096x1024.Idx)
    (h0 : (i 0).val = win3_3.index t (0 : Fin 2) * 128 + (y 0).val)
    (h1 : (i 1).val = win3_3.index t (1 : Fin 2) * 1024 + (y 1).val) :
    (iblk3 V c 3 t : S128x1024.Idx → EReal) y = (V c main_v13 : S4096x1024.Idx → EReal) i := by
  unfold iblk3
  rw [View.read_apply]
  show V c main_v13 _ = V c main_v13 _
  congr 1
  funext a
  apply Fin.ext
  match a with
  | ⟨0, _⟩ => show win3_3.index t (0 : Fin 2) * 128 + 1 * (y 0).val = (i 0).val; omega
  | ⟨1, _⟩ => show win3_3.index t (1 : Fin 2) * 1024 + 1 * (y 1).val = (i 1).val; omega

/-! ## The three outputs -/

/-- WHAT POINT `t` WRITES BACK to output window 4 is block `t` of the rotation of the arrays as the region finds them. -/
theorem flushed_4 (c : Dev nD) (t : Fin cfg3.N) :
    (dat3 V c).flushed 4 t = ((cfg3.win 4).blk t).view.read (Elt Ideal)
      (Rope.rotArr (n := 4096) (V c main_v27) (V c main_v6) (V c main_v13)) := by
  show (cfg3.win 4).cut (grid3.coords t) ((dat3 V c).after 4 t) = _
  rw [after3_4, Rope.out3_4_eq]
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  funext j
  rw [View.read_apply]
  refine Rope.rotArr_congr (n := 128) (m := 4096) _ _ _ _ _ _ j _ (t.val * 128) ?_ ?_ ?_ ?_ ?_ ?_
  · show win3_4.index t (0 : Fin 3) * 2 + 1 * (j 0).val = (j 0).val; omega
  · show win3_4.index t (1 : Fin 3) * 128 + 1 * (j 1).val = t.val * 128 + (j 1).val; omega
  · show win3_4.index t (2 : Fin 3) * 2048 + 1 * (j 2).val = (j 2).val; omega
  · intro b r s e hs
    refine iblk_0_apply V c t _ _ ?_ ?_ ?_
    · show b.val = win3_0.index t (0 : Fin 3) * 2 + b.val; omega
    · show s.val = win3_0.index t (1 : Fin 3) * 128 + r.val; omega
    · show e.val = win3_0.index t (2 : Fin 3) * 2048 + e.val; omega
  · intro r s d hs
    refine iblk_2_apply V c t _ _ ?_ ?_
    · show s.val = win3_2.index t (0 : Fin 2) * 128 + r.val; omega
    · show d.val = win3_2.index t (1 : Fin 2) * 1024 + d.val; omega
  · intro r s d hs
    refine iblk_3_apply V c t _ _ ?_ ?_
    · show s.val = win3_3.index t (0 : Fin 2) * 128 + r.val; omega
    · show d.val = win3_3.index t (1 : Fin 2) * 1024 + d.val; omega

/-- An index of the array is in point `t`'s block of window 4 iff each coordinate is in the block's range on its axis. -/
theorem mem_blk_4 (t : Fin cfg3.N) (i : S2x4096x2048.Idx) :
    i ∈ ((cfg3.win 4).blk t).view.set ↔ ∀ a : Fin 3, win3_4.index t a * S2x128x2048.size a ≤ (i a).val ∧ (i a).val < win3_4.index t a * S2x128x2048.size a + S2x128x2048.size a := by
  show i ∈ ((View.whole main_v31_0).slice (win3_4.rect t)).set ↔ _
  rw [View.set_slice_whole, Rect.mem_set_unit]
  exact Iff.rfl

/-- The 32 blocks of 128 rows tile the 4096 rows: row s is in block s / 128. -/
theorem cover_4 (i : S2x4096x2048.Idx) : ∃ t : Fin cfg3.N, (cfg3.win 4).flush t = true ∧ i ∈ ((cfg3.win 4).blk t).view.set := by
  have hi0 : (i 0).val < 2 := (i 0).isLt
  have hi1 : (i 1).val < 4096 := (i 1).isLt
  have hi2 : (i 2).val < 2048 := (i 2).isLt
  have hN : cfg3.N = 32 := N_3
  obtain ⟨t, ht⟩ : ∃ t : Fin cfg3.N, t.val = (i 1).val / 128 := ⟨⟨(i 1).val / 128, by rw [hN]; omega⟩, rfl⟩
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  refine ⟨t, flush3_4 t, ?_⟩
  rw [mem_blk_4]
  intro a
  match a with
  | ⟨0, _⟩ => show win3_4.index t (0 : Fin 3) * 2 ≤ (i 0).val ∧ (i 0).val < win3_4.index t (0 : Fin 3) * 2 + 2; omega
  | ⟨1, _⟩ => show win3_4.index t (1 : Fin 3) * 128 ≤ (i 1).val ∧ (i 1).val < win3_4.index t (1 : Fin 3) * 128 + 128; omega
  | ⟨2, _⟩ => show win3_4.index t (2 : Fin 3) * 2048 ≤ (i 2).val ∧ (i 2).val < win3_4.index t (2 : Fin 3) * 2048 + 2048; omega

/-- THE ARRAY of output window 4 after the region: the rotation of the arrays as the region finds them. -/
theorem final_4 (c : Dev nD) : (dat3 V c).arrAt 4 cfg3.N = Rope.rotArr (n := 4096) (V c main_v27) (V c main_v6) (V c main_v13) :=
  (dat3 V c).arrAt_eq_of_cover 4 _ (fun t _ => flushed_4 V c t) cover_4

/-- WHAT POINT `t` WRITES BACK to output window 5 is block `t` of the rotation of the arrays as the region finds them. -/
theorem flushed_5 (c : Dev nD) (t : Fin cfg3.N) :
    (dat3 V c).flushed 5 t = ((cfg3.win 5).blk t).view.read (Elt Ideal)
      (Rope.rotArr (n := 4096) (V c main_v28) (V c main_v6) (V c main_v13)) := by
  show (cfg3.win 5).cut (grid3.coords t) ((dat3 V c).after 5 t) = _
  rw [after3_5, Rope.out3_5_eq]
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  funext j
  rw [View.read_apply]
  refine Rope.rotArr_congr (n := 128) (m := 4096) _ _ _ _ _ _ j _ (t.val * 128) ?_ ?_ ?_ ?_ ?_ ?_
  · show win3_5.index t (0 : Fin 3) * 2 + 1 * (j 0).val = (j 0).val; omega
  · show win3_5.index t (1 : Fin 3) * 128 + 1 * (j 1).val = t.val * 128 + (j 1).val; omega
  · show win3_5.index t (2 : Fin 3) * 2048 + 1 * (j 2).val = (j 2).val; omega
  · intro b r s e hs
    refine iblk_1_apply V c t _ _ ?_ ?_ ?_
    · show b.val = win3_1.index t (0 : Fin 3) * 2 + b.val; omega
    · show s.val = win3_1.index t (1 : Fin 3) * 128 + r.val; omega
    · show e.val = win3_1.index t (2 : Fin 3) * 2048 + e.val; omega
  · intro r s d hs
    refine iblk_2_apply V c t _ _ ?_ ?_
    · show s.val = win3_2.index t (0 : Fin 2) * 128 + r.val; omega
    · show d.val = win3_2.index t (1 : Fin 2) * 1024 + d.val; omega
  · intro r s d hs
    refine iblk_3_apply V c t _ _ ?_ ?_
    · show s.val = win3_3.index t (0 : Fin 2) * 128 + r.val; omega
    · show d.val = win3_3.index t (1 : Fin 2) * 1024 + d.val; omega

/-- An index of the array is in point `t`'s block of window 5 iff each coordinate is in the block's range on its axis. -/
theorem mem_blk_5 (t : Fin cfg3.N) (i : S2x4096x2048.Idx) :
    i ∈ ((cfg3.win 5).blk t).view.set ↔ ∀ a : Fin 3, win3_5.index t a * S2x128x2048.size a ≤ (i a).val ∧ (i a).val < win3_5.index t a * S2x128x2048.size a + S2x128x2048.size a := by
  show i ∈ ((View.whole main_v31_1).slice (win3_5.rect t)).set ↔ _
  rw [View.set_slice_whole, Rect.mem_set_unit]
  exact Iff.rfl

/-- The 32 blocks of 128 rows tile the 4096 rows: row s is in block s / 128. -/
theorem cover_5 (i : S2x4096x2048.Idx) : ∃ t : Fin cfg3.N, (cfg3.win 5).flush t = true ∧ i ∈ ((cfg3.win 5).blk t).view.set := by
  have hi0 : (i 0).val < 2 := (i 0).isLt
  have hi1 : (i 1).val < 4096 := (i 1).isLt
  have hi2 : (i 2).val < 2048 := (i 2).isLt
  have hN : cfg3.N = 32 := N_3
  obtain ⟨t, ht⟩ : ∃ t : Fin cfg3.N, t.val = (i 1).val / 128 := ⟨⟨(i 1).val / 128, by rw [hN]; omega⟩, rfl⟩
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  refine ⟨t, flush3_5 t, ?_⟩
  rw [mem_blk_5]
  intro a
  match a with
  | ⟨0, _⟩ => show win3_5.index t (0 : Fin 3) * 2 ≤ (i 0).val ∧ (i 0).val < win3_5.index t (0 : Fin 3) * 2 + 2; omega
  | ⟨1, _⟩ => show win3_5.index t (1 : Fin 3) * 128 ≤ (i 1).val ∧ (i 1).val < win3_5.index t (1 : Fin 3) * 128 + 128; omega
  | ⟨2, _⟩ => show win3_5.index t (2 : Fin 3) * 2048 ≤ (i 2).val ∧ (i 2).val < win3_5.index t (2 : Fin 3) * 2048 + 2048; omega

/-- THE ARRAY of output window 5 after the region: the rotation of the arrays as the region finds them. -/
theorem final_5 (c : Dev nD) : (dat3 V c).arrAt 5 cfg3.N = Rope.rotArr (n := 4096) (V c main_v28) (V c main_v6) (V c main_v13) :=
  (dat3 V c).arrAt_eq_of_cover 5 _ (fun t _ => flushed_5 V c t) cover_5

/-- WHAT POINT `t` WRITES BACK to output window 6 is block `t` of the rotation of the arrays as the region finds them. -/
theorem flushed_6 (c : Dev nD) (t : Fin cfg3.N) :
    (dat3 V c).flushed 6 t = ((cfg3.win 6).blk t).view.read (Elt Ideal)
      (Rope.rotArr (n := 4096) (V c main_v28) (V c main_v6) (V c main_v13)) := by
  show (cfg3.win 6).cut (grid3.coords t) ((dat3 V c).after 6 t) = _
  rw [after3_6, Rope.out3_6_eq]
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  funext j
  rw [View.read_apply]
  refine Rope.rotArr_congr (n := 128) (m := 4096) _ _ _ _ _ _ j _ (t.val * 128) ?_ ?_ ?_ ?_ ?_ ?_
  · show win3_6.index t (0 : Fin 3) * 2 + 1 * (j 0).val = (j 0).val; omega
  · show win3_6.index t (1 : Fin 3) * 128 + 1 * (j 1).val = t.val * 128 + (j 1).val; omega
  · show win3_6.index t (2 : Fin 3) * 2048 + 1 * (j 2).val = (j 2).val; omega
  · intro b r s e hs
    refine iblk_1_apply V c t _ _ ?_ ?_ ?_
    · show b.val = win3_1.index t (0 : Fin 3) * 2 + b.val; omega
    · show s.val = win3_1.index t (1 : Fin 3) * 128 + r.val; omega
    · show e.val = win3_1.index t (2 : Fin 3) * 2048 + e.val; omega
  · intro r s d hs
    refine iblk_2_apply V c t _ _ ?_ ?_
    · show s.val = win3_2.index t (0 : Fin 2) * 128 + r.val; omega
    · show d.val = win3_2.index t (1 : Fin 2) * 1024 + d.val; omega
  · intro r s d hs
    refine iblk_3_apply V c t _ _ ?_ ?_
    · show s.val = win3_3.index t (0 : Fin 2) * 128 + r.val; omega
    · show d.val = win3_3.index t (1 : Fin 2) * 1024 + d.val; omega

/-- An index of the array is in point `t`'s block of window 6 iff each coordinate is in the block's range on its axis. -/
theorem mem_blk_6 (t : Fin cfg3.N) (i : S2x4096x2048.Idx) :
    i ∈ ((cfg3.win 6).blk t).view.set ↔ ∀ a : Fin 3, win3_6.index t a * S2x128x2048.size a ≤ (i a).val ∧ (i a).val < win3_6.index t a * S2x128x2048.size a + S2x128x2048.size a := by
  show i ∈ ((View.whole main_v31_2).slice (win3_6.rect t)).set ↔ _
  rw [View.set_slice_whole, Rect.mem_set_unit]
  exact Iff.rfl

/-- The 32 blocks of 128 rows tile the 4096 rows: row s is in block s / 128. -/
theorem cover_6 (i : S2x4096x2048.Idx) : ∃ t : Fin cfg3.N, (cfg3.win 6).flush t = true ∧ i ∈ ((cfg3.win 6).blk t).view.set := by
  have hi0 : (i 0).val < 2 := (i 0).isLt
  have hi1 : (i 1).val < 4096 := (i 1).isLt
  have hi2 : (i 2).val < 2048 := (i 2).isLt
  have hN : cfg3.N = 32 := N_3
  obtain ⟨t, ht⟩ : ∃ t : Fin cfg3.N, t.val = (i 1).val / 128 := ⟨⟨(i 1).val / 128, by rw [hN]; omega⟩, rfl⟩
  obtain ⟨⟨a0, a1, a2⟩, ⟨b0, b1, b2⟩, ⟨c0, c1⟩, ⟨d0, d1⟩, ⟨e0, e1, e2⟩, ⟨f0, f1, f2⟩, ⟨g0, g1, g2⟩⟩ := idx_facts t
  refine ⟨t, flush3_6 t, ?_⟩
  rw [mem_blk_6]
  intro a
  match a with
  | ⟨0, _⟩ => show win3_6.index t (0 : Fin 3) * 2 ≤ (i 0).val ∧ (i 0).val < win3_6.index t (0 : Fin 3) * 2 + 2; omega
  | ⟨1, _⟩ => show win3_6.index t (1 : Fin 3) * 128 ≤ (i 1).val ∧ (i 1).val < win3_6.index t (1 : Fin 3) * 128 + 128; omega
  | ⟨2, _⟩ => show win3_6.index t (2 : Fin 3) * 2048 ≤ (i 2).val ∧ (i 2).val < win3_6.index t (2 : Fin 3) * 2048 + 2048; omega

/-- THE ARRAY of output window 6 after the region: the rotation of the arrays as the region finds them. -/
theorem final_6 (c : Dev nD) : (dat3 V c).arrAt 6 cfg3.N = Rope.rotArr (n := 4096) (V c main_v28) (V c main_v6) (V c main_v13) :=
  (dat3 V c).arrAt_eq_of_cover 6 _ (fun t _ => flushed_6 V c t) cover_6

end Val3

/-- Output window 4 after the region, lane d of the first half: a·c − b·s. -/
theorem arrAt3_4_lo (c : Dev nD) (b : Fin 2) (s : Fin 4096) (d : Fin 1024) :
    (dat3 (F := Ideal) V c).arrAt 4 cfg3.N (ix3 b s (lo d)) = Rope.rotLo (n := 4096) (V c main_v27) (V c main_v6) (V c main_v13) b s d :=
  (congrFun (Val3.final_4 V c) (ix3 b s (lo d))).trans (Rope.rotArr_lo (n := 4096) _ _ _ b s d)
/-- Output window 4 after the region, lane d of the second half: a·s + b·c. -/
theorem arrAt3_4_hi (c : Dev nD) (b : Fin 2) (s : Fin 4096) (d : Fin 1024) :
    (dat3 (F := Ideal) V c).arrAt 4 cfg3.N (ix3 b s (hi d)) = Rope.rotHi (n := 4096) (V c main_v27) (V c main_v6) (V c main_v13) b s d :=
  (congrFun (Val3.final_4 V c) (ix3 b s (hi d))).trans (Rope.rotArr_hi (n := 4096) _ _ _ b s d)

/-- Output window 5 after the region, lane d of the first half: a·c − b·s. -/
theorem arrAt3_5_lo (c : Dev nD) (b : Fin 2) (s : Fin 4096) (d : Fin 1024) :
    (dat3 (F := Ideal) V c).arrAt 5 cfg3.N (ix3 b s (lo d)) = Rope.rotLo (n := 4096) (V c main_v28) (V c main_v6) (V c main_v13) b s d :=
  (congrFun (Val3.final_5 V c) (ix3 b s (lo d))).trans (Rope.rotArr_lo (n := 4096) _ _ _ b s d)
/-- Output window 5 after the region, lane d of the second half: a·s + b·c. -/
theorem arrAt3_5_hi (c : Dev nD) (b : Fin 2) (s : Fin 4096) (d : Fin 1024) :
    (dat3 (F := Ideal) V c).arrAt 5 cfg3.N (ix3 b s (hi d)) = Rope.rotHi (n := 4096) (V c main_v28) (V c main_v6) (V c main_v13) b s d :=
  (congrFun (Val3.final_5 V c) (ix3 b s (hi d))).trans (Rope.rotArr_hi (n := 4096) _ _ _ b s d)

/-- Output window 6 after the region, lane d of the first half: a·c − b·s. -/
theorem arrAt3_6_lo (c : Dev nD) (b : Fin 2) (s : Fin 4096) (d : Fin 1024) :
    (dat3 (F := Ideal) V c).arrAt 6 cfg3.N (ix3 b s (lo d)) = Rope.rotLo (n := 4096) (V c main_v28) (V c main_v6) (V c main_v13) b s d :=
  (congrFun (Val3.final_6 V c) (ix3 b s (lo d))).trans (Rope.rotArr_lo (n := 4096) _ _ _ b s d)
/-- Output window 6 after the region, lane d of the second half: a·s + b·c. -/
theorem arrAt3_6_hi (c : Dev nD) (b : Fin 2) (s : Fin 4096) (d : Fin 1024) :
    (dat3 (F := Ideal) V c).arrAt 6 cfg3.N (ix3 b s (hi d)) = Rope.rotHi (n := 4096) (V c main_v28) (V c main_v6) (V c main_v13) b s d :=
  (congrFun (Val3.final_6 V c) (ix3 b s (hi d))).trans (Rope.rotArr_hi (n := 4096) _ _ _ b s d)

end Cert.KernelIdeal.Hand

end
-- ==== Proof.KI.ChainRope.lean ====
import proofs.«175568_j46505905881160_2_alg».proof.Proof.KI.ChainProj
import proofs.«175568_j46505905881160_2_alg».proof.Proof.KI.Val3

/-! # The rotation kernel's three outputs in terms of the launch arguments
    The kernel rotates the query projection (into its first output) and the key projection (into its second and third)
    by the two looked-up tables, and lays the result half-split: lane d of the first half holds the real part of pair d,
    lane 1024 + d its imaginary part. The projections are the launch arguments' products (read through the reshape
    before the kernel); the tables are the reference's own lookups, carried whole. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane pairOf rot rotRe rotIm rot_even rot_odd score ctx outp Act Wt Tab Fn3 Sq3 arr3 arr3_ix)
open Cert.ReferenceIdeal.Read (val_main_v9 val_main_v16)
open Cert.Spec (flat IsFin)

variable (m : (ℓ : Loc nD τ sig) → Buf (Elt Ideal) ℓ) (ρ : Dev nD → PrngReg)

/-- The rotation as the kernel's value module states it, against the reference's: the same products, once the staged
    arrays are read as the projection and the tables. -/
theorem rotLo_eq_rotRe (x : (⟨3, ![2, 4096, 2048]⟩ : Shape).Idx → EReal) (cs sn : (⟨2, ![4096, 1024]⟩ : Shape).Idx → EReal)
    (y : Fn3) (cT nT : Tab) (b : Fin 2) (s : Fin 4096) (d : Fin 1024)
    (hx : ∀ e : Fin 2048, x (ix3 b s e) = y b s e) (hc : cs = cT) (hn : sn = nT) :
    Rope.rotLo (n := 4096) x cs sn b s d = rotRe y cT nT b s d := by
  subst hc hn
  rw [Rope.rotLo_def, hx, hx]
  rfl

theorem rotHi_eq_rotIm (x : (⟨3, ![2, 4096, 2048]⟩ : Shape).Idx → EReal) (cs sn : (⟨2, ![4096, 1024]⟩ : Shape).Idx → EReal)
    (y : Fn3) (cT nT : Tab) (b : Fin 2) (s : Fin 4096) (d : Fin 1024)
    (hx : ∀ e : Fin 2048, x (ix3 b s e) = y b s e) (hc : cs = cT) (hn : sn = nT) :
    Rope.rotHi (n := 4096) x cs sn b s d = rotIm y cT nT b s d := by
  subst hc hn
  rw [Rope.rotHi_def, hx, hx]
  rfl

/-- The cosine table the rotation kernel finds is the reference's lookup of the launch arguments. -/
theorem W5_v6 (c : Dev nD) :
    W5 (F := Ideal) m ρ c (Proc.devRef .tc main_v6) = val_main_v9 (F := Ideal) (m ((c : Thread nD τ).loc main_arg5)) (m ((c : Thread nD τ).loc main_arg7)) :=
  (walk_v6_5_1 m ρ c).trans (host0_v6 (W0 m ρ c))

/-- The sine table likewise. -/
theorem W5_v13 (c : Dev nD) :
    W5 (F := Ideal) m ρ c (Proc.devRef .tc main_v13) = val_main_v16 (F := Ideal) (m ((c : Thread nD τ).loc main_arg6)) (m ((c : Thread nD τ).loc main_arg7)) :=
  (walk_v13_5_1 m ρ c).trans (host0_v13 (W0 m ρ c))

/-- The rotated keys (third output), first half: the real parts. -/
theorem W6_v31_2_lo (c : Dev nD) (b : Fin 2) (s : Fin 4096) (d : Fin 1024) :
    W6 (F := Ideal) m ρ c (Proc.devRef .tc main_v31_2) (ix3 b s (lo d)) = rotRe (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 6) (ix3 b s (lo d))).trans ?_
  refine (arrAt3_6_lo (V5 m ρ) c b s d).trans ?_
  exact rotLo_eq_rotRe _ _ _ _ _ _ b s d (fun e => W5_v28 m ρ c b s e) (W5_v6 m ρ c) (W5_v13 m ρ c)

/-- The rotated keys (third output), second half: the imaginary parts. -/
theorem W6_v31_2_hi (c : Dev nD) (b : Fin 2) (s : Fin 4096) (d : Fin 1024) :
    W6 (F := Ideal) m ρ c (Proc.devRef .tc main_v31_2) (ix3 b s (hi d)) = rotIm (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 6) (ix3 b s (hi d))).trans ?_
  refine (arrAt3_6_hi (V5 m ρ) c b s d).trans ?_
  exact rotHi_eq_rotIm _ _ _ _ _ _ b s d (fun e => W5_v28 m ρ c b s e) (W5_v6 m ρ c) (W5_v13 m ρ c)

/-- The rotated keys (second output), first half: the real parts. -/
theorem W6_v31_1_lo (c : Dev nD) (b : Fin 2) (s : Fin 4096) (d : Fin 1024) :
    W6 (F := Ideal) m ρ c (Proc.devRef .tc main_v31_1) (ix3 b s (lo d)) = rotRe (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 5) (ix3 b s (lo d))).trans ?_
  refine (arrAt3_5_lo (V5 m ρ) c b s d).trans ?_
  exact rotLo_eq_rotRe _ _ _ _ _ _ b s d (fun e => W5_v28 m ρ c b s e) (W5_v6 m ρ c) (W5_v13 m ρ c)

/-- The rotated keys (second output), second half: the imaginary parts. -/
theorem W6_v31_1_hi (c : Dev nD) (b : Fin 2) (s : Fin 4096) (d : Fin 1024) :
    W6 (F := Ideal) m ρ c (Proc.devRef .tc main_v31_1) (ix3 b s (hi d)) = rotIm (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 5) (ix3 b s (hi d))).trans ?_
  refine (arrAt3_5_hi (V5 m ρ) c b s d).trans ?_
  exact rotHi_eq_rotIm _ _ _ _ _ _ b s d (fun e => W5_v28 m ρ c b s e) (W5_v6 m ρ c) (W5_v13 m ρ c)

/-- The rotated queries (first output), first half: the real parts. -/
theorem W6_v31_0_lo (c : Dev nD) (b : Fin 2) (s : Fin 4096) (d : Fin 1024) :
    W6 (F := Ideal) m ρ c (Proc.devRef .tc main_v31_0) (ix3 b s (lo d)) = rotRe (proj (m ((c : Thread nD τ).loc main_arg0)) (m ((c : Thread nD τ).loc main_arg1))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 4) (ix3 b s (lo d))).trans ?_
  refine (arrAt3_4_lo (V5 m ρ) c b s d).trans ?_
  exact rotLo_eq_rotRe _ _ _ _ _ _ b s d (fun e => W5_v27 m ρ c b s e) (W5_v6 m ρ c) (W5_v13 m ρ c)

/-- The rotated queries (first output), second half: the imaginary parts. -/
theorem W6_v31_0_hi (c : Dev nD) (b : Fin 2) (s : Fin 4096) (d : Fin 1024) :
    W6 (F := Ideal) m ρ c (Proc.devRef .tc main_v31_0) (ix3 b s (hi d)) = rotIm (proj (m ((c : Thread nD τ).loc main_arg0)) (m ((c : Thread nD τ).loc main_arg1))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s d := by
  refine (congrFun (W6_arr m ρ c 4) (ix3 b s (hi d))).trans ?_
  refine (arrAt3_4_hi (V5 m ρ) c b s d).trans ?_
  exact rotHi_eq_rotIm _ _ _ _ _ _ b s d (fun e => W5_v27 m ρ c b s e) (W5_v6 m ρ c) (W5_v13 m ρ c)

end Cert.KernelIdeal.Hand

end
-- ==== Proof.KI.Host6.lean ====
/-
  The host operations after the last kernel, read at an index. The output projection comes back as [8192, 2048]
  and is split into batch and position: entry (b, s, o) is row 4096 · b + s, column o. The rotated keys come back
  with the hidden axis half-split (real parts in lanes [0, 1024), imaginary parts in [1024, 2048)) and are
  re-interleaved: lane 2d of the result is lane d, lane 2d + 1 is lane 1024 + d.
-/
import proofs.«175568_j46505905881160_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«175568_j46505905881160_2_alg».proof.Proof.Ref.Form
import proofs.«175568_j46505905881160_2_alg».proof.Proof.Spec.FlatIdx
import proofs.«175568_j46505905881160_2_alg».proof.Proof.KI.HostLay
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo
open Cert.ReferenceIdeal.Hand (lo hi evenLane oddLane pairOf)

open Cert.Spec (flat)

variable (Wv : Valuation τ sig (Elt Ideal))

/-- v35 is v34 with its rows split into batch and position. -/
theorem host6_v35 : StableHlo.after hostOps6 Wv (Proc.devRef .tc main_v35)
    = shapeCast S2x4096x2048 (Wv (Proc.devRef .tc main_v34)) shapeCasts_S8192x2048_S2x4096x2048 := by
  after_results; rfl
theorem host6_v35_ix (b : Fin 2) (s : Fin 4096) (o : Fin 2048) :
    StableHlo.after hostOps6 Wv (Proc.devRef .tc main_v35) (ix3 b s o) = Wv (Proc.devRef .tc main_v34) (ix2 (flat b s) o) :=
  (congrFun (host6_v35 Wv) _).trans (unflat_apply _ b s o)

/-- v41 is v31_2 re-interleaved. -/
theorem host6_v41 : StableHlo.after hostOps6 Wv (Proc.devRef .tc main_v41) = interleave (Wv (Proc.devRef .tc main_v31_2)) := by
  after_results; rfl
theorem host6_v41_even (b : Fin 2) (s : Fin 4096) (d : Fin 1024) :
    StableHlo.after hostOps6 Wv (Proc.devRef .tc main_v41) (ix3 b s (evenLane d)) = Wv (Proc.devRef .tc main_v31_2) (ix3 b s (lo d)) :=
  (congrFun (host6_v41 Wv) _).trans (interleave_even _ b s d)
theorem host6_v41_odd (b : Fin 2) (s : Fin 4096) (d : Fin 1024) :
    StableHlo.after hostOps6 Wv (Proc.devRef .tc main_v41) (ix3 b s (oddLane d)) = Wv (Proc.devRef .tc main_v31_2) (ix3 b s (hi d)) :=
  (congrFun (host6_v41 Wv) _).trans (interleave_odd _ b s d)

end Cert.KernelIdeal.Hand

end
-- ==== Proof.KI.ChainKrot.lean ====
import proofs.«175568_j46505905881160_2_alg».proof.Proof.KI.ChainRope
import proofs.«175568_j46505905881160_2_alg».proof.Proof.KI.Host6

/-! # The kernel's second result is the reference's rotated keys
    The last host stretch re-interleaves the half-split rotated keys: lane 2d of the result is the real part of pair d,
    lane 2d + 1 its imaginary part, which is the layout of the reference's rotated array. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane pairOf rot rotRe rotIm rot_even rot_odd score ctx outp Act Wt Tab Fn3 Sq3 arr3 arr3_ix)
open Cert.ReferenceIdeal.Read (val_main_v9 val_main_v16)
open Cert.Spec (flat IsFin)

variable (m : (ℓ : Loc nD τ sig) → Buf (Elt Ideal) ℓ) (ρ : Dev nD → PrngReg)

/-- Every lane of the interleaved axis is an even lane 2d or an odd lane 2d + 1. -/
theorem lane_cases (e : Fin 2048) : (∃ d : Fin 1024, e = evenLane d) ∨ (∃ d : Fin 1024, e = oddLane d) := by
  have he := e.isLt
  rcases Nat.mod_two_eq_zero_or_one e.val with h | h
  · exact Or.inl ⟨⟨e.val / 2, by omega⟩, Fin.ext (by show e.val = 2 * (e.val / 2); omega)⟩
  · exact Or.inr ⟨⟨e.val / 2, by omega⟩, Fin.ext (by show e.val = 2 * (e.val / 2) + 1; omega)⟩

theorem krot_ix (c : Dev nD) (b : Fin 2) (s : Fin 4096) (e : Fin 2048) :
    W10 (F := Ideal) m ρ c (Proc.devRef .tc main_v41) (ix3 b s e) = rot (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7))) b s e := by
  rcases lane_cases e with ⟨d, rfl⟩ | ⟨d, rfl⟩
  · refine (host6_v41_even (W9 m ρ c) b s d).trans ?_
    refine (congrFun (walk_v31_2_9_6 m ρ c) _).trans ?_
    refine (W6_v31_2_lo m ρ c b s d).trans ?_
    exact (rot_even _ _ _ b s d).symm
  · refine (host6_v41_odd (W9 m ρ c) b s d).trans ?_
    refine (congrFun (walk_v31_2_9_6 m ρ c) _).trans ?_
    refine (W6_v31_2_hi m ρ c b s d).trans ?_
    exact (rot_odd _ _ _ b s d).symm

/-- THE SECOND RESULT, whole: the rotated key projection, interleaved. -/
theorem krot_eq (c : Dev nD) :
    W10 (F := Ideal) m ρ c (Proc.devRef .tc main_v41) = arr3 (rot (proj (m ((c : Thread nD τ).loc main_arg0)) (m ((c : Thread nD τ).loc main_arg2))) (val_main_v9 (F := Ideal) (m ((c : Thread nD τ).loc main_arg5)) (m ((c : Thread nD τ).loc main_arg7))) (val_main_v16 (F := Ideal) (m ((c : Thread nD τ).loc main_arg6)) (m ((c : Thread nD τ).loc main_arg7)))) := by
  funext i
  obtain ⟨b, s, e, rfl⟩ : ∃ (b : Fin 2) (s : Fin 4096) (e : Fin 2048), i = ix3 b s e := ⟨i 0, i 1, i 2, eq_ix3 i⟩
  exact krot_ix m ρ c b s e

end Cert.KernelIdeal.Hand

end
-- ==== Proof.KI.Host5.lean ====
/-
  The host operation between the attention kernel and the output projection, read at an index: the context
  [2, 4096, 2048] has its batch and position axes merged, row 4096 · b + s holding position s of batch b.
-/
import proofs.«175568_j46505905881160_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«175568_j46505905881160_2_alg».proof.Proof.Ref.Form
import proofs.«175568_j46505905881160_2_alg».proof.Proof.Spec.FlatIdx
import proofs.«175568_j46505905881160_2_alg».proof.Proof.KI.HostLay
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.StableHlo
open Cert.ReferenceIdeal.Hand (lo hi evenLane oddLane pairOf)

open Cert.Spec (flat)

variable (Wv : Valuation τ sig (Elt Ideal))

/-- v33 is v32 with batch and position merged. -/
theorem host5_v33 : StableHlo.after hostOps5 Wv (Proc.devRef .tc main_v33)
    = shapeCast S8192x2048 (Wv (Proc.devRef .tc main_v32)) shapeCasts_S2x4096x2048_S8192x2048 := by
  after_results; rfl
theorem host5_v33_ix (b : Fin 2) (s : Fin 4096) (h : Fin 2048) :
    StableHlo.after hostOps5 Wv (Proc.devRef .tc main_v33) (ix2 (flat b s) h) = Wv (Proc.devRef .tc main_v32) (ix3 b s h) :=
  (congrFun (host5_v33 Wv) _).trans (flat_apply _ b s h)

end Cert.KernelIdeal.Hand

end
-- ==== Proof.KI.Val5.lean ====
import proofs.«175568_j46505905881160_2_alg».proof.Proof.KI.R5
import proofs.«175568_j46505905881160_2_alg».proof.Proof.KI.ValMM

/-!
# Region 5's output array, as one function of the arrays the region finds

Each grid point writes back one 1024 × 1024 tile of the product of the 8192 × 2048 left array and the 2048 × 2048
right array; the 8 × 2 tiles cover the output, so after the region the output array IS the product, entry by entry.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace Val5

/-- Entry `y` of the left window's block at point `t` is the left array at block index × block size + `y`, axis by axis. -/
theorem iblk_0_apply (c : Dev nD) (t : Fin cfg5.N) (y : S1024x2048.Idx) (i : S8192x2048.Idx)
    (h0 : (i 0).val = win5_0.index t (0 : Fin 2) * 1024 + (y 0).val) (h1 : (i 1).val = win5_0.index t (1 : Fin 2) * 2048 + (y 1).val) :
    (iblk5 V c 0 t : S1024x2048.Idx → EReal) y = (V c main_v33 : S8192x2048.Idx → EReal) i := by
  unfold iblk5
  rw [View.read_apply]
  show V c main_v33 _ = V c main_v33 _
  congr 1
  funext a
  apply Fin.ext
  match a with
  | ⟨0, _⟩ => show win5_0.index t (0 : Fin 2) * 1024 + 1 * (y 0).val = (i 0).val; omega
  | ⟨1, _⟩ => show win5_0.index t (1 : Fin 2) * 2048 + 1 * (y 1).val = (i 1).val; omega

/-- The same for the right window. -/
theorem iblk_1_apply (c : Dev nD) (t : Fin cfg5.N) (y : S2048x1024.Idx) (i : S2048x2048.Idx)
    (h0 : (i 0).val = win5_1.index t (0 : Fin 2) * 2048 + (y 0).val) (h1 : (i 1).val = win5_1.index t (1 : Fin 2) * 1024 + (y 1).val) :
    (iblk5 V c 1 t : S2048x1024.Idx → EReal) y = (V c main_v23 : S2048x2048.Idx → EReal) i := by
  unfold iblk5
  rw [View.read_apply]
  show V c main_v23 _ = V c main_v23 _
  congr 1
  funext a
  apply Fin.ext
  match a with
  | ⟨0, _⟩ => show win5_1.index t (0 : Fin 2) * 2048 + 1 * (y 0).val = (i 0).val; omega
  | ⟨1, _⟩ => show win5_1.index t (1 : Fin 2) * 1024 + 1 * (y 1).val = (i 1).val; omega

/-- The printed index maps, decided over the 16 grid points: the left block moves with the output's row block and sits
    at column block 0, the right block sits at row block 0 and moves with the output's column block, and the output's
    block indices stay in 8 × 2. -/
theorem idx_facts_2 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = win5_2.index t (1 : Fin 2)
    ∧ win5_2.index t (0 : Fin 2) ≤ 7 ∧ win5_2.index t (1 : Fin 2) ≤ 1 :=
  (by decide +kernel : ∀ t : Fin grid5.N, _)

/-- Every block of the output is SOME point's. -/
theorem idx_onto_2 : ∀ (q0 : Fin 8) (q1 : Fin 2), ∃ t : Fin cfg5.N, win5_2.index t = ![q0.val, q1.val] :=
  (by decide +kernel : ∀ (q0 : Fin 8) (q1 : Fin 2), ∃ t : Fin grid5.N, win5_2.index t = ![q0.val, q1.val])

/-- WHAT POINT `t` WRITES BACK is block `t` of the product of the two arrays as the region finds them. -/
theorem flushed_2 (c : Dev nD) (t : Fin cfg5.N) :
    (dat5 V c).flushed 2 t = ((cfg5.win 2).blk t).view.read (Elt Ideal) (MM.matProd (V c main_v33) (V c main_v23)) := by
  show (cfg5.win 2).cut (grid5.coords t) ((dat5 V c).after 2 t) = _
  rw [after5_2]
  unfold out5_2
  rw [View.canon_unit_zero MM.hz2]
  simp only [View.ld_unit_zero (S := S1024x2048) MM.hz2, View.ld_unit_zero (S := S2048x1024) MM.hz2]
  obtain ⟨e0, e1, e2, e3, e4, e5⟩ := idx_facts_2 t
  funext j
  refine (MM.k5_pay1_at (iblk5 V c 0 t) (iblk5 V c 1 t) j).trans ?_
  rw [View.read_apply, MM.matProd_apply]
  refine Finset.sum_congr rfl fun k _ => ?_
  refine congrArg₂ (· * ·) (iblk_0_apply V c t _ _ ?_ ?_) (iblk_1_apply V c t _ _ ?_ ?_)
  · show win5_2.index t (0 : Fin 2) * 1024 + 1 * (j 0).val = win5_0.index t (0 : Fin 2) * 1024 + (j 0).val; omega
  · show k.val = win5_0.index t (1 : Fin 2) * 2048 + k.val; omega
  · show k.val = win5_1.index t (0 : Fin 2) * 2048 + k.val; omega
  · show win5_2.index t (1 : Fin 2) * 1024 + 1 * (j 1).val = win5_1.index t (1 : Fin 2) * 1024 + (j 1).val; omega

/-- An index of the array is in point `t`'s block iff each coordinate is in the block's range on its axis. -/
theorem mem_blk_2 (t : Fin cfg5.N) (i : S8192x2048.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v34).slice (win5_2.rect t)).set ↔ _
  rw [View.set_slice_whole, Rect.mem_set_unit]
  exact Iff.rfl

/-- The output's 8 × 2 blocks of 1024 × 1024 tile the 8192 × 2048 array: entry (r, s) is in block (r / 1024, s / 1024). -/
theorem cover_2 (i : S8192x2048.Idx) : ∃ t : Fin cfg5.N, (cfg5.win 2).flush t = true ∧ i ∈ ((cfg5.win 2).blk t).view.set := by
  have hi0 : (i 0).val < 8192 := (i 0).isLt
  have hi1 : (i 1).val < 2048 := (i 1).isLt
  obtain ⟨t, ht⟩ := idx_onto_2 ⟨(i 0).val / 1024, by omega⟩ ⟨(i 1).val / 1024, by omega⟩
  have q0 : win5_2.index t (0 : Fin 2) = (i 0).val / 1024 := congrFun ht 0
  have q1 : win5_2.index t (1 : Fin 2) = (i 1).val / 1024 := congrFun ht 1
  refine ⟨t, flush5_2 t, ?_⟩
  rw [mem_blk_2]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 1024 ≤ (i 1).val ∧ (i 1).val < win5_2.index t (1 : Fin 2) * 1024 + 1024; omega

/-- THE ARRAY after the region: the product of the two arrays as the region finds them. -/
theorem final_2 (c : Dev nD) : (dat5 V c).arrAt 2 cfg5.N = MM.matProd (V c main_v33) (V c main_v23) :=
  (dat5 V c).arrAt_eq_of_cover 2 _ (fun t _ => flushed_2 V c t) cover_2

end Val5

/-- Entry (i, o) of region 5's output array (window 2) after the region: ∑ₕ left (i, h) · right (h, o). -/
theorem arrAt5_2 (c : Dev nD) (i : Fin 8192) (o : Fin 2048) :
    (dat5 (F := Ideal) V c).arrAt 2 cfg5.N (ix2 i o) = MM.dotRow (V c main_v33) (V c main_v23) i o :=
  (congrFun (Val5.final_2 V c) (ix2 i o)).trans (MM.matProd_ix2 _ _ i o)

end Cert.KernelIdeal.Hand

end
-- ==== Proof.KI.ChainOut.lean ====
import proofs.«175568_j46505905881160_2_alg».proof.Proof.KI.Walk
import proofs.«175568_j46505905881160_2_alg».proof.Proof.KI.Host0
import proofs.«175568_j46505905881160_2_alg».proof.Proof.KI.Host5
import proofs.«175568_j46505905881160_2_alg».proof.Proof.KI.Host6
import proofs.«175568_j46505905881160_2_alg».proof.Proof.KI.Val5
import proofs.«175568_j46505905881160_2_alg».proof.Proof.Ref.Whole
import proofs.«175568_j46505905881160_2_alg».proof.Proof.Spec.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane rot rotRe rotIm score ctx outp attnScore Act Wt Tab Fn3 Sq3 arr3 arr3_ix)
open Cert.Spec (flat IsFin)

variable (m : (ℓ : Loc nD τ sig) → Buf (Elt Ideal) ℓ) (ρ : Dev nD → PrngReg)

/-! # The first result: the output projection of the attention's context
    The last region multiplies the context, its batch and position axes merged into rows, by the output weights staged
    transposed; the host then splits the rows into batch and position again. So entry (b, s, o) of the result is
    ∑ₕ context (b, s, h) · wo (o, h), whatever the context is, once the attention region's output array is known to be it. -/

/-- A row of a staged product, read through the staging of its two operands, is the output projection's entry. -/
theorem dotRow_eq_outp (a : S8192x2048.Idx → EReal) (bm : S2048x2048.Idx → EReal) (cx : Fn3) (w : Wt)
    (b : Fin 2) (s : Fin 4096) (o : Fin 2048)
    (ha : ∀ h : Fin 2048, a (ix2 (flat b s) h) = cx b s h) (hb : ∀ h : Fin 2048, bm (ix2 h o) = w (ix2 o h)) :
    MM.dotRow a bm (flat b s) o = outp cx w b s o := by
  rw [MM.dotRow_def]
  show _ = ∑ h : Fin 2048, cx b s h * w (ix2 o h)
  exact Finset.sum_congr rfl fun h _ => by rw [ha h, hb h]

/-- The first result at (b, s, o), given what the attention region leaves in its output array. -/
theorem out_ix_of (c : Dev nD) (cx : Fn3)
    (hattn : ∀ (b : Fin 2) (q : Fin 4096) (d : Fin 2048), W7 (F := Ideal) m ρ c (Proc.devRef .tc main_v32) (ix3 b q d) = cx b q d)
    (b : Fin 2) (s : Fin 4096) (o : Fin 2048) :
    W10 (F := Ideal) m ρ c (Proc.devRef .tc main_v35) (ix3 b s o) = outp cx (m ((c : Thread nD τ).loc main_arg4)) b s o := by
  refine (host6_v35_ix (W9 m ρ c) b s o).trans ?_
  refine (congrFun (W9_arr m ρ c 2) (ix2 (flat b s) o)).trans ?_
  refine (arrAt5_2 (V8 m ρ) c (flat b s) o).trans ?_
  exact dotRow_eq_outp _ _ _ _ b s o (fun h => (host5_v33_ix (W7 m ρ c) b s h).trans (hattn b s h))
    (fun h => (congrFun (walk_v23_8_1 m ρ c) _).trans (host0_v23_ix (W0 m ρ c) h o))

/-- THE FIRST RESULT, whole: the reference's closed form, once the attention region's output array is the context
    of the reference's logits and value projection. -/
theorem out_eq_of (c : Dev nD)
    (hattn : ∀ (b : Fin 2) (q : Fin 4096) (d : Fin 2048), W7 (F := Ideal) m ρ c (Proc.devRef .tc main_v32) (ix3 b q d)
      = ctx (attnScore (m ((c : Thread nD τ).loc main_arg0)) (m ((c : Thread nD τ).loc main_arg1)) (m ((c : Thread nD τ).loc main_arg2))
              (m ((c : Thread nD τ).loc main_arg5)) (m ((c : Thread nD τ).loc main_arg6)) (m ((c : Thread nD τ).loc main_arg7)))
          (proj (m ((c : Thread nD τ).loc main_arg0)) (m ((c : Thread nD τ).loc main_arg3))) b q d) :
    W10 (F := Ideal) m ρ c (Proc.devRef .tc main_v35)
      = arr3 (outp (ctx (attnScore (m ((c : Thread nD τ).loc main_arg0)) (m ((c : Thread nD τ).loc main_arg1)) (m ((c : Thread nD τ).loc main_arg2))
              (m ((c : Thread nD τ).loc main_arg5)) (m ((c : Thread nD τ).loc main_arg6)) (m ((c : Thread nD τ).loc main_arg7)))
          (proj (m ((c : Thread nD τ).loc main_arg0)) (m ((c : Thread nD τ).loc main_arg3)))) (m ((c : Thread nD τ).loc main_arg4))) :=
  funext fun i : S2x4096x2048.Idx => by
    obtain ⟨b, s, o, rfl⟩ : ∃ (b : Fin 2) (s : Fin 4096) (o : Fin 2048), i = ix3 b s o := ⟨i 0, i 1, i 2, eq_ix3 i⟩
    exact (out_ix_of m ρ c _ hattn b s o).trans (arr3_ix _ b s o).symm

end Cert.KernelIdeal.Hand

end
-- ==== Proof.KI.Val4P.lean ====
import proofs.«175568_j46505905881160_2_alg».proof.Proof.KI.R4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: what each case's stores leave, as the body's payloads

Each of the three carried scratch buffers is overwritten whole at every point, and the output block whole when
kv = 15, so what a case leaves in a buffer is the payload of its last store there, the loads before it reading
what the buffers held: the input blocks, and the scratch buffers as the point before left them (at kv = 0: as the
reset just stored them). -/

theorem hz3 : (![0, 0, 0] : Fin 3 → Nat) = fun _ => 0 := funext fun a => by fin_cases a <;> rfl

theorem sout4_A_0_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) :
    sout4_A_0 c i arg2 harg2 arg3 harg3 arg4 harg4 arg5 harg5 arg6 harg6 arg7 harg7 arg8 harg8 hc0 hc1 x0 x1 x2 = k4_pay2 (k4_pay8 x0 x1 k4_pay4) := by
  unfold sout4_A_0
  rw [View.read_writes_eq_canon _ _ _ (scover4_A_0 c i arg2 harg2 arg3 harg3 arg4 harg4 arg5 harg5 arg6 harg6 arg7 harg7 arg8 harg8 hc0 hc1 x0 x1 x2)]
  unfold kernelRun4_A
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_A_1_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) :
    sout4_A_1 c i arg2 harg2 arg3 harg3 arg4 harg4 arg5 harg5 arg6 harg6 arg7 harg7 arg8 harg8 hc0 hc1 x0 x1 x2 = k4_pay11 x0 x1 k4_pay4 k4_pay4 k4_pay5 := by
  unfold sout4_A_1
  rw [View.read_writes_eq_canon _ _ _ (scover4_A_1 c i arg2 harg2 arg3 harg3 arg4 harg4 arg5 harg5 arg6 harg6 arg7 harg7 arg8 harg8 hc0 hc1 x0 x1 x2)]
  unfold kernelRun4_A
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_A_2_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : cond4_0 i) (hc1 : ¬cond4_1 i)
    (x0 : Vec F S2x512x2048 .bf16) (x1 : Vec F S2x256x2048 .bf16) (x2 : Vec F S2x256x2048 .bf16) :
    sout4_A_2 c i arg2 harg2 arg3 harg3 arg4 harg4 arg5 harg5 arg6 harg6 arg7 harg7 arg8 harg8 hc0 hc1 x0 x1 x2 = k4_pay1 (k4_pay9 x0 x1 k4_pay4 k4_pay4) (k4_pay10 x0 x1 k4_pay4) k4_pay6 x2 := by
  unfold sout4_A_2
  rw [View.read_writes_eq_canon _ _ _ (scover4_A_2 c i arg2 harg2 arg3 harg3 arg4 harg4 arg5 harg5 arg6 harg6 arg7 harg7 arg8 harg8 hc0 hc1 x0 x1 x2)]
  unfold kernelRun4_A
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_B_0_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_B_0 c i arg2 harg2 arg3 harg3 arg4 harg4 arg5 harg5 arg6 harg6 arg7 harg7 arg8 harg8 hc0 hc1 x0 x1 x2 xs0 xs1 xs2 = k4_pay2 (k4_pay8 x0 x1 xs0) := by
  unfold sout4_B_0
  rw [View.read_writes_eq_canon _ _ _ (scover4_B_0 c i arg2 harg2 arg3 harg3 arg4 harg4 arg5 harg5 arg6 harg6 arg7 harg7 arg8 harg8 hc0 hc1 x0 x1 x2 xs0 xs1 xs2)]
  unfold kernelRun4_B
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_B_1_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_B_1 c i arg2 harg2 arg3 harg3 arg4 harg4 arg5 harg5 arg6 harg6 arg7 harg7 arg8 harg8 hc0 hc1 x0 x1 x2 xs0 xs1 xs2 = k4_pay11 x0 x1 xs0 xs0 xs1 := by
  unfold sout4_B_1
  rw [View.read_writes_eq_canon _ _ _ (scover4_B_1 c i arg2 harg2 arg3 harg3 arg4 harg4 arg5 harg5 arg6 harg6 arg7 harg7 arg8 harg8 hc0 hc1 x0 x1 x2 xs0 xs1 xs2)]
  unfold kernelRun4_B
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_B_2_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : ¬cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_B_2 c i arg2 harg2 arg3 harg3 arg4 harg4 arg5 harg5 arg6 harg6 arg7 harg7 arg8 harg8 hc0 hc1 x0 x1 x2 xs0 xs1 xs2 = k4_pay1 (k4_pay9 x0 x1 xs0 xs0) (k4_pay10 x0 x1 xs0) xs2 x2 := by
  unfold sout4_B_2
  rw [View.read_writes_eq_canon _ _ _ (scover4_B_2 c i arg2 harg2 arg3 harg3 arg4 harg4 arg5 harg5 arg6 harg6 arg7 harg7 arg8 harg8 hc0 hc1 x0 x1 x2 xs0 xs1 xs2)]
  unfold kernelRun4_B
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_C_0_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_C_0 c i arg2 harg2 arg3 harg3 arg4 harg4 arg5 harg5 arg6 harg6 arg7 harg7 arg8 harg8 hc0 hc1 x0 x1 x2 xs0 xs1 xs2 = k4_pay2 (k4_pay8 x0 x1 xs0) := by
  unfold sout4_C_0
  rw [View.read_writes_eq_canon _ _ _ (scover4_C_0 c i arg2 harg2 arg3 harg3 arg4 harg4 arg5 harg5 arg6 harg6 arg7 harg7 arg8 harg8 hc0 hc1 x0 x1 x2 xs0 xs1 xs2)]
  unfold kernelRun4_C
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_C_1_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_C_1 c i arg2 harg2 arg3 harg3 arg4 harg4 arg5 harg5 arg6 harg6 arg7 harg7 arg8 harg8 hc0 hc1 x0 x1 x2 xs0 xs1 xs2 = k4_pay11 x0 x1 xs0 xs0 xs1 := by
  unfold sout4_C_1
  rw [View.read_writes_eq_canon _ _ _ (scover4_C_1 c i arg2 harg2 arg3 harg3 arg4 harg4 arg5 harg5 arg6 harg6 arg7 harg7 arg8 harg8 hc0 hc1 x0 x1 x2 xs0 xs1 xs2)]
  unfold kernelRun4_C
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem sout4_C_2_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    sout4_C_2 c i arg2 harg2 arg3 harg3 arg4 harg4 arg5 harg5 arg6 harg6 arg7 harg7 arg8 harg8 hc0 hc1 x0 x1 x2 xs0 xs1 xs2 = k4_pay1 (k4_pay9 x0 x1 xs0 xs0) (k4_pay10 x0 x1 xs0) xs2 x2 := by
  unfold sout4_C_2
  rw [View.read_writes_eq_canon _ _ _ (scover4_C_2 c i arg2 harg2 arg3 harg3 arg4 harg4 arg5 harg5 arg6 harg6 arg7 harg7 arg8 harg8 hc0 hc1 x0 x1 x2 xs0 xs1 xs2)]
  unfold kernelRun4_C
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

theorem out4_C_3_eq (c : Dev nD) (i : grid4.Coords) (arg2 : Memref sig .tc .vmem S2x512x2048 .bf16) (harg2 : arg2.IsWhole) (arg3 : Memref sig .tc .vmem S2x256x2048 .bf16) (harg3 : arg3.IsWhole) (arg4 : Memref sig .tc .vmem S2x256x2048 .bf16) (harg4 : arg4.IsWhole) (arg5 : Memref sig .tc .vmem S2x512x2048 .bf16) (harg5 : arg5.IsWhole) (arg6 : Memref sig .tc .vmem S2x512x1 .f32) (harg6 : arg6.IsWhole) (arg7 : Memref sig .tc .vmem S2x512x1 .f32) (harg7 : arg7.IsWhole) (arg8 : Memref sig .tc .vmem S2x512x2048 .f32) (harg8 : arg8.IsWhole) (hc0 : ¬cond4_0 i) (hc1 : cond4_1 i)
    (x0 : Vec F S2x512x2048 .bf16) (x1 : Vec F S2x256x2048 .bf16) (x2 : Vec F S2x256x2048 .bf16) (xs0 : Vec F S2x512x1 .f32) (xs1 : Vec F S2x512x1 .f32) (xs2 : Vec F S2x512x2048 .f32) :
    out4_C_3 c i arg2 harg2 arg3 harg3 arg4 harg4 arg5 harg5 arg6 harg6 arg7 harg7 arg8 harg8 hc0 hc1 x0 x1 x2 xs0 xs1 xs2 = k4_pay3 (k4_pay1 (k4_pay9 x0 x1 xs0 xs0) (k4_pay10 x0 x1 xs0) xs2 x2) (k4_pay11 x0 x1 xs0 xs0 xs1) := by
  unfold out4_C_3
  rw [View.read_writes_eq_canon _ _ _ (cover4_C_3 c i arg2 harg2 arg3 harg3 arg4 harg4 arg5 harg5 arg6 harg6 arg7 harg7 arg8 harg8 hc0 hc1 x0 x1 x2 xs0 xs1 xs2)]
  unfold kernelRun4_C
  dsimp only
  sl_unfold_words
  simp only [View.canon_cons_unit_zero (S := S2x512x1) hz3, View.canon_unit_zero (S := S2x512x1) hz3, View.readCov_unit_zero (S := S2x512x1) _ hz3, View.ld_unit_zero (S := S2x512x1) hz3, View.canon_cons_unit_zero (S := S2x512x2048) hz3, View.canon_unit_zero (S := S2x512x2048) hz3, View.readCov_unit_zero (S := S2x512x2048) _ hz3, View.ld_unit_zero (S := S2x512x2048) hz3, View.canon_cons_unit_zero (S := S2x256x2048) hz3, View.canon_unit_zero (S := S2x256x2048) hz3, View.readCov_unit_zero (S := S2x256x2048) _ hz3, View.ld_unit_zero (S := S2x256x2048) hz3, View.readAt_eq_ld, harg2.read_unread, harg3.read_unread, harg4.read_unread, harg5.read_unread, harg6.read_unread, harg7.read_unread, harg8.read_unread]

end Cert.KernelIdeal.Hand

end
-- ==== Proof.Spec.Online.lean ====
/-
  The running ("online") softmax over tiles of keys, on the extended reals, and its agreement with the
  plain softmax.

  Keys come in tiles: tile `j` (a natural number) holds the keys `i : Fin B`. From the state
  (m, l, acc) = (⊥, 0, 0) one tile is absorbed by
      m'   = max m (the running maximum, from ⊥, of the tile's scores)
      l'   = exp (m - m') * l   + ∑ i, exp (s j i - m')
      acc' = exp (m - m') * acc + ∑ i, exp (s j i - m') * V j i
  and after `T` tiles the result is acc / l. When every score and every value is finite this equals
  the softmax-weighted sum  ∑ (exp (s - M) / ∑ exp (s - M)) * V  over all `T * B` keys, for ANY finite
  shift `M` (the maximum of the scores is one): a common factor exp (M - m_T) cancels in the quotient.

  The invariant, for n ≥ 1 tiles absorbed: m is a real number μ, and
      l = ∑_{j<n} ∑_i exp (s j i - μ),   acc = ∑_{j<n} ∑_i exp (s j i - μ) * V j i,
  both real. The first tile starts from exp (⊥ - m') = 0 and 0 * 0 = 0; a later tile rescales by
  exp (μ - μ') * exp (s - μ) = exp (s - μ').
-/
import proofs.«175568_j46505905881160_2_alg».proof.Proof.Spec.Fin

noncomputable section

namespace Cert.Spec

open Idealize.ShloMosaic
open scoped BigOperators

variable {B : ℕ}

/-! ## The recurrence, on the extended reals -/

/-- The running maximum after `n` tiles. -/
def runM (s : ℕ → Fin B → EReal) : ℕ → EReal
  | 0 => ⊥
  | n + 1 => max (runM s n) ((Finset.univ : Finset (Fin B)).fold max ⊥ (s n))

/-- The running denominator after `n` tiles. -/
def runL (s : ℕ → Fin B → EReal) : ℕ → EReal
  | 0 => 0
  | n + 1 => Ideal.exp (runM s n - runM s (n + 1)) * runL s n
      + ∑ i : Fin B, Ideal.exp (s n i - runM s (n + 1))

/-- The running numerator after `n` tiles, for one column of values `V`. -/
def runAcc (s V : ℕ → Fin B → EReal) : ℕ → EReal
  | 0 => 0
  | n + 1 => Ideal.exp (runM s n - runM s (n + 1)) * runAcc s V n
      + ∑ i : Fin B, Ideal.exp (s n i - runM s (n + 1)) * V n i

theorem runM_zero (s : ℕ → Fin B → EReal) : runM s 0 = ⊥ := rfl
theorem runM_succ (s : ℕ → Fin B → EReal) (n : ℕ) :
    runM s (n + 1) = max (runM s n) ((Finset.univ : Finset (Fin B)).fold max ⊥ (s n)) := rfl
theorem runL_zero (s : ℕ → Fin B → EReal) : runL s 0 = 0 := rfl
theorem runL_succ (s : ℕ → Fin B → EReal) (n : ℕ) :
    runL s (n + 1) = Ideal.exp (runM s n - runM s (n + 1)) * runL s n
      + ∑ i : Fin B, Ideal.exp (s n i - runM s (n + 1)) := rfl
theorem runAcc_zero (s V : ℕ → Fin B → EReal) : runAcc s V 0 = 0 := rfl
theorem runAcc_succ (s V : ℕ → Fin B → EReal) (n : ℕ) :
    runAcc s V (n + 1) = Ideal.exp (runM s n - runM s (n + 1)) * runAcc s V n
      + ∑ i : Fin B, Ideal.exp (s n i - runM s (n + 1)) * V n i := rfl

/-- The state after `n` tiles depends on the first `n` tiles only. -/
theorem runM_congr {s s' : ℕ → Fin B → EReal} (n : ℕ) (h : ∀ j < n, s j = s' j) : runM s n = runM s' n := by
  induction n with
  | zero => rfl
  | succ n ih =>
    rw [runM_succ, runM_succ, ih fun j hj => h j (Nat.lt_succ_of_lt hj), h n (Nat.lt_succ_self n)]

theorem runL_congr {s s' : ℕ → Fin B → EReal} (n : ℕ) (h : ∀ j < n, s j = s' j) : runL s n = runL s' n := by
  induction n with
  | zero => rfl
  | succ n ih =>
    rw [runL_succ, runL_succ, ih fun j hj => h j (Nat.lt_succ_of_lt hj), h n (Nat.lt_succ_self n),
      runM_congr n fun j hj => h j (Nat.lt_succ_of_lt hj), runM_congr (n + 1) h]

theorem runAcc_congr {s s' V V' : ℕ → Fin B → EReal} (n : ℕ) (h : ∀ j < n, s j = s' j)
    (hV : ∀ j < n, V j = V' j) : runAcc s V n = runAcc s' V' n := by
  induction n with
  | zero => rfl
  | succ n ih =>
    rw [runAcc_succ, runAcc_succ, ih (fun j hj => h j (Nat.lt_succ_of_lt hj)) (fun j hj => hV j (Nat.lt_succ_of_lt hj)),
      h n (Nat.lt_succ_self n), hV n (Nat.lt_succ_self n),
      runM_congr n fun j hj => h j (Nat.lt_succ_of_lt hj), runM_congr (n + 1) h]

/-! ## The real sums of the invariant -/

/-- `∑_{j<n} ∑_i exp (s j i - μ)`. -/
def Z (sR : ℕ → Fin B → ℝ) (μ : ℝ) (n : ℕ) : ℝ :=
  ∑ j ∈ Finset.range n, ∑ i : Fin B, Real.exp (sR j i - μ)

/-- `∑_{j<n} ∑_i exp (s j i - μ) * v j i`. -/
def W (sR vR : ℕ → Fin B → ℝ) (μ : ℝ) (n : ℕ) : ℝ :=
  ∑ j ∈ Finset.range n, ∑ i : Fin B, Real.exp (sR j i - μ) * vR j i

/-- Changing the shift rescales the denominator: exp (μ - μ') * exp (s - μ) = exp (s - μ'). -/
theorem Z_shift (sR : ℕ → Fin B → ℝ) (μ μ' : ℝ) (n : ℕ) : Real.exp (μ - μ') * Z sR μ n = Z sR μ' n := by
  unfold Z
  rw [Finset.mul_sum]
  refine Finset.sum_congr rfl fun j _ => ?_
  rw [Finset.mul_sum]
  refine Finset.sum_congr rfl fun i _ => ?_
  rw [← Real.exp_add]; congr 1; ring

/-- … and the numerator by the same factor. -/
theorem W_shift (sR vR : ℕ → Fin B → ℝ) (μ μ' : ℝ) (n : ℕ) : Real.exp (μ - μ') * W sR vR μ n = W sR vR μ' n := by
  unfold W
  rw [Finset.mul_sum]
  refine Finset.sum_congr rfl fun j _ => ?_
  rw [Finset.mul_sum]
  refine Finset.sum_congr rfl fun i _ => ?_
  rw [← mul_assoc, ← Real.exp_add]; congr 2; ring

theorem Z_succ (sR : ℕ → Fin B → ℝ) (μ : ℝ) (n : ℕ) :
    Z sR μ (n + 1) = Z sR μ n + ∑ i : Fin B, Real.exp (sR n i - μ) := Finset.sum_range_succ _ n

theorem W_succ (sR vR : ℕ → Fin B → ℝ) (μ : ℝ) (n : ℕ) :
    W sR vR μ (n + 1) = W sR vR μ n + ∑ i : Fin B, Real.exp (sR n i - μ) * vR n i := Finset.sum_range_succ _ n

/-- With at least one tile of at least one key the denominator is positive. -/
theorem Z_pos (hB : 0 < B) (sR : ℕ → Fin B → ℝ) (μ : ℝ) {n : ℕ} (hn : 0 < n) : 0 < Z sR μ n := by
  haveI : Nonempty (Fin B) := Fin.pos_iff_nonempty.mp hB
  exact Finset.sum_pos (fun j _ => Finset.sum_pos (fun i _ => Real.exp_pos _) Finset.univ_nonempty)
    (Finset.nonempty_range_iff.mpr hn.ne')

/-! ## One tile, on finite data -/

theorem exp_coe_sub (a b : ℝ) : Ideal.exp ((a : EReal) - (b : EReal)) = ((Real.exp (a - b) : ℝ) : EReal) := by
  rw [← EReal.coe_sub]; rfl

/-- The denominator's update on real data is the real update. -/
theorem stepL_coe (μ μ' l : ℝ) (f : Fin B → ℝ) :
    Ideal.exp ((μ : EReal) - (μ' : EReal)) * (l : EReal) + ∑ i : Fin B, Ideal.exp ((f i : EReal) - (μ' : EReal))
      = ((Real.exp (μ - μ') * l + ∑ i : Fin B, Real.exp (f i - μ') : ℝ) : EReal) := by
  rw [EReal.coe_add, EReal.coe_mul, coe_sum, exp_coe_sub]
  exact congrArg _ (Finset.sum_congr rfl fun i _ => exp_coe_sub _ _)

/-- The numerator's update on real data is the real update. -/
theorem stepAcc_coe (μ μ' a : ℝ) (f v : Fin B → ℝ) :
    Ideal.exp ((μ : EReal) - (μ' : EReal)) * (a : EReal)
        + ∑ i : Fin B, Ideal.exp ((f i : EReal) - (μ' : EReal)) * (v i : EReal)
      = ((Real.exp (μ - μ') * a + ∑ i : Fin B, Real.exp (f i - μ') * v i : ℝ) : EReal) := by
  rw [EReal.coe_add, EReal.coe_mul, coe_sum, exp_coe_sub]
  exact congrArg _ (Finset.sum_congr rfl fun i _ => by rw [EReal.coe_mul, exp_coe_sub])

/-! ## The invariant -/

/-- After `n ≥ 1` tiles of finite scores and values the running maximum is a real number `μ`, and the
    running denominator and numerator are the real sums shifted by `μ`. -/
theorem run_inv (hB : 0 < B) (s V : ℕ → Fin B → EReal) (sR vR : ℕ → Fin B → ℝ) (T : ℕ)
    (hs : ∀ j < T, ∀ i, s j i = (sR j i : EReal)) (hV : ∀ j < T, ∀ i, V j i = (vR j i : EReal)) :
    ∀ n, 1 ≤ n → n ≤ T →
      ∃ μ : ℝ, runM s n = (μ : EReal) ∧ runL s n = ((Z sR μ n : ℝ) : EReal)
        ∧ runAcc s V n = ((W sR vR μ n : ℝ) : EReal) := by
  haveI : Nonempty (Fin B) := Fin.pos_iff_nonempty.mp hB
  -- the running maximum of one tile of finite scores is a real number
  have htile : ∀ j < T, ∃ t : ℝ, (Finset.univ : Finset (Fin B)).fold max ⊥ (s j) = (t : EReal) := fun j hj =>
    isFin_fold_max Finset.univ Finset.univ_nonempty (s j) fun i _ => ⟨sR j i, hs j hj i⟩
  have hsj : ∀ j < T, s j = fun i => (sR j i : EReal) := fun j hj => funext (hs j hj)
  have hVj : ∀ j < T, V j = fun i => (vR j i : EReal) := fun j hj => funext (hV j hj)
  intro n hn
  induction n, hn using Nat.le_induction with
  | base =>
    intro h1
    obtain ⟨t, ht⟩ := htile 0 h1
    have hm : runM s 1 = (t : EReal) := by rw [runM_succ, runM_zero, ht, max_bot_left]
    refine ⟨t, hm, ?_, ?_⟩
    · rw [runL_succ, hm, runM_zero, runL_zero, exp_bot_sub, mul_zero, zero_add, hsj 0 h1]
      unfold Z
      rw [Finset.sum_range_one, coe_sum]
      exact Finset.sum_congr rfl fun i _ => exp_coe_sub _ _
    · rw [runAcc_succ, hm, runM_zero, runAcc_zero, exp_bot_sub, mul_zero, zero_add, hsj 0 h1, hVj 0 h1]
      unfold W
      rw [Finset.sum_range_one, coe_sum]
      exact Finset.sum_congr rfl fun i _ => by rw [EReal.coe_mul, exp_coe_sub]
  | succ n hn ih =>
    intro hle
    have hnT : n < T := hle
    obtain ⟨μ, hm, hl, ha⟩ := ih (Nat.le_of_lt hnT)
    obtain ⟨t, ht⟩ := htile n hnT
    have hm' : runM s (n + 1) = ((max μ t : ℝ) : EReal) := by rw [runM_succ, hm, ht, coe_max]
    refine ⟨max μ t, hm', ?_, ?_⟩
    · rw [runL_succ, hm', hm, hl, hsj n hnT, stepL_coe, Z_shift, Z_succ]
    · rw [runAcc_succ, hm', hm, ha, hsj n hnT, hVj n hnT, stepAcc_coe, W_shift, W_succ]

/-! ## The plain softmax, and the agreement -/

/-- On the reals: the quotient of the sums shifted by `μ` is the softmax-weighted sum shifted by any `M`. -/
theorem quotient_shift (hB : 0 < B) (sR vR : ℕ → Fin B → ℝ) (μ M : ℝ) {T : ℕ} (hT : 0 < T) :
    W sR vR μ T / Z sR μ T
      = ∑ j ∈ Finset.range T, ∑ i : Fin B, Real.exp (sR j i - M) / Z sR M T * vR j i := by
  rw [← Z_shift sR M μ T, ← W_shift sR vR M μ T, mul_div_mul_left _ _ (Real.exp_pos _).ne']
  unfold W
  rw [Finset.sum_div]
  refine Finset.sum_congr rfl fun j _ => ?_
  rw [Finset.sum_div]
  exact Finset.sum_congr rfl fun i _ => (div_mul_eq_mul_div _ _ _).symm

/-- A sum over tiles `j : Fin T` and keys `i : Fin B` of extended reals that are coercions, for `j < T`, is
    the coercion of the real double sum. -/
theorem sum_tiles_coe (T : ℕ) (g : ℕ → Fin B → EReal) (gR : ℕ → Fin B → ℝ)
    (h : ∀ j < T, ∀ i, g j i = (gR j i : EReal)) :
    ∑ j : Fin T, ∑ i : Fin B, g j i = ((∑ j ∈ Finset.range T, ∑ i : Fin B, gR j i : ℝ) : EReal) := by
  rw [Fin.sum_univ_eq_sum_range (fun j => ∑ i : Fin B, g j i) T, coe_sum]
  refine Finset.sum_congr rfl fun j hj => ?_
  rw [coe_sum]
  exact Finset.sum_congr rfl fun i _ => h j (Finset.mem_range.mp hj) i

/-- THE AGREEMENT. With `T ≥ 1` tiles of `B ≥ 1` keys, finite scores `s` and finite values `V`, the running
    softmax's result `acc_T / l_T` is the softmax-weighted sum of the values over all keys, the softmax
    shifted by ANY finite `M`. Every operation on both sides is the ideal instance's: `max`, `+`, `*`, `-` of
    the extended reals, `Ideal.exp`, `Ideal.div`. -/
theorem online_eq_softmax (T : ℕ) (hT : 0 < T) (hB : 0 < B) (s V : ℕ → Fin B → EReal)
    (hs : ∀ j < T, ∀ i, IsFin (s j i)) (hV : ∀ j < T, ∀ i, IsFin (V j i)) (M : EReal) (hM : IsFin M) :
    Ideal.div (runAcc s V T) (runL s T)
      = ∑ j : Fin T, ∑ i : Fin B,
          Ideal.div (Ideal.exp (s j i - M)) (∑ j' : Fin T, ∑ i' : Fin B, Ideal.exp (s j' i' - M)) * V j i := by
  obtain ⟨M0, rfl⟩ := hM
  have hs' : ∀ j < T, ∀ i, s j i = (((s j i).toReal : ℝ) : EReal) := fun j hj i => ((hs j hj i).coe_toReal).symm
  have hV' : ∀ j < T, ∀ i, V j i = (((V j i).toReal : ℝ) : EReal) := fun j hj i => ((hV j hj i).coe_toReal).symm
  obtain ⟨μ, -, hl, ha⟩ := run_inv hB s V (fun j i => (s j i).toReal) (fun j i => (V j i).toReal) T hs' hV' T hT le_rfl
  have hZM : (0 : ℝ) < Z (fun j i => (s j i).toReal) M0 T := Z_pos hB _ M0 hT
  have hZμ : (0 : ℝ) < Z (fun j i => (s j i).toReal) μ T := Z_pos hB _ μ hT
  -- the plain softmax's denominator is the real sum shifted by M
  have hD : ∑ j' : Fin T, ∑ i' : Fin B, Ideal.exp (s j' i' - (M0 : EReal))
      = ((Z (fun j i => (s j i).toReal) M0 T : ℝ) : EReal) :=
    sum_tiles_coe T (fun j i => Ideal.exp (s j i - (M0 : EReal))) (fun j i => Real.exp ((s j i).toReal - M0))
      fun j hj i => by
        show Ideal.exp (s j i - (M0 : EReal)) = _
        rw [hs' j hj i]; exact exp_coe_sub _ _
  rw [ha, hl, div_coe _ _ hZμ.ne', quotient_shift hB _ _ μ M0 hT, hD]
  exact (sum_tiles_coe T
    (fun j i => Ideal.div (Ideal.exp (s j i - (M0 : EReal))) ((Z (fun j i => (s j i).toReal) M0 T : ℝ) : EReal) * V j i)
    (fun j i => Real.exp ((s j i).toReal - M0) / Z (fun j i => (s j i).toReal) M0 T * (V j i).toReal)
    fun j hj i => by
      show Ideal.div (Ideal.exp (s j i - (M0 : EReal))) _ * V j i = _
      rw [hV' j hj i, hs' j hj i, exp_coe_sub, div_coe _ _ hZM.ne', ← EReal.coe_mul]
      simp only [EReal.toReal_coe]).symm

/-- Along the way the state stays finite, and the denominator positive. -/
theorem run_isFin (hB : 0 < B) (s V : ℕ → Fin B → EReal) (T : ℕ)
    (hs : ∀ j < T, ∀ i, IsFin (s j i)) (hV : ∀ j < T, ∀ i, IsFin (V j i)) (n : ℕ) (hn : 1 ≤ n) (hnT : n ≤ T) :
    IsFin (runM s n) ∧ IsFin (runL s n) ∧ 0 < runL s n ∧ IsFin (runAcc s V n) := by
  have hs' : ∀ j < T, ∀ i, s j i = (((s j i).toReal : ℝ) : EReal) := fun j hj i => ((hs j hj i).coe_toReal).symm
  have hV' : ∀ j < T, ∀ i, V j i = (((V j i).toReal : ℝ) : EReal) := fun j hj i => ((hV j hj i).coe_toReal).symm
  obtain ⟨μ, hm, hl, ha⟩ := run_inv hB s V (fun j i => (s j i).toReal) (fun j i => (V j i).toReal) T hs' hV' n hn hnT
  exact ⟨⟨μ, hm⟩, ⟨_, hl⟩, by rw [hl]; exact EReal.coe_pos.mpr (Z_pos hB _ μ hn), ⟨_, ha⟩⟩

end Cert.Spec
-- ==== Proof.KI.Val4I.lean ====
import proofs.«175568_j46505905881160_2_alg».proof.Proof.Gen.KernelIdeal.Skeleton
import proofs.«175568_j46505905881160_2_alg».proof.Proof.Spec.Online
import Idealize.ShloMosaic.Lib.Pipeline.Value
import Idealize.ShloMosaic.Lib.ValueIdx
import Idealize.ShloMosaic.PureOps.Ideal.Laws

/-!
# One key/value tile of the attention kernel, read at an index

At the exact values a change of float format is the identity, the matrix unit's product into a zero accumulator is
the plain sum of products, a lane maximum is the running maximum from minus infinity and a lane sum the plain sum.
So, for a batch b, a query row r of the tile and the tile's 256 keys k:
  the scores          s (b, r, k) = (∑ₑ q (b, r, e) · key (b, k, e)) · 1/8
  the new maximum     m' (b, r)   = max (m (b, r)) (maxₖ s (b, r, k))
  the new denominator l' (b, r)   = exp (m − m') · l + ∑ₖ exp (s (b, r, k) − m')
  the new accumulator a' (b, r, d) = exp (m − m') · a (b, r, d) + ∑ₖ exp (s (b, r, k) − m') · v (b, k, d)
and the block stored at the last tile is a' / l'.
-/

set_option maxRecDepth 16384

noncomputable section

namespace Cert.KernelIdeal.Hand.Attn

open Cert.KernelIdeal Cert.KernelIdeal.Gen
open Idealize.ShloMosaic Idealize.ShloMosaic.TcCoe Idealize.ShloMosaic.ValueIdx
open Idealize.SL.Sem
open scoped BigOperators

/-- The two products' dimension numbers: queries against keys over the hidden axis, weights against values over the keys. -/
abbrev dQK := dot_S2x512x2048_S2x256x2048_S2x512x256_2_2_1_1_0_0
abbrev dPV := dot_S2x512x256_S2x256x2048_S2x512x2048_2_1_1_2_0_0

/-! ## The products' index maps, axis by axis -/

theorem qk_l0 (j : S2x512x256.Idx) (q : dQK.contr.Idx) : (dQK.lhsIdx j q 0).val = (j 0).val := by
  unfold DotDims.lhsIdx
  rw [dif_pos (show (0 : Fin S2x512x2048.rank) ∈ dQK.lhsBatch by decide)]
  rfl
theorem qk_l1 (j : S2x512x256.Idx) (q : dQK.contr.Idx) : (dQK.lhsIdx j q 1).val = (j 1).val := by
  unfold DotDims.lhsIdx
  rw [dif_neg (show ¬(1 : Fin S2x512x2048.rank) ∈ dQK.lhsBatch by decide), dif_pos (show (1 : Fin S2x512x2048.rank) ∈ dQK.lhsNonContracting by decide)]
  rfl
theorem qk_l2 (j : S2x512x256.Idx) (q : dQK.contr.Idx) : (dQK.lhsIdx j q 2).val = (q ⟨0, by decide⟩).val :=
  dQK.lhsIdx_val_of_single rfl j q
theorem qk_r0 (j : S2x512x256.Idx) (q : dQK.contr.Idx) : (dQK.rhsIdx j q 0).val = (j 0).val := by
  unfold DotDims.rhsIdx
  rw [dif_pos (show (0 : Fin S2x256x2048.rank) ∈ dQK.rhsBatch by decide)]
  rfl
theorem qk_r1 (j : S2x512x256.Idx) (q : dQK.contr.Idx) : (dQK.rhsIdx j q 1).val = (j 2).val := by
  unfold DotDims.rhsIdx
  rw [dif_neg (show ¬(1 : Fin S2x256x2048.rank) ∈ dQK.rhsBatch by decide), dif_pos (show (1 : Fin S2x256x2048.rank) ∈ dQK.rhsNonContracting by decide)]
  rfl
theorem qk_r2 (j : S2x512x256.Idx) (q : dQK.contr.Idx) : (dQK.rhsIdx j q 2).val = (q ⟨0, by decide⟩).val :=
  dQK.rhsIdx_val_of_single rfl j q

theorem pv_l0 (j : S2x512x2048.Idx) (q : dPV.contr.Idx) : (dPV.lhsIdx j q 0).val = (j 0).val := by
  unfold DotDims.lhsIdx
  rw [dif_pos (show (0 : Fin S2x512x256.rank) ∈ dPV.lhsBatch by decide)]
  rfl
theorem pv_l1 (j : S2x512x2048.Idx) (q : dPV.contr.Idx) : (dPV.lhsIdx j q 1).val = (j 1).val := by
  unfold DotDims.lhsIdx
  rw [dif_neg (show ¬(1 : Fin S2x512x256.rank) ∈ dPV.lhsBatch by decide), dif_pos (show (1 : Fin S2x512x256.rank) ∈ dPV.lhsNonContracting by decide)]
  rfl
theorem pv_l2 (j : S2x512x2048.Idx) (q : dPV.contr.Idx) : (dPV.lhsIdx j q 2).val = (q ⟨0, by decide⟩).val :=
  dPV.lhsIdx_val_of_single rfl j q
theorem pv_r0 (j : S2x512x2048.Idx) (q : dPV.contr.Idx) : (dPV.rhsIdx j q 0).val = (j 0).val := by
  unfold DotDims.rhsIdx
  rw [dif_pos (show (0 : Fin S2x256x2048.rank) ∈ dPV.rhsBatch by decide)]
  rfl
theorem pv_r1 (j : S2x512x2048.Idx) (q : dPV.contr.Idx) : (dPV.rhsIdx j q 1).val = (q ⟨0, by decide⟩).val :=
  dPV.rhsIdx_val_of_single rfl j q
theorem pv_r2 (j : S2x512x2048.Idx) (q : dPV.contr.Idx) : (dPV.rhsIdx j q 2).val = (j 2).val := by
  unfold DotDims.rhsIdx
  rw [dif_neg (show ¬(2 : Fin S2x256x2048.rank) ∈ dPV.rhsBatch by decide), dif_pos (show (2 : Fin S2x256x2048.rank) ∈ dPV.rhsNonContracting by decide)]
  rfl

/-! ## The two products at an index -/

/-- Queries against keys into a zero accumulator, at (b, r, k): ∑ₑ x0 (b, r, e) · x1 (b, k, e). -/
theorem qk_apply {φ₁ φ₂ : FTy} (x0 : FVec Ideal S2x512x2048 φ₁) (x1 : FVec Ideal S2x256x2048 φ₂) (b : Fin 2) (r : Fin 512) (k : Fin 256) :
    FloatOps.matmul dQK none x0 x1 (constant S2x512x256 .f32 0x00000000#32) (ix3 b r k)
      = ∑ e : Fin 2048, x0 (ix3 b r e) * x1 (ix3 b k e) := by
  rw [Ideal.matmul_constant_zero_apply, ← Equiv.sum_comp (ValueIdx.contrEquiv1 dQK 2048 rfl rfl).symm]
  refine Finset.sum_congr rfl fun e _ => ?_
  have he := ValueIdx.contrEquiv1_symm_val dQK 2048 rfl rfl e
  have el : dQK.lhsIdx (ix3 b r k) ((ValueIdx.contrEquiv1 dQK 2048 rfl rfl).symm e) = ix3 b r e := funext fun a => Fin.ext (by
    match a with
    | ⟨0, _⟩ => exact qk_l0 _ _
    | ⟨1, _⟩ => exact qk_l1 _ _
    | ⟨2, _⟩ => exact (qk_l2 _ _).trans he)
  have er : dQK.rhsIdx (ix3 b r k) ((ValueIdx.contrEquiv1 dQK 2048 rfl rfl).symm e) = ix3 b k e := funext fun a => Fin.ext (by
    match a with
    | ⟨0, _⟩ => exact qk_r0 _ _
    | ⟨1, _⟩ => exact qk_r1 _ _
    | ⟨2, _⟩ => exact (qk_r2 _ _).trans he)
  rw [el, er]

/-- Weights against values into a zero accumulator, at (b, r, d): ∑ₖ p (b, r, k) · x2 (b, k, d). -/
theorem pv_apply {φ₁ φ₂ : FTy} (p : FVec Ideal S2x512x256 φ₁) (x2 : FVec Ideal S2x256x2048 φ₂) (b : Fin 2) (r : Fin 512) (d : Fin 2048) :
    FloatOps.matmul dPV none p x2 (constant S2x512x2048 .f32 0x00000000#32) (ix3 b r d)
      = ∑ k : Fin 256, p (ix3 b r k) * x2 (ix3 b k d) := by
  rw [Ideal.matmul_constant_zero_apply, ← Equiv.sum_comp (ValueIdx.contrEquiv1 dPV 256 rfl rfl).symm]
  refine Finset.sum_congr rfl fun k _ => ?_
  have hk := ValueIdx.contrEquiv1_symm_val dPV 256 rfl rfl k
  have el : dPV.lhsIdx (ix3 b r d) ((ValueIdx.contrEquiv1 dPV 256 rfl rfl).symm k) = ix3 b r k := funext fun a => Fin.ext (by
    match a with
    | ⟨0, _⟩ => exact pv_l0 _ _
    | ⟨1, _⟩ => exact pv_l1 _ _
    | ⟨2, _⟩ => exact (pv_l2 _ _).trans hk)
  have er : dPV.rhsIdx (ix3 b r d) ((ValueIdx.contrEquiv1 dPV 256 rfl rfl).symm k) = ix3 b k d := funext fun a => Fin.ext (by
    match a with
    | ⟨0, _⟩ => exact pv_r0 _ _
    | ⟨1, _⟩ => exact (pv_r1 _ _).trans hk
    | ⟨2, _⟩ => exact pv_r2 _ _)
  rw [el, er]

/-! ## The lane reductions and the layout operations at an index -/

/-- The reduced index (b, r) with key k put back on the lane axis. -/
theorem lift_ix (b : Fin 2) (r : Fin 512) (k : Fin 256) :
    reduces_S2x512x256_S2x512.lift (ix2 b r) k = ix3 b r k := funext fun a => Fin.ext (by
  match a with
  | ⟨0, _⟩ => rfl
  | ⟨1, _⟩ => rfl
  | ⟨2, _⟩ => rfl)

/-- The lane maximum at (b, r): the running maximum from minus infinity over the tile's keys. -/
theorem rowmax_apply (src : FVec Ideal S2x512x256 .f32) (hφ : FKind.Formats .f32) (hacc : (0xFF800000#32 : BitVec 32) = FKind.maximumf.neutral .f32 hφ) (b : Fin 2) (r : Fin 512) :
    multiReduction .maximumf [2] S2x512 src 0xFF800000#32 reduces_S2x512x256_S2x512 hφ hacc (ix2 b r)
      = (Finset.univ : Finset (Fin 256)).fold max ⊥ (fun k => src (ix3 b r k)) := by
  refine (Ideal.multiReduction_maximumf_single src 0xFF800000#32 reduces_S2x512x256_S2x512 hφ hacc (ix2 b r)).trans ?_
  show (Finset.univ : Finset (Fin 256)).fold max (Ideal.ofBits .f32 0xFF800000#32) (fun k => src (reduces_S2x512x256_S2x512.lift (ix2 b r) k)) = _
  rw [Cert.Spec.ofBits_neg_inf]
  exact congrArg (fun f => (Finset.univ : Finset (Fin 256)).fold max ⊥ f) (funext fun k => congrArg src (lift_ix b r k))

/-- The lane sum at (b, r): the plain sum over the tile's keys. -/
theorem rowsum_apply (src : FVec Ideal S2x512x256 .f32) (hφ : FKind.Formats .f32) (hacc : (0x00000000#32 : BitVec 32) = FKind.add.neutral .f32 hφ) (b : Fin 2) (r : Fin 512) :
    multiReduction .add [2] S2x512 src 0x00000000#32 reduces_S2x512x256_S2x512 hφ hacc (ix2 b r)
      = ∑ k : Fin 256, src (ix3 b r k) := by
  refine (Ideal.multiReduction_add_single src 0x00000000#32 reduces_S2x512x256_S2x512 hφ hacc (ix2 b r)).trans ?_
  show ∑ k : Fin 256, src (reduces_S2x512x256_S2x512.lift (ix2 b r) k) = _
  exact Finset.sum_congr rfl fun k _ => congrArg src (lift_ix b r k)

/-- A row vector [2, 512] stored as a column [2, 512, 1], at (b, r, 0). -/
theorem col_apply {α : Type} (x : S2x512.Idx → α) (b : Fin 2) (r : Fin 512) (z : Fin 1) :
    shapeCast S2x512x1 x shapeCasts_S2x512_S2x512x1 (ix3 b r z) = x (ix2 b r) := by
  refine shapeCast_apply x shapeCasts_S2x512_S2x512x1 (ix3 b r z) (ix2 b r) ?_
  rw [Shape.rowMajor_val_two, Shape.rowMajor_val_three]
  have hz : z.val = 0 := by omega
  show b.val * 512 + r.val = (b.val * 512 + r.val) * 1 + z.val
  omega

/-- A column [2, 512, 1] spread over 256 lanes, at (b, r, k). -/
theorem spread256_apply {α : Type} (x : S2x512x1.Idx → α) (b : Fin 2) (r : Fin 512) (k : Fin 256) :
    broadcastTo S2x512x256 x broadcasts_S2x512x1_S2x512x256 (ix3 b r k) = x (ix3 b r 0) := by
  refine broadcastTo_apply x broadcasts_S2x512x1_S2x512x256 (ix3 b r k) (ix3 b r 0) fun a => ?_
  match a with
  | ⟨0, _⟩ => rfl
  | ⟨1, _⟩ => rfl
  | ⟨2, _⟩ => rfl

/-- A column [2, 512, 1] spread over 2048 lanes, at (b, r, d). -/
theorem spread2048_apply {α : Type} (x : S2x512x1.Idx → α) (b : Fin 2) (r : Fin 512) (d : Fin 2048) :
    broadcastTo S2x512x2048 x broadcasts_S2x512x1_S2x512x2048 (ix3 b r d) = x (ix3 b r 0) := by
  refine broadcastTo_apply x broadcasts_S2x512x1_S2x512x2048 (ix3 b r d) (ix3 b r 0) fun a => ?_
  match a with
  | ⟨0, _⟩ => rfl
  | ⟨1, _⟩ => rfl
  | ⟨2, _⟩ => rfl

/-! ## The payloads at an index -/

/-- The scores of one tile: queries against keys over the hidden axis, times the word of one eighth. -/
def tileScore (x0 : FVec Ideal S2x512x2048 .bf16) (x1 : FVec Ideal S2x256x2048 .bf16) (b : Fin 2) (r : Fin 512) (k : Fin 256) : EReal :=
  (∑ e : Fin 2048, x0 (ix3 b r e) * x1 (ix3 b k e)) * Ideal.ofBits .f32 0x3E000000#32

/-- The new running maximum of row (b, r). -/
def tileMax (x0 : FVec Ideal S2x512x2048 .bf16) (x1 : FVec Ideal S2x256x2048 .bf16) (m : FVec Ideal S2x512x1 .f32) (b : Fin 2) (r : Fin 512) : EReal :=
  max (m (ix3 b r 0)) ((Finset.univ : Finset (Fin 256)).fold max ⊥ (fun k => tileScore x0 x1 b r k))

theorem pay7_apply (x0 : FVec Ideal S2x512x2048 .bf16) (x1 : FVec Ideal S2x256x2048 .bf16) (b : Fin 2) (r : Fin 512) (k : Fin 256) :
    k4_pay7 (F := Ideal) x0 x1 (ix3 b r k) = tileScore x0 x1 b r k := by
  unfold k4_pay7 tileScore
  simp only [shapeCast_self]
  show FloatOps.matmul dQK none x0 x1 (constant S2x512x256 .f32 0x00000000#32) (ix3 b r k) * Ideal.ofBits .f32 0x3E000000#32 = _
  rw [qk_apply]

theorem pay8_apply (x0 : FVec Ideal S2x512x2048 .bf16) (x1 : FVec Ideal S2x256x2048 .bf16) (m : FVec Ideal S2x512x1 .f32) (b : Fin 2) (r : Fin 512) :
    k4_pay8 (F := Ideal) x0 x1 m (ix3 b r 0) = tileMax x0 x1 m b r := by
  unfold k4_pay8 tileMax
  show max (m (ix3 b r 0)) (shapeCast S2x512x1 (multiReduction .maximumf [2] S2x512 (k4_pay7 (F := Ideal) x0 x1) 0xFF800000#32 reduces_S2x512x256_S2x512 (.inl rfl) rfl) shapeCasts_S2x512_S2x512x1 (ix3 b r 0)) = _
  refine congrArg (max (m (ix3 b r 0))) ?_
  refine (col_apply _ b r 0).trans ?_
  refine (rowmax_apply (k4_pay7 (F := Ideal) x0 x1) _ _ b r).trans ?_
  exact congrArg (fun f => (Finset.univ : Finset (Fin 256)).fold max ⊥ f) (funext fun k => pay7_apply x0 x1 b r k)

theorem pay2_apply (v : FVec Ideal S2x512x1 .f32) (j : S2x512x1.Idx) : k4_pay2 (F := Ideal) v j = v j := by
  unfold k4_pay2
  simp only [shapeCast_self]

theorem pay9_apply (x0 : FVec Ideal S2x512x2048 .bf16) (x1 : FVec Ideal S2x256x2048 .bf16) (m m2 : FVec Ideal S2x512x1 .f32) (b : Fin 2) (r : Fin 512) :
    k4_pay9 (F := Ideal) x0 x1 m m2 (ix3 b r 0) = Ideal.exp (m2 (ix3 b r 0) - tileMax x0 x1 m b r) := by
  unfold k4_pay9
  show Ideal.exp (m2 (ix3 b r 0) - k4_pay8 (F := Ideal) x0 x1 m (ix3 b r 0)) = _
  rw [pay8_apply]

theorem pay10_apply (x0 : FVec Ideal S2x512x2048 .bf16) (x1 : FVec Ideal S2x256x2048 .bf16) (m : FVec Ideal S2x512x1 .f32) (b : Fin 2) (r : Fin 512) (k : Fin 256) :
    k4_pay10 (F := Ideal) x0 x1 m (ix3 b r k) = Ideal.exp (tileScore x0 x1 b r k - tileMax x0 x1 m b r) := by
  unfold k4_pay10
  show Ideal.exp (k4_pay7 (F := Ideal) x0 x1 (ix3 b r k) - broadcastTo S2x512x256 (k4_pay8 (F := Ideal) x0 x1 m) broadcasts_S2x512x1_S2x512x256 (ix3 b r k)) = _
  rw [pay7_apply, spread256_apply, pay8_apply]

theorem pay11_apply (x0 : FVec Ideal S2x512x2048 .bf16) (x1 : FVec Ideal S2x256x2048 .bf16) (m m2 l : FVec Ideal S2x512x1 .f32) (b : Fin 2) (r : Fin 512) :
    k4_pay11 (F := Ideal) x0 x1 m m2 l (ix3 b r 0)
      = Ideal.exp (m2 (ix3 b r 0) - tileMax x0 x1 m b r) * l (ix3 b r 0) + ∑ k : Fin 256, Ideal.exp (tileScore x0 x1 b r k - tileMax x0 x1 m b r) := by
  unfold k4_pay11
  simp only [shapeCast_self]
  show k4_pay9 (F := Ideal) x0 x1 m m2 (ix3 b r 0) * l (ix3 b r 0) + shapeCast S2x512x1 (multiReduction .add [2] S2x512 (k4_pay10 (F := Ideal) x0 x1 m) 0x00000000#32 reduces_S2x512x256_S2x512 (.inl rfl) rfl) shapeCasts_S2x512_S2x512x1 (ix3 b r 0) = _
  rw [pay9_apply]
  refine congrArg (fun z => Ideal.exp (m2 (ix3 b r 0) - tileMax x0 x1 m b r) * l (ix3 b r 0) + z) ?_
  refine (col_apply _ b r 0).trans ?_
  refine (rowsum_apply (k4_pay10 (F := Ideal) x0 x1 m) _ _ b r).trans ?_
  exact Finset.sum_congr rfl fun k _ => pay10_apply x0 x1 m b r k

theorem pay1_apply (al : FVec Ideal S2x512x1 .f32) (p : FVec Ideal S2x512x256 .f32) (acc : FVec Ideal S2x512x2048 .f32) (x2 : FVec Ideal S2x256x2048 .bf16) (b : Fin 2) (r : Fin 512) (d : Fin 2048) :
    k4_pay1 (F := Ideal) al p acc x2 (ix3 b r d) = al (ix3 b r 0) * acc (ix3 b r d) + ∑ k : Fin 256, p (ix3 b r k) * x2 (ix3 b k d) := by
  unfold k4_pay1
  simp only [shapeCast_self]
  show broadcastTo S2x512x2048 al broadcasts_S2x512x1_S2x512x2048 (ix3 b r d) * acc (ix3 b r d) + FloatOps.matmul dPV none (truncf .bf16 p bitsLt_bf16_f32) x2 (constant S2x512x2048 .f32 0x00000000#32) (ix3 b r d) = _
  rw [spread2048_apply, pv_apply]
  rfl

theorem pay3_apply (acc : FVec Ideal S2x512x2048 .f32) (l : FVec Ideal S2x512x1 .f32) (b : Fin 2) (r : Fin 512) (d : Fin 2048) :
    k4_pay3 (F := Ideal) acc l (ix3 b r d) = Ideal.div (acc (ix3 b r d)) (l (ix3 b r 0)) := by
  unfold k4_pay3
  show Ideal.div (acc (ix3 b r d)) (broadcastTo S2x512x2048 l broadcasts_S2x512x1_S2x512x2048 (ix3 b r d)) = _
  rw [spread2048_apply]

theorem pay4_apply (j : S2x512x1.Idx) : k4_pay4 (F := Ideal) j = ⊥ := by
  unfold k4_pay4
  simp only [shapeCast_self]
  exact Cert.Spec.ofBits_neg_inf

theorem pay5_apply (j : S2x512x1.Idx) : k4_pay5 (F := Ideal) j = 0 := by
  unfold k4_pay5
  simp only [shapeCast_self]
  exact Ideal.ofBits_zero_f32

theorem pay6_apply (j : S2x512x2048.Idx) : k4_pay6 (F := Ideal) j = 0 := by
  unfold k4_pay6
  simp only [shapeCast_self]
  exact Ideal.ofBits_zero_f32

/-! ## One tile is one step of the running softmax -/

open Cert.Spec in
/-- The new maximum of row (b, r) is the recurrence's next maximum. -/
theorem step_max (x0 : FVec Ideal S2x512x2048 .bf16) (x1 : FVec Ideal S2x256x2048 .bf16) (m : FVec Ideal S2x512x1 .f32) (b : Fin 2) (r : Fin 512)
    (s : ℕ → Fin 256 → EReal) (j : ℕ) (hs : ∀ k, tileScore x0 x1 b r k = s j k) (hm : m (ix3 b r 0) = runM s j) :
    tileMax x0 x1 m b r = runM s (j + 1) := by
  unfold tileMax
  rw [hm, runM_succ]
  exact congrArg (fun f => max (runM s j) ((Finset.univ : Finset (Fin 256)).fold max ⊥ f)) (funext hs)

open Cert.Spec in
/-- What the tile stores as the running maximum. -/
theorem step_M (x0 : FVec Ideal S2x512x2048 .bf16) (x1 : FVec Ideal S2x256x2048 .bf16) (m : FVec Ideal S2x512x1 .f32) (b : Fin 2) (r : Fin 512)
    (s : ℕ → Fin 256 → EReal) (j : ℕ) (hs : ∀ k, tileScore x0 x1 b r k = s j k) (hm : m (ix3 b r 0) = runM s j) :
    k4_pay2 (F := Ideal) (k4_pay8 (F := Ideal) x0 x1 m) (ix3 b r 0) = runM s (j + 1) := by
  rw [pay2_apply, pay8_apply]
  exact step_max x0 x1 m b r s j hs hm

open Cert.Spec in
/-- What the tile stores as the running denominator. -/
theorem step_L (x0 : FVec Ideal S2x512x2048 .bf16) (x1 : FVec Ideal S2x256x2048 .bf16) (m l : FVec Ideal S2x512x1 .f32) (b : Fin 2) (r : Fin 512)
    (s : ℕ → Fin 256 → EReal) (j : ℕ) (hs : ∀ k, tileScore x0 x1 b r k = s j k) (hm : m (ix3 b r 0) = runM s j) (hl : l (ix3 b r 0) = runL s j) :
    k4_pay11 (F := Ideal) x0 x1 m m l (ix3 b r 0) = runL s (j + 1) := by
  rw [pay11_apply, step_max x0 x1 m b r s j hs hm, hm, hl, runL_succ]
  exact congrArg (fun z => Ideal.exp (runM s j - runM s (j + 1)) * runL s j + z) (Finset.sum_congr rfl fun k _ => by rw [hs k])

open Cert.Spec in
/-- What the tile stores as the accumulator, lane d. -/
theorem step_A (x0 : FVec Ideal S2x512x2048 .bf16) (x1 x2 : FVec Ideal S2x256x2048 .bf16) (m : FVec Ideal S2x512x1 .f32) (acc : FVec Ideal S2x512x2048 .f32)
    (b : Fin 2) (r : Fin 512) (d : Fin 2048)
    (s Vd : ℕ → Fin 256 → EReal) (j : ℕ) (hs : ∀ k, tileScore x0 x1 b r k = s j k) (hV : ∀ k, x2 (ix3 b k d) = Vd j k)
    (hm : m (ix3 b r 0) = runM s j) (hacc : acc (ix3 b r d) = runAcc s Vd j) :
    k4_pay1 (F := Ideal) (k4_pay9 (F := Ideal) x0 x1 m m) (k4_pay10 (F := Ideal) x0 x1 m) acc x2 (ix3 b r d) = runAcc s Vd (j + 1) := by
  rw [pay1_apply, pay9_apply, step_max x0 x1 m b r s j hs hm, hm, hacc, runAcc_succ]
  refine congrArg (fun z => Ideal.exp (runM s j - runM s (j + 1)) * runAcc s Vd j + z) (Finset.sum_congr rfl fun k _ => ?_)
  rw [pay10_apply, step_max x0 x1 m b r s j hs hm, hs k, hV k]

end Cert.KernelIdeal.Hand.Attn

end
-- ==== Proof.Spec.Flat.lean ====
/-
  The running softmax against the plain softmax over a FLAT key axis. The keys `k : Fin N`, `N = T * B`,
  are cut into `T` tiles of `B`: key `B * j + i` is key `i` of tile `j`. A sum over all keys is the sum over
  the tiles of the sums inside each tile; so the tiled agreement (the running result equals the
  softmax-weighted sum over tiles and keys) reads, over the flat axis, as: the running result equals
      ∑ k, (exp (sc k - M) / ∑ k', exp (sc k' - M)) * vv k
  for finite scores `sc`, finite values `vv` and any finite shift `M`.
-/
import proofs.«175568_j46505905881160_2_alg».proof.Proof.Spec.Online

noncomputable section

namespace Cert.Spec

open Idealize.ShloMosaic
open scoped BigOperators

/-- Key `i` of tile `j` lies on the flat axis. -/
theorem tile_bound {T B N : ℕ} (hN : N = T * B) {j : ℕ} (hj : j < T) (i : Fin B) : B * j + i.val < N := by
  have h1 : B * j + i.val < B * (j + 1) := by rw [Nat.mul_succ]; exact Nat.add_lt_add_left i.isLt _
  have h2 : B * (j + 1) ≤ B * T := Nat.mul_le_mul_left B hj
  rw [hN, Nat.mul_comm T B]; exact Nat.lt_of_lt_of_le h1 h2

/-- A sum over the flat axis is the sum over the tiles of the sums inside each tile. -/
theorem sum_tiles {α : Type*} [AddCommMonoid α] (T B N : ℕ) (hN : N = T * B) (g : Fin N → α) :
    ∑ k : Fin N, g k = ∑ j : Fin T, ∑ i : Fin B, g ⟨B * j.val + i.val, tile_bound hN j.isLt i⟩ := by
  subst hN
  rw [← Equiv.sum_comp finProdFinEquiv g, Fintype.sum_prod_type]
  refine Finset.sum_congr rfl fun j _ => Finset.sum_congr rfl fun i _ => congrArg g (Fin.ext ?_)
  show i.val + B * j.val = B * j.val + i.val
  exact Nat.add_comm _ _

/-- THE AGREEMENT over a flat key axis. `s`, `V` are the tiled scores and values the recurrence runs on; on the
    first `T` tiles they are the flat `sc`, `vv` read at key `B * j + i`. -/
theorem online_eq_softmax_flat (T B N : ℕ) (hN : N = T * B) (hT : 0 < T) (hB : 0 < B)
    (sc vv : Fin N → EReal) (hsc : ∀ k, IsFin (sc k)) (hvv : ∀ k, IsFin (vv k))
    (s V : ℕ → Fin B → EReal)
    (hs : ∀ j (hj : j < T) (i : Fin B), s j i = sc ⟨B * j + i.val, tile_bound hN hj i⟩)
    (hV : ∀ j (hj : j < T) (i : Fin B), V j i = vv ⟨B * j + i.val, tile_bound hN hj i⟩)
    (M : EReal) (hM : IsFin M) :
    Ideal.div (runAcc s V T) (runL s T)
      = ∑ k : Fin N, Ideal.div (Ideal.exp (sc k - M)) (∑ k' : Fin N, Ideal.exp (sc k' - M)) * vv k := by
  rw [online_eq_softmax T hT hB s V (fun j hj i => by rw [hs j hj i]; exact hsc _)
      (fun j hj i => by rw [hV j hj i]; exact hvv _) M hM,
    sum_tiles T B N hN (fun k => Ideal.exp (sc k - M)),
    sum_tiles T B N hN (fun k => Ideal.div (Ideal.exp (sc k - M)) _ * vv k)]
  have hD : ∑ j' : Fin T, ∑ i' : Fin B, Ideal.exp (s j'.val i' - M)
      = ∑ j' : Fin T, ∑ i' : Fin B, Ideal.exp (sc ⟨B * j'.val + i'.val, tile_bound hN j'.isLt i'⟩ - M) :=
    Finset.sum_congr rfl fun j _ => Finset.sum_congr rfl fun i _ => by rw [hs j.val j.isLt i]
  rw [hD]
  exact Finset.sum_congr rfl fun j _ => Finset.sum_congr rfl fun i _ => by rw [hs j.val j.isLt i, hV j.val j.isLt i]

end Cert.Spec
-- ==== Proof.Spec.Perm.lean ====
/-
  Two orders of one finite sum. A sum over `2n` indices taken in the INTERLEAVED order
  (0, 1), (2, 3), … is the sum of the pairs; taken in the CONCATENATED order 0 … n-1, n … 2n-1 it is
  the sum of the two halves. So when one family is the other re-laid — entry `2d` of the first is
  entry `d` of the second and entry `2d+1` of the first is entry `n+d` of the second — the two sums
  are equal. Only commutativity and associativity of the addition are used: the statements hold in
  every commutative additive monoid, the extended reals among them, with no finiteness.
-/
import Mathlib.Algebra.BigOperators.Fin

namespace Cert.Spec

open scoped BigOperators

variable {α : Type*} [AddCommMonoid α]

/-- Over the naturals: the first `2n` terms are `n` consecutive pairs. -/
theorem sum_range_pairs (G : ℕ → α) (n : ℕ) :
    ∑ e ∈ Finset.range (2 * n), G e = ∑ d ∈ Finset.range n, (G (2 * d) + G (2 * d + 1)) := by
  induction n with
  | zero => simp
  | succ n ih =>
    rw [show 2 * (n + 1) = 2 * n + 1 + 1 by omega, Finset.sum_range_succ, Finset.sum_range_succ, ih,
      Finset.sum_range_succ, add_assoc]

/-- A family on `Fin N` extended by zero to the naturals has the same sum over the first `N` naturals. -/
theorem sum_fin_eq_sum_range {N : ℕ} (g : Fin N → α) :
    ∑ e : Fin N, g e = ∑ e ∈ Finset.range N, (if h : e < N then g ⟨e, h⟩ else 0) := by
  rw [Finset.sum_range]
  exact Finset.sum_congr rfl fun e _ => by rw [dif_pos e.isLt]

/-- The interleaved order: a sum over `N = 2n` indices is the sum over `d < n` of the pair `2d`, `2d+1`. -/
theorem sum_pairs (n N : ℕ) (hN : N = 2 * n) (g : Fin N → α) :
    ∑ e : Fin N, g e
      = ∑ d : Fin n, (g ⟨2 * d.val, by have := d.isLt; omega⟩ + g ⟨2 * d.val + 1, by have := d.isLt; omega⟩) := by
  subst hN
  rw [sum_fin_eq_sum_range, sum_range_pairs, Finset.sum_range]
  refine Finset.sum_congr rfl fun d _ => ?_
  rw [dif_pos (show 2 * d.val < 2 * n by have := d.isLt; omega),
    dif_pos (show 2 * d.val + 1 < 2 * n by have := d.isLt; omega)]

/-- The concatenated order: a sum over `N = 2n` indices is the sum over the first half plus the sum over the
    second half. -/
theorem sum_halves_add (n N : ℕ) (hN : N = n + n) (g : Fin N → α) :
    ∑ e : Fin N, g e
      = ∑ d : Fin n, g ⟨d.val, by have := d.isLt; omega⟩ + ∑ d : Fin n, g ⟨n + d.val, by have := d.isLt; omega⟩ := by
  subst hN
  rw [sum_fin_eq_sum_range, Finset.sum_range_add, Finset.sum_range, Finset.sum_range]
  congr 1
  · refine Finset.sum_congr rfl fun d _ => ?_
    rw [dif_pos (show d.val < n + n by have := d.isLt; omega)]
  · refine Finset.sum_congr rfl fun d _ => ?_
    rw [dif_pos (show n + d.val < n + n by have := d.isLt; omega)]

theorem sum_halves (n N : ℕ) (hN : N = 2 * n) (g : Fin N → α) :
    ∑ e : Fin N, g e
      = ∑ d : Fin n, g ⟨d.val, by have := d.isLt; omega⟩ + ∑ d : Fin n, g ⟨n + d.val, by have := d.isLt; omega⟩ :=
  sum_halves_add n N (by omega) g

/-- THE RE-LAYING. If `g` in the interleaved order is `g'` in the concatenated order — `g (2d) = g' d` and
    `g (2d+1) = g' (n+d)` for every `d < n` — the two families have the same sum. -/
theorem sum_interleaved_eq_sum_concat (n N : ℕ) (hN : N = 2 * n) (g g' : Fin N → α)
    (h0 : ∀ d : Fin n, g ⟨2 * d.val, by have := d.isLt; omega⟩ = g' ⟨d.val, by have := d.isLt; omega⟩)
    (h1 : ∀ d : Fin n, g ⟨2 * d.val + 1, by have := d.isLt; omega⟩ = g' ⟨n + d.val, by have := d.isLt; omega⟩) :
    ∑ e : Fin N, g e = ∑ e : Fin N, g' e := by
  rw [sum_pairs n N hN g, sum_halves n N hN g', ← Finset.sum_add_distrib]
  exact Finset.sum_congr rfl fun d _ => by rw [h0 d, h1 d]

end Cert.Spec
-- ==== Proof.Spec.Attn.lean ====
/-
  The running softmax of the attention kernel against the reference's closed form.

  The reference's context (`ctx sc v`) is, at batch b, query row q and value column d, the softmax of the row's
  4096 logits, its maximum taken from minus infinity, applied to column d of the values. The kernel absorbs
  the same 4096 keys in 16 tiles of 256 — key `256 * j + i` is key `i` of tile `j` — by the running
  recurrence, and divides at the end. On finite logits and values the two agree: the row maximum is a
  finite shift, and the running result equals the softmax-weighted sum for every finite shift.

  Also here: finiteness passes through the reference's closed forms (a projection, the rotation, the
  logits), and the logits do not depend on the order the rotated lanes are laid in — interleaved
  (real, imaginary) pairs, or all real parts then all imaginary parts — when both operands are re-laid alike.
-/
import proofs.«175568_j46505905881160_2_alg».proof.Proof.Spec.Flat
import proofs.«175568_j46505905881160_2_alg».proof.Proof.Spec.Perm
import proofs.«175568_j46505905881160_2_alg».proof.Proof.Ref.Form
import Idealize.ShloMosaic.PureOps.Ideal.Laws

noncomputable section

namespace Cert.Spec

open Idealize.ShloMosaic Idealize.ShloMosaic.ValueIdx
open Cert.ReferenceIdeal.Hand
open scoped BigOperators

/-- Key `i` of tile `j` on the axis of 4096 keys: `256 * j + i`. -/
def attnKey (j : ℕ) (hj : j < 16) (i : Fin 256) : Fin 4096 :=
  ⟨256 * j + i.val, tile_bound (T := 16) (B := 256) (N := 4096) (by norm_num) hj i⟩

/-! ## The reference's softmax, its literals evaluated -/

/-- The row maximum is the running maximum of the row from the bottom element. -/
theorem rowMax_eq (sc : Sq3) (b : Fin 2) (q : Fin 4096) :
    rowMax sc b q = (Finset.univ : Finset (Fin 4096)).fold max ⊥ (fun k => sc b q k) := by
  unfold rowMax; rw [ofBits_neg_inf, max_bot_left]

/-- On finite logits the row maximum is finite. -/
theorem isFin_rowMax (sc : Sq3) (hsc : ∀ b q k, IsFin (sc b q k)) (b : Fin 2) (q : Fin 4096) :
    IsFin (rowMax sc b q) := by
  rw [rowMax_eq]
  exact isFin_fold_max Finset.univ ⟨⟨0, by norm_num⟩, Finset.mem_univ _⟩ _ fun k _ => hsc b q k

/-- The row's denominator is the bare sum of the exponentials. -/
theorem denom_eq (sc : Sq3) (b : Fin 2) (q : Fin 4096) :
    denom sc b q = ∑ k : Fin 4096, Ideal.exp (sc b q k - rowMax sc b q) := by
  unfold denom expo; rw [Ideal.ofBits_zero_f32, zero_add]

/-- The reference's context, spelt out. -/
theorem ctx_eq (sc : Sq3) (v : Fn3) (b : Fin 2) (q : Fin 4096) (d : Fin 2048) :
    ctx sc v b q d
      = ∑ k : Fin 4096, Ideal.div (Ideal.exp (sc b q k - rowMax sc b q))
          (∑ k' : Fin 4096, Ideal.exp (sc b q k' - rowMax sc b q)) * v b k d := by
  unfold ctx prob; simp only [denom_eq]; rfl

/-! ## The agreement -/

/-- THE AGREEMENT at the reference's names. `s`, `V` are the tiled logits of row (b, q) and the tiled column d of
    the values that the running recurrence is fed: on the 16 tiles they are `sc b q` and `v b · d` read at key
    `256 * j + i`. Then the running result after 16 tiles, divided, is the reference's context. -/
theorem attn_eq_ctx (sc : Sq3) (v : Fn3) (hsc : ∀ b q k, IsFin (sc b q k)) (hv : ∀ b k d, IsFin (v b k d))
    (b : Fin 2) (q : Fin 4096) (d : Fin 2048) (s V : ℕ → Fin 256 → EReal)
    (hs : ∀ j (hj : j < 16) (i : Fin 256), s j i = sc b q (attnKey j hj i))
    (hV : ∀ j (hj : j < 16) (i : Fin 256), V j i = v b (attnKey j hj i) d) :
    Ideal.div (runAcc s V 16) (runL s 16) = ctx sc v b q d := by
  rw [ctx_eq]
  exact online_eq_softmax_flat 16 256 4096 (by norm_num) (by norm_num) (by norm_num)
    (fun k => sc b q k) (fun k => v b k d) (fun k => hsc b q k) (fun k => hv b k d) s V hs hV
    (rowMax sc b q) (isFin_rowMax sc hsc b q)

/-! ## Finiteness through the reference's closed forms -/

theorem isFin_proj (x : Act) (w : Wt) (hx : ∀ i, IsFin (x i)) (hw : ∀ i, IsFin (w i))
    (b : Fin 2) (s : Fin 4096) (o : Fin 2048) : IsFin (proj x w b s o) :=
  IsFin.sum _ _ fun h _ => (hx _).mul (hw _)

theorem isFin_rot (y : Fn3) (c n : Tab) (hy : ∀ b s e, IsFin (y b s e)) (hc : ∀ i, IsFin (c i)) (hn : ∀ i, IsFin (n i))
    (b : Fin 2) (s : Fin 4096) (e : Fin 2048) : IsFin (rot y c n b s e) := by
  unfold rot
  split
  · exact ((hy _ _ _).mul (hc _)).sub ((hy _ _ _).mul (hn _))
  · exact ((hy _ _ _).mul (hn _)).add ((hy _ _ _).mul (hc _))

theorem isFin_score (qr kr : Fn3) (hq : ∀ b s e, IsFin (qr b s e)) (hk : ∀ b s e, IsFin (kr b s e))
    (b : Fin 2) (q k : Fin 4096) : IsFin (score qr kr b q k) :=
  (IsFin.sum _ _ fun e _ => (hq _ _ _).mul (hk _ _ _)).mul isFin_ofBits_eighth

/-! ## The logits under a re-laying of the rotated lanes -/

/-- If `qc`, `kc` hold the rotated queries and keys with all real parts first and all imaginary parts after
    (lane `d` and lane `1024 + d`), and `qr`, `kr` hold them interleaved (lane `2d` and lane `2d + 1`), the
    contraction over the 2048 lanes is the same: a sum does not depend on the order of its terms. -/
theorem sum_lanes_relaid (qr kr qc kc : Fn3)
    (hq0 : ∀ b s d, qr b s (evenLane d) = qc b s (lo d)) (hq1 : ∀ b s d, qr b s (oddLane d) = qc b s (hi d))
    (hk0 : ∀ b s d, kr b s (evenLane d) = kc b s (lo d)) (hk1 : ∀ b s d, kr b s (oddLane d) = kc b s (hi d))
    (b : Fin 2) (q k : Fin 4096) :
    ∑ e : Fin 2048, qr b q e * kr b k e = ∑ e : Fin 2048, qc b q e * kc b k e :=
  sum_interleaved_eq_sum_concat 1024 2048 (by norm_num) (fun e => qr b q e * kr b k e) (fun e => qc b q e * kc b k e)
    (fun d => by
      show qr b q (evenLane d) * kr b k (evenLane d) = qc b q (lo d) * kc b k (lo d)
      rw [hq0, hk0])
    (fun d => by
      show qr b q (oddLane d) * kr b k (oddLane d) = qc b q (hi d) * kc b k (hi d)
      rw [hq1, hk1])

/-- So the logits are the same. -/
theorem score_relaid (qr kr qc kc : Fn3)
    (hq0 : ∀ b s d, qr b s (evenLane d) = qc b s (lo d)) (hq1 : ∀ b s d, qr b s (oddLane d) = qc b s (hi d))
    (hk0 : ∀ b s d, kr b s (evenLane d) = kc b s (lo d)) (hk1 : ∀ b s d, kr b s (oddLane d) = kc b s (hi d)) :
    score qr kr = score qc kc := by
  funext b q k
  unfold score
  rw [sum_lanes_relaid qr kr qc kc hq0 hq1 hk0 hk1 b q k]

end Cert.Spec
-- ==== Proof.KI.Val4.lean ====
import proofs.«175568_j46505905881160_2_alg».proof.Proof.KI.R4
import proofs.«175568_j46505905881160_2_alg».proof.Proof.KI.Val4P
import proofs.«175568_j46505905881160_2_alg».proof.Proof.KI.Val4I
import proofs.«175568_j46505905881160_2_alg».proof.Proof.Spec.Attn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: what the output array holds after the region

The three carried scratch buffers follow the running softmax tile by tile, and the block written back when
kv = 15 is the accumulator divided by the denominator. -/

section AnyF
variable (V : (c : Dev nD) → (b : Ref sig .tc) → Buf (Elt F) ((c : Thread nD τ).loc b))

/-- The three input blocks of a point, at their vector types. -/
abbrev qB (c : Dev nD) (t : Fin cfg4.N) : Vec F S2x512x2048 .bf16 := iblk4 V c 0 t
abbrev kB (c : Dev nD) (t : Fin cfg4.N) : Vec F S2x256x2048 .bf16 := iblk4 V c 1 t
abbrev vB (c : Dev nD) (t : Fin cfg4.N) : Vec F S2x256x2048 .bf16 := iblk4 V c 2 t

/-- At a point with kv = 0 the scratch buffers are reset and then updated with the first tile. -/
theorem scr_first (c : Dev nD) (t : Fin cfg4.N) (h0 : t.val % 16 = 0) :
    (outsAt4 V c t.val t.isLt).2
      = (k4_pay2 (k4_pay8 (qB V c t) (kB V c t) k4_pay4), k4_pay11 (qB V c t) (kB V c t) k4_pay4 k4_pay4 k4_pay5,
         k4_pay1 (k4_pay9 (qB V c t) (kB V c t) k4_pay4 k4_pay4) (k4_pay10 (qB V c t) (kB V c t) k4_pay4) k4_pay6 (vB V c t)) := by
  have h1 : ¬t.val % 16 = 15 := by omega
  rw [outsAt4_A V c t h0 h1]
  dsimp only
  rw [sout4_A_0_eq, sout4_A_1_eq, sout4_A_2_eq]

/-- At any other point they are updated from what the point before left. -/
theorem scr_step (c : Dev nD) (t : Fin cfg4.N) (h0 : ¬t.val % 16 = 0) :
    (outsAt4 V c t.val t.isLt).2
      = (k4_pay2 (k4_pay8 (qB V c t) (kB V c t) (outsAt4 V c (t.val - 1) (Nat.lt_of_le_of_lt (Nat.sub_le _ _) t.isLt)).2.1),
         k4_pay11 (qB V c t) (kB V c t) (outsAt4 V c (t.val - 1) (Nat.lt_of_le_of_lt (Nat.sub_le _ _) t.isLt)).2.1 (outsAt4 V c (t.val - 1) (Nat.lt_of_le_of_lt (Nat.sub_le _ _) t.isLt)).2.1 (outsAt4 V c (t.val - 1) (Nat.lt_of_le_of_lt (Nat.sub_le _ _) t.isLt)).2.2.1,
         k4_pay1 (k4_pay9 (qB V c t) (kB V c t) (outsAt4 V c (t.val - 1) (Nat.lt_of_le_of_lt (Nat.sub_le _ _) t.isLt)).2.1 (outsAt4 V c (t.val - 1) (Nat.lt_of_le_of_lt (Nat.sub_le _ _) t.isLt)).2.1) (k4_pay10 (qB V c t) (kB V c t) (outsAt4 V c (t.val - 1) (Nat.lt_of_le_of_lt (Nat.sub_le _ _) t.isLt)).2.1) (outsAt4 V c (t.val - 1) (Nat.lt_of_le_of_lt (Nat.sub_le _ _) t.isLt)).2.2.2 (vB V c t)) := by
  by_cases h1 : t.val % 16 = 15
  · rw [outsAt4_C V c t h0 h1]
    dsimp only
    rw [sout4_C_0_eq, sout4_C_1_eq, sout4_C_2_eq]
  · rw [outsAt4_B V c t h0 h1]
    dsimp only
    rw [sout4_B_0_eq, sout4_B_1_eq, sout4_B_2_eq]

/-- At a point with kv = 15 the output block is the accumulator divided by the denominator, as just updated. -/
theorem out_last (c : Dev nD) (t : Fin cfg4.N) (h1 : t.val % 16 = 15) :
    (outsAt4 V c t.val t.isLt).1 = k4_pay3 (outsAt4 V c t.val t.isLt).2.2.2 (outsAt4 V c t.val t.isLt).2.2.1 := by
  have h0 : ¬t.val % 16 = 0 := by omega
  rw [outsAt4_C V c t h0 h1]
  dsimp only
  rw [out4_C_3_eq, sout4_C_1_eq, sout4_C_2_eq]

end AnyF

section AtIdeal
open Idealize.ShloMosaic.ValueIdx Cert.ReferenceIdeal.Hand Cert.Spec Attn
open scoped BigOperators
variable (V : (c : Dev nD) → (b : Ref sig .tc) → Buf (Elt Ideal) ((c : Thread nD τ).loc b))

/-- The queries as the region finds them. -/
def qq4 (c : Dev nD) : Fn3 := fun b q e => V c main_v31_0 (ix3 b q e)
/-- The keys as the region finds them. -/
def kk4 (c : Dev nD) : Fn3 := fun b k e => V c main_v31_1 (ix3 b k e)
/-- The logits of the region-entry queries and keys: over the hidden axis, times the word of one eighth. -/
def sc4 (c : Dev nD) : Sq3 := fun b q k =>
  (∑ e : Fin 2048, qq4 V c b q e * kk4 V c b k e) * Ideal.ofBits .f32 0x3E000000#32
/-- The values as the region finds them. -/
def vv4 (c : Dev nD) : Fn3 := fun b k d => V c main_v30 (ix3 b k d)

/-- Row r of query tile i, and key k of key tile j, on the axes of 4096 (total functions of the tile number). -/
def qrow (i : ℕ) (r : Fin 512) : Fin 4096 := ⟨(512 * i + r.val) % 4096, Nat.mod_lt _ (by decide)⟩
def krow (j : ℕ) (k : Fin 256) : Fin 4096 := ⟨(256 * j + k.val) % 4096, Nat.mod_lt _ (by decide)⟩

/-- The tiled logits of row r of query tile i, and the tiled column d of the values. -/
def sT (c : Dev nD) (i : ℕ) (b : Fin 2) (r : Fin 512) : ℕ → Fin 256 → EReal := fun j k => sc4 V c b (qrow i r) (krow j k)
def vT (c : Dev nD) (b : Fin 2) (d : Fin 2048) : ℕ → Fin 256 → EReal := fun j k => vv4 V c b (krow j k) d

/-! ## Which blocks a point reads and writes: the printed index maps, decided over the grid -/

theorem idx4_0 : ∀ t : Fin cfg4.N, win4_0.index t (0 : Fin 3) = 0 ∧ win4_0.index t (1 : Fin 3) = t.val / 16 ∧ win4_0.index t (2 : Fin 3) = 0 :=
  (by decide +kernel : ∀ t : Fin grid4.N, win4_0.index t (0 : Fin 3) = 0 ∧ win4_0.index t (1 : Fin 3) = t.val / 16 ∧ win4_0.index t (2 : Fin 3) = 0)
theorem idx4_1 : ∀ t : Fin cfg4.N, win4_1.index t (0 : Fin 3) = 0 ∧ win4_1.index t (1 : Fin 3) = t.val % 16 ∧ win4_1.index t (2 : Fin 3) = 0 :=
  (by decide +kernel : ∀ t : Fin grid4.N, win4_1.index t (0 : Fin 3) = 0 ∧ win4_1.index t (1 : Fin 3) = t.val % 16 ∧ win4_1.index t (2 : Fin 3) = 0)
theorem idx4_2 : ∀ t : Fin cfg4.N, win4_2.index t (0 : Fin 3) = 0 ∧ win4_2.index t (1 : Fin 3) = t.val % 16 ∧ win4_2.index t (2 : Fin 3) = 0 :=
  (by decide +kernel : ∀ t : Fin grid4.N, win4_2.index t (0 : Fin 3) = 0 ∧ win4_2.index t (1 : Fin 3) = t.val % 16 ∧ win4_2.index t (2 : Fin 3) = 0)
theorem idx4_3 : ∀ t : Fin cfg4.N, win4_3.index t (0 : Fin 3) = 0 ∧ win4_3.index t (1 : Fin 3) = t.val / 16 ∧ win4_3.index t (2 : Fin 3) = 0 :=
  (by decide +kernel : ∀ t : Fin grid4.N, win4_3.index t (0 : Fin 3) = 0 ∧ win4_3.index t (1 : Fin 3) = t.val / 16 ∧ win4_3.index t (2 : Fin 3) = 0)

/-- The query block of point t is rows 512 · (t / 16) … of the query array. -/
theorem qB_apply (c : Dev nD) (t : Fin cfg4.N) (b : Fin 2) (r : Fin 512) (e : Fin 2048) :
    qB V c t (ix3 b r e) = V c main_v31_0 (ix3 b (qrow (t.val / 16) r) e) := by
  obtain ⟨h0, h1, h2⟩ := idx4_0 t
  have hN : t.val < 128 := lt_of_lt_of_eq t.isLt N_4
  unfold qB iblk4
  rw [View.read_apply]
  show V c main_v31_0 _ = V c main_v31_0 _
  congr 1
  funext a
  apply Fin.ext
  match a with
  | ⟨0, _⟩ => show win4_0.index t (0 : Fin 3) * 2 + 1 * b.val = b.val; rw [h0]; omega
  | ⟨1, _⟩ => show win4_0.index t (1 : Fin 3) * 512 + 1 * r.val = (512 * (t.val / 16) + r.val) % 4096; rw [h1]; omega
  | ⟨2, _⟩ => show win4_0.index t (2 : Fin 3) * 2048 + 1 * e.val = e.val; rw [h2]; omega

/-- The key block of point t is rows 256 · (t % 16) … of the key array. -/
theorem kB_apply (c : Dev nD) (t : Fin cfg4.N) (b : Fin 2) (k : Fin 256) (e : Fin 2048) :
    kB V c t (ix3 b k e) = V c main_v31_1 (ix3 b (krow (t.val % 16) k) e) := by
  obtain ⟨h0, h1, h2⟩ := idx4_1 t
  unfold kB iblk4
  rw [View.read_apply]
  show V c main_v31_1 _ = V c main_v31_1 _
  congr 1
  funext a
  apply Fin.ext
  match a with
  | ⟨0, _⟩ => show win4_1.index t (0 : Fin 3) * 2 + 1 * b.val = b.val; rw [h0]; omega
  | ⟨1, _⟩ => show win4_1.index t (1 : Fin 3) * 256 + 1 * k.val = (256 * (t.val % 16) + k.val) % 4096; rw [h1]; omega
  | ⟨2, _⟩ => show win4_1.index t (2 : Fin 3) * 2048 + 1 * e.val = e.val; rw [h2]; omega

/-- The value block of point t is rows 256 · (t % 16) … of the value array. -/
theorem vB_apply (c : Dev nD) (t : Fin cfg4.N) (b : Fin 2) (k : Fin 256) (d : Fin 2048) :
    vB V c t (ix3 b k d) = V c main_v30 (ix3 b (krow (t.val % 16) k) d) := by
  obtain ⟨h0, h1, h2⟩ := idx4_2 t
  unfold vB iblk4
  rw [View.read_apply]
  show V c main_v30 _ = V c main_v30 _
  congr 1
  funext a
  apply Fin.ext
  match a with
  | ⟨0, _⟩ => show win4_2.index t (0 : Fin 3) * 2 + 1 * b.val = b.val; rw [h0]; omega
  | ⟨1, _⟩ => show win4_2.index t (1 : Fin 3) * 256 + 1 * k.val = (256 * (t.val % 16) + k.val) % 4096; rw [h1]; omega
  | ⟨2, _⟩ => show win4_2.index t (2 : Fin 3) * 2048 + 1 * d.val = d.val; rw [h2]; omega

/-- The tile's scores are the tiled logits. -/
theorem tileScore_eq (c : Dev nD) (t : Fin cfg4.N) (b : Fin 2) (r : Fin 512) (k : Fin 256) :
    tileScore (qB V c t) (kB V c t) b r k = sT V c (t.val / 16) b r (t.val % 16) k := by
  unfold tileScore sT sc4 qq4 kk4
  refine congrArg (· * Ideal.ofBits .f32 0x3E000000#32) (Finset.sum_congr rfl fun e _ => ?_)
  rw [qB_apply, kB_apply]

theorem vB_eq (c : Dev nD) (t : Fin cfg4.N) (b : Fin 2) (d : Fin 2048) (k : Fin 256) :
    vB V c t (ix3 b k d) = vT V c b d (t.val % 16) k := by
  unfold vT vv4
  rw [vB_apply]

/-! ## The scratch buffers follow the running softmax -/

/-- After the point at position n = 16 · i + j the three scratch buffers hold, at row (b, r) of query tile i, the
    running maximum, denominator and accumulator after j + 1 key tiles. By induction on the point: at kv = 0 the
    reset values are the recurrence's start, at every point the tile's update is the recurrence's step. -/
theorem scratch_inv (c : Dev nD) : ∀ (n : ℕ) (hn : n < cfg4.N) (b : Fin 2) (r : Fin 512),
    (outsAt4 V c n hn).2.1 (ix3 b r 0) = runM (sT V c (n / 16) b r) (n % 16 + 1)
    ∧ (outsAt4 V c n hn).2.2.1 (ix3 b r 0) = runL (sT V c (n / 16) b r) (n % 16 + 1)
    ∧ ∀ d : Fin 2048, (outsAt4 V c n hn).2.2.2 (ix3 b r d) = runAcc (sT V c (n / 16) b r) (vT V c b d) (n % 16 + 1) := by
  intro n
  induction n with
  | zero =>
    intro hn b r
    have e := scr_first V c ⟨0, hn⟩ rfl
    have hs : ∀ k, tileScore (qB V c ⟨0, hn⟩) (kB V c ⟨0, hn⟩) b r k = sT V c (0 / 16) b r 0 k := fun k => tileScore_eq V c ⟨0, hn⟩ b r k
    refine ⟨?_, ?_, fun d => ?_⟩
    · rw [show (outsAt4 V c 0 hn).2.1 = _ from congrArg (fun p => p.1) e]
      exact step_M _ _ _ b r _ 0 hs (pay4_apply _)
    · rw [show (outsAt4 V c 0 hn).2.2.1 = _ from congrArg (fun p => p.2.1) e]
      exact step_L _ _ _ _ b r _ 0 hs (pay4_apply _) (pay5_apply _)
    · rw [show (outsAt4 V c 0 hn).2.2.2 = _ from congrArg (fun p => p.2.2) e]
      exact step_A _ _ _ _ _ b r d _ _ 0 hs (fun k => vB_eq V c ⟨0, hn⟩ b d k) (pay4_apply _) (pay6_apply _)
  | succ n ih =>
    intro hn b r
    by_cases h0 : (n + 1) % 16 = 0
    · have e := scr_first V c ⟨n + 1, hn⟩ h0
      have hs : ∀ k, tileScore (qB V c ⟨n + 1, hn⟩) (kB V c ⟨n + 1, hn⟩) b r k = sT V c ((n + 1) / 16) b r 0 k := fun k => by
        have := tileScore_eq V c ⟨n + 1, hn⟩ b r k
        rwa [show (⟨n + 1, hn⟩ : Fin cfg4.N).val % 16 = 0 from h0] at this
      have hV : ∀ (d : Fin 2048) (k : Fin 256), vB V c ⟨n + 1, hn⟩ (ix3 b k d) = vT V c b d 0 k := fun d k => by
        have := vB_eq V c ⟨n + 1, hn⟩ b d k
        rwa [show (⟨n + 1, hn⟩ : Fin cfg4.N).val % 16 = 0 from h0] at this
      rw [h0]
      refine ⟨?_, ?_, fun d => ?_⟩
      · rw [show (outsAt4 V c (n + 1) hn).2.1 = _ from congrArg (fun p => p.1) e]
        exact step_M _ _ _ b r _ 0 hs (pay4_apply _)
      · rw [show (outsAt4 V c (n + 1) hn).2.2.1 = _ from congrArg (fun p => p.2.1) e]
        exact step_L _ _ _ _ b r _ 0 hs (pay4_apply _) (pay5_apply _)
      · rw [show (outsAt4 V c (n + 1) hn).2.2.2 = _ from congrArg (fun p => p.2.2) e]
        exact step_A _ _ _ _ _ b r d _ _ 0 hs (hV d) (pay4_apply _) (pay6_apply _)
    · have e := scr_step V c ⟨n + 1, hn⟩ h0
      have hd : (n + 1) / 16 = n / 16 := by omega
      have hm : (n + 1) % 16 = n % 16 + 1 := by omega
      obtain ⟨iM, iL, iA⟩ := ih (Nat.lt_of_succ_lt hn) b r
      have hs : ∀ k, tileScore (qB V c ⟨n + 1, hn⟩) (kB V c ⟨n + 1, hn⟩) b r k = sT V c (n / 16) b r (n % 16 + 1) k := fun k => by
        have := tileScore_eq V c ⟨n + 1, hn⟩ b r k
        rwa [show (⟨n + 1, hn⟩ : Fin cfg4.N).val % 16 = n % 16 + 1 from hm, show (⟨n + 1, hn⟩ : Fin cfg4.N).val / 16 = n / 16 from hd] at this
      have hV : ∀ (d : Fin 2048) (k : Fin 256), vB V c ⟨n + 1, hn⟩ (ix3 b k d) = vT V c b d (n % 16 + 1) k := fun d k => by
        have := vB_eq V c ⟨n + 1, hn⟩ b d k
        rwa [show (⟨n + 1, hn⟩ : Fin cfg4.N).val % 16 = n % 16 + 1 from hm] at this
      rw [hd, hm]
      refine ⟨?_, ?_, fun d => ?_⟩
      · rw [show (outsAt4 V c (n + 1) hn).2.1 = _ from congrArg (fun p => p.1) e]
        exact step_M _ _ _ b r _ (n % 16 + 1) hs iM
      · rw [show (outsAt4 V c (n + 1) hn).2.2.1 = _ from congrArg (fun p => p.2.1) e]
        exact step_L _ _ _ _ b r _ (n % 16 + 1) hs iM iL
      · rw [show (outsAt4 V c (n + 1) hn).2.2.2 = _ from congrArg (fun p => p.2.2) e]
        exact step_A _ _ _ _ _ b r d _ _ (n % 16 + 1) hs (hV d) iM (iA d)

/-! ## The block written back, and the array after the region -/

theorem krow_eq (j : ℕ) (hj : j < 16) (k : Fin 256) : krow j k = attnKey j hj k := Fin.ext (by
  show (256 * j + k.val) % 4096 = 256 * j + k.val
  have := k.isLt
  exact Nat.mod_eq_of_lt (by omega))

/-- The block stored at a point with kv = 15, at (b, r, d): the reference's context of row 512 · (t / 16) + r. -/
theorem out_val (c : Dev nD) (hq : ∀ i, IsFin (V c main_v31_0 i)) (hk : ∀ i, IsFin (V c main_v31_1 i)) (hv : ∀ i, IsFin (V c main_v30 i))
    (t : Fin cfg4.N) (h1 : t.val % 16 = 15) (b : Fin 2) (r : Fin 512) (d : Fin 2048) :
    (outsAt4 V c t.val t.isLt).1 (ix3 b r d) = ctx (sc4 V c) (vv4 V c) b (qrow (t.val / 16) r) d := by
  rw [out_last V c t h1, pay3_apply]
  obtain ⟨-, iL, iA⟩ := scratch_inv V c t.val t.isLt b r
  rw [iA d, iL, h1]
  refine attn_eq_ctx (sc4 V c) (vv4 V c) (fun b q k => ?_) (fun b k d => hv _) b (qrow (t.val / 16) r) d _ _ (fun j hj i => ?_) (fun j hj i => ?_)
  · exact IsFin.mul (IsFin.sum _ _ fun e _ => IsFin.mul (hq _) (hk _)) isFin_ofBits_eighth
  · show sc4 V c b (qrow (t.val / 16) r) (krow j i) = _
    rw [krow_eq j hj i]
  · show vv4 V c b (krow j i) d = _
    rw [krow_eq j hj i]

/-- The coordinates of an index of the output array. -/
abbrev ob (i : S2x4096x2048.Idx) : Fin 2 := ⟨(i 0).val, (i 0).isLt⟩
abbrev oq (i : S2x4096x2048.Idx) : Fin 4096 := ⟨(i 1).val, (i 1).isLt⟩
abbrev od (i : S2x4096x2048.Idx) : Fin 2048 := ⟨(i 2).val, (i 2).isLt⟩

/-- What the output array ends holding: the reference's context of the region-entry logits and values. -/
def G4 (c : Dev nD) : S2x4096x2048.Idx → EReal := fun i => ctx (sc4 V c) (vv4 V c) (ob i) (oq i) (od i)

/-- What a point with kv = 15 writes back is its block of `G4`. -/
theorem flushed4_eq (c : Dev nD) (hq : ∀ i, IsFin (V c main_v31_0 i)) (hk : ∀ i, IsFin (V c main_v31_1 i)) (hv : ∀ i, IsFin (V c main_v30 i))
    (t : Fin cfg4.N) (hf : (cfg4.win 3).flush t = true) :
    (dat4 V c).flushed 3 t = ((cfg4.win 3).blk t).view.read (Elt Ideal) (G4 V c) := by
  have h1 : t.val % 16 = 15 := (flush4_3 t).mp hf
  obtain ⟨e0, e1, e2⟩ := idx4_3 t
  have hN : t.val < 128 := lt_of_lt_of_eq t.isLt N_4
  show (cfg4.win 3).cut (grid4.coords t) ((dat4 V c).after 3 t) = _
  rw [after4_3]
  funext y
  obtain ⟨b, r, d, rfl⟩ : ∃ (b : Fin 2) (r : Fin 512) (d : Fin 2048), y = ix3 b r d := ⟨y 0, y 1, y 2, eq_ix3 y⟩
  show (outsAt4 V c t.val t.isLt).1 (ix3 b r d) = G4 V c (((cfg4.win 3).blk t).view.emb (ix3 b r d))
  rw [out_val V c hq hk hv t h1 b r d]
  unfold G4
  have hb : ob (((cfg4.win 3).blk t).view.emb (ix3 b r d)) = b := Fin.ext (by
    show win4_3.index t (0 : Fin 3) * 2 + 1 * b.val = b.val; rw [e0]; omega)
  have hr : oq (((cfg4.win 3).blk t).view.emb (ix3 b r d)) = qrow (t.val / 16) r := Fin.ext (by
    show win4_3.index t (1 : Fin 3) * 512 + 1 * r.val = (512 * (t.val / 16) + r.val) % 4096; rw [e1]; omega)
  have hd : od (((cfg4.win 3).blk t).view.emb (ix3 b r d)) = d := Fin.ext (by
    show win4_3.index t (2 : Fin 3) * 2048 + 1 * d.val = d.val; rw [e2]; omega)
  rw [hb, hr, hd]

/-- An index of the output array is in point t's block iff each coordinate is in the block's range on its axis. -/
theorem mem_blk4_3 (t : Fin cfg4.N) (i : S2x4096x2048.Idx) :
    i ∈ ((cfg4.win 3).blk t).view.set ↔ ∀ a : Fin 3, win4_3.index t a * S2x512x2048.size a ≤ (i a).val ∧ (i a).val < win4_3.index t a * S2x512x2048.size a + S2x512x2048.size a := by
  show i ∈ ((View.whole main_v32).slice (win4_3.rect t)).set ↔ _
  rw [View.set_slice_whole, Rect.mem_set_unit]
  exact Iff.rfl

/-- THE OUTPUT ARRAY AFTER THE REGION, entry by entry: on finite region-entry queries, keys and values, the reference's
    context of the logits `sc4` and the values `vv4`. Row q is written by the last point of its query tile. -/
theorem arrAt4_3 (c : Dev nD) (hq : ∀ i, IsFin (V c main_v31_0 i)) (hk : ∀ i, IsFin (V c main_v31_1 i)) (hv : ∀ i, IsFin (V c main_v30 i))
    (b : Fin 2) (q : Fin 4096) (d : Fin 2048) :
    (dat4 (F := Ideal) V c).arrAt 3 cfg4.N (ix3 b q d) = ctx (sc4 V c) (vv4 V c) b q d := by
  have hqlt : q.val < 4096 := q.isLt
  have htN : 16 * (q.val / 512) + 15 < cfg4.N := by rw [show cfg4.N = 128 from N_4]; omega
  let t : Fin cfg4.N := ⟨16 * (q.val / 512) + 15, htN⟩
  have h1 : t.val % 16 = 15 := by show (16 * (q.val / 512) + 15) % 16 = 15; omega
  have hdiv : t.val / 16 = q.val / 512 := by show (16 * (q.val / 512) + 15) / 16 = q.val / 512; omega
  have hf : (cfg4.win 3).flush t = true := (flush4_3 t).mpr h1
  obtain ⟨e0, e1, e2⟩ := idx4_3 t
  refine ((dat4 (F := Ideal) V c).arrAt_apply_of_mem 3 (G4 V c) (fun t hf => flushed4_eq V c hq hk hv t hf) cfg4.N t (ix3 b q d) t.isLt hf ?_).trans rfl
  rw [mem_blk4_3]
  intro a
  match a with
  | ⟨0, _⟩ => show win4_3.index t (0 : Fin 3) * 2 ≤ b.val ∧ b.val < win4_3.index t (0 : Fin 3) * 2 + 2; rw [e0]; have := b.isLt; omega
  | ⟨1, _⟩ => show win4_3.index t (1 : Fin 3) * 512 ≤ q.val ∧ q.val < win4_3.index t (1 : Fin 3) * 512 + 512; rw [e1, hdiv]; omega
  | ⟨2, _⟩ => show win4_3.index t (2 : Fin 3) * 2048 ≤ d.val ∧ d.val < win4_3.index t (2 : Fin 3) * 2048 + 2048; rw [e2]; have := d.isLt; omega

/-- The queries, keys, logits and values, spelt over the region-entry arrays. -/
theorem qq4_apply (c : Dev nD) (b : Fin 2) (q : Fin 4096) (e : Fin 2048) : qq4 V c b q e = V c main_v31_0 (ix3 b q e) := rfl
theorem kk4_apply (c : Dev nD) (b : Fin 2) (k : Fin 4096) (e : Fin 2048) : kk4 V c b k e = V c main_v31_1 (ix3 b k e) := rfl
theorem sc4_apply (c : Dev nD) (b : Fin 2) (q k : Fin 4096) :
    sc4 V c b q k = (∑ e : Fin 2048, qq4 V c b q e * kk4 V c b k e) * Ideal.ofBits .f32 0x3E000000#32 := rfl
theorem vv4_apply (c : Dev nD) (b : Fin 2) (k : Fin 4096) (d : Fin 2048) : vv4 V c b k d = V c main_v30 (ix3 b k d) := rfl

end AtIdeal

end Cert.KernelIdeal.Hand

end
-- ==== Proof.KI.ChainAttn.lean ====
import proofs.«175568_j46505905881160_2_alg».proof.Proof.KI.ChainProj
import proofs.«175568_j46505905881160_2_alg».proof.Proof.KI.ChainRope
import proofs.«175568_j46505905881160_2_alg».proof.Proof.KI.Val4
import proofs.«175568_j46505905881160_2_alg».proof.Proof.Spec.Attn

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane rot rotRe rotIm rot_even rot_odd score ctx outp attnScore Act Wt Tab Fn3 Sq3)
open Cert.ReferenceIdeal.Read (val_main_v9 val_main_v16)
open Cert.Spec (flat IsFin)

variable (m : (ℓ : Loc nD τ sig) → Buf (Elt Ideal) ℓ) (ρ : Dev nD → PrngReg)

/-! # The attention region's output array is the reference's context
    The region's logits are taken over the hidden axis of the rotated queries and keys as the rotation region laid
    them (all real parts, then all imaginary parts); the reference's are taken over the same lanes interleaved. A sum
    over the hidden axis does not see the order of its lanes, so the two logits agree; the values are the value
    projection in both. Hence the context the region computes from what it finds IS the reference's context. -/

/-- The region's logits, of the queries and keys it finds, are the reference's. -/
theorem sc4_eq (c : Dev nD) :
    sc4 (V6 (F := Ideal) m ρ) c
      = attnScore (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7)) := by
  show score (qq4 (V6 (F := Ideal) m ρ) c) (kk4 (V6 (F := Ideal) m ρ) c) = score _ _
  refine (Cert.Spec.score_relaid _ _ (qq4 (V6 (F := Ideal) m ρ) c) (kk4 (V6 (F := Ideal) m ρ) c) ?_ ?_ ?_ ?_).symm
  · intro b s d; exact (rot_even _ _ _ b s d).trans (W6_v31_0_lo m ρ c b s d).symm
  · intro b s d; exact (rot_odd _ _ _ b s d).trans (W6_v31_0_hi m ρ c b s d).symm
  · intro b s d; exact (rot_even _ _ _ b s d).trans (W6_v31_1_lo m ρ c b s d).symm
  · intro b s d; exact (rot_odd _ _ _ b s d).trans (W6_v31_1_hi m ρ c b s d).symm

/-- The values the region finds are the value projection. -/
theorem vv4_eq (c : Dev nD) :
    vv4 (V6 (F := Ideal) m ρ) c = proj (m ((c : Thread nD τ).loc main_arg0)) (m ((c : Thread nD τ).loc main_arg3)) :=
  funext fun b => funext fun k => funext fun d =>
    (congrFun (walk_v30_6_5 m ρ c) (ix3 b k d)).trans (W5_v30 m ρ c b k d)

/-- WHAT THE ATTENTION REGION LEAVES in its output array: the reference's context, entry by entry, when the queries,
    keys and values it finds are finite. -/
theorem attn_of (c : Dev nD)
    (hq : ∀ i, IsFin (V6 (F := Ideal) m ρ c main_v31_0 i)) (hk : ∀ i, IsFin (V6 (F := Ideal) m ρ c main_v31_1 i))
    (hv : ∀ i, IsFin (V6 (F := Ideal) m ρ c main_v30 i))
    (b : Fin 2) (q : Fin 4096) (d : Fin 2048) :
    W7 (F := Ideal) m ρ c (Proc.devRef .tc main_v32) (ix3 b q d)
      = ctx (attnScore (m ((c : Thread nD τ).loc main_arg0)) (m ((c : Thread nD τ).loc main_arg1)) (m ((c : Thread nD τ).loc main_arg2))
              (m ((c : Thread nD τ).loc main_arg5)) (m ((c : Thread nD τ).loc main_arg6)) (m ((c : Thread nD τ).loc main_arg7)))
          (proj (m ((c : Thread nD τ).loc main_arg0)) (m ((c : Thread nD τ).loc main_arg3))) b q d := by
  refine (congrFun (W7_arr m ρ c 3) (ix3 b q d)).trans ?_
  refine (arrAt4_3 (V6 (F := Ideal) m ρ) c hq hk hv b q d).trans ?_
  rw [sc4_eq m ρ c, vv4_eq m ρ c]

end Cert.KernelIdeal.Hand

end
-- ==== Proof.Spec.GatherFin.lean ====
/-
  Every entry of a looked-up table is an entry of the table it was looked up in: a gather only chooses where to
  read. So if every entry of the table is finite, every looked-up entry is.
-/
import Idealize.ShloMosaic.PureOps
import proofs.«175568_j46505905881160_2_alg».proof.Proof.Spec.Fin

noncomputable section

namespace Cert.Spec

open Idealize.ShloMosaic

/-- A gather of an array of finite values has finite values, whatever the dimension numbers and the indices. -/
theorem isFin_gather {s si t : Shape} {w : Nat} (d : GatherDims s si t) (x : s.Idx → EReal) (idx : IVec si w)
    (hx : ∀ j, IsFin (x j)) (i : t.Idx) : IsFin (Host.gather d x idx i) :=
  hx (d.operandIdx i idx)

/-- The same for any property of the entries. -/
theorem gather_forall {α : Type} {s si t : Shape} {w : Nat} (P : α → Prop) (d : GatherDims s si t) (x : s.Idx → α)
    (idx : IVec si w) (hx : ∀ j, P (x j)) (i : t.Idx) : P (Host.gather d x idx i) :=
  hx (d.operandIdx i idx)

end Cert.Spec

end
-- ==== Proof.Ref.TabFin.lean ====
/-
  The two looked-up rotation tables have finite entries when the tables they are looked up in do: a lookup only
  chooses which entry to read.
-/
import proofs.«175568_j46505905881160_2_alg».proof.Proof.Gen.ReferenceIdeal.Read
import proofs.«175568_j46505905881160_2_alg».proof.Proof.Ref.Form
import proofs.«175568_j46505905881160_2_alg».proof.Proof.Spec.GatherFin

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

open Cert.Spec (IsFin)

theorem isFin_val_main_v9 (x5 : (⟨S4096x1024, .f32⟩ : BufTy).Contents (Elt Ideal)) (x7 : (⟨S4096, .i32⟩ : BufTy).Contents (Elt Ideal)) (hx : ∀ j, IsFin (x5 j)) (i : S4096x1024.Idx) :
    IsFin (val_main_v9 (F := Ideal) x5 x7 i) := by
  unfold val_main_v9
  exact Cert.Spec.isFin_gather _ _ _ hx i

theorem isFin_val_main_v16 (x6 : (⟨S4096x1024, .f32⟩ : BufTy).Contents (Elt Ideal)) (x7 : (⟨S4096, .i32⟩ : BufTy).Contents (Elt Ideal)) (hx : ∀ j, IsFin (x6 j)) (i : S4096x1024.Idx) :
    IsFin (val_main_v16 (F := Ideal) x6 x7 i) := by
  unfold val_main_v16
  exact Cert.Spec.isFin_gather _ _ _ hx i

end Cert.ReferenceIdeal.Hand

end
-- ==== Proof.KI.ChainFin.lean ====
import proofs.«175568_j46505905881160_2_alg».proof.Proof.KI.ChainRope
import proofs.«175568_j46505905881160_2_alg».proof.Proof.Ref.TabFin
import proofs.«175568_j46505905881160_2_alg».proof.Proof.Spec.Attn

/-! # What the attention kernel reads is finite
    Under finite launch arguments the three arrays the attention kernel reads — the rotated queries, the rotated keys
    and the value projection — have finite entries: a projection is a finite sum of products of finite values, a
    looked-up table entry is a table entry, and the rotation combines four finite values. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane pairOf rot rotRe rotIm rot_even rot_odd score ctx outp Act Wt Tab Fn3 Sq3 arr3 arr3_ix)
open Cert.ReferenceIdeal.Read (val_main_v9 val_main_v16)
open Cert.Spec (flat IsFin)

variable (m : (ℓ : Loc nD τ sig) → Buf (Elt Ideal) ℓ) (ρ : Dev nD → PrngReg)

open Cert.ReferenceIdeal.Hand (isFin_val_main_v9 isFin_val_main_v16)
open Cert.Spec (isFin_proj isFin_rot)

/-- Every lane of the half-split axis is lane d of the first half or lane 1024 + d of the second. -/
theorem half_cases (e : Fin 2048) : (∃ d : Fin 1024, e = lo d) ∨ (∃ d : Fin 1024, e = hi d) := by
  have he := e.isLt
  by_cases h : e.val < 1024
  · exact Or.inl ⟨⟨e.val, h⟩, Fin.ext rfl⟩
  · exact Or.inr ⟨⟨e.val - 1024, by omega⟩, Fin.ext (by show e.val = 1024 + (e.val - 1024); omega)⟩

/-- The real part of a rotated pair of finite values is finite. -/
theorem isFin_rotRe (y : Fn3) (cT nT : Tab) (hy : ∀ b s e, IsFin (y b s e)) (hc : ∀ i, IsFin (cT i)) (hn : ∀ i, IsFin (nT i))
    (b : Fin 2) (s : Fin 4096) (d : Fin 1024) : IsFin (rotRe y cT nT b s d) :=
  ((hy _ _ _).mul (hc _)).sub ((hy _ _ _).mul (hn _))

/-- So is the imaginary part. -/
theorem isFin_rotIm (y : Fn3) (cT nT : Tab) (hy : ∀ b s e, IsFin (y b s e)) (hc : ∀ i, IsFin (cT i)) (hn : ∀ i, IsFin (nT i))
    (b : Fin 2) (s : Fin 4096) (d : Fin 1024) : IsFin (rotIm y cT nT b s d) :=
  ((hy _ _ _).mul (hn _)).add ((hy _ _ _).mul (hc _))

/-- The rotated queries are finite. -/
theorem isFin_W6_v31_0 (c : Dev nD)
    (h0 : ∀ i, IsFin ((m ((c : Thread nD τ).loc main_arg0)) i))
    (h1 : ∀ i, IsFin ((m ((c : Thread nD τ).loc main_arg1)) i))
    (h2 : ∀ i, IsFin ((m ((c : Thread nD τ).loc main_arg2)) i))
    (h3 : ∀ i, IsFin ((m ((c : Thread nD τ).loc main_arg3)) i))
    (h4 : ∀ i, IsFin ((m ((c : Thread nD τ).loc main_arg4)) i))
    (h5 : ∀ i, IsFin ((m ((c : Thread nD τ).loc main_arg5)) i))
    (h6 : ∀ i, IsFin ((m ((c : Thread nD τ).loc main_arg6)) i))
    (i : S2x4096x2048.Idx) : IsFin (W6 (F := Ideal) m ρ c (Proc.devRef .tc main_v31_0) i) := by
  obtain ⟨b, s, e, rfl⟩ : ∃ (b : Fin 2) (s : Fin 4096) (e : Fin 2048), i = ix3 b s e := ⟨i 0, i 1, i 2, eq_ix3 i⟩
  have hq : ∀ b s e, IsFin ((proj (m ((c : Thread nD τ).loc main_arg0)) (m ((c : Thread nD τ).loc main_arg1))) b s e) := fun b s e => isFin_proj _ _ h0 h1 b s e
  have hc : ∀ j, IsFin ((val_main_v9 (F := Ideal) (m ((c : Thread nD τ).loc main_arg5)) (m ((c : Thread nD τ).loc main_arg7))) j) := fun j => isFin_val_main_v9 _ _ h5 j
  have hn : ∀ j, IsFin ((val_main_v16 (F := Ideal) (m ((c : Thread nD τ).loc main_arg6)) (m ((c : Thread nD τ).loc main_arg7))) j) := fun j => isFin_val_main_v16 _ _ h6 j
  rcases half_cases e with ⟨d, rfl⟩ | ⟨d, rfl⟩
  · rw [W6_v31_0_lo]; exact isFin_rotRe _ _ _ hq hc hn b s d
  · rw [W6_v31_0_hi]; exact isFin_rotIm _ _ _ hq hc hn b s d

/-- The rotated keys are finite. -/
theorem isFin_W6_v31_1 (c : Dev nD)
    (h0 : ∀ i, IsFin ((m ((c : Thread nD τ).loc main_arg0)) i))
    (h1 : ∀ i, IsFin ((m ((c : Thread nD τ).loc main_arg1)) i))
    (h2 : ∀ i, IsFin ((m ((c : Thread nD τ).loc main_arg2)) i))
    (h3 : ∀ i, IsFin ((m ((c : Thread nD τ).loc main_arg3)) i))
    (h4 : ∀ i, IsFin ((m ((c : Thread nD τ).loc main_arg4)) i))
    (h5 : ∀ i, IsFin ((m ((c : Thread nD τ).loc main_arg5)) i))
    (h6 : ∀ i, IsFin ((m ((c : Thread nD τ).loc main_arg6)) i))
    (i : S2x4096x2048.Idx) : IsFin (W6 (F := Ideal) m ρ c (Proc.devRef .tc main_v31_1) i) := by
  obtain ⟨b, s, e, rfl⟩ : ∃ (b : Fin 2) (s : Fin 4096) (e : Fin 2048), i = ix3 b s e := ⟨i 0, i 1, i 2, eq_ix3 i⟩
  have hk : ∀ b s e, IsFin ((proj (m ((c : Thread nD τ).loc main_arg0)) (m ((c : Thread nD τ).loc main_arg2))) b s e) := fun b s e => isFin_proj _ _ h0 h2 b s e
  have hc : ∀ j, IsFin ((val_main_v9 (F := Ideal) (m ((c : Thread nD τ).loc main_arg5)) (m ((c : Thread nD τ).loc main_arg7))) j) := fun j => isFin_val_main_v9 _ _ h5 j
  have hn : ∀ j, IsFin ((val_main_v16 (F := Ideal) (m ((c : Thread nD τ).loc main_arg6)) (m ((c : Thread nD τ).loc main_arg7))) j) := fun j => isFin_val_main_v16 _ _ h6 j
  rcases half_cases e with ⟨d, rfl⟩ | ⟨d, rfl⟩
  · rw [W6_v31_1_lo]; exact isFin_rotRe _ _ _ hk hc hn b s d
  · rw [W6_v31_1_hi]; exact isFin_rotIm _ _ _ hk hc hn b s d

/-- The value projection is finite. -/
theorem isFin_W6_v30 (c : Dev nD)
    (h0 : ∀ i, IsFin ((m ((c : Thread nD τ).loc main_arg0)) i))
    (h1 : ∀ i, IsFin ((m ((c : Thread nD τ).loc main_arg1)) i))
    (h2 : ∀ i, IsFin ((m ((c : Thread nD τ).loc main_arg2)) i))
    (h3 : ∀ i, IsFin ((m ((c : Thread nD τ).loc main_arg3)) i))
    (h4 : ∀ i, IsFin ((m ((c : Thread nD τ).loc main_arg4)) i))
    (h5 : ∀ i, IsFin ((m ((c : Thread nD τ).loc main_arg5)) i))
    (h6 : ∀ i, IsFin ((m ((c : Thread nD τ).loc main_arg6)) i))
    (i : S2x4096x2048.Idx) : IsFin (W6 (F := Ideal) m ρ c (Proc.devRef .tc main_v30) i) := by
  obtain ⟨b, s, o, rfl⟩ : ∃ (b : Fin 2) (s : Fin 4096) (o : Fin 2048), i = ix3 b s o := ⟨i 0, i 1, i 2, eq_ix3 i⟩
  rw [congrFun (walk_v30_6_5 m ρ c) _, W5_v30]
  exact isFin_proj _ _ h0 h3 b s o

end Cert.KernelIdeal.Hand

end
-- ==== Proof.KI.PreFin.lean ====
/-
  The precondition read back: it states, array by array, that the absolute value of every entry of the seven float
  arguments is below the word 0x7F800000 (+∞), all these facts joined by "and" into one bit that is 1. An extended
  real whose absolute value is below +∞ is neither infinity, hence the coercion of a real number. So under the
  precondition every entry of the activations, of the four weight matrices and of the two rotation tables is finite.
-/
import proofs.«175568_j46505905881160_2_alg».proof.Defs
import proofs.«175568_j46505905881160_2_alg».proof.Proof.Gen.Pre_finite_inputs
import proofs.«175568_j46505905881160_2_alg».proof.Proof.Spec.Fin
import Idealize.ShloMosaic.Lib.ReduceAll
import Idealize.ShloMosaic.Lib.ValueIdx

set_option maxRecDepth 16384

noncomputable section

namespace Cert.KernelIdeal.Hand

open Cert.KernelIdeal
open Idealize.ShloMosaic Idealize.ShloMosaic.TcCoe Idealize.ShloMosaic.ValueIdx Idealize.SL.Sem
open Cert.Spec (IsFin)

/-- The word 0x7F800000 is +∞. -/
theorem ofBits_pos_inf : Ideal.ofBits .f32 0x7F800000#32 = ⊤ := by
  simp [Ideal.ofBits, Ideal.ieee]

/-- An extended real whose absolute value compares below +∞ is finite. -/
theorem isFin_of_abs_lt (x : EReal)
    (h : Ideal.cmp .olt (max x (-x)) (Ideal.ofBits .f32 0x7F800000#32) = 1#1) : IsFin x := by
  rw [ofBits_pos_inf] at h
  have hlt : max x (-x) < ⊤ := by
    by_contra hn
    have h0 : Ideal.cmp .olt (max x (-x)) ⊤ = 0#1 := by
      unfold Ideal.cmp
      simp [hn]
    rw [h0] at h
    exact absurd h (by decide)
  rw [max_lt_iff] at hlt
  refine Cert.Spec.isFin_iff.mpr ⟨?_, ?_⟩
  · intro hb
    rw [hb] at hlt
    exact absurd hlt.2 (by simp)
  · intro ht
    rw [ht] at hlt
    exact absurd hlt.1 (lt_irrefl _)

instance : Subsingleton (⟨0, ![]⟩ : Shape).Idx := ⟨fun a b => funext fun d => d.elim0⟩

/-- One array's share of the precondition: if "every |entry| < +∞", folded by "and" from 1, is 1, every entry is finite. -/
theorem finite_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) : IsFin (x i) :=
  isFin_of_abs_lt (x i) (Host.reduce_andi_all _ _ hr hu ix0 e i)

/-- UNDER THE PRECONDITION every entry of the seven float arguments is finite. -/
theorem finite_args (m : (ℓ : Loc nD τ sig) → Buf (Elt Ideal) ℓ)
    (h : Cert.Pre_KernelIdeal (hPre_finite_inputs := Cert.Pre_finite_inputs.Gen.facts) m) (c : Dev nD) :
    (∀ i, IsFin ((m ((c.tc : Thread nD τ).loc main_arg0)) i)) ∧ (∀ i, IsFin ((m ((c.tc : Thread nD τ).loc main_arg1)) i)) ∧ (∀ i, IsFin ((m ((c.tc : Thread nD τ).loc main_arg2)) i))
      ∧ (∀ i, IsFin ((m ((c.tc : Thread nD τ).loc main_arg3)) i)) ∧ (∀ i, IsFin ((m ((c.tc : Thread nD τ).loc main_arg4)) i)) ∧ (∀ i, IsFin ((m ((c.tc : Thread nD τ).loc main_arg5)) i))
      ∧ (∀ i, IsFin ((m ((c.tc : Thread nD τ).loc main_arg6)) i)) := by
  have h0 := congrFun (h c) ix0
  dsimp only [Cert.Pre_finite_inputs.fn, Cert.Pre_finite_inputs.fn_part1] at h0
  obtain ⟨h28, e6⟩ := IntOp.andi_eq_one.1 h0
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨finite_of_all _ _ _ _ e0, finite_of_all _ _ _ _ e1, finite_of_all _ _ _ _ e2, finite_of_all _ _ _ _ e3,
    finite_of_all _ _ _ _ e4, finite_of_all _ _ _ _ e5, finite_of_all _ _ _ _ e6⟩

end Cert.KernelIdeal.Hand

end
-- ==== Proof.KI.ChainFinal.lean ====
import proofs.«175568_j46505905881160_2_alg».proof.Proof.KI.ChainOut
import proofs.«175568_j46505905881160_2_alg».proof.Proof.KI.ChainAttn
import proofs.«175568_j46505905881160_2_alg».proof.Proof.KI.ChainFin
import proofs.«175568_j46505905881160_2_alg».proof.Proof.KI.PreFin
import proofs.«175568_j46505905881160_2_alg».proof.Proof.Ref.Out

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (proj lo hi evenLane oddLane rot rotRe rotIm score ctx outp Act Wt Tab Fn3 Sq3 arr3)
open Cert.Spec (flat IsFin)

variable (m : (ℓ : Loc nD τ sig) → Buf (Elt Ideal) ℓ) (ρ : Dev nD → PrngReg)

/-! # The output, whole: the first result
    Under the precondition every float argument is finite, hence so are the rotated queries and keys and the value projection
    the attention region reads; for finite scores and values the running-maximum accumulation over the sixteen key tiles
    is the softmax-weighted mean the reference computes, and the last product and reshape carry it to the result buffer. -/

theorem out_eq (hpre : Cert.Pre_KernelIdeal (hPre_finite_inputs := Cert.Pre_finite_inputs.Gen.facts) m) (c : Dev nD) :
    W10 (F := Ideal) m ρ c (Proc.devRef .tc main_v35)
      = arr3 (outp (ctx (Cert.ReferenceIdeal.Hand.attnScore (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)))
          (proj (m ((c : Thread nD τ).loc main_arg0)) (m ((c : Thread nD τ).loc main_arg3)))) (m ((c : Thread nD τ).loc main_arg4))) := by
  obtain ⟨h0, h1, h2, h3, h4, h5, h6⟩ := finite_args m hpre c
  exact out_eq_of m ρ c (attn_of m ρ c (isFin_W6_v31_0 m ρ c h0 h1 h2 h3 h4 h5 h6) (isFin_W6_v31_1 m ρ c h0 h1 h2 h3 h4 h5 h6)
    (isFin_W6_v30 m ρ c h0 h1 h2 h3 h4 h5 h6))

end Cert.KernelIdeal.Hand

end
-- ==== Proof.lean ====
/- The proof of `Cert.Claim`: the three frames, `preserves` and `algebraic`.
   Both kernel programs are ten items — four stretches of host operations around six pipelined regions (three matrix
   products, a rotation of query and key rows by position, an attention with a running row maximum, a last matrix product).
   Their frames come from one run of the ten items in which every buffer's contents are named at each boundary between two
   items; the arguments are written by no item. The reference is one stretch of host operations, read back operation by
   operation. At the ideal values the two programs compute, index by index, the same three arrays. -/
import proofs.«175568_j46505905881160_2_alg».proof.Defs
import proofs.«175568_j46505905881160_2_alg».proof.Proof.Gen.Kernel
import proofs.«175568_j46505905881160_2_alg».proof.Proof.Gen.KernelIdeal
import proofs.«175568_j46505905881160_2_alg».proof.Proof.Gen.ReferenceIdeal
import proofs.«175568_j46505905881160_2_alg».proof.Proof.Gen.Pre_finite_inputs
import proofs.«175568_j46505905881160_2_alg».proof.Proof.Gen.ReferenceIdeal.Run
import proofs.«175568_j46505905881160_2_alg».proof.Proof.Gen.ReferenceIdeal.Read
import proofs.«175568_j46505905881160_2_alg».proof.Proof.KI.Run
import proofs.«175568_j46505905881160_2_alg».proof.Proof.K.Run
import proofs.«175568_j46505905881160_2_alg».proof.Proof.KI.ChainV
import proofs.«175568_j46505905881160_2_alg».proof.Proof.KI.ChainKrot
import proofs.«175568_j46505905881160_2_alg».proof.Proof.KI.ChainFinal
import proofs.«175568_j46505905881160_2_alg».proof.Proof.Ref.Whole
import Idealize.ShloMosaic.Adequacy
import Idealize.ShloMosaic.Init

noncomputable section

namespace Cert.Proof

open Idealize.ShloMosaic Idealize.SL.Sem

/-- Every argument array of the word-level kernel ends as launched: the run names each unscoped buffer's final contents,
    and the arguments' walk back through the ten items to the launch memory. -/
theorem frame_Kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W10_main_arg0 m ρ c),
     (h c _ (Cert.Kernel.Hand.mem_uc Cert.Kernel.main_arg1 (by decide))).trans (Cert.Kernel.Hand.W10_main_arg1 m ρ c),
     (h c _ (Cert.Kernel.Hand.mem_uc Cert.Kernel.main_arg2 (by decide))).trans (Cert.Kernel.Hand.W10_main_arg2 m ρ c),
     (h c _ (Cert.Kernel.Hand.mem_uc Cert.Kernel.main_arg3 (by decide))).trans (Cert.Kernel.Hand.W10_main_arg3 m ρ c),
     (h c _ (Cert.Kernel.Hand.mem_uc Cert.Kernel.main_arg4 (by decide))).trans (Cert.Kernel.Hand.W10_main_arg4 m ρ c),
     (h c _ (Cert.Kernel.Hand.mem_uc Cert.Kernel.main_arg5 (by decide))).trans (Cert.Kernel.Hand.W10_main_arg5 m ρ c),
     (h c _ (Cert.Kernel.Hand.mem_uc Cert.Kernel.main_arg6 (by decide))).trans (Cert.Kernel.Hand.W10_main_arg6 m ρ c),
     (h c _ (Cert.Kernel.Hand.mem_uc Cert.Kernel.main_arg7 (by decide))).trans (Cert.Kernel.Hand.W10_main_arg7 m ρ c)⟩)
    (Cert.Kernel.Hand.run m ρ)

/-- The same for the kernel read at the ideal values. -/
theorem frame_KernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W10_main_arg0 m ρ c),
     (h c _ (Cert.KernelIdeal.Hand.mem_uc Cert.KernelIdeal.main_arg1 (by decide))).trans (Cert.KernelIdeal.Hand.W10_main_arg1 m ρ c),
     (h c _ (Cert.KernelIdeal.Hand.mem_uc Cert.KernelIdeal.main_arg2 (by decide))).trans (Cert.KernelIdeal.Hand.W10_main_arg2 m ρ c),
     (h c _ (Cert.KernelIdeal.Hand.mem_uc Cert.KernelIdeal.main_arg3 (by decide))).trans (Cert.KernelIdeal.Hand.W10_main_arg3 m ρ c),
     (h c _ (Cert.KernelIdeal.Hand.mem_uc Cert.KernelIdeal.main_arg4 (by decide))).trans (Cert.KernelIdeal.Hand.W10_main_arg4 m ρ c),
     (h c _ (Cert.KernelIdeal.Hand.mem_uc Cert.KernelIdeal.main_arg5 (by decide))).trans (Cert.KernelIdeal.Hand.W10_main_arg5 m ρ c),
     (h c _ (Cert.KernelIdeal.Hand.mem_uc Cert.KernelIdeal.main_arg6 (by decide))).trans (Cert.KernelIdeal.Hand.W10_main_arg6 m ρ c),
     (h c _ (Cert.KernelIdeal.Hand.mem_uc Cert.KernelIdeal.main_arg7 (by decide))).trans (Cert.KernelIdeal.Hand.W10_main_arg7 m ρ c)⟩)
    (Cert.KernelIdeal.Hand.run m ρ)

/-- The reference is host operations only: its generated run, the results dropped. -/
theorem frame_ReferenceIdeal : Cert.frame_ReferenceIdeal := fun m ρ _ =>
  (θ_run Cert.ReferenceIdeal.defs _ _).mono (fun _ h c => (h c).2.2.2) (Cert.ReferenceIdeal.Value.run (F := Ideal) m ρ)

/-- At the ideal values, from memories agreeing on the arguments, the kernel's three result buffers and the reference's hold the
    same arrays: the output ∑ₕ ctx (b, s, h) · w_o (o, h) with ctx the softmax-weighted mean of the value rows (the kernel's
    running-maximum accumulation over key tiles equals it for finite scores), the rotated keys, and the value projection. -/
theorem algebraic : Cert.algebraic_KernelIdeal_ReferenceIdeal := by
  intro m ρ m' ρ' hpre hagree
  refine ⟨fun c => Cert.KernelIdeal.Hand.W10 (F := Ideal) m ρ c (Proc.devRef .tc Cert.KernelIdeal.main_v35),
    fun c => Cert.KernelIdeal.Hand.W10 (F := Ideal) m ρ c (Proc.devRef .tc Cert.KernelIdeal.main_v41),
    fun c => Cert.KernelIdeal.Hand.W10 (F := Ideal) m ρ c (Proc.devRef .tc Cert.KernelIdeal.main_v29), ?_, ?_⟩
  · exact (θ_run Cert.KernelIdeal.defs _ _).mono (fun r h c =>
      ⟨h c _ (Cert.KernelIdeal.Hand.mem_uc Cert.KernelIdeal.main_v35 (by decide)),
       h c _ (Cert.KernelIdeal.Hand.mem_uc Cert.KernelIdeal.main_v41 (by decide)),
       h c _ (Cert.KernelIdeal.Hand.mem_uc Cert.KernelIdeal.main_v29 (by decide)),
       (h c _ (Cert.KernelIdeal.Hand.mem_uc Cert.KernelIdeal.main_arg0 (by decide))).trans (Cert.KernelIdeal.Hand.W10_main_arg0 m ρ c),
       (h c _ (Cert.KernelIdeal.Hand.mem_uc Cert.KernelIdeal.main_arg1 (by decide))).trans (Cert.KernelIdeal.Hand.W10_main_arg1 m ρ c),
       (h c _ (Cert.KernelIdeal.Hand.mem_uc Cert.KernelIdeal.main_arg2 (by decide))).trans (Cert.KernelIdeal.Hand.W10_main_arg2 m ρ c),
       (h c _ (Cert.KernelIdeal.Hand.mem_uc Cert.KernelIdeal.main_arg3 (by decide))).trans (Cert.KernelIdeal.Hand.W10_main_arg3 m ρ c),
       (h c _ (Cert.KernelIdeal.Hand.mem_uc Cert.KernelIdeal.main_arg4 (by decide))).trans (Cert.KernelIdeal.Hand.W10_main_arg4 m ρ c),
       (h c _ (Cert.KernelIdeal.Hand.mem_uc Cert.KernelIdeal.main_arg5 (by decide))).trans (Cert.KernelIdeal.Hand.W10_main_arg5 m ρ c),
       (h c _ (Cert.KernelIdeal.Hand.mem_uc Cert.KernelIdeal.main_arg6 (by decide))).trans (Cert.KernelIdeal.Hand.W10_main_arg6 m ρ c),
       (h c _ (Cert.KernelIdeal.Hand.mem_uc Cert.KernelIdeal.main_arg7 (by decide))).trans (Cert.KernelIdeal.Hand.W10_main_arg7 m ρ c)⟩)
      (Cert.KernelIdeal.Hand.run m ρ)
  · refine (θ_run Cert.ReferenceIdeal.defs _ _).mono (fun r h c => ⟨?_, ?_, ?_, (h c).2.2.2⟩) (Cert.ReferenceIdeal.Value.run (F := Ideal) m' ρ')
    · refine (h c).1.trans ?_
      rw [Cert.ReferenceIdeal.Read.val_main_v72_eq m' c, (hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Hand.val_main_v72_whole]
      exact (Cert.KernelIdeal.Hand.out_eq m ρ hpre c).symm
    · refine (h c).2.1.trans ?_
      rw [Cert.ReferenceIdeal.Read.val_main_v56_eq, (hagree c).1, (hagree c).2.2.1, (hagree c).2.2.2.2.2.1, (hagree c).2.2.2.2.2.2.1, (hagree c).2.2.2.2.2.2.2, Cert.ReferenceIdeal.Hand.val_main_v56_whole]
      exact (Cert.KernelIdeal.Hand.krot_eq m ρ c).symm
    · refine (h c).2.2.1.trans ?_
      rw [Cert.ReferenceIdeal.Read.val_main_v2_eq, (hagree c).1, (hagree c).2.2.2.1, Cert.ReferenceIdeal.Hand.val_main_v2_whole]
      exact (Cert.KernelIdeal.Hand.v_eq m ρ c).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
